-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x8192x1024 .f32) (main_arg1 : FVec F S3072x1024 .f32) (main_arg2 : FVec F S3072 .f32) (main_arg3 : FVec F S1024x1024 .f32) (main_arg4 : FVec F S1024 .f32) (main_arg5 : FVec F S1024 .f32) (main_arg6 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x8192x1024 : Shape := ⟨3, ![4, 8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1024x2048 : Shape := ⟨2, ![1024, 2048]⟩
abbrev S4x16x64x64 : Shape := ⟨4, ![4, 16, 64, 64]⟩
abbrev S4x16x64 : Shape := ⟨3, ![4, 16, 64]⟩
abbrev S1x512x1024 : Shape := ⟨3, ![1, 512, 1024]⟩
abbrev S1x16x64x64 : Shape := ⟨4, ![1, 16, 64, 64]⟩
abbrev S1x16x64 : Shape := ⟨3, ![1, 16, 64]⟩
abbrev S16x64x64 : Shape := ⟨3, ![16, 64, 64]⟩
abbrev S16x64 : Shape := ⟨2, ![16, 64]⟩
abbrev S512x1024 : Shape := ⟨2, ![512, 1024]⟩
abbrev S512x2048 : Shape := ⟨2, ![512, 2048]⟩
abbrev S1x1024 : Shape := ⟨2, ![1, 1024]⟩
abbrev S512x64 : Shape := ⟨2, ![512, 64]⟩
abbrev S64x64 : Shape := ⟨2, ![64, 64]⟩
abbrev S1x1x64x64 : Shape := ⟨4, ![1, 1, 64, 64]⟩
abbrev S1x1x64 : Shape := ⟨3, ![1, 1, 64]⟩
abbrev S64 : Shape := ⟨1, ![64]⟩
abbrev S4x16x8192x64 : Shape := ⟨4, ![4, 16, 8192, 64]⟩
abbrev S1x16x512x64 : Shape := ⟨4, ![1, 16, 512, 64]⟩
abbrev S1x64 : Shape := ⟨2, ![1, 64]⟩
abbrev S512 : Shape := ⟨1, ![512]⟩
abbrev S512x1 : Shape := ⟨2, ![512, 1]⟩
abbrev S1x1x512x64 : Shape := ⟨4, ![1, 1, 512, 64]⟩

abbrev nBuf : Space → Nat
  | .hbm => 25
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x8192x1024, .bf16⟩
  | .hbm, ⟨8, _⟩ => ⟨S1024x3072, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S4x16x64x64, .f32⟩
  | .hbm, ⟨21, _⟩ => ⟨S4x16x64, .f32⟩
  | .hbm, ⟨22, _⟩ => ⟨S4x16x8192x64, .bf16⟩
  | .hbm, ⟨23, _⟩ => ⟨S4x8192x1024, .bf16⟩
  | .hbm, ⟨24, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x2048, .bf16⟩
  | .local _ .vmem, ⟨3, _⟩ => ⟨S1024, .f32⟩
  | .local _ .vmem, ⟨4, _⟩ => ⟨S1024, .f32⟩
  | .local _ .vmem, ⟨5, _⟩ => ⟨S1x16x64x64, .f32⟩
  | .local _ .vmem, ⟨6, _⟩ => ⟨S1x16x64x64, .f32⟩
  | .local _ .vmem, ⟨7, _⟩ => ⟨S1x16x64, .f32⟩
  | .local _ .vmem, ⟨8, _⟩ => ⟨S1x16x64, .f32⟩
  | .local _ .vmem, ⟨9, _⟩ => ⟨S1x512x1024, .bf16⟩
  | .local _ .vmem, ⟨10, _⟩ => ⟨S1x512x1024, .bf16⟩
  | .local _ .vmem, ⟨11, _⟩ => ⟨S1024x1024, .bf16⟩
  | .local _ .vmem, ⟨12, _⟩ => ⟨S1024, .f32⟩
  | .local _ .vmem, ⟨13, _⟩ => ⟨S1x16x64x64, .f32⟩
  | .local _ .vmem, ⟨14, _⟩ => ⟨S1x16x64x64, .f32⟩
  | .local _ .vmem, ⟨15, _⟩ => ⟨S1x16x64, .f32⟩
  | .local _ .vmem, ⟨16, _⟩ => ⟨S1x16x64, .f32⟩
  | .local _ .vmem, ⟨17, _⟩ => ⟨S1x16x512x64, .bf16⟩
  | .local _ .vmem, ⟨18, _⟩ => ⟨S1x16x512x64, .bf16⟩
  | .local _ .vmem, ⟨19, _⟩ => ⟨S1x512x1024, .bf16⟩
  | .local _ .vmem, ⟨20, _⟩ => ⟨S1x512x1024, .bf16⟩
  | .local _ .vmem, ⟨21, _⟩ => ⟨S1024x1024, .bf16⟩
  | .local _ .vmem, ⟨22, _⟩ => ⟨S1024, .f32⟩
  | .local _ .vmem, ⟨23, _⟩ => ⟨S1024, .f32⟩
  | .local _ .vmem, ⟨24, _⟩ => ⟨S1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x512x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  bitsLt_bf16_f32 : FTy.bits .bf16 < FTy.bits .f32
  transposes_S3072x1024_S1024x3072_1_0 : S3072x1024.Transposes [1, 0] S1024x3072
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  concatenates_S1024x1024_S1024x1024_S1024x2048_d1 : Shape.Concatenates [S1024x1024, S1024x1024] S1024x2048 1
  transposes_S1024x1024_S1024x1024_1_0 : S1024x1024.Transposes [1, 0] S1024x1024
  slices_S3072_S1024_0 : S3072.Slices ![0] S1024
  slices_S3072_S1024_1024 : S3072.Slices ![1024] S1024
  slices_S3072_S1024_2048 : S3072.Slices ![2048] S1024
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  shapeCasts_S16x64_S1x16x64 : S16x64.ShapeCasts S1x16x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  slices_S512x2048_o0_1024_S512x1024 : S512x2048.Slices ![0, 1024] S512x1024
  slices_S512x1024_o0_0_S512x64 : S512x1024.Slices ![0, 0] S512x64
  inb_S1x16x64x64_S1x1x64x64_0_0_0_0 : ∀ a, (![0, 0, 0, 0] : Fin 4 → Nat) a + S1x1x64x64.size a ≤ S1x16x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1x16x64_S1x1x64_0_0_0 : ∀ a, (![0, 0, 0] : Fin 3 → Nat) a + S1x1x64.size a ≤ S1x16x64.size a
  h_S1x1x64 : 0 < S1x1x64.numel
  shapeCasts_S1x1x64_S64 : S1x1x64.ShapeCasts S64
  reduces_S512x64_S64 : S512x64.Reduces [0] S64
  shapeCasts_S64_S1x1x64 : S64.ShapeCasts S1x1x64
  slices_S512x1024_o0_64_S512x64 : S512x1024.Slices ![0, 64] S512x64
  inb_S1x16x64x64_S1x1x64x64_0_1_0_0 : ∀ a, (![0, 1, 0, 0] : Fin 4 → Nat) a + S1x1x64x64.size a ≤ S1x16x64x64.size a
  inb_S1x16x64_S1x1x64_0_1_0 : ∀ a, (![0, 1, 0] : Fin 3 → Nat) a + S1x1x64.size a ≤ S1x16x64.size a
  slices_S512x1024_o0_128_S512x64 : S512x1024.Slices ![0, 128] S512x64
  inb_S1x16x64x64_S1x1x64x64_0_2_0_0 : ∀ a, (![0, 2, 0, 0] : Fin 4 → Nat) a + S1x1x64x64.size a ≤ S1x16x64x64.size a
  inb_S1x16x64_S1x1x64_0_2_0 : ∀ a, (![0, 2, 0] : Fin 3 → Nat) a + S1x1x64.size a ≤ S1x16x64.size a
  slices_S512x1024_o0_192_S512x64 : S512x1024.Slices ![0, 192] S512x64
  inb_S1x16x64x64_S1x1x64x64_0_3_0_0 : ∀ a, (![0, 3, 0, 0] : Fin 4 → Nat) a + S1x1x64x64.size a ≤ S1x16x64x64.size a
  inb_S1x16x64_S1x1x64_0_3_0 : ∀ a, (![0, 3, 0] : Fin 3 → Nat) a + S1x1x64.size a ≤ S1x16x64.size a
  slices_S512x1024_o0_256_S512x64 : S512x1024.Slices ![0, 256] S512x64
  inb_S1x16x64x64_S1x1x64x64_0_4_0_0 : ∀ a, (![0, 4, 0, 0] : Fin 4 → Nat) a + S1x1x64x64.size a ≤ S1x16x64x64.size a
  inb_S1x16x64_S1x1x64_0_4_0 : ∀ a, (![0, 4, 0] : Fin 3 → Nat) a + S1x1x64.size a ≤ S1x16x64.size a
  slices_S512x1024_o0_320_S512x64 : S512x1024.Slices ![0, 320] S512x64
  inb_S1x16x64x64_S1x1x64x64_0_5_0_0 : ∀ a, (![0, 5, 0, 0] : Fin 4 → Nat) a + S1x1x64x64.size a ≤ S1x16x64x64.size a
  inb_S1x16x64_S1x1x64_0_5_0 : ∀ a, (![0, 5, 0] : Fin 3 → Nat) a + S1x1x64.size a ≤ S1x16x64.size a
  slices_S512x1024_o0_384_S512x64 : S512x1024.Slices ![0, 384] S512x64
  inb_S1x16x64x64_S1x1x64x64_0_6_0_0 : ∀ a, (![0, 6, 0, 0] : Fin 4 → Nat) a + S1x1x64x64.size a ≤ S1x16x64x64.size a
  inb_S1x16x64_S1x1x64_0_6_0 : ∀ a, (![0, 6, 0] : Fin 3 → Nat) a + S1x1x64.size a ≤ S1x16x64.size a
  slices_S512x1024_o0_448_S512x64 : S512x1024.Slices ![0, 448] S512x64
  inb_S1x16x64x64_S1x1x64x64_0_7_0_0 : ∀ a, (![0, 7, 0, 0] : Fin 4 → Nat) a + S1x1x64x64.size a ≤ S1x16x64x64.size a
  inb_S1x16x64_S1x1x64_0_7_0 : ∀ a, (![0, 7, 0] : Fin 3 → Nat) a + S1x1x64.size a ≤ S1x16x64.size a
  slices_S512x1024_o0_512_S512x64 : S512x1024.Slices ![0, 512] S512x64
  inb_S1x16x64x64_S1x1x64x64_0_8_0_0 : ∀ a, (![0, 8, 0, 0] : Fin 4 → Nat) a + S1x1x64x64.size a ≤ S1x16x64x64.size a
  inb_S1x16x64_S1x1x64_0_8_0 : ∀ a, (![0, 8, 0] : Fin 3 → Nat) a + S1x1x64.size a ≤ S1x16x64.size a
  slices_S512x1024_o0_576_S512x64 : S512x1024.Slices ![0, 576] S512x64
  inb_S1x16x64x64_S1x1x64x64_0_9_0_0 : ∀ a, (![0, 9, 0, 0] : Fin 4 → Nat) a + S1x1x64x64.size a ≤ S1x16x64x64.size a
  inb_S1x16x64_S1x1x64_0_9_0 : ∀ a, (![0, 9, 0] : Fin 3 → Nat) a + S1x1x64.size a ≤ S1x16x64.size a
  slices_S512x1024_o0_640_S512x64 : S512x1024.Slices ![0, 640] S512x64
  inb_S1x16x64x64_S1x1x64x64_0_10_0_0 : ∀ a, (![0, 10, 0, 0] : Fin 4 → Nat) a + S1x1x64x64.size a ≤ S1x16x64x64.size a
  inb_S1x16x64_S1x1x64_0_10_0 : ∀ a, (![0, 10, 0] : Fin 3 → Nat) a + S1x1x64.size a ≤ S1x16x64.size a
  slices_S512x1024_o0_704_S512x64 : S512x1024.Slices ![0, 704] S512x64
  inb_S1x16x64x64_S1x1x64x64_0_11_0_0 : ∀ a, (![0, 11, 0, 0] : Fin 4 → Nat) a + S1x1x64x64.size a ≤ S1x16x64x64.size a
  inb_S1x16x64_S1x1x64_0_11_0 : ∀ a, (![0, 11, 0] : Fin 3 → Nat) a + S1x1x64.size a ≤ S1x16x64.size a
  slices_S512x1024_o0_768_S512x64 : S512x1024.Slices ![0, 768] S512x64
  inb_S1x16x64x64_S1x1x64x64_0_12_0_0 : ∀ a, (![0, 12, 0, 0] : Fin 4 → Nat) a + S1x1x64x64.size a ≤ S1x16x64x64.size a
  inb_S1x16x64_S1x1x64_0_12_0 : ∀ a, (![0, 12, 0] : Fin 3 → Nat) a + S1x1x64.size a ≤ S1x16x64.size a
  slices_S512x1024_o0_832_S512x64 : S512x1024.Slices ![0, 832] S512x64
  inb_S1x16x64x64_S1x1x64x64_0_13_0_0 : ∀ a, (![0, 13, 0, 0] : Fin 4 → Nat) a + S1x1x64x64.size a ≤ S1x16x64x64.size a
  inb_S1x16x64_S1x1x64_0_13_0 : ∀ a, (![0, 13, 0] : Fin 3 → Nat) a + S1x1x64.size a ≤ S1x16x64.size a
  slices_S512x1024_o0_896_S512x64 : S512x1024.Slices ![0, 896] S512x64
  inb_S1x16x64x64_S1x1x64x64_0_14_0_0 : ∀ a, (![0, 14, 0, 0] : Fin 4 → Nat) a + S1x1x64x64.size a ≤ S1x16x64x64.size a
  inb_S1x16x64_S1x1x64_0_14_0 : ∀ a, (![0, 14, 0] : Fin 3 → Nat) a + S1x1x64.size a ≤ S1x16x64.size a
  slices_S512x1024_o0_960_S512x64 : S512x1024.Slices ![0, 960] S512x64
  inb_S1x16x64x64_S1x1x64x64_0_15_0_0 : ∀ a, (![0, 15, 0, 0] : Fin 4 → Nat) a + S1x1x64x64.size a ≤ S1x16x64x64.size a
  inb_S1x16x64_S1x1x64_0_15_0 : ∀ a, (![0, 15, 0] : Fin 3 → Nat) a + S1x1x64.size a ≤ S1x16x64.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S64_S1x64 : S64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  shapeCasts_S4x16x8192x64_S4x8192x1024 : S4x16x8192x64.ShapeCasts S4x8192x1024
  reduces_S512x1024_S512 : S512x1024.Reduces [1] S512
  broadcasts_S512x1_S512x1024 : S512x1.Broadcasts S512x1024
  shapeCasts_S512x1024_S1x512x1024 : S512x1024.ShapeCasts S1x512x1024
  dot_S512x1024_S1024x2048_S512x2048_1_0_0_1_n_n_wf : DotDims.WF S512x1024 S1024x2048 S512x2048 [1] [0] [0] [1] [] []
  dot_S512x64_S512x64_S64x64_0_0_1_1_n_n_wf : DotDims.WF S512x64 S512x64 S64x64 [0] [0] [1] [1] [] []
  dot_S512x1024_S1024x1024_S512x1024_1_0_0_1_n_n_wf : DotDims.WF S512x1024 S1024x1024 S512x1024 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x8192x1024.size a
  hwx0_0 : ∀ i : grid0.Coords, EltTy.bits .bf16 = 32 ∨ (Rect.block (s := S4x8192x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x64x64.size a ≤ S4x16x64x64.size a
  hwx0_4 : ∀ i : grid0.Coords, EltTy.bits .f32 = 32 ∨ (Rect.block (s := S4x16x64x64) S1x16x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64.size a ≤ S4x16x64.size a
  hwx0_5 : ∀ i : grid0.Coords, EltTy.bits .f32 = 32 ∨ (Rect.block (s := S4x16x64) S1x16x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x8192x1024.size a
  hwx1_0 : ∀ i : grid1.Coords, EltTy.bits .bf16 = 32 ∨ (Rect.block (s := S4x8192x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x64x64.size a ≤ S4x16x64x64.size a
  hwx1_3 : ∀ i : grid1.Coords, EltTy.bits .f32 = 32 ∨ (Rect.block (s := S4x16x64x64) S1x16x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x64.size a ≤ S4x16x64.size a
  hwx1_4 : ∀ i : grid1.Coords, EltTy.bits .f32 = 32 ∨ (Rect.block (s := S4x16x64) S1x16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x512x64.size a ≤ S4x16x8192x64.size a
  hwx1_5 : ∀ i : grid1.Coords, EltTy.bits .bf16 = 32 ∨ (Rect.block (s := S4x16x8192x64) S1x16x512x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x8192x1024.size a
  hwx2_0 : ∀ i : grid2.Coords, EltTy.bits .bf16 = 32 ∨ (Rect.block (s := S4x8192x1024) S1x512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1024.size a ≤ S4x8192x1024.size a
  hwx2_5 : ∀ i : grid2.Coords, EltTy.bits .f32 = 32 ∨ (Rect.block (s := S4x8192x1024) S1x512x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S4x8192x1024.size a
  hwx2_6 : ∀ i : grid2.Coords, EltTy.bits .f32 = 32 ∨ (Rect.block (s := S4x8192x1024) S1x512x1024.size (cc2_transform_6 i) (hinb2_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x64_S512x64_S64x64_0_0_1_1_n_n : DotDims S512x64 S512x64 S64x64 where
  lhsContracting := [0]
  rhsContracting := [0]
  lhsNonContracting := [1]
  rhsNonContracting := [1]
  lhsBatch := []
  rhsBatch := []
  wf := dot_S512x64_S512x64_S64x64_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1x16x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x16x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S1x16x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S1x16x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x16x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S1x512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x8192x1024 : Shape := ⟨3, ![4, 8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x8192x3072 : Shape := ⟨3, ![4, 8192, 3072]⟩
abbrev S1x1x3072 : Shape := ⟨3, ![1, 1, 3072]⟩
abbrev S4x8192x3x16x64 : Shape := ⟨5, ![4, 8192, 3, 16, 64]⟩
abbrev S3x4x16x8192x64 : Shape := ⟨5, ![3, 4, 16, 8192, 64]⟩
abbrev S1x4x16x8192x64 : Shape := ⟨5, ![1, 4, 16, 8192, 64]⟩
abbrev S4x16x8192x64 : Shape := ⟨4, ![4, 16, 8192, 64]⟩
abbrev S_ : Shape := ⟨0, ![]⟩
abbrev S4x16x64x64 : Shape := ⟨4, ![4, 16, 64, 64]⟩
abbrev S4x16x64 : Shape := ⟨3, ![4, 16, 64]⟩
abbrev S4x16x1x64 : Shape := ⟨4, ![4, 16, 1, 64]⟩
abbrev S4x16x8192 : Shape := ⟨3, ![4, 16, 8192]⟩
abbrev S4x16x8192x1 : Shape := ⟨4, ![4, 16, 8192, 1]⟩
abbrev S1x1x1024 : Shape := ⟨3, ![1, 1, 1024]⟩
abbrev S4x8192 : Shape := ⟨2, ![4, 8192]⟩
abbrev S4x8192x1 : Shape := ⟨3, ![4, 8192, 1]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x8192x3072, .f32⟩
  | .hbm, ⟨8, _⟩ => ⟨S1x1x3072, .f32⟩
  | .hbm, ⟨9, _⟩ => ⟨S4x8192x3072, .f32⟩
  | .hbm, ⟨10, _⟩ => ⟨S4x8192x3072, .f32⟩
  | .hbm, ⟨11, _⟩ => ⟨S4x8192x3x16x64, .f32⟩
  | .hbm, ⟨12, _⟩ => ⟨S3x4x16x8192x64, .f32⟩
  | .hbm, ⟨13, _⟩ => ⟨S1x4x16x8192x64, .f32⟩
  | .hbm, ⟨14, _⟩ => ⟨S4x16x8192x64, .f32⟩
  | .hbm, ⟨15, _⟩ => ⟨S1x4x16x8192x64, .f32⟩
  | .hbm, ⟨16, _⟩ => ⟨S4x16x8192x64, .f32⟩
  | .hbm, ⟨17, _⟩ => ⟨S1x4x16x8192x64, .f32⟩
  | .hbm, ⟨18, _⟩ => ⟨S4x16x8192x64, .f32⟩
  | .hbm, ⟨19, _⟩ => ⟨S_, .f32⟩
  | .hbm, ⟨20, _⟩ => ⟨S4x16x8192x64, .f32⟩
  | .hbm, ⟨21, _⟩ => ⟨S4x16x8192x64, .i1⟩
  | .hbm, ⟨22, _⟩ => ⟨S_, .f32⟩
  | .hbm, ⟨23, _⟩ => ⟨S4x16x8192x64, .f32⟩
  | .hbm, ⟨24, _⟩ => ⟨S4x16x8192x64, .i1⟩
  | .hbm, ⟨25, _⟩ => ⟨S_, .f32⟩
  | .hbm, ⟨26, _⟩ => ⟨S_, .f32⟩
  | .hbm, ⟨27, _⟩ => ⟨S4x16x8192x64, .f32⟩
  | .hbm, ⟨28, _⟩ => ⟨S4x16x8192x64, .f32⟩
  | .hbm, ⟨29, _⟩ => ⟨S4x16x8192x64, .f32⟩
  | .hbm, ⟨30, _⟩ => ⟨S_, .f32⟩
  | .hbm, ⟨31, _⟩ => ⟨S4x16x8192x64, .f32⟩
  | .hbm, ⟨32, _⟩ => ⟨S4x16x8192x64, .f32⟩
  | .hbm, ⟨33, _⟩ => ⟨S4x16x8192x64, .f32⟩
  | .hbm, ⟨34, _⟩ => ⟨S_, .f32⟩
  | .hbm, ⟨35, _⟩ => ⟨S4x16x8192x64, .f32⟩
  | .hbm, ⟨36, _⟩ => ⟨S4x16x8192x64, .f32⟩
  | .hbm, ⟨37, _⟩ => ⟨S_, .f32⟩
  | .hbm, ⟨38, _⟩ => ⟨S4x16x8192x64, .f32⟩
  | .hbm, ⟨39, _⟩ => ⟨S4x16x8192x64, .i1⟩
  | .hbm, ⟨40, _⟩ => ⟨S_, .f32⟩
  | .hbm, ⟨41, _⟩ => ⟨S4x16x8192x64, .f32⟩
  | .hbm, ⟨42, _⟩ => ⟨S4x16x8192x64, .i1⟩
  | .hbm, ⟨43, _⟩ => ⟨S_, .f32⟩
  | .hbm, ⟨44, _⟩ => ⟨S_, .f32⟩
  | .hbm, ⟨45, _⟩ => ⟨S4x16x8192x64, .f32⟩
  | .hbm, ⟨46, _⟩ => ⟨S4x16x8192x64, .f32⟩
  | .hbm, ⟨47, _⟩ => ⟨S4x16x8192x64, .f32⟩
  | .hbm, ⟨48, _⟩ => ⟨S_, .f32⟩
  | .hbm, ⟨49, _⟩ => ⟨S4x16x8192x64, .f32⟩
  | .hbm, ⟨50, _⟩ => ⟨S4x16x8192x64, .f32⟩
  | .hbm, ⟨51, _⟩ => ⟨S4x16x8192x64, .f32⟩
  | .hbm, ⟨52, _⟩ => ⟨S_, .f32⟩
  | .hbm, ⟨53, _⟩ => ⟨S4x16x8192x64, .f32⟩
  | .hbm, ⟨54, _⟩ => ⟨S4x16x8192x64, .f32⟩
  | .hbm, ⟨55, _⟩ => ⟨S4x16x64x64, .f32⟩
  | .hbm, ⟨56, _⟩ => ⟨S_, .f32⟩
  | .hbm, ⟨57, _⟩ => ⟨S4x16x64, .f32⟩
  | .hbm, ⟨58, _⟩ => ⟨S4x16x8192x64, .f32⟩
  | .hbm, ⟨59, _⟩ => ⟨S4x16x1x64, .f32⟩
  | .hbm, ⟨60, _⟩ => ⟨S4x16x8192x64, .f32⟩
  | .hbm, ⟨61, _⟩ => ⟨S4x16x8192x64, .f32⟩
  | .hbm, ⟨62, _⟩ => ⟨S_, .f32⟩
  | .hbm, ⟨63, _⟩ => ⟨S4x16x8192, .f32⟩
  | .hbm, ⟨64, _⟩ => ⟨S4x16x8192x1, .f32⟩
  | .hbm, ⟨65, _⟩ => ⟨S_, .f32⟩
  | .hbm, ⟨66, _⟩ => ⟨S_, .f32⟩
  | .hbm, ⟨67, _⟩ => ⟨S4x16x8192x1, .f32⟩
  | .hbm, ⟨68, _⟩ => ⟨S4x16x8192x1, .f32⟩
  | .hbm, ⟨69, _⟩ => ⟨S4x16x8192x64, .f32⟩
  | .hbm, ⟨70, _⟩ => ⟨S4x16x8192x64, .f32⟩
  | .hbm, ⟨71, _⟩ => ⟨S4x8192x1024, .f32⟩
  | .hbm, ⟨72, _⟩ => ⟨S4x8192x1024, .f32⟩
  | .hbm, ⟨73, _⟩ => ⟨S1x1x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S_, .i32⟩
  | .hbm, ⟨83, _⟩ => ⟨S_, .f32⟩
  | .hbm, ⟨84, _⟩ => ⟨S4x8192, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S4x8192, .f32⟩
  | .hbm, ⟨97, _⟩ => ⟨S4x8192x1, .f32⟩
  | .hbm, ⟨98, _⟩ => ⟨S4x8192x1, .f32⟩
  | .hbm, ⟨99, _⟩ => ⟨S4x8192x1, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S4x8192x1, .f32⟩
  | .hbm, ⟨105, _⟩ => ⟨S4x8192x1, .f32⟩
  | .hbm, ⟨106, _⟩ => ⟨S4x8192x1024, .f32⟩
  | .hbm, ⟨107, _⟩ => ⟨S4x8192x1024, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S4x8192x1, .f32⟩
  | .hbm, ⟨112, _⟩ => ⟨S4x8192x1024, .f32⟩
  | .hbm, ⟨113, _⟩ => ⟨S4x8192x1024, .f32⟩
  | .hbm, ⟨114, _⟩ => ⟨S1x1x1024, .f32⟩
  | .hbm, ⟨115, _⟩ => ⟨S4x8192x1024, .f32⟩
  | .hbm, ⟨116, _⟩ => ⟨S4x8192x1024, .f32⟩
  | .hbm, ⟨117, _⟩ => ⟨S1x1x1024, .f32⟩
  | .hbm, ⟨118, _⟩ => ⟨S4x8192x1024, .f32⟩
  | .hbm, ⟨119, _⟩ => ⟨S4x8192x1024, .f32⟩
  | .hbm, ⟨120, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_cst_1 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v4 : Ref sig .tc := ⟨.hbm, 28, rfl⟩
abbrev main_call0_v5 : Ref sig .tc := ⟨.hbm, 29, rfl⟩
abbrev main_call0_cst_2 : Ref sig .tc := ⟨.hbm, 30, rfl⟩
abbrev main_call0_v6 : Ref sig .tc := ⟨.hbm, 31, rfl⟩
abbrev main_call0_v7 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v15 : Ref sig .tc := ⟨.hbm, 51, rfl⟩
abbrev main_cst_0 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_cst_5 : Ref sig .tc := ⟨.hbm, 79, rfl⟩
abbrev main_v36 : Ref sig .tc := ⟨.hbm, 80, rfl⟩
abbrev main_v37 : Ref sig .tc := ⟨.hbm, 81, rfl⟩
abbrev main_c : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_cst_1 : Ref sig .tc := ⟨.hbm, 93, rfl⟩
abbrev main_call3_v8 : Ref sig .tc := ⟨.hbm, 94, rfl⟩
abbrev main_call3_cst_2 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_v12 : Ref sig .tc := ⟨.hbm, 99, rfl⟩
abbrev main_call3_cst_3 : Ref sig .tc := ⟨.hbm, 100, rfl⟩
abbrev main_call3_v13 : Ref sig .tc := ⟨.hbm, 101, rfl⟩
abbrev main_call3_cst_4 : Ref sig .tc := ⟨.hbm, 102, rfl⟩
abbrev main_call3_call0_v0 : Ref sig .tc := ⟨.hbm, 103, rfl⟩
abbrev main_call3_call0_v1 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_6 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x8192x3072_0_1_2 : S1x1x3072.BroadcastsInDim S4x8192x3072 (![0, 1, 2] : Fin 3 → Fin S4x8192x3072.rank)
  shapeCasts_S4x8192x3072_S4x8192x3x16x64 : S4x8192x3072.ShapeCasts S4x8192x3x16x64
  transposes_S4x8192x3x16x64_S3x4x16x8192x64_2_0_3_1_4 : S4x8192x3x16x64.Transposes [2, 0, 3, 1, 4] S3x4x16x8192x64
  slices_S3x4x16x8192x64_S1x4x16x8192x64_0_0_0_0_0 : S3x4x16x8192x64.Slices ![0, 0, 0, 0, 0] S1x4x16x8192x64
  shapeCasts_S1x4x16x8192x64_S4x16x8192x64 : S1x4x16x8192x64.ShapeCasts S4x16x8192x64
  slices_S3x4x16x8192x64_S1x4x16x8192x64_1_0_0_0_0 : S3x4x16x8192x64.Slices ![1, 0, 0, 0, 0] S1x4x16x8192x64
  slices_S3x4x16x8192x64_S1x4x16x8192x64_2_0_0_0_0 : S3x4x16x8192x64.Slices ![2, 0, 0, 0, 0] S1x4x16x8192x64
  bcast_S_S4x16x8192x64 : S_.BroadcastsInDim S4x16x8192x64 (![] : Fin 0 → Fin S4x16x8192x64.rank)
  reducesTo_S4x16x8192x64_S4x16x64_d2 : S4x16x8192x64.ReducesTo [2] S4x16x64
  h_S_ : 0 < S_.numel
  bcast_S4x16x64_S4x16x1x64_0_1_3 : S4x16x64.BroadcastsInDim S4x16x1x64 (![0, 1, 3] : Fin 3 → Fin S4x16x1x64.rank)
  bcast_S4x16x1x64_S4x16x8192x64_0_1_2_3 : S4x16x1x64.BroadcastsInDim S4x16x8192x64 (![0, 1, 2, 3] : Fin 4 → Fin S4x16x8192x64.rank)
  reducesTo_S4x16x8192x64_S4x16x8192_d3 : S4x16x8192x64.ReducesTo [3] S4x16x8192
  bcast_S4x16x8192_S4x16x8192x1_0_1_2 : S4x16x8192.BroadcastsInDim S4x16x8192x1 (![0, 1, 2] : Fin 3 → Fin S4x16x8192x1.rank)
  bcast_S_S4x16x8192x1 : S_.BroadcastsInDim S4x16x8192x1 (![] : Fin 0 → Fin S4x16x8192x1.rank)
  bcast_S4x16x8192x1_S4x16x8192x64_0_1_2_3 : S4x16x8192x1.BroadcastsInDim S4x16x8192x64 (![0, 1, 2, 3] : Fin 4 → Fin S4x16x8192x64.rank)
  shapeCasts_S4x16x8192x64_S4x8192x1024 : S4x16x8192x64.ShapeCasts S4x8192x1024
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  dot_S4x8192x1024_S3072x1024_S4x8192x3072_2_1_01_0_n_n_wf : DotDims.WF S4x8192x1024 S3072x1024 S4x8192x3072 [2] [1] [0, 1] [0] [] []
  dot_S4x16x8192x64_S4x16x8192x64_S4x16x64x64_2_2_3_3_01_01_wf : DotDims.WF S4x16x8192x64 S4x16x8192x64 S4x16x64x64 [2] [2] [3] [3] [0, 1] [0, 1]
  dot_S4x16x8192x64_S4x16x64x64_S4x16x8192x64_3_2_2_3_01_01_wf : DotDims.WF S4x16x8192x64 S4x16x64x64 S4x16x8192x64 [3] [2] [2] [3] [0, 1] [0, 1]
  dot_S4x8192x1024_S1024x1024_S4x8192x1024_2_1_01_0_n_n_wf : DotDims.WF S4x8192x1024 S1024x1024 S4x8192x1024 [2] [1] [0, 1] [0] [] []

variable [Facts₀]

def dot_S4x8192x1024_S3072x1024_S4x8192x3072_2_1_01_0_n_n : DotDims S4x8192x1024 S3072x1024 S4x8192x3072 where
  lhsContracting := [2]
  rhsContracting := [1]
  lhsNonContracting := [0, 1]
  rhsNonContracting := [0]
  lhsBatch := []
  rhsBatch := []
  wf := dot_S4x8192x1024_S3072x1024_S4x8192x3072_2_1_01_0_n_n_wf
def dot_S4x16x8192x64_S4x16x8192x64_S4x16x64x64_2_2_3_3_01_01 : DotDims S4x16x8192x64 S4x16x8192x64 S4x16x64x64 where
  lhsContracting := [2]
  rhsContracting := [2]
  lhsNonContracting := [3]
  rhsNonContracting := [3]
  lhsBatch := [0, 1]
  rhsBatch := [0, 1]
  wf := dot_S4x16x8192x64_S4x16x8192x64_S4x16x64x64_2_2_3_3_01_01_wf
def dot_S4x16x8192x64_S4x16x64x64_S4x16x8192x64_3_2_2_3_01_01 : DotDims S4x16x8192x64 S4x16x64x64 S4x16x8192x64 where
  lhsContracting := [3]
  rhsContracting := [2]
  lhsNonContracting := [2]
  rhsNonContracting := [3]
  lhsBatch := [0, 1]
  rhsBatch := [0, 1]
  wf := dot_S4x16x8192x64_S4x16x64x64_S4x16x8192x64_3_2_2_3_01_01_wf
def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.KRun.lean ====
/-
  The kernel program's run with its result named.  The program is five segments — host operations, the
  statistics kernel, the attention kernel, one re-reading, the projection-and-normalisation kernel — and the
  buffer contents at each boundary are a fold from the launch memory; the result buffer ends at the last
  kernel's output array after all its write-backs.
-/
import proofs.«106879_j33681133535316_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program's run with its RESULT named: every weakly fair execution terminates, nothing faulting, the result
    array at what the last kernel's write-backs leave (the fold of the five segments from the launch memory) and the
    seven arguments as launched. The launch over the segments is the generated frame's, with the final thread state read
    at the result buffer as well as at the arguments. -/
theorem run_value : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.Spec.lean ====
/-
  Linear attention with a layer norm, as one function of the seven argument arrays.

  With x ↦ φ x the feature map (x + 1 for x > 0, eˣ otherwise), a token n of batch b has, per head h
  and lane d, the features q = φ (H·Wqᵀ + bq), k = φ (H·Wkᵀ + bk) and the value v = H·Wvᵀ + bv at
  column 64·h + d.  Per batch and head, KV[d, v] = Σₙ k[n, d] · v[n, v] and K1[d] = Σₙ k[n, d] over all
  8192 tokens; the attention output is (Σ_d q[n, d] · KV[d, v]) / max(tiny, Σ_d q[n, d] · K1[d]).
  The [4, 16, 8192, 64] output is then read as a [4, 8192, 1024] array with the SAME row-major
  order (no transposition of heads), projected by Wpᵀ, shifted by bp, normalised along its last
  axis (mean and mean squared deviation over 1024 entries, reciprocal square root with ε),
  scaled by γ, shifted by β, and the input row is added back.

  Everything is stated on the extended reals with the operations' exact meanings; the float
  literals stay as the words the programs write (0, 1, 10⁻⁶ rounded, 1024, 10⁻⁵ rounded).
  The three stages are stated separately over THEIR OWN inputs, so that each can be matched
  against a part of a program that only sees those inputs, and `full` composes them.
-/
import Mathlib
import Idealize.ShloMosaic.PureOps.Ideal

open scoped BigOperators
open Idealize.ShloMosaic

noncomputable section

namespace LinAttn

/-! ### The literals -/

/-- The word of 0. -/
abbrev w0 : EReal := Ideal.ofBits .f32 0x00000000#32
/-- The word of 1. -/
abbrev w1 : EReal := Ideal.ofBits .f32 0x3F800000#32
/-- The word of the lower clip of the denominator (10⁻⁶ rounded to a float). -/
abbrev wTiny : EReal := Ideal.ofBits .f32 0x358637BD#32
/-- The word of 1024, the length of the normalised axis. -/
abbrev wN : EReal := Ideal.ofBits .f32 0x44800000#32
/-- The word of ε (10⁻⁵ rounded to a float). -/
abbrev wEps : EReal := Ideal.ofBits .f32 0x3727C5AC#32

/-- The feature map: x + 1 where x > 0, eˣ elsewhere (the comparison is the programs' own test
    against the word of 0). -/
def phi (x : EReal) : EReal := if Ideal.cmp .ogt x w0 = 1#1 then x + w1 else Ideal.exp x

/-- Column 64·h + d of head h, lane d. -/
def col (h : Fin 16) (d : Fin 64) : Fin 1024 := ⟨64 * h.val + d.val, by omega⟩

@[simp] theorem col_val (h : Fin 16) (d : Fin 64) : (col h d).val = 64 * h.val + d.val := rfl

/-! ### Stage 1: the key–value statistics, from X [B, N, 1024], Wkv [1024, 2048], bk, bv [1024]

The number of batches B and of tokens N are parameters: the whole arrays have B = 4, N = 8192, and a
single tile of 512 tokens of one batch is the same function at B = 1, N = 512. -/

section Stats
variable {B N : ℕ} (X : Fin B → Fin N → Fin 1024 → EReal) (Wkv : Fin 1024 → Fin 2048 → EReal)
  (bk bv : Fin 1024 → EReal)

/-- The key projection of token n at column j: Σₖ X[n, k] · Wkv[k, j] + bk[j]. -/
def kproj (b : Fin B) (n : Fin N) (j : Fin 1024) : EReal :=
  (∑ k : Fin 1024, X b n k * Wkv k ⟨j.val, by omega⟩) + bk j

/-- The value projection of token n at column j: Σₖ X[n, k] · Wkv[k, 1024 + j] + bv[j]. -/
def vproj (b : Fin B) (n : Fin N) (j : Fin 1024) : EReal :=
  (∑ k : Fin 1024, X b n k * Wkv k ⟨1024 + j.val, by omega⟩) + bv j

/-- KV[b, h, d, v] = Σₙ φ(k[n, 64h + d]) · v[n, 64h + v], over all N tokens. -/
def kvSum (b : Fin B) (h : Fin 16) (d v : Fin 64) : EReal :=
  ∑ n : Fin N, phi (kproj X Wkv bk b n (col h d)) * vproj X Wkv bv b n (col h v)

/-- K1[b, h, d] = Σₙ φ(k[n, 64h + d]). -/
def k1Sum (b : Fin B) (h : Fin 16) (d : Fin 64) : EReal :=
  ∑ n : Fin N, phi (kproj X Wkv bk b n (col h d))

end Stats

/-! ### Stage 2: the attention output, from X, Wq [1024, 1024], bq [1024], KV [4,16,64,64], K1 [4,16,64] -/

section Attend
variable {B N : ℕ} (X : Fin B → Fin N → Fin 1024 → EReal) (Wq : Fin 1024 → Fin 1024 → EReal)
  (bq : Fin 1024 → EReal) (KV : Fin B → Fin 16 → Fin 64 → Fin 64 → EReal)
  (K1 : Fin B → Fin 16 → Fin 64 → EReal)

/-- The query feature of token n at column j: φ(Σₖ X[n, k] · Wq[k, j] + bq[j]). -/
def qfeat (b : Fin B) (n : Fin N) (j : Fin 1024) : EReal :=
  phi ((∑ k : Fin 1024, X b n k * Wq k j) + bq j)

/-- (Σ_d q[n, 64h + d] · KV[h, d, v]) / max(tiny, Σ_d q[n, 64h + d] · K1[h, d]). -/
def att (b : Fin B) (h : Fin 16) (n : Fin N) (v : Fin 64) : EReal :=
  Ideal.div (∑ d : Fin 64, qfeat X Wq bq b n (col h d) * KV b h d v)
    (max wTiny (∑ d : Fin 64, qfeat X Wq bq b n (col h d) * K1 b h d))

end Attend

/-! ### The re-reading of [4, 16, 8192, 64] as [4, 8192, 1024] in row-major order -/

/-- Entry (n, j) of the re-read array is entry number 1024·n + j of the [16, 8192, 64] block in
    row-major order: head (1024n + j) / 524288, token ((1024n + j) / 64) mod 8192, lane (1024n + j) mod 64. -/
def flat (A : Fin 4 → Fin 16 → Fin 8192 → Fin 64 → EReal) (b : Fin 4) (n : Fin 8192) (j : Fin 1024) : EReal :=
  A b ⟨(1024 * n.val + j.val) / 524288, by omega⟩ ⟨(1024 * n.val + j.val) / 64 % 8192, by omega⟩
    ⟨(1024 * n.val + j.val) % 64, by omega⟩

/-! ### Stage 3: projection, normalisation and the residual, from Y, Wpt [1024, 1024], bp, γ, β, R -/

section Norm
variable {B N : ℕ} (Y : Fin B → Fin N → Fin 1024 → EReal) (Wpt : Fin 1024 → Fin 1024 → EReal)
  (bp g bt : Fin 1024 → EReal) (R : Fin B → Fin N → Fin 1024 → EReal)

/-- Σⱼ Y[n, j] · Wpt[j, e] + bp[e]. -/
def proj (b : Fin B) (n : Fin N) (e : Fin 1024) : EReal :=
  (∑ j : Fin 1024, Y b n j * Wpt j e) + bp e

/-- The mean of a projected row: its sum divided by the word of 1024. -/
def mean (b : Fin B) (n : Fin N) : EReal := Ideal.div (∑ e : Fin 1024, proj Y Wpt bp b n e) wN

/-- The deviation of an entry from its row's mean. -/
def dev (b : Fin B) (n : Fin N) (e : Fin 1024) : EReal := proj Y Wpt bp b n e - mean Y Wpt bp b n

/-- The mean squared deviation of a row. -/
def vari (b : Fin B) (n : Fin N) : EReal :=
  Ideal.div (∑ e : Fin 1024, dev Y Wpt bp b n e * dev Y Wpt bp b n e) wN

/-- ((dev · rsqrt(var + ε)) · γ + β) + R. -/
def lnOut (b : Fin B) (n : Fin N) (e : Fin 1024) : EReal :=
  ((dev Y Wpt bp b n e * Ideal.rsqrt (vari Y Wpt bp b n + wEps)) * g e + bt e) + R b n e

end Norm

/-! ### The whole function of the seven arguments -/

section Full
variable (H : Fin 4 → Fin 8192 → Fin 1024 → EReal) (W : Fin 3072 → Fin 1024 → EReal)
  (bqkv : Fin 3072 → EReal) (Wp : Fin 1024 → Fin 1024 → EReal) (bp g bt : Fin 1024 → EReal)

/-- Wq[k, j] = W[j, k]: the first 1024 rows of W, transposed. -/
def wq (k j : Fin 1024) : EReal := W ⟨j.val, by omega⟩ k
/-- Wkv[k, j] = W[1024 + j, k]: rows 1024 … 3071 of W, transposed. -/
def wkv (k : Fin 1024) (j : Fin 2048) : EReal := W ⟨1024 + j.val, by omega⟩ k
/-- The three thirds of the joint bias. -/
def bqOf (j : Fin 1024) : EReal := bqkv ⟨j.val, by omega⟩
def bkOf (j : Fin 1024) : EReal := bqkv ⟨1024 + j.val, by omega⟩
def bvOf (j : Fin 1024) : EReal := bqkv ⟨2048 + j.val, by omega⟩
/-- Wpt[j, e] = Wp[e, j]. -/
def wpt (j e : Fin 1024) : EReal := Wp e j

/-- The block's output at batch b, token n, channel e. -/
def full (b : Fin 4) (n : Fin 8192) (e : Fin 1024) : EReal :=
  lnOut
    (flat (att H (wq W) (bqOf bqkv) (kvSum H (wkv W) (bkOf bqkv) (bvOf bqkv)) (k1Sum H (wkv W) (bkOf bqkv))))
    (wpt Wp) bp g bt H b n e

end Full

end LinAttn
-- ==== Proof.KHost.lean ====
/-
  What the host operations around the three kernels hand to them, entry by entry.

  Before the first kernel: the tokens re-typed (the identity on extended reals); the joint weight
  W [3072, 1024] transposed, its column blocks [0, 1024), [1024, 2048), [2048, 3072) cut out, the last two
  laid side by side (so column j of the pair is column 1024 + j of Wᵀ, i.e. row 1024 + j of W); the output
  weight transposed; the joint bias cut into its three thirds.  Between the second and the third
  kernel: the [4, 16, 8192, 64] attention output re-read as [4, 8192, 1024] in the same row-major order.
-/
import proofs.«106879_j33681133535316_1_alg».proof.Proof.Gen.KernelIdeal.Frame
import proofs.«106879_j33681133535316_1_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostGlue

open Cert.KernelIdeal Cert.KernelIdeal.Gen Idealize.ShloMosaic Idealize.ShloMosaic.TcCoe Idealize.SL.Sem
open Idealize.ShloMosaic.StableHlo ValueIdx

/-! ### Layout readings over variables -/

/-- Entry (k, j) of the transposed weight's column block starting at column o is W[o + j, k]. -/
theorem slice_transpose_at {o : ℕ} (W : FVec Ideal S3072x1024 .f32)
    (ht : S3072x1024.Transposes [1, 0] S1024x3072) (hs : S1024x3072.Slices ![0, o] S1024x1024)
    (k j : Fin 1024) (ho : o + j.val < 3072) :
    extractStridedSlice S1024x1024 ![0, o] (transpose S1024x3072 [1, 0] W ht) hs (ix2 k j) = W (ix2 ⟨o + j.val, ho⟩ k) := by
  rw [extractStridedSlice_apply ![0, o] _ hs (ix2 k j) (ix2 k ⟨o + j.val, ho⟩)
    (fun a => match a with | ⟨0, _⟩ => by simp [ix2] | ⟨1, _⟩ => by simp [ix2])]
  exact transpose_ix2_apply W ht k ⟨o + j.val, ho⟩

/-- Column j of the key block beside the value block is column 1024 + j of the transposed weight: W[1024 + j, k]. -/
theorem pair_at (W : FVec Ideal S3072x1024 .f32)
    (ht : S3072x1024.Transposes [1, 0] S1024x3072) (hs1 : S1024x3072.Slices ![0, 1024] S1024x1024)
    (hs2 : S1024x3072.Slices ![0, 2048] S1024x1024)
    (hc : Shape.Concatenates [S1024x1024, S1024x1024] S1024x2048 1) (k : Fin 1024) (j : Fin 2048) :
    concatenate S1024x2048 1 [⟨S1024x1024, extractStridedSlice S1024x1024 ![0, 1024] (transpose S1024x3072 [1, 0] W ht) hs1⟩,
        ⟨S1024x1024, extractStridedSlice S1024x1024 ![0, 2048] (transpose S1024x3072 [1, 0] W ht) hs2⟩] hc (ix2 k j)
      = W (ix2 ⟨1024 + j.val, by omega⟩ k) := by
  by_cases hj : j.val < 1024
  · rw [concatenate_pair_apply_left 1 _ _ hc (ix2 k j) rfl (ix2 k ⟨j.val, hj⟩)
      (fun b => match b with | ⟨0, _⟩ => rfl | ⟨1, _⟩ => rfl)]
    exact slice_transpose_at W ht hs1 k ⟨j.val, hj⟩ (by simp; omega)
  · have hj' : j.val - 1024 < 1024 := by omega
    rw [concatenate_pair_apply_right 1 _ _ hc (ix2 k j) rfl rfl (ix2 k ⟨j.val - 1024, hj'⟩)
      (fun b hb => match b, hb with | ⟨0, _⟩, _ => rfl | ⟨1, _⟩, hb => absurd rfl hb)
      (by show (j.val - 1024) + 1024 = j.val; omega)]
    rw [slice_transpose_at W ht hs2 k ⟨j.val - 1024, hj'⟩ (by simp; omega)]
    exact congrArg W (congrArg (fun x => ix2 x k) (Fin.ext (by simp; omega)))

/-- Entry j of the third of the joint bias starting at o is entry o + j. -/
theorem third_at {o : ℕ} (b : FVec Ideal S3072 .f32) (hs : S3072.Slices ![o] S1024) (j : Fin 1024) (ho : o + j.val < 3072) :
    extractStridedSlice S1024 ![o] b hs (ix1 j) = b (ix1 ⟨o + j.val, ho⟩) :=
  extractStridedSlice_apply ![o] b hs (ix1 j) (ix1 ⟨o + j.val, ho⟩) (fun a => match a with | ⟨0, _⟩ => by simp [ix1])

/-- The [4, 16, 8192, 64] array re-read as [4, 8192, 1024]: entry (b, n, j) is entry number 1024·n + j of
    batch b's [16, 8192, 64] block in row-major order. -/
theorem reread_at (A : FVec Ideal S4x16x8192x64 .bf16) (h : S4x16x8192x64.ShapeCasts S4x8192x1024)
    (b : Fin 4) (n : Fin 8192) (j : Fin 1024) :
    shapeCast S4x8192x1024 A h (ix3 b n j)
      = A (ix4 b ⟨(1024 * n.val + j.val) / 524288, by omega⟩ ⟨(1024 * n.val + j.val) / 64 % 8192, by omega⟩
          ⟨(1024 * n.val + j.val) % 64, by omega⟩) := by
  refine shapeCast_apply A h _ _ ?_
  rw [Shape.rowMajor_val_four, Shape.rowMajor_val_three]
  simp only [ix3, ix4]
  show (((b.val * 16 + (1024 * n.val + j.val) / 524288) * 8192 + (1024 * n.val + j.val) / 64 % 8192) * 64
      + (1024 * n.val + j.val) % 64) = (b.val * 8192 + n.val) * 1024 + j.val
  omega

end Cert.KernelIdeal.HostGlue

end
-- ==== Proof.KEntry.lean ====
/-
  The arrays each kernel finds at its entry, read back to the seven arguments.

  No host operation and no kernel writes an argument, so an argument's buffer holds its launch contents
  at every boundary.  The first kernel finds the tokens, the side-by-side key and value weights and their
  biases as the host operations leave them; the second the tokens, the query weights and bias, and the
  first kernel's two output arrays; the third the second kernel's output re-read, the transposed output
  weights, and four arguments.
-/
import proofs.«106879_j33681133535316_1_alg».proof.Proof.KHost

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo ValueIdx

variable (m : (ℓ : Loc nD τ sig) → Buf (Elt Ideal) ℓ) (ρ : Dev nD → PrngReg) (c : Dev nD)

/-- The seven argument arrays at launch. -/
abbrev vH : FVec Ideal S4x8192x1024 .f32 := m ((c : Thread nD τ).loc main_arg0)
abbrev vW : FVec Ideal S3072x1024 .f32 := m ((c : Thread nD τ).loc main_arg1)
abbrev vB : FVec Ideal S3072 .f32 := m ((c : Thread nD τ).loc main_arg2)
abbrev vWp : FVec Ideal S1024x1024 .f32 := m ((c : Thread nD τ).loc main_arg3)
abbrev vBp : FVec Ideal S1024 .f32 := m ((c : Thread nD τ).loc main_arg4)
abbrev vG : FVec Ideal S1024 .f32 := m ((c : Thread nD τ).loc main_arg5)
abbrev vBt : FVec Ideal S1024 .f32 := m ((c : Thread nD τ).loc main_arg6)

/-- The same as curried functions of their coordinates. -/
abbrev aH : Fin 4 → Fin 8192 → Fin 1024 → EReal := fun b n k => vH m c (ix3 b n k)
abbrev aW : Fin 3072 → Fin 1024 → EReal := fun e k => vW m c (ix2 e k)
abbrev aB : Fin 3072 → EReal := fun e => vB m c (ix1 e)
abbrev aWp : Fin 1024 → Fin 1024 → EReal := fun e j => vWp m c (ix2 e j)
abbrev aBp : Fin 1024 → EReal := fun e => vBp m c (ix1 e)
abbrev aG : Fin 1024 → EReal := fun e => vG m c (ix1 e)
abbrev aBt : Fin 1024 → EReal := fun e => vBt m c (ix1 e)

/-! ### After the first stretch of host operations -/

/-- The transposed joint weight. -/
abbrev wT : FVec Ideal S1024x3072 .f32 := transpose S1024x3072 [1, 0] (vW m c) transposes_S3072x1024_S1024x3072_1_0

/-- What the first stretch leaves in the buffers the kernels read. -/
abbrev e0 : FVec Ideal S4x8192x1024 .bf16 := W1 m ρ c (Proc.devRef .tc main_v0)
abbrev e6 : FVec Ideal S1024x2048 .bf16 := W1 m ρ c (Proc.devRef .tc main_v6)
abbrev e7 : FVec Ideal S1024x1024 .bf16 := W1 m ρ c (Proc.devRef .tc main_v7)
abbrev e9 : FVec Ideal S1024x1024 .bf16 := W1 m ρ c (Proc.devRef .tc main_v9)
abbrev e10 : FVec Ideal S1024 .f32 := W1 m ρ c (Proc.devRef .tc main_v10)
abbrev e11 : FVec Ideal S1024 .f32 := W1 m ρ c (Proc.devRef .tc main_v11)
abbrev e12 : FVec Ideal S1024 .f32 := W1 m ρ c (Proc.devRef .tc main_v12)

/-- The tokens re-typed are the tokens. -/
theorem W1_v0 (b : Fin 4) (n : Fin 8192) (k : Fin 1024) : e0 m ρ c (ix3 b n k) = aH m c b n k := by
  have e : e0 m ρ c = truncf .bf16 (vH m c) bitsLt_bf16_f32 := by
    dsimp only [e0, vH, W1, hostOps0]; after_results
  exact congrFun e _

/-- Column j of the key-and-value weights is row 1024 + j of the joint weight. -/
theorem W1_v6 (k : Fin 1024) (j : Fin 2048) : e6 m ρ c (ix2 k j) = LinAttn.wkv (aW m c) k j := by
  have e : e6 m ρ c = truncf .bf16 (concatenate S1024x2048 1
        [⟨S1024x1024, extractStridedSlice S1024x1024 ![0, 1024] (wT m c) slices_S1024x3072_S1024x1024_0_1024⟩,
         ⟨S1024x1024, extractStridedSlice S1024x1024 ![0, 2048] (wT m c) slices_S1024x3072_S1024x1024_0_2048⟩]
        concatenates_S1024x1024_S1024x1024_S1024x2048_d1) bitsLt_bf16_f32 := by
    dsimp only [e6, wT, vW, W1, hostOps0]; after_results
  exact (congrFun e _).trans (HostGlue.pair_at (vW m c) transposes_S3072x1024_S1024x3072_1_0
    slices_S1024x3072_S1024x1024_0_1024 slices_S1024x3072_S1024x1024_0_2048
    concatenates_S1024x1024_S1024x1024_S1024x2048_d1 k j)

/-- Column j of the query weights is row j of the joint weight. -/
theorem W1_v7 (k j : Fin 1024) : e7 m ρ c (ix2 k j) = LinAttn.wq (aW m c) k j := by
  have e : e7 m ρ c = truncf .bf16 (extractStridedSlice S1024x1024 ![0, 0] (wT m c) slices_S1024x3072_S1024x1024_0_0) bitsLt_bf16_f32 := by
    dsimp only [e7, wT, vW, W1, hostOps0]; after_results
  refine (congrFun e _).trans ((HostGlue.slice_transpose_at (o := 0) (vW m c) transposes_S3072x1024_S1024x3072_1_0
    slices_S1024x3072_S1024x1024_0_0 k j (by omega)).trans ?_)
  exact congrArg (fun x => vW m c (ix2 x k)) (Fin.ext (by simp))

/-- Entry (j, e) of the transposed output weights is entry (e, j) of the output weights. -/
theorem W1_v9 (j e : Fin 1024) : e9 m ρ c (ix2 j e) = LinAttn.wpt (aWp m c) j e := by
  have h : e9 m ρ c = truncf .bf16 (transpose S1024x1024 [1, 0] (vWp m c) transposes_S1024x1024_S1024x1024_1_0) bitsLt_bf16_f32 := by
    dsimp only [e9, vWp, W1, hostOps0]; after_results
  exact (congrFun h _).trans (transpose_ix2_apply (vWp m c) transposes_S1024x1024_S1024x1024_1_0 j e)

/-- The three thirds of the joint bias. -/
theorem W1_v10 (j : Fin 1024) : e10 m ρ c (ix1 j) = LinAttn.bqOf (aB m c) j := by
  have h : e10 m ρ c = extractStridedSlice S1024 ![0] (vB m c) slices_S3072_S1024_0 := by
    dsimp only [e10, vB, W1, hostOps0]; after_results
  refine (congrFun h _).trans ((HostGlue.third_at (o := 0) (vB m c) slices_S3072_S1024_0 j (by omega)).trans ?_)
  exact congrArg (fun x => vB m c (ix1 x)) (Fin.ext (by simp))
theorem W1_v11 (j : Fin 1024) : e11 m ρ c (ix1 j) = LinAttn.bkOf (aB m c) j := by
  have h : e11 m ρ c = extractStridedSlice S1024 ![1024] (vB m c) slices_S3072_S1024_1024 := by
    dsimp only [e11, vB, W1, hostOps0]; after_results
  exact (congrFun h _).trans (HostGlue.third_at (o := 1024) (vB m c) slices_S3072_S1024_1024 j (by omega))
theorem W1_v12 (j : Fin 1024) : e12 m ρ c (ix1 j) = LinAttn.bvOf (aB m c) j := by
  have h : e12 m ρ c = extractStridedSlice S1024 ![2048] (vB m c) slices_S3072_S1024_2048 := by
    dsimp only [e12, vB, W1, hostOps0]; after_results
  exact (congrFun h _).trans (HostGlue.third_at (o := 2048) (vB m c) slices_S3072_S1024_2048 j (by omega))

end Cert.KernelIdeal.Entry

end
-- ==== Proof.KBound.lean ====
/-
  The buffer contents at the later boundaries of the kernel program, traced back.

  A kernel leaves each of its input arrays as it found it and each of its output arrays at what its
  write-backs leave; every other buffer keeps its contents.  So the second kernel finds the tokens, the
  query weights and the query bias as the first stretch of host operations left them, and the first
  kernel's two outputs; the third kernel finds the second kernel's output re-read as [4, 8192, 1024], the
  transposed output weights as the first stretch left them, and four arguments as launched.
-/
import proofs.«106879_j33681133535316_1_alg».proof.Proof.KEntry

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo ValueIdx

variable (m : (ℓ : Loc nD τ sig) → Buf (Elt Ideal) ℓ) (ρ : Dev nD → PrngReg) (c : Dev nD)

/-! ### The first kernel's entry: what its four input windows read -/

theorem V1_w0 : V1 m ρ c (Pipeline.arrRef spec0 0) = e0 m ρ c := rfl
theorem V1_w1 : V1 m ρ c (Pipeline.arrRef spec0 1) = e6 m ρ c := rfl
theorem V1_w2 : V1 m ρ c (Pipeline.arrRef spec0 2) = e11 m ρ c := rfl
theorem V1_w3 : V1 m ρ c (Pipeline.arrRef spec0 3) = e12 m ρ c := rfl

/-! ### The second kernel's entry -/

/-- The first kernel's two output arrays after its whole grid. -/
abbrev kvArr : FVec Ideal S4x16x64x64 .f32 := (dat0 (F := Ideal) (V1 m ρ) c).arrAt 4 cfg0.N
abbrev k1Arr : FVec Ideal S4x16x64 .f32 := (dat0 (F := Ideal) (V1 m ρ) c).arrAt 5 cfg0.N

/-- The tokens: an input array of the first kernel, left as found. -/
theorem V2_w0 : V2 m ρ c (Pipeline.arrRef spec1 0) = e0 m ρ c :=
  (W2_arr m ρ c 0).trans (((dat0 (V1 m ρ) c).arrAt_in 0 rfl _).trans (A_eq0 (V1 m ρ) c 0))
/-- The query weights and bias: no array of the first kernel. -/
theorem V2_w1 : V2 m ρ c (Pipeline.arrRef spec1 1) = e7 m ρ c := W2_of_ne m ρ c main_v7 (by decide)
theorem V2_w2 : V2 m ρ c (Pipeline.arrRef spec1 2) = e10 m ρ c := W2_of_ne m ρ c main_v10 (by decide)
/-- The statistics: the first kernel's outputs. -/
theorem V2_w3 : V2 m ρ c (Pipeline.arrRef spec1 3) = kvArr m ρ c := W2_arr m ρ c 4
theorem V2_w4 : V2 m ρ c (Pipeline.arrRef spec1 4) = k1Arr m ρ c := W2_arr m ρ c 5

/-! ### The third kernel's entry -/

/-- The second kernel's output array after its whole grid. -/
abbrev attArr : FVec Ideal S4x16x8192x64 .bf16 := (dat1 (F := Ideal) (V2 m ρ) c).arrAt 5 cfg1.N

/-- The one host operation between the second and the third kernel writes only the re-read array. -/
theorem W4_skip (b : Ref sig .tc) (hb : (b : Ref sig .tc) ≠ main_v15) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The re-read attention output. -/
theorem V4_w0 : V4 m ρ c (Pipeline.arrRef spec2 0)
    = shapeCast S4x8192x1024 (attArr m ρ c) shapeCasts_S4x16x8192x64_S4x8192x1024 := by
  have e : @Eq (FVec Ideal S4x8192x1024 .bf16) (W4 m ρ c (Proc.devRef .tc main_v15))
      (shapeCast S4x8192x1024 (show FVec Ideal S4x16x8192x64 .bf16 from W3 m ρ c (Proc.devRef .tc main_v14)) shapeCasts_S4x16x8192x64_S4x8192x1024) := by
    dsimp only [W4, hostOps2]; after_results; rfl
  refine e.trans ?_
  exact congrArg (fun a => shapeCast S4x8192x1024 a shapeCasts_S4x16x8192x64_S4x8192x1024) (W3_arr m ρ c 5)

/-- The transposed output weights: written by the first stretch, touched by nothing since. -/
theorem V4_w1 : V4 m ρ c (Pipeline.arrRef spec2 1) = e9 m ρ c :=
  calc W4 m ρ c (Proc.devRef .tc main_v9)
    _ = W3 m ρ c (Proc.devRef .tc main_v9) := W4_skip m ρ c main_v9 (by decide)
    _ = W2 m ρ c (Proc.devRef .tc main_v9) := W3_of_ne m ρ c main_v9 (by decide)
    _ = W1 m ρ c (Proc.devRef .tc main_v9) := W2_of_ne m ρ c main_v9 (by decide)

/-- Four arguments, as launched: an input array of the third kernel is left as found, and the whole
    program leaves an argument as launched. -/
theorem V4_w2 : V4 m ρ c (Pipeline.arrRef spec2 2) = vBp m c :=
  (((W5_arr m ρ c 2).trans (((dat2 (V4 m ρ) c).arrAt_in 2 rfl _).trans (A_eq2 (V4 m ρ) c 2))).symm).trans (W5_main_arg4 m ρ c)
theorem V4_w3 : V4 m ρ c (Pipeline.arrRef spec2 3) = vG m c :=
  (((W5_arr m ρ c 3).trans (((dat2 (V4 m ρ) c).arrAt_in 3 rfl _).trans (A_eq2 (V4 m ρ) c 3))).symm).trans (W5_main_arg5 m ρ c)
theorem V4_w4 : V4 m ρ c (Pipeline.arrRef spec2 4) = vBt m c :=
  (((W5_arr m ρ c 4).trans (((dat2 (V4 m ρ) c).arrAt_in 4 rfl _).trans (A_eq2 (V4 m ρ) c 4))).symm).trans (W5_main_arg6 m ρ c)
theorem V4_w5 : V4 m ρ c (Pipeline.arrRef spec2 5) = vH m c :=
  (((W5_arr m ρ c 5).trans (((dat2 (V4 m ρ) c).arrAt_in 5 rfl _).trans (A_eq2 (V4 m ρ) c 5))).symm).trans (W5_main_arg0 m ρ c)

/-- The result buffer ends at the third kernel's output array after its whole grid. -/
abbrev outArr : FVec Ideal S4x8192x1024 .f32 := (dat2 (F := Ideal) (V4 m ρ) c).arrAt 6 cfg2.N
theorem W5_out : W5 m ρ c (Proc.devRef .tc main_v16) = outArr m ρ c := W5_arr m ρ c 6

end Cert.KernelIdeal.Entry

end
-- ==== Proof.SpecCompose.lean ====
/-
  The three stages composed: if the statistics arrays are the stage-1 sums, the attention array is the
  stage-2 quotient of them, the re-read array is its row-major re-reading, and the output is the stage-3
  normalisation of that, then the output is the whole function of the seven arguments.
-/
import proofs.«106879_j33681133535316_1_alg».proof.Proof.Spec

noncomputable section

namespace LinAttn

theorem full_of_stages
    (H : Fin 4 → Fin 8192 → Fin 1024 → EReal) (W : Fin 3072 → Fin 1024 → EReal) (Bq : Fin 3072 → EReal)
    (Wp : Fin 1024 → Fin 1024 → EReal) (Bp G Bt : Fin 1024 → EReal)
    (KV : Fin 4 → Fin 16 → Fin 64 → Fin 64 → EReal) (K1 : Fin 4 → Fin 16 → Fin 64 → EReal)
    (A : Fin 4 → Fin 16 → Fin 8192 → Fin 64 → EReal) (Y OUT : Fin 4 → Fin 8192 → Fin 1024 → EReal)
    (hkv : ∀ b h d v, KV b h d v = kvSum H (wkv W) (bkOf Bq) (bvOf Bq) b h d v)
    (hk1 : ∀ b h d, K1 b h d = k1Sum H (wkv W) (bkOf Bq) b h d)
    (hatt : ∀ b h n v, A b h n v = att H (wq W) (bqOf Bq) KV K1 b h n v)
    (hY : ∀ b n j, Y b n j = flat A b n j)
    (hout : ∀ b n e, OUT b n e = lnOut Y (wpt Wp) Bp G Bt H b n e)
    (b : Fin 4) (n : Fin 8192) (e : Fin 1024) : OUT b n e = full H W Bq Wp Bp G Bt b n e := by
  have eKV : KV = kvSum H (wkv W) (bkOf Bq) (bvOf Bq) := by funext b h d v; exact hkv b h d v
  have eK1 : K1 = k1Sum H (wkv W) (bkOf Bq) := by funext b h d; exact hk1 b h d
  have eA : A = att H (wq W) (bqOf Bq) KV K1 := by funext b h n v; exact hatt b h n v
  have eY : Y = flat A := by funext b n j; exact hY b n j
  rw [hout b n e, eY, eA, eKV, eK1]
  rfl

end LinAttn

end
-- ==== Proof.KValue.lean ====
/-
  The kernel program's result array is the whole function of the seven arguments, given what each of the
  three kernels leaves in its output arrays as a function of the arrays it finds: the statistics are the
  stage-1 sums of the tokens and the key and value weights; the attention output is the stage-2 quotient
  of the tokens, the query weights and the statistics; the result is the stage-3 normalisation of the
  re-read attention output.
-/
import proofs.«106879_j33681133535316_1_alg».proof.Proof.KBound
import proofs.«106879_j33681133535316_1_alg».proof.Proof.SpecCompose

noncomputable section

namespace Cert.KernelIdeal.Entry

open Cert.KernelIdeal Cert.KernelIdeal.Gen Idealize.ShloMosaic Idealize.ShloMosaic.TcCoe Idealize.SL.Sem ValueIdx

variable (m : (ℓ : Loc nD τ sig) → Buf (Elt Ideal) ℓ) (ρ : Dev nD → PrngReg) (c : Dev nD)

/-- The re-read attention output, [4, 8192, 1024]. -/
abbrev flatArr : FVec Ideal S4x8192x1024 .bf16 := shapeCast S4x8192x1024 (attArr m ρ c) shapeCasts_S4x16x8192x64_S4x8192x1024

theorem out_at
    (hkv : ∀ (b : Fin 4) (h : Fin 16) (d v : Fin 64), kvArr m ρ c (ix4 b h d v)
      = LinAttn.kvSum (fun b n k => e0 m ρ c (ix3 b n k)) (fun k j => e6 m ρ c (ix2 k j)) (fun j => e11 m ρ c (ix1 j)) (fun j => e12 m ρ c (ix1 j)) b h d v)
    (hk1 : ∀ (b : Fin 4) (h : Fin 16) (d : Fin 64), k1Arr m ρ c (ix3 b h d)
      = LinAttn.k1Sum (fun b n k => e0 m ρ c (ix3 b n k)) (fun k j => e6 m ρ c (ix2 k j)) (fun j => e11 m ρ c (ix1 j)) b h d)
    (hatt : ∀ (b : Fin 4) (h : Fin 16) (n : Fin 8192) (v : Fin 64), attArr m ρ c (ix4 b h n v)
      = LinAttn.att (fun b n k => e0 m ρ c (ix3 b n k)) (fun k j => e7 m ρ c (ix2 k j)) (fun j => e10 m ρ c (ix1 j))
          (fun b h d v => kvArr m ρ c (ix4 b h d v)) (fun b h d => k1Arr m ρ c (ix3 b h d)) b h n v)
    (hln : ∀ (b : Fin 4) (n : Fin 8192) (e : Fin 1024), outArr m ρ c (ix3 b n e)
      = LinAttn.lnOut (fun b n j => flatArr m ρ c (ix3 b n j)) (fun j e => e9 m ρ c (ix2 j e)) (fun e => vBp m c (ix1 e))
          (fun e => vG m c (ix1 e)) (fun e => vBt m c (ix1 e)) (fun b n e => vH m c (ix3 b n e)) b n e)
    (b : Fin 4) (n : Fin 8192) (e : Fin 1024) :
    outArr m ρ c (ix3 b n e) = LinAttn.full (aH m c) (aW m c) (aB m c) (aWp m c) (aBp m c) (aG m c) (aBt m c) b n e := by
  have f0 : (fun b n k => e0 m ρ c (ix3 b n k)) = aH m c := by funext b n k; exact W1_v0 m ρ c b n k
  have f6 : (fun k j => e6 m ρ c (ix2 k j)) = LinAttn.wkv (aW m c) := by funext k j; exact W1_v6 m ρ c k j
  have f7 : (fun k j => e7 m ρ c (ix2 k j)) = LinAttn.wq (aW m c) := by funext k j; exact W1_v7 m ρ c k j
  have f9 : (fun j e => e9 m ρ c (ix2 j e)) = LinAttn.wpt (aWp m c) := by funext j e; exact W1_v9 m ρ c j e
  have f10 : (fun j => e10 m ρ c (ix1 j)) = LinAttn.bqOf (aB m c) := by funext j; exact W1_v10 m ρ c j
  have f11 : (fun j => e11 m ρ c (ix1 j)) = LinAttn.bkOf (aB m c) := by funext j; exact W1_v11 m ρ c j
  have f12 : (fun j => e12 m ρ c (ix1 j)) = LinAttn.bvOf (aB m c) := by funext j; exact W1_v12 m ρ c j
  refine LinAttn.full_of_stages (aH m c) (aW m c) (aB m c) (aWp m c) (aBp m c) (aG m c) (aBt m c)
    (fun b h d v => kvArr m ρ c (ix4 b h d v)) (fun b h d => k1Arr m ρ c (ix3 b h d))
    (fun b h n v => attArr m ρ c (ix4 b h n v)) (fun b n j => flatArr m ρ c (ix3 b n j))
    (fun b n e => outArr m ρ c (ix3 b n e))
    (fun b h d v => ?_) (fun b h d => ?_) (fun b h n v => ?_) (fun b n j => ?_) (fun b n e => ?_) b n e
  · show kvArr m ρ c (ix4 b h d v) = _
    rw [hkv, f0, f6, f11, f12]
  · show k1Arr m ρ c (ix3 b h d) = _
    rw [hk1, f0, f6, f11]
  · show attArr m ρ c (ix4 b h n v) = _
    rw [hatt, f0, f7, f10]
  · exact HostGlue.reread_at (attArr m ρ c) shapeCasts_S4x16x8192x64_S4x8192x1024 b n j
  · show outArr m ρ c (ix3 b n e) = _
    rw [hln, f9]

end Cert.KernelIdeal.Entry

end
-- ==== Proof.RefTerm.lean ====
/-
  What the reference computes, as one term of its seven argument arrays: the operations of its
  program composed in program order, the helper functions (the exponential linear unit, the lower
  clip, the variance) written out where they are called.

  Stages: the joint projection x·Wᵀ + b [4, 8192, 3072]; its reading as [3, 4, 16, 8192, 64] (which
  third, batch, head, token, lane) and the three thirds q, k, v; the feature map elu(·) + 1 on q
  and k; KV = Σ_tokens k ⊗ v and K1 = Σ_tokens k per batch and head; the quotient
  (q·KV) / max(tiny, q·K1); its row-major re-reading as [4, 8192, 1024]; the output projection;
  the row mean and the variance (mean squared deviation, the divisor 1024 − 0 and a guard
  "divisor > 0" that always holds); and ((x − mean)·rsqrt(var + ε))·γ + β + input.
-/
import proofs.«106879_j33681133535316_1_alg».proof.ReferenceIdeal

noncomputable section

namespace Cert.ReferenceIdeal.RefValue

open Cert.ReferenceIdeal Idealize.ShloMosaic Idealize.ShloMosaic.TcCoe

variable {F : FTy → Type} [FloatOps F] [Facts]
open Facts₀ Facts

/-- A float literal as a rank-0 array. -/
abbrev lit (b : BitVec 32) : FVec F S_ .f32 := constant S_ .f32 b

/-- x·Wᵀ + b: the joint projection, [4, 8192, 3072]. -/
def lin3 (H : FVec F S4x8192x1024 .f32) (W : FVec F S3072x1024 .f32) (b : FVec F S3072 .f32) : FVec F S4x8192x3072 .f32 :=
  addf (Host.dotGeneral dot_S4x8192x1024_S3072x1024_S4x8192x3072_2_1_01_0_n_n none H W)
    (broadcastInDim S4x8192x3072 ![0, 1, 2] bcast_S1x1x3072_S4x8192x3072_0_1_2
      (broadcastInDim S1x1x3072 ![2] bcast_S3072_S1x1x3072_2 b))

/-- [4, 8192, 3072] read as [4, 8192, 3, 16, 64] and its axes permuted to [3, 4, 16, 8192, 64]. -/
def split (x : FVec F S4x8192x3072 .f32) : FVec F S3x4x16x8192x64 .f32 :=
  transpose S3x4x16x8192x64 [2, 0, 3, 1, 4] (shapeCast S4x8192x3x16x64 x shapeCasts_S4x8192x3072_S4x8192x3x16x64)
    transposes_S4x8192x3x16x64_S3x4x16x8192x64_2_0_3_1_4

/-- The first third (queries), [4, 16, 8192, 64]. -/
def part0 (y : FVec F S3x4x16x8192x64 .f32) : FVec F S4x16x8192x64 .f32 :=
  shapeCast S4x16x8192x64 (extractStridedSlice S1x4x16x8192x64 ![0, 0, 0, 0, 0] y slices_S3x4x16x8192x64_S1x4x16x8192x64_0_0_0_0_0)
    shapeCasts_S1x4x16x8192x64_S4x16x8192x64
/-- The second third (keys). -/
def part1 (y : FVec F S3x4x16x8192x64 .f32) : FVec F S4x16x8192x64 .f32 :=
  shapeCast S4x16x8192x64 (extractStridedSlice S1x4x16x8192x64 ![1, 0, 0, 0, 0] y slices_S3x4x16x8192x64_S1x4x16x8192x64_1_0_0_0_0)
    shapeCasts_S1x4x16x8192x64_S4x16x8192x64
/-- The last third (values). -/
def part2 (y : FVec F S3x4x16x8192x64 .f32) : FVec F S4x16x8192x64 .f32 :=
  shapeCast S4x16x8192x64 (extractStridedSlice S1x4x16x8192x64 ![2, 0, 0, 0, 0] y slices_S3x4x16x8192x64_S1x4x16x8192x64_2_0_0_0_0)
    shapeCasts_S1x4x16x8192x64_S4x16x8192x64

/-- The exponential linear unit as the reference spells it: where x > 0 take x, elsewhere
    1 · expm1(x'), with x' = 0 where x > 0 and x elsewhere. -/
def elu (x : FVec F S4x16x8192x64 .f32) : FVec F S4x16x8192x64 .f32 :=
  have v1 : IVec S4x16x8192x64 1 := cmpf .ogt x (broadcastInDim S4x16x8192x64 ![] bcast_S_S4x16x8192x64 (lit 0x00000000#32))
  have v3 : IVec S4x16x8192x64 1 := cmpf .ogt x (broadcastInDim S4x16x8192x64 ![] bcast_S_S4x16x8192x64 (lit 0x00000000#32))
  have v4 : FVec F S4x16x8192x64 .f32 := select v3 (broadcastInDim S4x16x8192x64 ![] bcast_S_S4x16x8192x64 (id (lit 0x00000000#32))) x
  have v5 : FVec F S4x16x8192x64 .f32 := Host.expm1 v4
  have v7 : FVec F S4x16x8192x64 .f32 := mulf (broadcastInDim S4x16x8192x64 ![] bcast_S_S4x16x8192x64 (lit 0x3F800000#32)) v5
  select v1 x v7

/-- The feature map: elu(x) + 1. -/
def feat (x : FVec F S4x16x8192x64 .f32) : FVec F S4x16x8192x64 .f32 :=
  addf (elu x) (broadcastInDim S4x16x8192x64 ![] bcast_S_S4x16x8192x64 (lit 0x3F800000#32))

/-- KV[b, h, d, v] = Σ_tokens k[b, h, n, d] · v[b, h, n, v]. -/
def kvOf (k v : FVec F S4x16x8192x64 .f32) : FVec F S4x16x64x64 .f32 :=
  Host.dotGeneral dot_S4x16x8192x64_S4x16x8192x64_S4x16x64x64_2_2_3_3_01_01 none k v

/-- K1[b, h, d] = Σ_tokens k[b, h, n, d]. -/
def k1Of (k : FVec F S4x16x8192x64 .f32) : FVec F S4x16x64 .f32 :=
  Host.reduceAdd k (lit 0x00000000#32) reducesTo_S4x16x8192x64_S4x16x64_d2 h_S_

/-- (q·KV) / max(tiny, Σ_d q·K1), [4, 16, 8192, 64]. -/
def attOf (q : FVec F S4x16x8192x64 .f32) (kv : FVec F S4x16x64x64 .f32) (k1 : FVec F S4x16x64 .f32) : FVec F S4x16x8192x64 .f32 :=
  have v20 : FVec F S4x16x8192x64 .f32 := Host.dotGeneral dot_S4x16x8192x64_S4x16x64x64_S4x16x8192x64_3_2_2_3_01_01 none q kv
  have v22 : FVec F S4x16x8192x64 .f32 := broadcastInDim S4x16x8192x64 ![0, 1, 2, 3] bcast_S4x16x1x64_S4x16x8192x64_0_1_2_3
    (broadcastInDim S4x16x1x64 ![0, 1, 3] bcast_S4x16x64_S4x16x1x64_0_1_3 k1)
  have v24 : FVec F S4x16x8192 .f32 := Host.reduceAdd (mulf q v22) (lit 0x00000000#32) reducesTo_S4x16x8192x64_S4x16x8192_d3 h_S_
  have v25 : FVec F S4x16x8192x1 .f32 := broadcastInDim S4x16x8192x1 ![0, 1, 2] bcast_S4x16x8192_S4x16x8192x1_0_1_2 v24
  have v26 : FVec F S4x16x8192x1 .f32 := maximumf (broadcastInDim S4x16x8192x1 ![] bcast_S_S4x16x8192x1 (id (lit 0x358637BD#32))) v25
  Host.divf v20 (broadcastInDim S4x16x8192x64 ![0, 1, 2, 3] bcast_S4x16x8192x1_S4x16x8192x64_0_1_2_3 v26)

/-- The output projection of the re-read attention output: y·Wpᵀ + bp, [4, 8192, 1024]. -/
def projOf (a : FVec F S4x16x8192x64 .f32) (Wp : FVec F S1024x1024 .f32) (bp : FVec F S1024 .f32) : FVec F S4x8192x1024 .f32 :=
  addf (Host.dotGeneral dot_S4x8192x1024_S1024x1024_S4x8192x1024_2_1_01_0_n_n none
      (shapeCast S4x8192x1024 a shapeCasts_S4x16x8192x64_S4x8192x1024) Wp)
    (broadcastInDim S4x8192x1024 ![0, 1, 2] bcast_S1x1x1024_S4x8192x1024_0_1_2 (broadcastInDim S1x1x1024 ![2] bcast_S1024_S1x1x1024_2 bp))

/-- The row mean: the row's sum over 1024, as a [4, 8192, 1] column. -/
def meanOf (x : FVec F S4x8192x1024 .f32) : FVec F S4x8192x1 .f32 :=
  Host.divf (broadcastInDim S4x8192x1 ![0, 1] bcast_S4x8192_S4x8192x1_0_1 (Host.reduceAdd x (lit 0x00000000#32) reducesTo_S4x8192x1024_S4x8192_d2 h_S_))
    (broadcastInDim S4x8192x1 ![] bcast_S_S4x8192x1 (lit 0x44800000#32))

/-- The variance as the reference spells it: the sum of squared deviations from the mean over
    (1024 − ddof) with ddof the integer 0, kept where that divisor is positive (it is) and a
    not-a-number word elsewhere. -/
def varOf (x : FVec F S4x8192x1024 .f32) : FVec F S4x8192x1 .f32 :=
  have u5 : FVec F S4x8192x1024 .f32 := subf x (broadcastInDim S4x8192x1024 ![0, 1, 2] bcast_S4x8192x1_S4x8192x1024_0_1_2 (meanOf x))
  have u8 : FVec F S_ .f32 := subf (lit 0x44800000#32) (sitofp .f32 (constantI S_ 32 0#32))
  have u10 : FVec F S4x8192x1 .f32 := broadcastInDim S4x8192x1 ![0, 1] bcast_S4x8192_S4x8192x1_0_1
    (Host.reduceAdd (mulf u5 u5) (lit 0x00000000#32) reducesTo_S4x8192x1024_S4x8192_d2 h_S_)
  have u12 : FVec F S4x8192x1 .f32 := Host.divf u10 (broadcastInDim S4x8192x1 ![] bcast_S_S4x8192x1 u8)
  have u13 : IVec S_ 1 := cmpf .ogt u8 (lit 0x00000000#32)
  select (broadcastInDim S4x8192x1 ![] bcast_S_S4x8192x1 u13) u12 (broadcastInDim S4x8192x1 ![] bcast_S_S4x8192x1 (id (lit 0x7FC00000#32)))

/-- ((x − mean)·rsqrt(var + ε))·γ + β + residual. -/
def normOf (x : FVec F S4x8192x1024 .f32) (g bt : FVec F S1024 .f32) (R : FVec F S4x8192x1024 .f32) : FVec F S4x8192x1024 .f32 :=
  have v40 : FVec F S4x8192x1024 .f32 := subf x (broadcastInDim S4x8192x1024 ![0, 1, 2] bcast_S4x8192x1_S4x8192x1024_0_1_2 (meanOf x))
  have v43 : FVec F S4x8192x1 .f32 := Host.rsqrt (addf (varOf x) (broadcastInDim S4x8192x1 ![] bcast_S_S4x8192x1 (lit 0x3727C5AC#32)))
  have v45 : FVec F S4x8192x1024 .f32 := mulf v40 (broadcastInDim S4x8192x1024 ![0, 1, 2] bcast_S4x8192x1_S4x8192x1024_0_1_2 v43)
  have v48 : FVec F S4x8192x1024 .f32 := mulf v45 (broadcastInDim S4x8192x1024 ![0, 1, 2] bcast_S1x1x1024_S4x8192x1024_0_1_2 (broadcastInDim S1x1x1024 ![2] bcast_S1024_S1x1x1024_2 g))
  have v51 : FVec F S4x8192x1024 .f32 := addf v48 (broadcastInDim S4x8192x1024 ![0, 1, 2] bcast_S1x1x1024_S4x8192x1024_0_1_2 (broadcastInDim S1x1x1024 ![2] bcast_S1024_S1x1x1024_2 bt))
  addf v51 R

/-- The reference's result as one term of its seven arguments. -/
def refTerm (H : FVec F S4x8192x1024 .f32) (W : FVec F S3072x1024 .f32) (b : FVec F S3072 .f32) (Wp : FVec F S1024x1024 .f32)
    (bp g bt : FVec F S1024 .f32) : FVec F S4x8192x1024 .f32 :=
  have y : FVec F S3x4x16x8192x64 .f32 := split (lin3 H W b)
  have q : FVec F S4x16x8192x64 .f32 := feat (part0 y)
  have k : FVec F S4x16x8192x64 .f32 := feat (part1 y)
  normOf (projOf (attOf q (kvOf k (part2 y)) (k1Of k)) Wp bp) g bt H

end Cert.ReferenceIdeal.RefValue

end
-- ==== Proof.Claims.lean ====
/-
  The value claim from its parts.  Both programs end with their result arrays at the same function of
  the seven arguments: the kernel program's by the three kernels' output arrays composed, the reference's
  by its composed term read entry by entry.  The memories agree on the arguments, so the two functions
  are applied to the same arrays.
-/
import proofs.«106879_j33681133535316_1_alg».proof.Defs
import proofs.«106879_j33681133535316_1_alg».proof.Proof.Gen.Kernel.Frame
import proofs.«106879_j33681133535316_1_alg».proof.Proof.KRun
import proofs.«106879_j33681133535316_1_alg».proof.Proof.KValue
import proofs.«106879_j33681133535316_1_alg».proof.Proof.RefTerm
import proofs.«106879_j33681133535316_1_alg».proof.Proof.Gen.ReferenceIdeal
import proofs.«106879_j33681133535316_1_alg».proof.Proof.Gen.Pre_finite_inputs

noncomputable section

namespace Cert.Proof.Parts

open Idealize.ShloMosaic Idealize.ShloMosaic.TcCoe Idealize.SL.Sem ValueIdx
open Cert.KernelIdeal.Entry

/-- The value claim, given the reference's run, the reference's term read at an entry, and the kernel
    program's result array read at an entry. -/
theorem algebraic_of
    (hrun : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
        r.2.mem ((c.tc : Thread Cert.ReferenceIdeal.nD Cert.ReferenceIdeal.τ).loc Cert.ReferenceIdeal.main_v52)
          = Cert.ReferenceIdeal.RefValue.refTerm (F := Ideal)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))
    (href : ∀ (H : FVec Ideal Cert.ReferenceIdeal.S4x8192x1024 .f32) (W : FVec Ideal Cert.ReferenceIdeal.S3072x1024 .f32) (bqkv : FVec Ideal Cert.ReferenceIdeal.S3072 .f32)
        (Wp : FVec Ideal Cert.ReferenceIdeal.S1024x1024 .f32) (bp g bt : FVec Ideal Cert.ReferenceIdeal.S1024 .f32) (b : Fin 4) (n : Fin 8192) (e : Fin 1024),
        Cert.ReferenceIdeal.RefValue.refTerm (F := Ideal) H W bqkv Wp bp g bt (ix3 b n e)
          = LinAttn.full (fun b n k => H (ix3 b n k)) (fun e k => W (ix2 e k)) (fun e => bqkv (ix1 e)) (fun e j => Wp (ix2 e j))
              (fun e => bp (ix1 e)) (fun e => g (ix1 e)) (fun e => bt (ix1 e)) b n e)
    (hker : ∀ (m : (ℓ : Loc Cert.KernelIdeal.nD Cert.KernelIdeal.τ Cert.KernelIdeal.sig) → Buf (Elt Ideal) ℓ) (ρ : Dev Cert.KernelIdeal.nD → PrngReg)
        (c : Dev Cert.KernelIdeal.nD) (b : Fin 4) (n : Fin 8192) (e : Fin 1024),
        outArr m ρ c (ix3 b n e) = LinAttn.full (aH m c) (aW m c) (aB m c) (aWp m c) (aBp m c) (aG m c) (aBt m c) b n e) :
    Cert.algebraic_KernelIdeal_ReferenceIdeal := by
  intro m ρ m' ρ' _ hagree
  refine ⟨fun c => Cert.KernelIdeal.Gen.W5 m ρ c (Proc.devRef .tc Cert.KernelIdeal.main_v16),
    Cert.KernelIdeal.RunValue.run_value (F := Ideal) m ρ, ?_⟩
  refine (θ_run Cert.ReferenceIdeal.defs _ _).mono (fun _ h c => ⟨(h c).1.trans ?_, (h c).2⟩) (hrun m' ρ')
  rw [(hagree c).1, (hagree c).2.1, (hagree c).2.2.1, (hagree c).2.2.2.1, (hagree c).2.2.2.2.1, (hagree c).2.2.2.2.2.1,
    (hagree c).2.2.2.2.2.2]
  refine Eq.trans ?_ (W5_out m ρ c).symm
  funext i
  obtain ⟨b, n, e, rfl⟩ : ∃ (b : Fin 4) (n : Fin 8192) (e : Fin 1024), i = ix3 b n e := ⟨i 0, i 1, i 2, eq_ix3 i⟩
  exact (href _ _ _ _ _ _ _ b n e).trans (hker m ρ c b n e).symm

end Cert.Proof.Parts

end
-- ==== Proof.KWhole.lean ====
/-
  The kernel program's result array from the three kernels' theorems, each stated for ANY contents the
  kernel may find at its entry: instantiate the first at what the host operations leave, the second at
  what the first kernel leaves, the third at what the second kernel and the re-reading leave.
-/
import proofs.«106879_j33681133535316_1_alg».proof.Proof.KValue

noncomputable section

namespace Cert.KernelIdeal.Entry

open Cert.KernelIdeal Cert.KernelIdeal.Gen Idealize.ShloMosaic Idealize.ShloMosaic.TcCoe Idealize.SL.Sem ValueIdx

theorem out_of_regions
    (R0kv : ∀ (V : (c : Dev nD) → (b : Ref sig .tc) → Buf (Elt Ideal) ((c : Thread nD τ).loc b)) (c : Dev nD) (b : Fin 4) (h : Fin 16) (d v : Fin 64),
      (dat0 (F := Ideal) V c).arrAt 4 cfg0.N (ix4 b h d v)
        = LinAttn.kvSum (fun b n k => V c (Pipeline.arrRef spec0 0) (ix3 b n k)) (fun k j => V c (Pipeline.arrRef spec0 1) (ix2 k j))
            (fun j => V c (Pipeline.arrRef spec0 2) (ix1 j)) (fun j => V c (Pipeline.arrRef spec0 3) (ix1 j)) b h d v)
    (R0k1 : ∀ (V : (c : Dev nD) → (b : Ref sig .tc) → Buf (Elt Ideal) ((c : Thread nD τ).loc b)) (c : Dev nD) (b : Fin 4) (h : Fin 16) (d : Fin 64),
      (dat0 (F := Ideal) V c).arrAt 5 cfg0.N (ix3 b h d)
        = LinAttn.k1Sum (fun b n k => V c (Pipeline.arrRef spec0 0) (ix3 b n k)) (fun k j => V c (Pipeline.arrRef spec0 1) (ix2 k j))
            (fun j => V c (Pipeline.arrRef spec0 2) (ix1 j)) b h d)
    (R1 : ∀ (V : (c : Dev nD) → (b : Ref sig .tc) → Buf (Elt Ideal) ((c : Thread nD τ).loc b)) (c : Dev nD) (b : Fin 4) (h : Fin 16) (n : Fin 8192) (v : Fin 64),
      (dat1 (F := Ideal) V c).arrAt 5 cfg1.N (ix4 b h n v)
        = LinAttn.att (B := 4) (N := 8192) (fun b n k => V c (Pipeline.arrRef spec1 0) (ix3 b n k)) (fun k j => V c (Pipeline.arrRef spec1 1) (ix2 k j))
            (fun j => V c (Pipeline.arrRef spec1 2) (ix1 j)) (fun b h d v => V c (Pipeline.arrRef spec1 3) (ix4 b h d v))
            (fun b h d => V c (Pipeline.arrRef spec1 4) (ix3 b h d)) b h n v)
    (R2 : ∀ (V : (c : Dev nD) → (b : Ref sig .tc) → Buf (Elt Ideal) ((c : Thread nD τ).loc b)) (c : Dev nD) (b : Fin 4) (n : Fin 8192) (e : Fin 1024),
      (dat2 (F := Ideal) V c).arrAt 6 cfg2.N (ix3 b n e)
        = LinAttn.lnOut (B := 4) (N := 8192) (fun b n j => V c (Pipeline.arrRef spec2 0) (ix3 b n j)) (fun j e => V c (Pipeline.arrRef spec2 1) (ix2 j e))
            (fun e => V c (Pipeline.arrRef spec2 2) (ix1 e)) (fun e => V c (Pipeline.arrRef spec2 3) (ix1 e))
            (fun e => V c (Pipeline.arrRef spec2 4) (ix1 e)) (fun b n e => V c (Pipeline.arrRef spec2 5) (ix3 b n e)) b n e)
    (m : (ℓ : Loc nD τ sig) → Buf (Elt Ideal) ℓ) (ρ : Dev nD → PrngReg) (c : Dev nD) (b : Fin 4) (n : Fin 8192) (e : Fin 1024) :
    outArr m ρ c (ix3 b n e) = LinAttn.full (aH m c) (aW m c) (aB m c) (aWp m c) (aBp m c) (aG m c) (aBt m c) b n e := by
  refine out_at m ρ c (fun b h d v => R0kv (V1 m ρ) c b h d v) (fun b h d => R0k1 (V1 m ρ) c b h d) (fun b h n v => ?_) (fun b n e => ?_) b n e
  · have h1 := R1 (V2 m ρ) c b h n v
    rw [V2_w0, V2_w1, V2_w2, V2_w3, V2_w4] at h1
    exact h1
  · have h2 := R2 (V4 m ρ) c b n e
    rw [V4_w0, V4_w1, V4_w2, V4_w3, V4_w4, V4_w5] at h2
    exact h2

end Cert.KernelIdeal.Entry

end
-- ==== Proof.K0Pay.lean ====
/-
  The statistics kernel's arithmetic, read at an index on the extended reals.

  One grid point of the kernel takes a tile X of 512 tokens by 1024 channels, the joint key–value weights
  W [1024, 2048] and the biases bk, bv; it forms P = X·W, the key features K = φ(P[:, :1024] + bk) and the values
  V = P[:, 1024:] + bv, and for each of the 16 heads adds Kₕᵀ·Vₕ (the head's 64 columns of each) into the head's
  [64, 64] block of the key–value output and the column sums of Kₕ into the head's row of the key-sum output.

  This module reads each operation at an index: the two matrix products as finite sums, the column slices, the
  repeated bias row, the unit-axis casts and the token sum; then P, V and K at (token, column) as the
  specification's projections; then one head's two updates as functions (`headKV`, `headK1`) of K, V and what
  the output held, at an index; and finally each head's store as the head's block of ONE function of the output
  index (`GKV`, `GK1`): the entry found plus the tile's statistic.
-/
import proofs.«106879_j33681133535316_1_alg».proof.Proof.Gen.KernelIdeal.Skeleton
import proofs.«106879_j33681133535316_1_alg».proof.Proof.Spec
import Idealize.ShloMosaic.Lib.Pipeline.Value
import Idealize.ShloMosaic.Lib.ValueIdx
import Idealize.ShloMosaic.PureOps.Ideal.Laws

open scoped BigOperators

noncomputable section
namespace Cert.KernelIdeal.Stats
open Cert.KernelIdeal Cert.KernelIdeal.Gen Idealize.ShloMosaic Idealize.ShloMosaic.ValueIdx

/-! ### The two matrix products of the body, read at an index -/

/-- The projection product at row r, column j: the sum over the 1024 contracted coordinates of the entries' products. -/
theorem mm_proj_apply (A : FVec Ideal S512x1024 .bf16) (B : FVec Ideal S1024x2048 .bf16) (r : Fin 512) (j : Fin 2048) :
    matmul dot_S512x1024_S1024x2048_S512x2048_1_0_0_1_n_n none A B (constant S512x2048 .f32 0x00000000#32) (ix2 r j)
      = ∑ k : Fin 1024, A (ix2 r k) * B (ix2 k j) := by
  show FloatOps.matmul _ none A B _ (ix2 r j) = _
  rw [Ideal.matmul_constant_zero_apply,
    ← Equiv.sum_comp (contrEquiv1 dot_S512x1024_S1024x2048_S512x2048_1_0_0_1_n_n 1024 rfl rfl).symm]
  refine Finset.sum_congr rfl fun k _ => ?_
  have ck := contrEquiv1_symm_val dot_S512x1024_S1024x2048_S512x2048_1_0_0_1_n_n 1024 rfl rfl k
  have l2 : dot_S512x1024_S1024x2048_S512x2048_1_0_0_1_n_n.lhsIdx (ix2 r j) ((contrEquiv1 _ 1024 rfl rfl).symm k) = ix2 r k := by
    funext ax; apply Fin.ext
    match ax with
    | ⟨0, _⟩ => simp [DotDims.lhsIdx, dot_S512x1024_S1024x2048_S512x2048_1_0_0_1_n_n]; rfl
    | ⟨1, _⟩ => simp [DotDims.lhsIdx, dot_S512x1024_S1024x2048_S512x2048_1_0_0_1_n_n]; exact ck
  have r2 : dot_S512x1024_S1024x2048_S512x2048_1_0_0_1_n_n.rhsIdx (ix2 r j) ((contrEquiv1 _ 1024 rfl rfl).symm k) = ix2 k j := by
    funext ax; apply Fin.ext
    match ax with
    | ⟨0, _⟩ => simp [DotDims.rhsIdx, dot_S512x1024_S1024x2048_S512x2048_1_0_0_1_n_n]; exact ck
    | ⟨1, _⟩ => simp [DotDims.rhsIdx, dot_S512x1024_S1024x2048_S512x2048_1_0_0_1_n_n]; rfl
  rw [l2, r2]

/-- The key–value product contracts the token axis of BOTH operands: at (d, v) it is the sum over the 512 tokens
    of the products of column d of the first and column v of the second. -/
theorem mm_kv_apply (A B : FVec Ideal S512x64 .bf16) (d v : Fin 64) :
    matmul dot_S512x64_S512x64_S64x64_0_0_1_1_n_n none A B (constant S64x64 .f32 0x00000000#32) (ix2 d v)
      = ∑ r : Fin 512, A (ix2 r d) * B (ix2 r v) := by
  show FloatOps.matmul _ none A B _ (ix2 d v) = _
  rw [Ideal.matmul_constant_zero_apply,
    ← Equiv.sum_comp (contrEquiv1 dot_S512x64_S512x64_S64x64_0_0_1_1_n_n 512 rfl rfl).symm]
  refine Finset.sum_congr rfl fun k _ => ?_
  have ck := contrEquiv1_symm_val dot_S512x64_S512x64_S64x64_0_0_1_1_n_n 512 rfl rfl k
  have l2 : dot_S512x64_S512x64_S64x64_0_0_1_1_n_n.lhsIdx (ix2 d v) ((contrEquiv1 _ 512 rfl rfl).symm k) = ix2 k d := by
    funext ax; apply Fin.ext
    match ax with
    | ⟨0, _⟩ => simp [DotDims.lhsIdx, dot_S512x64_S512x64_S64x64_0_0_1_1_n_n]; exact ck
    | ⟨1, _⟩ => simp [DotDims.lhsIdx, dot_S512x64_S512x64_S64x64_0_0_1_1_n_n]; rfl
  have r2 : dot_S512x64_S512x64_S64x64_0_0_1_1_n_n.rhsIdx (ix2 d v) ((contrEquiv1 _ 512 rfl rfl).symm k) = ix2 k v := by
    funext ax; apply Fin.ext
    match ax with
    | ⟨0, _⟩ => simp [DotDims.rhsIdx, dot_S512x64_S512x64_S64x64_0_0_1_1_n_n]; exact ck
    | ⟨1, _⟩ => simp [DotDims.rhsIdx, dot_S512x64_S512x64_S64x64_0_0_1_1_n_n]; rfl
  rw [l2, r2]

/-! ### The layout operations of the body, read at an index -/

/-- A block of 64 columns from column o of a [512, 1024] array reads column o + d. -/
theorem slice_cols_apply (o : ℕ) (X : FVec Ideal S512x1024 .f32) (hs : S512x1024.Slices ![0, o] S512x64)
    (r : Fin 512) (d : Fin 64) (j : Fin 1024) (hj : j.val = o + d.val) :
    extractStridedSlice S512x64 ![0, o] X hs (ix2 r d) = X (ix2 r j) := by
  refine extractStridedSlice_apply _ X hs (ix2 r d) (ix2 r j) fun a => ?_
  match a with
  | ⟨0, _⟩ => show r.val = 0 + r.val; omega
  | ⟨1, _⟩ => exact hj

/-- A half of 1024 columns from column o of the [512, 2048] projection reads column o + j. -/
theorem slice_half_apply (o : ℕ) (X : FVec Ideal S512x2048 .f32) (hs : S512x2048.Slices ![0, o] S512x1024)
    (r : Fin 512) (j : Fin 1024) (j' : Fin 2048) (hj : j'.val = o + j.val) :
    extractStridedSlice S512x1024 ![0, o] X hs (ix2 r j) = X (ix2 r j') := by
  refine extractStridedSlice_apply _ X hs (ix2 r j) (ix2 r j') fun a => ?_
  match a with
  | ⟨0, _⟩ => show r.val = 0 + r.val; omega
  | ⟨1, _⟩ => exact hj

/-- A bias row repeated over the 512 tokens reads its entry at the column. -/
theorem bias_row_apply (b : Vec Ideal S1024 .f32) (h1 : S1024.ShapeCasts S1024) (h2 : S1024.ShapeCasts S1x1024)
    (h3 : S1x1024.Broadcasts S512x1024) (r : Fin 512) (j : Fin 1024) :
    broadcastTo S512x1024 (shapeCast S1x1024 (shapeCast S1024 b h1) h2) h3 (ix2 r j) = b (ix1 j) := by
  refine (broadcastTo_apply _ h3 (ix2 r j) (ix2 (0 : Fin 1) j) fun a => ?_).trans ?_
  · match a with
    | ⟨0, _⟩ => rfl
    | ⟨1, _⟩ => rfl
  · refine (shapeCast_apply _ h2 (ix2 (0 : Fin 1) j) (ix1 j) ?_).trans ?_
    · rw [Shape.rowMajor_val_one, Shape.rowMajor_val_two]; show j.val = 0 * 1024 + j.val; omega
    · rw [shapeCast_self]

/-- The token tile with its unit batch axis dropped reads the tile at batch 0. -/
theorem tile_drop_apply (X : Vec Ideal S1x512x1024 .bf16) (h : S1x512x1024.ShapeCasts S512x1024) (r : Fin 512) (k : Fin 1024) :
    shapeCast S512x1024 X h (ix2 r k) = X (ix3 (0 : Fin 1) r k) := by
  refine shapeCast_apply X h (ix2 r k) (ix3 (0 : Fin 1) r k) ?_
  rw [Shape.rowMajor_val_three, Shape.rowMajor_val_two]
  show (0 * 512 + r.val) * 1024 + k.val = r.val * 1024 + k.val
  omega

/-- A [64, 64] block stored with two leading unit axes reads the block. -/
theorem add_units44_apply (X : FVec Ideal S64x64 .f32) (h : S64x64.ShapeCasts S1x1x64x64) (d v : Fin 64) :
    shapeCast S1x1x64x64 X h (ix4 (0 : Fin 1) (0 : Fin 1) d v) = X (ix2 d v) := by
  refine shapeCast_apply X h _ (ix2 d v) ?_
  rw [Shape.rowMajor_val_four, Shape.rowMajor_val_two]
  show d.val * 64 + v.val = ((0 * 1 + 0) * 64 + d.val) * 64 + v.val
  omega

/-- A [1, 1, 64, 64] block with its two unit axes dropped reads the block. -/
theorem drop_units44_apply (X : Vec Ideal S1x1x64x64 .f32) (h : S1x1x64x64.ShapeCasts S64x64) (d v : Fin 64) :
    shapeCast S64x64 X h (ix2 d v) = X (ix4 (0 : Fin 1) (0 : Fin 1) d v) := by
  refine shapeCast_apply X h _ (ix4 (0 : Fin 1) (0 : Fin 1) d v) ?_
  rw [Shape.rowMajor_val_four, Shape.rowMajor_val_two]
  show ((0 * 1 + 0) * 64 + d.val) * 64 + v.val = d.val * 64 + v.val
  omega

/-- A row of 64 stored with two leading unit axes reads the row. -/
theorem add_units3_apply (X : FVec Ideal S64 .f32) (h : S64.ShapeCasts S1x1x64) (d : Fin 64) :
    shapeCast S1x1x64 X h (ix3 (0 : Fin 1) (0 : Fin 1) d) = X (ix1 d) := by
  refine shapeCast_apply X h _ (ix1 d) ?_
  rw [Shape.rowMajor_val_three, Shape.rowMajor_val_one]
  show d.val = (0 * 1 + 0) * 64 + d.val
  omega

/-- A [1, 1, 64] row with its two unit axes dropped reads the row. -/
theorem drop_units3_apply (X : Vec Ideal S1x1x64 .f32) (h : S1x1x64.ShapeCasts S64) (d : Fin 64) :
    shapeCast S64 X h (ix1 d) = X (ix3 (0 : Fin 1) (0 : Fin 1) d) := by
  refine shapeCast_apply X h _ (ix3 (0 : Fin 1) (0 : Fin 1) d) ?_
  rw [Shape.rowMajor_val_three, Shape.rowMajor_val_one]
  show (0 * 1 + 0) * 64 + d.val = d.val
  omega

/-- The sum over the 512 tokens of a [512, 64] array, at lane d. -/
theorem sum_tokens_apply (X : FVec Ideal S512x64 .f32) (h : S512x64.Reduces [0] S64)
    (hφ : FKind.Formats .f32) (hacc : (0x00000000#32 : BitVec 32) = FKind.add.neutral .f32 hφ) (d : Fin 64) :
    multiReduction .add [0] S64 X 0x00000000#32 h hφ hacc (ix1 d) = ∑ r : Fin 512, X (ix2 r d) := by
  refine (Ideal.multiReduction_add_single X 0x00000000#32 h hφ hacc (ix1 d)).trans ?_
  refine Finset.sum_congr rfl fun r _ => congrArg X ?_
  funext a; apply Fin.ext
  match a with
  | ⟨0, _⟩ => rfl
  | ⟨1, _⟩ => rfl

/-- The token tile as a one-batch array of 512 tokens by 1024 channels. -/
abbrev tileX (x0 : Vec Ideal S1x512x1024 .bf16) : Fin 1 → Fin 512 → Fin 1024 → EReal := fun _ r k => x0 (ix3 0 r k)
/-- The joint key–value weight matrix, entry (k, j). -/
abbrev matKV (x1 : Vec Ideal S1024x2048 .bf16) : Fin 1024 → Fin 2048 → EReal := fun k j => x1 (ix2 k j)
/-- A bias vector of 1024 entries. -/
abbrev vec1024 (x : Vec Ideal S1024 .f32) : Fin 1024 → EReal := fun j => x (ix1 j)

/-! ### The shared values of the body: the projection, the values, the key features -/

/-- The projection at token r, column j: Σₖ X[r, k] · W[k, j]. -/
theorem pay5_apply (X0 : Vec Ideal S1x512x1024 .bf16) (X1 : Vec Ideal S1024x2048 .bf16) (r : Fin 512) (j : Fin 2048) :
    k0_pay5 X0 X1 (ix2 r j) = ∑ k : Fin 1024, X0 (ix3 (0 : Fin 1) r k) * X1 (ix2 k j) := by
  unfold k0_pay5
  refine (mm_proj_apply _ _ r j).trans ?_
  refine Finset.sum_congr rfl fun k _ => ?_
  exact congrArg₂ (· * ·) (tile_drop_apply X0 _ r k) (congrFun (shapeCast_self X1 _) (ix2 k j))

/-- The value of token r at column j is the value projection of the specification. -/
theorem pay6_apply (X0 : Vec Ideal S1x512x1024 .bf16) (X1 : Vec Ideal S1024x2048 .bf16) (X3 : Vec Ideal S1024 .f32)
    (r : Fin 512) (j : Fin 1024) :
    k0_pay6 X0 X1 X3 (ix2 r j) = LinAttn.vproj (tileX X0) (matKV X1) (vec1024 X3) 0 r j := by
  unfold k0_pay6
  exact congrArg₂ (· + ·)
    ((slice_half_apply 1024 _ _ r j ⟨1024 + j.val, by omega⟩ rfl).trans (pay5_apply X0 X1 r _))
    (bias_row_apply X3 _ _ _ r j)

/-- The feature map on one extended real, as the body spells it (a comparison with the word of 0, a select). -/
theorem phi_spelled (x y : EReal) (h : x = y) :
    Scalar.select (FloatOps.cmpf (F := Ideal) (φ := .f32) .ogt x (Scalar.ofBits .f32 0x00000000#32))
      (FloatOps.addf (F := Ideal) (φ := .f32) x (Scalar.ofBits .f32 0x3F800000#32)) (FloatOps.exp (F := Ideal) (φ := .f32) x)
      = LinAttn.phi y := by
  subst h; rfl

/-- The key feature of token r at column j is φ of the key projection of the specification. -/
theorem pay7_apply (X0 : Vec Ideal S1x512x1024 .bf16) (X1 : Vec Ideal S1024x2048 .bf16) (X2 : Vec Ideal S1024 .f32)
    (r : Fin 512) (j : Fin 1024) :
    k0_pay7 X0 X1 X2 (ix2 r j) = LinAttn.phi (LinAttn.kproj (tileX X0) (matKV X1) (vec1024 X2) 0 r j) := by
  unfold k0_pay7
  refine phi_spelled _ _ ?_
  exact congrArg₂ (· + ·)
    ((slice_half_apply 0 _ _ r j ⟨j.val, by omega⟩ (Nat.zero_add _).symm).trans (pay5_apply X0 X1 r _))
    (bias_row_apply X2 _ _ _ r j)

/-! ### One head's update of the two running sums -/

section Generic
variable {F : FTy → Type} [FloatOps F]

/-- One head's new key–value block: the block found, plus (the head's 64 feature columns)ᵀ · (its 64 value columns),
    as the body spells it for the head whose columns start at column o. -/
def headKV (o : ℕ) (hs : S512x1024.Slices ![0, o] S512x64) (K V : FVec F S512x1024 .f32) (old : Vec F S1x1x64x64 .f32) :
    FVec F S1x1x64x64 .f32 :=
  shapeCast S1x1x64x64
    (addf (shapeCast S64x64 old shapeCasts_S1x1x64x64_S64x64)
      (matmul dot_S512x64_S512x64_S64x64_0_0_1_1_n_n none
        (truncf .bf16 (extractStridedSlice S512x64 ![0, o] K hs) bitsLt_bf16_f32)
        (truncf .bf16 (extractStridedSlice S512x64 ![0, o] V hs) bitsLt_bf16_f32)
        (constant S64x64 .f32 0x00000000#32)))
    shapeCasts_S64x64_S1x1x64x64

/-- One head's new key-sum row: the row found, plus the sums over the tokens of the head's 64 feature columns. -/
def headK1 (o : ℕ) (hs : S512x1024.Slices ![0, o] S512x64) (K : FVec F S512x1024 .f32) (old : Vec F S1x1x64 .f32) :
    FVec F S1x1x64 .f32 :=
  shapeCast S1x1x64
    (addf (shapeCast S64 old shapeCasts_S1x1x64_S64)
      (multiReduction .add [0] S64 (extractStridedSlice S512x64 ![0, o] K hs) 0x00000000#32 reduces_S512x64_S64 (.inl rfl) rfl))
    shapeCasts_S64_S1x1x64

end Generic

/-- At (d, v) the new block is the old entry plus Σᵣ K[r, o + d] · V[r, o + v]. -/
theorem headKV_apply (o : ℕ) (hs : S512x1024.Slices ![0, o] S512x64) (K V : FVec Ideal S512x1024 .f32)
    (old : Vec Ideal S1x1x64x64 .f32) (d v : Fin 64) (jd jv : Fin 1024) (hjd : jd.val = o + d.val) (hjv : jv.val = o + v.val) :
    headKV o hs K V old (ix4 (0 : Fin 1) (0 : Fin 1) d v)
      = old (ix4 (0 : Fin 1) (0 : Fin 1) d v) + ∑ r : Fin 512, K (ix2 r jd) * V (ix2 r jv) := by
  unfold headKV
  refine (add_units44_apply _ _ d v).trans ?_
  refine congrArg₂ (· + ·) (drop_units44_apply old _ d v) ((mm_kv_apply _ _ d v).trans ?_)
  exact Finset.sum_congr rfl fun r _ =>
    congrArg₂ (· * ·) (slice_cols_apply o K hs r d jd hjd) (slice_cols_apply o V hs r v jv hjv)

/-- At lane d the new row is the old entry plus Σᵣ K[r, o + d]. -/
theorem headK1_apply (o : ℕ) (hs : S512x1024.Slices ![0, o] S512x64) (K : FVec Ideal S512x1024 .f32)
    (old : Vec Ideal S1x1x64 .f32) (d : Fin 64) (jd : Fin 1024) (hjd : jd.val = o + d.val) :
    headK1 o hs K old (ix3 (0 : Fin 1) (0 : Fin 1) d)
      = old (ix3 (0 : Fin 1) (0 : Fin 1) d) + ∑ r : Fin 512, K (ix2 r jd) := by
  unfold headK1
  refine (add_units3_apply _ _ d).trans ?_
  refine congrArg₂ (· + ·) (drop_units3_apply old _ d) ((sum_tokens_apply _ _ _ _ d).trans ?_)
  exact Finset.sum_congr rfl fun r _ => slice_cols_apply o K hs r d jd hjd

/-! ### The two outputs as functions of the index, and each head's store as a block of them -/

/-- The key–value output after a point that found xo4: the entry found plus the tile's key–value statistic. -/
def GKV (x0 : Vec Ideal S1x512x1024 .bf16) (x1 : Vec Ideal S1024x2048 .bf16) (x2 x3 : Vec Ideal S1024 .f32)
    (xo4 : Vec Ideal S1x16x64x64 .f32) : S1x16x64x64.Idx → EReal := fun y =>
  xo4 y + LinAttn.kvSum (tileX x0) (matKV x1) (vec1024 x2) (vec1024 x3) 0
    (⟨(y 1).val, (y 1).isLt⟩ : Fin 16) (⟨(y 2).val, (y 2).isLt⟩ : Fin 64) (⟨(y 3).val, (y 3).isLt⟩ : Fin 64)

/-- The key-sum output after a point that found xo5: the entry found plus the tile's key sum. -/
def GK1 (x0 : Vec Ideal S1x512x1024 .bf16) (x1 : Vec Ideal S1024x2048 .bf16) (x2 : Vec Ideal S1024 .f32)
    (xo5 : Vec Ideal S1x16x64 .f32) : S1x16x64.Idx → EReal := fun y =>
  xo5 y + LinAttn.k1Sum (tileX x0) (matKV x1) (vec1024 x2) 0
    (⟨(y 1).val, (y 1).isLt⟩ : Fin 16) (⟨(y 2).val, (y 2).isLt⟩ : Fin 64)

/-- An index of a [1, 1, 64, 64] block is (0, 0, d, v). -/
theorem eq_ix4_units (x : (⟨4, ![1, 1, 64, 64]⟩ : Shape).Idx) : x = ix4 (0 : Fin 1) (0 : Fin 1) (x 2) (x 3) := by
  funext a; apply Fin.ext
  match a with
  | ⟨0, _⟩ => have h : (x 0).val < 1 := (x 0).isLt; show (x 0).val = 0; omega
  | ⟨1, _⟩ => have h : (x 1).val < 1 := (x 1).isLt; show (x 1).val = 0; omega
  | ⟨2, _⟩ => rfl
  | ⟨3, _⟩ => rfl

/-- An index of a [1, 1, 64] row is (0, 0, d). -/
theorem eq_ix3_units (x : (⟨3, ![1, 1, 64]⟩ : Shape).Idx) : x = ix3 (0 : Fin 1) (0 : Fin 1) (x 2) := by
  funext a; apply Fin.ext
  match a with
  | ⟨0, _⟩ => have h : (x 0).val < 1 := (x 0).isLt; show (x 0).val = 0; omega
  | ⟨1, _⟩ => have h : (x 1).val < 1 := (x 1).isLt; show (x 1).val = 0; omega
  | ⟨2, _⟩ => rfl

/-- Head hh's [1, 1, 64, 64] block sits at (0, hh, d, v) of the [1, 16, 64, 64] output. -/
theorem emb_head4 (hh : ℕ) (hhlt : hh < 16) (inb : ∀ a, (![0, hh, 0, 0] : Fin 4 → ℕ) a + (![1, 1, 64, 64] : Fin 4 → ℕ) a ≤ S1x16x64x64.size a)
    (d v : Fin 64) :
    (Rect.unit (s := S1x16x64x64) ![0, hh, 0, 0] ![1, 1, 64, 64] inb).emb (ix4 (0 : Fin 1) (0 : Fin 1) d v)
      = ix4 (0 : Fin 1) (⟨hh, hhlt⟩ : Fin 16) d v := by
  funext a; apply Fin.ext
  match a with
  | ⟨0, _⟩ => rfl
  | ⟨1, _⟩ => show hh + 1 * 0 = hh; omega
  | ⟨2, _⟩ => show 0 + 1 * d.val = d.val; omega
  | ⟨3, _⟩ => show 0 + 1 * v.val = v.val; omega

/-- Head hh's [1, 1, 64] row sits at (0, hh, d) of the [1, 16, 64] output. -/
theorem emb_head3 (hh : ℕ) (hhlt : hh < 16) (inb : ∀ a, (![0, hh, 0] : Fin 3 → ℕ) a + (![1, 1, 64] : Fin 3 → ℕ) a ≤ S1x16x64.size a)
    (d : Fin 64) :
    (Rect.unit (s := S1x16x64) ![0, hh, 0] ![1, 1, 64] inb).emb (ix3 (0 : Fin 1) (0 : Fin 1) d)
      = ix3 (0 : Fin 1) (⟨hh, hhlt⟩ : Fin 16) d := by
  funext a; apply Fin.ext
  match a with
  | ⟨0, _⟩ => rfl
  | ⟨1, _⟩ => show hh + 1 * 0 = hh; omega
  | ⟨2, _⟩ => show 0 + 1 * d.val = d.val; omega

/-- Head hh's store of the key–value block, computed from what the output held there, is head hh's block of GKV. -/
theorem pieceKV_at (hh : ℕ) (hhlt : hh < 16) (o : ℕ) (ho : o = 64 * hh) (hs : S512x1024.Slices ![0, o] S512x64)
    (inb : ∀ a, (![0, hh, 0, 0] : Fin 4 → ℕ) a + (![1, 1, 64, 64] : Fin 4 → ℕ) a ≤ S1x16x64x64.size a)
    (x0 : Vec Ideal S1x512x1024 .bf16) (x1 : Vec Ideal S1024x2048 .bf16) (x2 x3 : Vec Ideal S1024 .f32)
    (xo4 : Vec Ideal S1x16x64x64 .f32) (d v : Fin 64) :
    headKV o hs (k0_pay7 x0 x1 x2) (k0_pay6 x0 x1 x3)
        (View.ld xo4 (Rect.unit (s := S1x16x64x64) ![0, hh, 0, 0] ![1, 1, 64, 64] inb)) (ix4 (0 : Fin 1) (0 : Fin 1) d v)
      = GKV x0 x1 x2 x3 xo4
          ((Rect.unit (s := S1x16x64x64) ![0, hh, 0, 0] ![1, 1, 64, 64] inb).emb (ix4 (0 : Fin 1) (0 : Fin 1) d v)) := by
  have hd : (LinAttn.col ⟨hh, hhlt⟩ d).val = o + d.val := by subst ho; rfl
  have hv : (LinAttn.col ⟨hh, hhlt⟩ v).val = o + v.val := by subst ho; rfl
  have e := emb_head4 hh hhlt inb d v
  refine (headKV_apply o hs _ _ _ d v _ _ hd hv).trans ?_
  refine Eq.trans ?_ (congrArg (GKV x0 x1 x2 x3 xo4) e).symm
  unfold GKV LinAttn.kvSum
  refine congrArg₂ (· + ·) (congrArg xo4 e) (Finset.sum_congr rfl fun r _ => ?_)
  exact congrArg₂ (· * ·) (pay7_apply x0 x1 x2 r _) (pay6_apply x0 x1 x3 r _)

/-- The same at every index of the head's block. -/
theorem pieceKV (hh : ℕ) (hhlt : hh < 16) (o : ℕ) (ho : o = 64 * hh) (hs : S512x1024.Slices ![0, o] S512x64)
    (inb : ∀ a, (![0, hh, 0, 0] : Fin 4 → ℕ) a + (![1, 1, 64, 64] : Fin 4 → ℕ) a ≤ S1x16x64x64.size a)
    (x0 : Vec Ideal S1x512x1024 .bf16) (x1 : Vec Ideal S1024x2048 .bf16) (x2 x3 : Vec Ideal S1024 .f32)
    (xo4 : Vec Ideal S1x16x64x64 .f32) (x : (⟨4, ![1, 1, 64, 64]⟩ : Shape).Idx) :
    headKV o hs (k0_pay7 x0 x1 x2) (k0_pay6 x0 x1 x3)
        (View.ld xo4 (Rect.unit (s := S1x16x64x64) ![0, hh, 0, 0] ![1, 1, 64, 64] inb)) x
      = GKV x0 x1 x2 x3 xo4 ((Rect.unit (s := S1x16x64x64) ![0, hh, 0, 0] ![1, 1, 64, 64] inb).emb x) := by
  rw [eq_ix4_units x]
  exact pieceKV_at hh hhlt o ho hs inb x0 x1 x2 x3 xo4 (x 2) (x 3)

/-- Head hh's store of the key-sum row, computed from what the output held there, is head hh's block of GK1. -/
theorem pieceK1_at (hh : ℕ) (hhlt : hh < 16) (o : ℕ) (ho : o = 64 * hh) (hs : S512x1024.Slices ![0, o] S512x64)
    (inb : ∀ a, (![0, hh, 0] : Fin 3 → ℕ) a + (![1, 1, 64] : Fin 3 → ℕ) a ≤ S1x16x64.size a)
    (x0 : Vec Ideal S1x512x1024 .bf16) (x1 : Vec Ideal S1024x2048 .bf16) (x2 : Vec Ideal S1024 .f32)
    (xo5 : Vec Ideal S1x16x64 .f32) (d : Fin 64) :
    headK1 o hs (k0_pay7 x0 x1 x2) (View.ld xo5 (Rect.unit (s := S1x16x64) ![0, hh, 0] ![1, 1, 64] inb))
        (ix3 (0 : Fin 1) (0 : Fin 1) d)
      = GK1 x0 x1 x2 xo5 ((Rect.unit (s := S1x16x64) ![0, hh, 0] ![1, 1, 64] inb).emb (ix3 (0 : Fin 1) (0 : Fin 1) d)) := by
  have hd : (LinAttn.col ⟨hh, hhlt⟩ d).val = o + d.val := by subst ho; rfl
  have e := emb_head3 hh hhlt inb d
  refine (headK1_apply o hs _ _ d _ hd).trans ?_
  refine Eq.trans ?_ (congrArg (GK1 x0 x1 x2 xo5) e).symm
  unfold GK1 LinAttn.k1Sum
  refine congrArg₂ (· + ·) (congrArg xo5 e) (Finset.sum_congr rfl fun r _ => ?_)
  exact pay7_apply x0 x1 x2 r _

/-- The same at every index of the head's row. -/
theorem pieceK1 (hh : ℕ) (hhlt : hh < 16) (o : ℕ) (ho : o = 64 * hh) (hs : S512x1024.Slices ![0, o] S512x64)
    (inb : ∀ a, (![0, hh, 0] : Fin 3 → ℕ) a + (![1, 1, 64] : Fin 3 → ℕ) a ≤ S1x16x64.size a)
    (x0 : Vec Ideal S1x512x1024 .bf16) (x1 : Vec Ideal S1024x2048 .bf16) (x2 : Vec Ideal S1024 .f32)
    (xo5 : Vec Ideal S1x16x64 .f32) (x : (⟨3, ![1, 1, 64]⟩ : Shape).Idx) :
    headK1 o hs (k0_pay7 x0 x1 x2) (View.ld xo5 (Rect.unit (s := S1x16x64) ![0, hh, 0] ![1, 1, 64] inb)) x
      = GK1 x0 x1 x2 xo5 ((Rect.unit (s := S1x16x64) ![0, hh, 0] ![1, 1, 64] inb).emb x) := by
  rw [eq_ix3_units x]
  exact pieceK1_at hh hhlt o ho hs inb x0 x1 x2 xo5 (x 2)

end Cert.KernelIdeal.Stats
-- ==== Proof.K0BodyStep.lean ====
/-
  The first grid point of a batch: the outputs are zeroed, then the sixteen heads are added one after another.

  The body stores the zero block into each output and then, head by head, reads the head's block back, adds the
  tile's contribution and stores it. Stated as an invariant of the list of stores made so far: after the heads
  below hh the output holds, on those heads, the zero word plus the tile's statistic, and the zero word on the
  others (`InvKV`, `InvK1`). The zero store establishes it at hh = 0 and head hh's store carries it from hh to
  hh + 1, because what that store reads back on head hh is still the zero word.
-/
import proofs.«106879_j33681133535316_1_alg».proof.Proof.K0Pay
import Idealize.ShloMosaic.Lib.Pipeline.Value
import Idealize.ShloMosaic.Lib.ValueIdx

open scoped BigOperators

noncomputable section
namespace Cert.KernelIdeal.Stats
open Cert.KernelIdeal Cert.KernelIdeal.Gen Idealize.ShloMosaic Idealize.ShloMosaic.ValueIdx

/-! ### The first point of a batch: the outputs are zeroed, then the heads are added one after another

After the zero store and the stores of heads 0 … hh − 1, the key–value output holds the finished entry (the zero
word plus the tile's statistic) on the heads below hh and the zero word on the others; head hh's store, computed
from what the output then holds on head hh, extends this to hh + 1. -/

/-- The invariant of the key–value output after the heads below hh. -/
def InvKV (x0 : Vec Ideal S1x512x1024 .bf16) (x1 : Vec Ideal S1024x2048 .bf16) (x2 x3 : Vec Ideal S1024 .f32)
    (T : List (View.Piece (Elt Ideal) S1x16x64x64 .f32)) (hh : ℕ) : Prop :=
  ∀ y : S1x16x64x64.Idx, View.canon T y
    = if (y 1).val < hh then GKV x0 x1 x2 x3 (k0_pay3 (F := Ideal)) y else k0_pay3 (F := Ideal) y

/-- The invariant of the key-sum output after the heads below hh. -/
def InvK1 (x0 : Vec Ideal S1x512x1024 .bf16) (x1 : Vec Ideal S1024x2048 .bf16) (x2 : Vec Ideal S1024 .f32)
    (T : List (View.Piece (Elt Ideal) S1x16x64 .f32)) (hh : ℕ) : Prop :=
  ∀ y : S1x16x64.Idx, View.canon T y
    = if (y 1).val < hh then GK1 x0 x1 x2 (k0_pay4 (F := Ideal)) y else k0_pay4 (F := Ideal) y

private theorem hz4 : (![0, 0, 0, 0] : Fin 4 → ℕ) = fun _ => 0 := funext fun a => by fin_cases a <;> rfl
private theorem hz3' : (![0, 0, 0] : Fin 3 → ℕ) = fun _ => 0 := funext fun a => by fin_cases a <;> rfl

/-- After the zero store alone every head holds the zero word. -/
theorem invKV_zero (x0 : Vec Ideal S1x512x1024 .bf16) (x1 : Vec Ideal S1024x2048 .bf16) (x2 x3 : Vec Ideal S1024 .f32)
    (inb : ∀ a, (![0, 0, 0, 0] : Fin 4 → ℕ) a + S1x16x64x64.size a ≤ S1x16x64x64.size a) :
    InvKV x0 x1 x2 x3 [⟨Rect.unit ![0, 0, 0, 0] S1x16x64x64.size inb, k0_pay3 (F := Ideal)⟩] 0 := by
  intro y
  rw [View.canon_unit_zero hz4]
  exact (if_neg (Nat.not_lt_zero _)).symm

theorem invK1_zero (x0 : Vec Ideal S1x512x1024 .bf16) (x1 : Vec Ideal S1024x2048 .bf16) (x2 : Vec Ideal S1024 .f32)
    (inb : ∀ a, (![0, 0, 0] : Fin 3 → ℕ) a + S1x16x64.size a ≤ S1x16x64.size a) :
    InvK1 x0 x1 x2 [⟨Rect.unit ![0, 0, 0] S1x16x64.size inb, k0_pay4 (F := Ideal)⟩] 0 := by
  intro y
  rw [View.canon_unit_zero hz3']
  exact (if_neg (Nat.not_lt_zero _)).symm

/-- Head hh's store extends the invariant of the key–value output from hh to hh + 1. -/
theorem invKV_step {sig : RefSig} (hh : ℕ) (hhlt : hh < 16) (o : ℕ) (ho : o = 64 * hh) (hs : S512x1024.Slices ![0, o] S512x64)
    (inb : ∀ a, (![0, hh, 0, 0] : Fin 4 → ℕ) a + (![1, 1, 64, 64] : Fin 4 → ℕ) a ≤ S1x16x64x64.size a)
    (x0 : Vec Ideal S1x512x1024 .bf16) (x1 : Vec Ideal S1024x2048 .bf16) (x2 x3 : Vec Ideal S1024 .f32)
    (vw : View sig .tc .vmem S1x16x64x64 .f32)
    (T : List (View.Piece (Elt Ideal) S1x16x64x64 .f32)) (hT : InvKV x0 x1 x2 x3 T hh) :
    InvKV x0 x1 x2 x3
      (⟨Rect.unit (s := S1x16x64x64) ![0, hh, 0, 0] ![1, 1, 64, 64] inb,
        headKV o hs (k0_pay7 x0 x1 x2) (k0_pay6 x0 x1 x3)
          (vw.readCov T (Rect.unit (s := S1x16x64x64) ![0, hh, 0, 0] ![1, 1, 64, 64] inb).toLoadRect)⟩ :: T) (hh + 1) := by
  have hold : vw.readCov T (Rect.unit (s := S1x16x64x64) ![0, hh, 0, 0] ![1, 1, 64, 64] inb).toLoadRect
      = View.ld (k0_pay3 (F := Ideal)) (Rect.unit (s := S1x16x64x64) ![0, hh, 0, 0] ![1, 1, 64, 64] inb) := by
    rw [View.readCov_eq_canon']
    funext j
    rw [hT]
    refine if_neg ?_
    show ¬ hh + 1 * (j 1).val < hh
    omega
  rw [hold]
  have hP : ∀ x, headKV o hs (k0_pay7 x0 x1 x2) (k0_pay6 x0 x1 x3)
      (View.ld (k0_pay3 (F := Ideal)) (Rect.unit (s := S1x16x64x64) ![0, hh, 0, 0] ![1, 1, 64, 64] inb)) x
      = GKV x0 x1 x2 x3 (k0_pay3 (F := Ideal)) ((Rect.unit (s := S1x16x64x64) ![0, hh, 0, 0] ![1, 1, 64, 64] inb).emb x) :=
    pieceKV hh hhlt o ho hs inb x0 x1 x2 x3 (k0_pay3 (F := Ideal))
  generalize headKV o hs (k0_pay7 x0 x1 x2) (k0_pay6 x0 x1 x3)
      (View.ld (k0_pay3 (F := Ideal)) (Rect.unit (s := S1x16x64x64) ![0, hh, 0, 0] ![1, 1, 64, 64] inb)) = P at hP ⊢
  have hmemR : ∀ y : S1x16x64x64.Idx, y ∈ (Rect.unit (s := S1x16x64x64) ![0, hh, 0, 0] ![1, 1, 64, 64] inb).set ↔ (y 1).val = hh := by
    intro y
    rw [Rect.mem_set_unit]
    constructor
    · intro hall
      have h1' : hh ≤ (y 1).val ∧ (y 1).val < hh + 1 := hall 1
      omega
    · intro hm a
      match a with
      | ⟨0, _⟩ => have h0 : (y 0).val < 1 := (y 0).isLt; show 0 ≤ (y 0).val ∧ (y 0).val < 0 + 1; omega
      | ⟨1, _⟩ => show hh ≤ (y 1).val ∧ (y 1).val < hh + 1; omega
      | ⟨2, _⟩ => have h2 : (y 2).val < 64 := (y 2).isLt; show 0 ≤ (y 2).val ∧ (y 2).val < 0 + 64; omega
      | ⟨3, _⟩ => have h3 : (y 3).val < 64 := (y 3).isLt; show 0 ≤ (y 3).val ∧ (y 3).val < 0 + 64; omega
  intro y
  by_cases hm : (y 1).val = hh
  · have hmem : y ∈ (Rect.unit (s := S1x16x64x64) ![0, hh, 0, 0] ![1, 1, 64, 64] inb).set := (hmemR y).mpr hm
    obtain ⟨x, rfl⟩ := (Rect.unit (s := S1x16x64x64) ![0, hh, 0, 0] ![1, 1, 64, 64] inb).exists_idx_of_mem hmem
    rw [if_pos (by omega)]
    exact (View.canon_cons_emb (Rect.unit (s := S1x16x64x64) ![0, hh, 0, 0] ![1, 1, 64, 64] inb) P T x).trans (hP x)
  · have hnm : y ∉ (⟨(Rect.unit (s := S1x16x64x64) ![0, hh, 0, 0] ![1, 1, 64, 64] inb), P⟩ : View.Piece (Elt Ideal) S1x16x64x64 .f32).1.set := fun hmem => hm ((hmemR y).mp hmem)
    rw [View.canon_cons_of_not_mem ⟨(Rect.unit (s := S1x16x64x64) ![0, hh, 0, 0] ![1, 1, 64, 64] inb), P⟩ T hnm, hT y]
    by_cases hlt : (y 1).val < hh
    · rw [if_pos hlt, if_pos (by omega)]
    · rw [if_neg hlt, if_neg (by omega)]

/-- Head hh's store extends the invariant of the key-sum output from hh to hh + 1. -/
theorem invK1_step {sig : RefSig} (hh : ℕ) (hhlt : hh < 16) (o : ℕ) (ho : o = 64 * hh) (hs : S512x1024.Slices ![0, o] S512x64)
    (inb : ∀ a, (![0, hh, 0] : Fin 3 → ℕ) a + (![1, 1, 64] : Fin 3 → ℕ) a ≤ S1x16x64.size a)
    (x0 : Vec Ideal S1x512x1024 .bf16) (x1 : Vec Ideal S1024x2048 .bf16) (x2 : Vec Ideal S1024 .f32)
    (vw : View sig .tc .vmem S1x16x64 .f32)
    (T : List (View.Piece (Elt Ideal) S1x16x64 .f32)) (hT : InvK1 x0 x1 x2 T hh) :
    InvK1 x0 x1 x2
      (⟨Rect.unit (s := S1x16x64) ![0, hh, 0] ![1, 1, 64] inb,
        headK1 o hs (k0_pay7 x0 x1 x2)
          (vw.readCov T (Rect.unit (s := S1x16x64) ![0, hh, 0] ![1, 1, 64] inb).toLoadRect)⟩ :: T) (hh + 1) := by
  have hold : vw.readCov T (Rect.unit (s := S1x16x64) ![0, hh, 0] ![1, 1, 64] inb).toLoadRect
      = View.ld (k0_pay4 (F := Ideal)) (Rect.unit (s := S1x16x64) ![0, hh, 0] ![1, 1, 64] inb) := by
    rw [View.readCov_eq_canon']
    funext j
    rw [hT]
    refine if_neg ?_
    show ¬ hh + 1 * (j 1).val < hh
    omega
  rw [hold]
  have hP : ∀ x, headK1 o hs (k0_pay7 x0 x1 x2)
      (View.ld (k0_pay4 (F := Ideal)) (Rect.unit (s := S1x16x64) ![0, hh, 0] ![1, 1, 64] inb)) x
      = GK1 x0 x1 x2 (k0_pay4 (F := Ideal)) ((Rect.unit (s := S1x16x64) ![0, hh, 0] ![1, 1, 64] inb).emb x) :=
    pieceK1 hh hhlt o ho hs inb x0 x1 x2 (k0_pay4 (F := Ideal))
  generalize headK1 o hs (k0_pay7 x0 x1 x2)
      (View.ld (k0_pay4 (F := Ideal)) (Rect.unit (s := S1x16x64) ![0, hh, 0] ![1, 1, 64] inb)) = P at hP ⊢
  have hmemR : ∀ y : S1x16x64.Idx, y ∈ (Rect.unit (s := S1x16x64) ![0, hh, 0] ![1, 1, 64] inb).set ↔ (y 1).val = hh := by
    intro y
    rw [Rect.mem_set_unit]
    constructor
    · intro hall
      have h1' : hh ≤ (y 1).val ∧ (y 1).val < hh + 1 := hall 1
      omega
    · intro hm a
      match a with
      | ⟨0, _⟩ => have h0 : (y 0).val < 1 := (y 0).isLt; show 0 ≤ (y 0).val ∧ (y 0).val < 0 + 1; omega
      | ⟨1, _⟩ => show hh ≤ (y 1).val ∧ (y 1).val < hh + 1; omega
      | ⟨2, _⟩ => have h2 : (y 2).val < 64 := (y 2).isLt; show 0 ≤ (y 2).val ∧ (y 2).val < 0 + 64; omega
  intro y
  by_cases hm : (y 1).val = hh
  · have hmem : y ∈ (Rect.unit (s := S1x16x64) ![0, hh, 0] ![1, 1, 64] inb).set := (hmemR y).mpr hm
    obtain ⟨x, rfl⟩ := (Rect.unit (s := S1x16x64) ![0, hh, 0] ![1, 1, 64] inb).exists_idx_of_mem hmem
    rw [if_pos (by omega)]
    exact (View.canon_cons_emb (Rect.unit (s := S1x16x64) ![0, hh, 0] ![1, 1, 64] inb) P T x).trans (hP x)
  · have hnm : y ∉ (⟨(Rect.unit (s := S1x16x64) ![0, hh, 0] ![1, 1, 64] inb), P⟩ : View.Piece (Elt Ideal) S1x16x64 .f32).1.set := fun hmem => hm ((hmemR y).mp hmem)
    rw [View.canon_cons_of_not_mem ⟨(Rect.unit (s := S1x16x64) ![0, hh, 0] ![1, 1, 64] inb), P⟩ T hnm, hT y]
    by_cases hlt : (y 1).val < hh
    · rw [if_pos hlt, if_pos (by omega)]
    · rw [if_neg hlt, if_neg (by omega)]

/-- The zero block reads the zero word, which is 0. -/
theorem pay3_apply (y : S1x16x64x64.Idx) : k0_pay3 (F := Ideal) y = 0 := by
  show Ideal.ofBits .f32 0x00000000#32 = 0
  exact Ideal.ofBits_zero_f32

theorem pay4_apply (y : S1x16x64.Idx) : k0_pay4 (F := Ideal) y = 0 := by
  show Ideal.ofBits .f32 0x00000000#32 = 0
  exact Ideal.ofBits_zero_f32

end Cert.KernelIdeal.Stats
-- ==== Proof.K0BodyA4.lean ====
/-
  What the FIRST grid point of a batch leaves in the key–value output of the statistics kernel.

  The run of that point names the list of stores made so far after each head (a zero store, then one store per
  head). The invariant of the zeroed-then-accumulated output (`InvKV`) holds of the first list and passes from each
  list to the next by the one step lemma, so after the sixteenth head every entry is the zero word plus the tile's
  statistic — and the zero word is 0.
-/
import proofs.«106879_j33681133535316_1_alg».proof.Proof.Gen.KernelIdeal.Frame
import proofs.«106879_j33681133535316_1_alg».proof.Proof.K0BodyStep
import Idealize.ShloMosaic.Lib.Pipeline.Value
import Idealize.ShloMosaic.Lib.ValueIdx
import Idealize.ShloMosaic.Lib.Tactic

set_option maxHeartbeats 400000

open scoped BigOperators

noncomputable section
namespace Cert.KernelIdeal.Stats
open Cert.KernelIdeal Cert.KernelIdeal.Gen Idealize.ShloMosaic Idealize.ShloMosaic.ValueIdx
open Idealize.ShloMosaic.Tactic

private theorem hz3 : (![0, 0, 0] : Fin 3 → ℕ) = fun _ => 0 := funext fun a => by fin_cases a <;> rfl
private theorem hz2 : (![0, 0] : Fin 2 → ℕ) = fun _ => 0 := funext fun a => by fin_cases a <;> rfl
private theorem hz1 : (![0] : Fin 1 → ℕ) = fun _ => 0 := funext fun a => by fin_cases a <;> rfl

/-- Opens the named intermediate values of the first-point run (its loads and partial results), leaving the named
    lists of stores closed. -/
local macro "open_run_names" : tactic => `(tactic| simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v31, kernelRun0_A.sl.v49, kernelRun0_A.sl.v67, kernelRun0_A.sl.v85, kernelRun0_A.sl.v103, kernelRun0_A.sl.v121, kernelRun0_A.sl.v139, kernelRun0_A.sl.v157, kernelRun0_A.sl.v175, kernelRun0_A.sl.v193, kernelRun0_A.sl.v211, kernelRun0_A.sl.v229, kernelRun0_A.sl.v247, kernelRun0_A.sl.v265, kernelRun0_A.sl.v283, kernelRun0_A.sl.v301, kernelRun0_A.sl.v37, kernelRun0_A.sl.v55, kernelRun0_A.sl.v73, kernelRun0_A.sl.v91, kernelRun0_A.sl.v109, kernelRun0_A.sl.v127, kernelRun0_A.sl.v145, kernelRun0_A.sl.v163, kernelRun0_A.sl.v181, kernelRun0_A.sl.v199, kernelRun0_A.sl.v217, kernelRun0_A.sl.v235, kernelRun0_A.sl.v253, kernelRun0_A.sl.v271, kernelRun0_A.sl.v289, kernelRun0_A.sl.v307, kernelRun0_A.sl.v0, kernelRun0_A.sl.v1, kernelRun0_A.sl.v2])

section KV
variable (c : Dev nD) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32)
  (x0 : Vec Ideal S1x512x1024 .bf16) (x1 : Vec Ideal S1024x2048 .bf16) (x2 : Vec Ideal S1024 .f32) (x3 : Vec Ideal S1024 .f32)

/-- After the zero store: no head is finished. -/
theorem invA4_1 : InvKV x0 x1 x2 x3 (kernelRun0_A.sl.H4_1 (F := Ideal)) 0 := by
  unfold kernelRun0_A.sl.H4_1
  exact invKV_zero x0 x1 x2 x3 _

/-- After head 0's store: the heads below 1 are finished. -/
theorem invA4_2 : InvKV x0 x1 x2 x3 (kernelRun0_A.sl.H4_2 (F := Ideal) c arg2 harg2 arg3 harg3 arg4 harg4 arg5 harg5 arg6 x0 x1 x2 x3) 1 := by
  unfold kernelRun0_A.sl.H4_2
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 0 (by omega) 0 rfl slices_S512x1024_o0_0_S512x64 _ x0 x1 x2 x3 arg6.view _ (invA4_1 x0 x1 x2 x3)

/-- After head 1's store: the heads below 2 are finished. -/
theorem invA4_3 : InvKV x0 x1 x2 x3 (kernelRun0_A.sl.H4_3 (F := Ideal) c arg2 harg2 arg3 harg3 arg4 harg4 arg5 harg5 arg6 x0 x1 x2 x3) 2 := by
  unfold kernelRun0_A.sl.H4_3
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 1 (by omega) 64 rfl slices_S512x1024_o0_64_S512x64 _ x0 x1 x2 x3 arg6.view _ (invA4_2 c arg2 harg2 arg3 harg3 arg4 harg4 arg5 harg5 arg6 x0 x1 x2 x3)

/-- After head 2's store: the heads below 3 are finished. -/
theorem invA4_4 : InvKV x0 x1 x2 x3 (kernelRun0_A.sl.H4_4 (F := Ideal) c arg2 harg2 arg3 harg3 arg4 harg4 arg5 harg5 arg6 x0 x1 x2 x3) 3 := by
  unfold kernelRun0_A.sl.H4_4
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 2 (by omega) 128 rfl slices_S512x1024_o0_128_S512x64 _ x0 x1 x2 x3 arg6.view _ (invA4_3 c arg2 harg2 arg3 harg3 arg4 harg4 arg5 harg5 arg6 x0 x1 x2 x3)

/-- After head 3's store: the heads below 4 are finished. -/
theorem invA4_5 : InvKV x0 x1 x2 x3 (kernelRun0_A.sl.H4_5 (F := Ideal) c arg2 harg2 arg3 harg3 arg4 harg4 arg5 harg5 arg6 x0 x1 x2 x3) 4 := by
  unfold kernelRun0_A.sl.H4_5
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 3 (by omega) 192 rfl slices_S512x1024_o0_192_S512x64 _ x0 x1 x2 x3 arg6.view _ (invA4_4 c arg2 harg2 arg3 harg3 arg4 harg4 arg5 harg5 arg6 x0 x1 x2 x3)

/-- After head 4's store: the heads below 5 are finished. -/
theorem invA4_6 : InvKV x0 x1 x2 x3 (kernelRun0_A.sl.H4_6 (F := Ideal) c arg2 harg2 arg3 harg3 arg4 harg4 arg5 harg5 arg6 x0 x1 x2 x3) 5 := by
  unfold kernelRun0_A.sl.H4_6
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 4 (by omega) 256 rfl slices_S512x1024_o0_256_S512x64 _ x0 x1 x2 x3 arg6.view _ (invA4_5 c arg2 harg2 arg3 harg3 arg4 harg4 arg5 harg5 arg6 x0 x1 x2 x3)

/-- After head 5's store: the heads below 6 are finished. -/
theorem invA4_7 : InvKV x0 x1 x2 x3 (kernelRun0_A.sl.H4_7 (F := Ideal) c arg2 harg2 arg3 harg3 arg4 harg4 arg5 harg5 arg6 x0 x1 x2 x3) 6 := by
  unfold kernelRun0_A.sl.H4_7
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 5 (by omega) 320 rfl slices_S512x1024_o0_320_S512x64 _ x0 x1 x2 x3 arg6.view _ (invA4_6 c arg2 harg2 arg3 harg3 arg4 harg4 arg5 harg5 arg6 x0 x1 x2 x3)

/-- After head 6's store: the heads below 7 are finished. -/
theorem invA4_8 : InvKV x0 x1 x2 x3 (kernelRun0_A.sl.H4_8 (F := Ideal) c arg2 harg2 arg3 harg3 arg4 harg4 arg5 harg5 arg6 x0 x1 x2 x3) 7 := by
  unfold kernelRun0_A.sl.H4_8
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 6 (by omega) 384 rfl slices_S512x1024_o0_384_S512x64 _ x0 x1 x2 x3 arg6.view _ (invA4_7 c arg2 harg2 arg3 harg3 arg4 harg4 arg5 harg5 arg6 x0 x1 x2 x3)

/-- After head 7's store: the heads below 8 are finished. -/
theorem invA4_9 : InvKV x0 x1 x2 x3 (kernelRun0_A.sl.H4_9 (F := Ideal) c arg2 harg2 arg3 harg3 arg4 harg4 arg5 harg5 arg6 x0 x1 x2 x3) 8 := by
  unfold kernelRun0_A.sl.H4_9
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 7 (by omega) 448 rfl slices_S512x1024_o0_448_S512x64 _ x0 x1 x2 x3 arg6.view _ (invA4_8 c arg2 harg2 arg3 harg3 arg4 harg4 arg5 harg5 arg6 x0 x1 x2 x3)

/-- After head 8's store: the heads below 9 are finished. -/
theorem invA4_10 : InvKV x0 x1 x2 x3 (kernelRun0_A.sl.H4_10 (F := Ideal) c arg2 harg2 arg3 harg3 arg4 harg4 arg5 harg5 arg6 x0 x1 x2 x3) 9 := by
  unfold kernelRun0_A.sl.H4_10
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 8 (by omega) 512 rfl slices_S512x1024_o0_512_S512x64 _ x0 x1 x2 x3 arg6.view _ (invA4_9 c arg2 harg2 arg3 harg3 arg4 harg4 arg5 harg5 arg6 x0 x1 x2 x3)

/-- After head 9's store: the heads below 10 are finished. -/
theorem invA4_11 : InvKV x0 x1 x2 x3 (kernelRun0_A.sl.H4_11 (F := Ideal) c arg2 harg2 arg3 harg3 arg4 harg4 arg5 harg5 arg6 x0 x1 x2 x3) 10 := by
  unfold kernelRun0_A.sl.H4_11
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 9 (by omega) 576 rfl slices_S512x1024_o0_576_S512x64 _ x0 x1 x2 x3 arg6.view _ (invA4_10 c arg2 harg2 arg3 harg3 arg4 harg4 arg5 harg5 arg6 x0 x1 x2 x3)

/-- After head 10's store: the heads below 11 are finished. -/
theorem invA4_12 : InvKV x0 x1 x2 x3 (kernelRun0_A.sl.H4_12 (F := Ideal) c arg2 harg2 arg3 harg3 arg4 harg4 arg5 harg5 arg6 x0 x1 x2 x3) 11 := by
  unfold kernelRun0_A.sl.H4_12
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 10 (by omega) 640 rfl slices_S512x1024_o0_640_S512x64 _ x0 x1 x2 x3 arg6.view _ (invA4_11 c arg2 harg2 arg3 harg3 arg4 harg4 arg5 harg5 arg6 x0 x1 x2 x3)

/-- After head 11's store: the heads below 12 are finished. -/
theorem invA4_13 : InvKV x0 x1 x2 x3 (kernelRun0_A.sl.H4_13 (F := Ideal) c arg2 harg2 arg3 harg3 arg4 harg4 arg5 harg5 arg6 x0 x1 x2 x3) 12 := by
  unfold kernelRun0_A.sl.H4_13
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 11 (by omega) 704 rfl slices_S512x1024_o0_704_S512x64 _ x0 x1 x2 x3 arg6.view _ (invA4_12 c arg2 harg2 arg3 harg3 arg4 harg4 arg5 harg5 arg6 x0 x1 x2 x3)

/-- After head 12's store: the heads below 13 are finished. -/
theorem invA4_14 : InvKV x0 x1 x2 x3 (kernelRun0_A.sl.H4_14 (F := Ideal) c arg2 harg2 arg3 harg3 arg4 harg4 arg5 harg5 arg6 x0 x1 x2 x3) 13 := by
  unfold kernelRun0_A.sl.H4_14
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 12 (by omega) 768 rfl slices_S512x1024_o0_768_S512x64 _ x0 x1 x2 x3 arg6.view _ (invA4_13 c arg2 harg2 arg3 harg3 arg4 harg4 arg5 harg5 arg6 x0 x1 x2 x3)

/-- After head 13's store: the heads below 14 are finished. -/
theorem invA4_15 : InvKV x0 x1 x2 x3 (kernelRun0_A.sl.H4_15 (F := Ideal) c arg2 harg2 arg3 harg3 arg4 harg4 arg5 harg5 arg6 x0 x1 x2 x3) 14 := by
  unfold kernelRun0_A.sl.H4_15
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 13 (by omega) 832 rfl slices_S512x1024_o0_832_S512x64 _ x0 x1 x2 x3 arg6.view _ (invA4_14 c arg2 harg2 arg3 harg3 arg4 harg4 arg5 harg5 arg6 x0 x1 x2 x3)

/-- After head 14's store: the heads below 15 are finished. -/
theorem invA4_16 : InvKV x0 x1 x2 x3 (kernelRun0_A.sl.H4_16 (F := Ideal) c arg2 harg2 arg3 harg3 arg4 harg4 arg5 harg5 arg6 x0 x1 x2 x3) 15 := by
  unfold kernelRun0_A.sl.H4_16
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 14 (by omega) 896 rfl slices_S512x1024_o0_896_S512x64 _ x0 x1 x2 x3 arg6.view _ (invA4_15 c arg2 harg2 arg3 harg3 arg4 harg4 arg5 harg5 arg6 x0 x1 x2 x3)

end KV

/-- After head 15's store, the last: every head is finished. -/
theorem invA4_17 (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32) :
    InvKV x0 x1 x2 x3 (kernelRun0_A (F := Ideal) c i arg2 harg2 arg3 harg3 arg4 harg4 arg5 harg5 arg6 harg6 arg7 harg7 hc0 x0 x1 x2 x3).1 16 := by
  unfold kernelRun0_A
  dsimp only
  open_run_names
  simp only [View.readAt_eq_ld, harg2.read_unread, harg3.read_unread, harg4.read_unread, harg5.read_unread,
    View.ld_unit_zero (S := S1x512x1024) hz3, View.ld_unit_zero (S := S1024x2048) hz2, View.ld_unit_zero (S := S1024) hz1]
  exact invKV_step 15 (by omega) 960 rfl slices_S512x1024_o0_960_S512x64 _ x0 x1 x2 x3 arg6.view _ (invA4_16 c arg2 harg2 arg3 harg3 arg4 harg4 arg5 harg5 arg6 x0 x1 x2 x3)

/-- The first point of a batch leaves, at (0, h, d, v) of the key–value output, the tile's Σₙ φ(k[n, 64h + d]) · v[n, 64h + v]:
    the zero word it stored first, plus the head's contribution. -/
theorem outA4_at (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32)
    (h : Fin 16) (d v : Fin 64) :
    out0_A_4 (F := Ideal) c i arg2 harg2 arg3 harg3 arg4 harg4 arg5 harg5 arg6 harg6 arg7 harg7 hc0 x0 x1 x2 x3 (ix4 (0 : Fin 1) h d v)
      = LinAttn.kvSum (tileX x0) (matKV x1) (vec1024 x2) (vec1024 x3) 0 h d v := by
  unfold out0_A_4
  rw [View.read_writes_eq_canon _ _ _ (cover0_A_4 c i arg2 harg2 arg3 harg3 arg4 harg4 arg5 harg5 arg6 harg6 arg7 harg7 hc0 x0 x1 x2 x3)]
  refine (invA4_17 c i arg2 harg2 arg3 harg3 arg4 harg4 arg5 harg5 arg6 harg6 arg7 harg7 hc0 x0 x1 x2 x3 (ix4 (0 : Fin 1) h d v)).trans ?_
  rw [if_pos (show (ix4 (0 : Fin 1) h d v 1).val < 16 from h.isLt)]
  show k0_pay3 (F := Ideal) (ix4 (0 : Fin 1) h d v) + LinAttn.kvSum (tileX x0) (matKV x1) (vec1024 x2) (vec1024 x3) 0 h d v = _
  rw [pay3_apply, zero_add]

end Cert.KernelIdeal.Stats
-- ==== Proof.K0BodyA5.lean ====
/-
  What the FIRST grid point of a batch leaves in the key-sum output of the statistics kernel.

  As for the key–value output: the invariant of the zeroed-then-accumulated rows (`InvK1`) holds of the run's first
  named list of stores and passes from each list to the next by the one step lemma, so after the sixteenth head
  every entry is the zero word plus the tile's key sum — and the zero word is 0.
-/
import proofs.«106879_j33681133535316_1_alg».proof.Proof.Gen.KernelIdeal.Frame
import proofs.«106879_j33681133535316_1_alg».proof.Proof.K0BodyStep
import Idealize.ShloMosaic.Lib.Pipeline.Value
import Idealize.ShloMosaic.Lib.ValueIdx
import Idealize.ShloMosaic.Lib.Tactic

set_option maxHeartbeats 400000

open scoped BigOperators

noncomputable section
namespace Cert.KernelIdeal.Stats
open Cert.KernelIdeal Cert.KernelIdeal.Gen Idealize.ShloMosaic Idealize.ShloMosaic.ValueIdx
open Idealize.ShloMosaic.Tactic

private theorem hz3 : (![0, 0, 0] : Fin 3 → ℕ) = fun _ => 0 := funext fun a => by fin_cases a <;> rfl
private theorem hz2 : (![0, 0] : Fin 2 → ℕ) = fun _ => 0 := funext fun a => by fin_cases a <;> rfl
private theorem hz1 : (![0] : Fin 1 → ℕ) = fun _ => 0 := funext fun a => by fin_cases a <;> rfl

/-- Opens the named intermediate values of the first-point run (its loads and partial results), leaving the named
    lists of stores closed. -/
local macro "open_run_names" : tactic => `(tactic| simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.v31, kernelRun0_A.sl.v49, kernelRun0_A.sl.v67, kernelRun0_A.sl.v85, kernelRun0_A.sl.v103, kernelRun0_A.sl.v121, kernelRun0_A.sl.v139, kernelRun0_A.sl.v157, kernelRun0_A.sl.v175, kernelRun0_A.sl.v193, kernelRun0_A.sl.v211, kernelRun0_A.sl.v229, kernelRun0_A.sl.v247, kernelRun0_A.sl.v265, kernelRun0_A.sl.v283, kernelRun0_A.sl.v301, kernelRun0_A.sl.v37, kernelRun0_A.sl.v55, kernelRun0_A.sl.v73, kernelRun0_A.sl.v91, kernelRun0_A.sl.v109, kernelRun0_A.sl.v127, kernelRun0_A.sl.v145, kernelRun0_A.sl.v163, kernelRun0_A.sl.v181, kernelRun0_A.sl.v199, kernelRun0_A.sl.v217, kernelRun0_A.sl.v235, kernelRun0_A.sl.v253, kernelRun0_A.sl.v271, kernelRun0_A.sl.v289, kernelRun0_A.sl.v307, kernelRun0_A.sl.v0, kernelRun0_A.sl.v1, kernelRun0_A.sl.v2])

section K1
variable (c : Dev nD) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg7 : Memref sig .tc .vmem S1x16x64 .f32)
  (x0 : Vec Ideal S1x512x1024 .bf16) (x1 : Vec Ideal S1024x2048 .bf16) (x2 : Vec Ideal S1024 .f32)

/-- After the zero store: no head is finished. -/
theorem invA5_1 : InvK1 x0 x1 x2 (kernelRun0_A.sl.H5_1 (F := Ideal)) 0 := by
  unfold kernelRun0_A.sl.H5_1
  exact invK1_zero x0 x1 x2 _

/-- After head 0's store: the heads below 1 are finished. -/
theorem invA5_2 : InvK1 x0 x1 x2 (kernelRun0_A.sl.H5_2 (F := Ideal) c arg2 harg2 arg3 harg3 arg4 harg4 arg7 x0 x1 x2) 1 := by
  unfold kernelRun0_A.sl.H5_2
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 0 (by omega) 0 rfl slices_S512x1024_o0_0_S512x64 _ x0 x1 x2 arg7.view _ (invA5_1 x0 x1 x2)

/-- After head 1's store: the heads below 2 are finished. -/
theorem invA5_3 : InvK1 x0 x1 x2 (kernelRun0_A.sl.H5_3 (F := Ideal) c arg2 harg2 arg3 harg3 arg4 harg4 arg7 x0 x1 x2) 2 := by
  unfold kernelRun0_A.sl.H5_3
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 1 (by omega) 64 rfl slices_S512x1024_o0_64_S512x64 _ x0 x1 x2 arg7.view _ (invA5_2 c arg2 harg2 arg3 harg3 arg4 harg4 arg7 x0 x1 x2)

/-- After head 2's store: the heads below 3 are finished. -/
theorem invA5_4 : InvK1 x0 x1 x2 (kernelRun0_A.sl.H5_4 (F := Ideal) c arg2 harg2 arg3 harg3 arg4 harg4 arg7 x0 x1 x2) 3 := by
  unfold kernelRun0_A.sl.H5_4
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 2 (by omega) 128 rfl slices_S512x1024_o0_128_S512x64 _ x0 x1 x2 arg7.view _ (invA5_3 c arg2 harg2 arg3 harg3 arg4 harg4 arg7 x0 x1 x2)

/-- After head 3's store: the heads below 4 are finished. -/
theorem invA5_5 : InvK1 x0 x1 x2 (kernelRun0_A.sl.H5_5 (F := Ideal) c arg2 harg2 arg3 harg3 arg4 harg4 arg7 x0 x1 x2) 4 := by
  unfold kernelRun0_A.sl.H5_5
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 3 (by omega) 192 rfl slices_S512x1024_o0_192_S512x64 _ x0 x1 x2 arg7.view _ (invA5_4 c arg2 harg2 arg3 harg3 arg4 harg4 arg7 x0 x1 x2)

/-- After head 4's store: the heads below 5 are finished. -/
theorem invA5_6 : InvK1 x0 x1 x2 (kernelRun0_A.sl.H5_6 (F := Ideal) c arg2 harg2 arg3 harg3 arg4 harg4 arg7 x0 x1 x2) 5 := by
  unfold kernelRun0_A.sl.H5_6
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 4 (by omega) 256 rfl slices_S512x1024_o0_256_S512x64 _ x0 x1 x2 arg7.view _ (invA5_5 c arg2 harg2 arg3 harg3 arg4 harg4 arg7 x0 x1 x2)

/-- After head 5's store: the heads below 6 are finished. -/
theorem invA5_7 : InvK1 x0 x1 x2 (kernelRun0_A.sl.H5_7 (F := Ideal) c arg2 harg2 arg3 harg3 arg4 harg4 arg7 x0 x1 x2) 6 := by
  unfold kernelRun0_A.sl.H5_7
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 5 (by omega) 320 rfl slices_S512x1024_o0_320_S512x64 _ x0 x1 x2 arg7.view _ (invA5_6 c arg2 harg2 arg3 harg3 arg4 harg4 arg7 x0 x1 x2)

/-- After head 6's store: the heads below 7 are finished. -/
theorem invA5_8 : InvK1 x0 x1 x2 (kernelRun0_A.sl.H5_8 (F := Ideal) c arg2 harg2 arg3 harg3 arg4 harg4 arg7 x0 x1 x2) 7 := by
  unfold kernelRun0_A.sl.H5_8
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 6 (by omega) 384 rfl slices_S512x1024_o0_384_S512x64 _ x0 x1 x2 arg7.view _ (invA5_7 c arg2 harg2 arg3 harg3 arg4 harg4 arg7 x0 x1 x2)

/-- After head 7's store: the heads below 8 are finished. -/
theorem invA5_9 : InvK1 x0 x1 x2 (kernelRun0_A.sl.H5_9 (F := Ideal) c arg2 harg2 arg3 harg3 arg4 harg4 arg7 x0 x1 x2) 8 := by
  unfold kernelRun0_A.sl.H5_9
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 7 (by omega) 448 rfl slices_S512x1024_o0_448_S512x64 _ x0 x1 x2 arg7.view _ (invA5_8 c arg2 harg2 arg3 harg3 arg4 harg4 arg7 x0 x1 x2)

/-- After head 8's store: the heads below 9 are finished. -/
theorem invA5_10 : InvK1 x0 x1 x2 (kernelRun0_A.sl.H5_10 (F := Ideal) c arg2 harg2 arg3 harg3 arg4 harg4 arg7 x0 x1 x2) 9 := by
  unfold kernelRun0_A.sl.H5_10
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 8 (by omega) 512 rfl slices_S512x1024_o0_512_S512x64 _ x0 x1 x2 arg7.view _ (invA5_9 c arg2 harg2 arg3 harg3 arg4 harg4 arg7 x0 x1 x2)

/-- After head 9's store: the heads below 10 are finished. -/
theorem invA5_11 : InvK1 x0 x1 x2 (kernelRun0_A.sl.H5_11 (F := Ideal) c arg2 harg2 arg3 harg3 arg4 harg4 arg7 x0 x1 x2) 10 := by
  unfold kernelRun0_A.sl.H5_11
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 9 (by omega) 576 rfl slices_S512x1024_o0_576_S512x64 _ x0 x1 x2 arg7.view _ (invA5_10 c arg2 harg2 arg3 harg3 arg4 harg4 arg7 x0 x1 x2)

/-- After head 10's store: the heads below 11 are finished. -/
theorem invA5_12 : InvK1 x0 x1 x2 (kernelRun0_A.sl.H5_12 (F := Ideal) c arg2 harg2 arg3 harg3 arg4 harg4 arg7 x0 x1 x2) 11 := by
  unfold kernelRun0_A.sl.H5_12
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 10 (by omega) 640 rfl slices_S512x1024_o0_640_S512x64 _ x0 x1 x2 arg7.view _ (invA5_11 c arg2 harg2 arg3 harg3 arg4 harg4 arg7 x0 x1 x2)

/-- After head 11's store: the heads below 12 are finished. -/
theorem invA5_13 : InvK1 x0 x1 x2 (kernelRun0_A.sl.H5_13 (F := Ideal) c arg2 harg2 arg3 harg3 arg4 harg4 arg7 x0 x1 x2) 12 := by
  unfold kernelRun0_A.sl.H5_13
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 11 (by omega) 704 rfl slices_S512x1024_o0_704_S512x64 _ x0 x1 x2 arg7.view _ (invA5_12 c arg2 harg2 arg3 harg3 arg4 harg4 arg7 x0 x1 x2)

/-- After head 12's store: the heads below 13 are finished. -/
theorem invA5_14 : InvK1 x0 x1 x2 (kernelRun0_A.sl.H5_14 (F := Ideal) c arg2 harg2 arg3 harg3 arg4 harg4 arg7 x0 x1 x2) 13 := by
  unfold kernelRun0_A.sl.H5_14
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 12 (by omega) 768 rfl slices_S512x1024_o0_768_S512x64 _ x0 x1 x2 arg7.view _ (invA5_13 c arg2 harg2 arg3 harg3 arg4 harg4 arg7 x0 x1 x2)

/-- After head 13's store: the heads below 14 are finished. -/
theorem invA5_15 : InvK1 x0 x1 x2 (kernelRun0_A.sl.H5_15 (F := Ideal) c arg2 harg2 arg3 harg3 arg4 harg4 arg7 x0 x1 x2) 14 := by
  unfold kernelRun0_A.sl.H5_15
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 13 (by omega) 832 rfl slices_S512x1024_o0_832_S512x64 _ x0 x1 x2 arg7.view _ (invA5_14 c arg2 harg2 arg3 harg3 arg4 harg4 arg7 x0 x1 x2)

/-- After head 14's store: the heads below 15 are finished. -/
theorem invA5_16 : InvK1 x0 x1 x2 (kernelRun0_A.sl.H5_16 (F := Ideal) c arg2 harg2 arg3 harg3 arg4 harg4 arg7 x0 x1 x2) 15 := by
  unfold kernelRun0_A.sl.H5_16
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 14 (by omega) 896 rfl slices_S512x1024_o0_896_S512x64 _ x0 x1 x2 arg7.view _ (invA5_15 c arg2 harg2 arg3 harg3 arg4 harg4 arg7 x0 x1 x2)

end K1

/-- After head 15's store, the last: every head is finished. -/
theorem invA5_17 (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32) :
    InvK1 x0 x1 x2 (kernelRun0_A (F := Ideal) c i arg2 harg2 arg3 harg3 arg4 harg4 arg5 harg5 arg6 harg6 arg7 harg7 hc0 x0 x1 x2 x3).2.1 16 := by
  unfold kernelRun0_A
  dsimp only
  open_run_names
  simp only [View.readAt_eq_ld, harg2.read_unread, harg3.read_unread, harg4.read_unread,
    View.ld_unit_zero (S := S1x512x1024) hz3, View.ld_unit_zero (S := S1024x2048) hz2, View.ld_unit_zero (S := S1024) hz1]
  exact invK1_step 15 (by omega) 960 rfl slices_S512x1024_o0_960_S512x64 _ x0 x1 x2 arg7.view _ (invA5_16 c arg2 harg2 arg3 harg3 arg4 harg4 arg7 x0 x1 x2)

/-- The first point of a batch leaves, at (0, h, d) of the key-sum output, the tile's Σₙ φ(k[n, 64h + d]): the zero
    word it stored first, plus the head's contribution. -/
theorem outA5_at (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32)
    (h : Fin 16) (d : Fin 64) :
    out0_A_5 (F := Ideal) c i arg2 harg2 arg3 harg3 arg4 harg4 arg5 harg5 arg6 harg6 arg7 harg7 hc0 x0 x1 x2 x3 (ix3 (0 : Fin 1) h d)
      = LinAttn.k1Sum (tileX x0) (matKV x1) (vec1024 x2) 0 h d := by
  unfold out0_A_5
  rw [View.read_writes_eq_canon _ _ _ (cover0_A_5 c i arg2 harg2 arg3 harg3 arg4 harg4 arg5 harg5 arg6 harg6 arg7 harg7 hc0 x0 x1 x2 x3)]
  refine (invA5_17 c i arg2 harg2 arg3 harg3 arg4 harg4 arg5 harg5 arg6 harg6 arg7 harg7 hc0 x0 x1 x2 x3 (ix3 (0 : Fin 1) h d)).trans ?_
  rw [if_pos (show (ix3 (0 : Fin 1) h d 1).val < 16 from h.isLt)]
  show k0_pay4 (F := Ideal) (ix3 (0 : Fin 1) h d) + LinAttn.k1Sum (tileX x0) (matKV x1) (vec1024 x2) 0 h d = _
  rw [pay4_apply, zero_add]

end Cert.KernelIdeal.Stats
-- ==== Proof.K0BodyB.lean ====
/-
  What a grid point of the statistics kernel that is NOT the first of its batch leaves in its two outputs.

  The point finds the running sums xo4 [1, 16, 64, 64] and xo5 [1, 16, 64]; for each head it reads the head's block,
  adds the tile's contribution and stores the block back. The sixteen stores of each output are the sixteen blocks
  of ONE function of the output index — the entry found plus the tile's statistic (`GKV`, `GK1`) — and together
  they cover the output, so the output reads that function everywhere.
-/
import proofs.«106879_j33681133535316_1_alg».proof.Proof.Gen.KernelIdeal.Frame
import proofs.«106879_j33681133535316_1_alg».proof.Proof.K0Pay
import Idealize.ShloMosaic.Lib.Pipeline.Value
import Idealize.ShloMosaic.Lib.ValueIdx
import Idealize.ShloMosaic.Lib.Tactic

open scoped BigOperators

noncomputable section
namespace Cert.KernelIdeal.Stats
open Cert.KernelIdeal Cert.KernelIdeal.Gen Idealize.ShloMosaic Idealize.ShloMosaic.ValueIdx
open Idealize.ShloMosaic.Tactic

/-- Zero offsets, however many axes. -/
private theorem hz3 : (![0, 0, 0] : Fin 3 → ℕ) = fun _ => 0 := funext fun a => by fin_cases a <;> rfl
private theorem hz2 : (![0, 0] : Fin 2 → ℕ) = fun _ => 0 := funext fun a => by fin_cases a <;> rfl
private theorem hz1 : (![0] : Fin 1 → ℕ) = fun _ => 0 := funext fun a => by fin_cases a <;> rfl

/-- A point that is not the first of its batch leaves, at (0, h, d, v) of the key–value output, the entry it found
    plus the tile's Σₙ φ(k[n, 64h + d]) · v[n, 64h + v]: the sixteen per-head stores are the sixteen blocks of one function. -/
theorem outB4_at (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : ¬cond0_0 i)
    (x0 : Vec Ideal S1x512x1024 .bf16) (x1 : Vec Ideal S1024x2048 .bf16) (x2 : Vec Ideal S1024 .f32) (x3 : Vec Ideal S1024 .f32)
    (xo4 : Vec Ideal S1x16x64x64 .f32) (xo5 : Vec Ideal S1x16x64 .f32)
    (h : Fin 16) (d v : Fin 64) :
    out0_B_4 (F := Ideal) c i arg2 harg2 arg3 harg3 arg4 harg4 arg5 harg5 arg6 harg6 arg7 harg7 hc0 x0 x1 x2 x3 xo4 xo5 (ix4 (0 : Fin 1) h d v)
      = xo4 (ix4 (0 : Fin 1) h d v) + LinAttn.kvSum (tileX x0) (matKV x1) (vec1024 x2) (vec1024 x3) 0 h d v := by
  have hcov := cover0_B_4 (F := Ideal) c i arg2 harg2 arg3 harg3 arg4 harg4 arg5 harg5 arg6 harg6 arg7 harg7 hc0 x0 x1 x2 x3 xo4 xo5 (ix4 (0 : Fin 1) h d v)
  unfold out0_B_4
  rw [View.read_writes_eq_canon _ _ _ (cover0_B_4 c i arg2 harg2 arg3 harg3 arg4 harg4 arg5 harg5 arg6 harg6 arg7 harg7 hc0 x0 x1 x2 x3 xo4 xo5)]
  revert hcov
  unfold kernelRun0_B
  dsimp only
  sl_unfold_run_names
  simp only [View.readAt_eq_ld, harg2.read_unread, harg3.read_unread, harg4.read_unread, harg5.read_unread, harg6.read_unread,
    View.ld_unit_zero (S := S1x512x1024) hz3, View.ld_unit_zero (S := S1024x2048) hz2, View.ld_unit_zero (S := S1024) hz1]
  intro hcov
  refine (View.canon_apply_of_pieces (GKV x0 x1 x2 x3 xo4) _ ?_ _ hcov).trans rfl
  refine List.forall_mem_cons.mpr ⟨fun x => pieceKV 15 (by omega) 960 rfl slices_S512x1024_o0_960_S512x64 _ x0 x1 x2 x3 xo4 x, ?_⟩
  refine List.forall_mem_cons.mpr ⟨fun x => pieceKV 14 (by omega) 896 rfl slices_S512x1024_o0_896_S512x64 _ x0 x1 x2 x3 xo4 x, ?_⟩
  refine List.forall_mem_cons.mpr ⟨fun x => pieceKV 13 (by omega) 832 rfl slices_S512x1024_o0_832_S512x64 _ x0 x1 x2 x3 xo4 x, ?_⟩
  refine List.forall_mem_cons.mpr ⟨fun x => pieceKV 12 (by omega) 768 rfl slices_S512x1024_o0_768_S512x64 _ x0 x1 x2 x3 xo4 x, ?_⟩
  refine List.forall_mem_cons.mpr ⟨fun x => pieceKV 11 (by omega) 704 rfl slices_S512x1024_o0_704_S512x64 _ x0 x1 x2 x3 xo4 x, ?_⟩
  refine List.forall_mem_cons.mpr ⟨fun x => pieceKV 10 (by omega) 640 rfl slices_S512x1024_o0_640_S512x64 _ x0 x1 x2 x3 xo4 x, ?_⟩
  refine List.forall_mem_cons.mpr ⟨fun x => pieceKV 9 (by omega) 576 rfl slices_S512x1024_o0_576_S512x64 _ x0 x1 x2 x3 xo4 x, ?_⟩
  refine List.forall_mem_cons.mpr ⟨fun x => pieceKV 8 (by omega) 512 rfl slices_S512x1024_o0_512_S512x64 _ x0 x1 x2 x3 xo4 x, ?_⟩
  refine List.forall_mem_cons.mpr ⟨fun x => pieceKV 7 (by omega) 448 rfl slices_S512x1024_o0_448_S512x64 _ x0 x1 x2 x3 xo4 x, ?_⟩
  refine List.forall_mem_cons.mpr ⟨fun x => pieceKV 6 (by omega) 384 rfl slices_S512x1024_o0_384_S512x64 _ x0 x1 x2 x3 xo4 x, ?_⟩
  refine List.forall_mem_cons.mpr ⟨fun x => pieceKV 5 (by omega) 320 rfl slices_S512x1024_o0_320_S512x64 _ x0 x1 x2 x3 xo4 x, ?_⟩
  refine List.forall_mem_cons.mpr ⟨fun x => pieceKV 4 (by omega) 256 rfl slices_S512x1024_o0_256_S512x64 _ x0 x1 x2 x3 xo4 x, ?_⟩
  refine List.forall_mem_cons.mpr ⟨fun x => pieceKV 3 (by omega) 192 rfl slices_S512x1024_o0_192_S512x64 _ x0 x1 x2 x3 xo4 x, ?_⟩
  refine List.forall_mem_cons.mpr ⟨fun x => pieceKV 2 (by omega) 128 rfl slices_S512x1024_o0_128_S512x64 _ x0 x1 x2 x3 xo4 x, ?_⟩
  refine List.forall_mem_cons.mpr ⟨fun x => pieceKV 1 (by omega) 64 rfl slices_S512x1024_o0_64_S512x64 _ x0 x1 x2 x3 xo4 x, ?_⟩
  refine List.forall_mem_cons.mpr ⟨fun x => pieceKV 0 (by omega) 0 rfl slices_S512x1024_o0_0_S512x64 _ x0 x1 x2 x3 xo4 x, ?_⟩
  exact fun p hp => absurd hp List.not_mem_nil

/-- A point that is not the first of its batch leaves, at (0, h, d) of the key-sum output, the entry it found plus
    the tile's Σₙ φ(k[n, 64h + d]). -/
theorem outB5_at (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : ¬cond0_0 i)
    (x0 : Vec Ideal S1x512x1024 .bf16) (x1 : Vec Ideal S1024x2048 .bf16) (x2 : Vec Ideal S1024 .f32) (x3 : Vec Ideal S1024 .f32)
    (xo4 : Vec Ideal S1x16x64x64 .f32) (xo5 : Vec Ideal S1x16x64 .f32)
    (h : Fin 16) (d : Fin 64) :
    out0_B_5 (F := Ideal) c i arg2 harg2 arg3 harg3 arg4 harg4 arg5 harg5 arg6 harg6 arg7 harg7 hc0 x0 x1 x2 x3 xo4 xo5 (ix3 (0 : Fin 1) h d)
      = xo5 (ix3 (0 : Fin 1) h d) + LinAttn.k1Sum (tileX x0) (matKV x1) (vec1024 x2) 0 h d := by
  have hcov := cover0_B_5 (F := Ideal) c i arg2 harg2 arg3 harg3 arg4 harg4 arg5 harg5 arg6 harg6 arg7 harg7 hc0 x0 x1 x2 x3 xo4 xo5 (ix3 (0 : Fin 1) h d)
  unfold out0_B_5
  rw [View.read_writes_eq_canon _ _ _ (cover0_B_5 c i arg2 harg2 arg3 harg3 arg4 harg4 arg5 harg5 arg6 harg6 arg7 harg7 hc0 x0 x1 x2 x3 xo4 xo5)]
  revert hcov
  unfold kernelRun0_B
  dsimp only
  sl_unfold_run_names
  simp only [View.readAt_eq_ld, harg2.read_unread, harg3.read_unread, harg4.read_unread, harg7.read_unread,
    View.ld_unit_zero (S := S1x512x1024) hz3, View.ld_unit_zero (S := S1024x2048) hz2, View.ld_unit_zero (S := S1024) hz1]
  intro hcov
  refine (View.canon_apply_of_pieces (GK1 x0 x1 x2 xo5) _ ?_ _ hcov).trans rfl
  refine List.forall_mem_cons.mpr ⟨fun x => pieceK1 15 (by omega) 960 rfl slices_S512x1024_o0_960_S512x64 _ x0 x1 x2 xo5 x, ?_⟩
  refine List.forall_mem_cons.mpr ⟨fun x => pieceK1 14 (by omega) 896 rfl slices_S512x1024_o0_896_S512x64 _ x0 x1 x2 xo5 x, ?_⟩
  refine List.forall_mem_cons.mpr ⟨fun x => pieceK1 13 (by omega) 832 rfl slices_S512x1024_o0_832_S512x64 _ x0 x1 x2 xo5 x, ?_⟩
  refine List.forall_mem_cons.mpr ⟨fun x => pieceK1 12 (by omega) 768 rfl slices_S512x1024_o0_768_S512x64 _ x0 x1 x2 xo5 x, ?_⟩
  refine List.forall_mem_cons.mpr ⟨fun x => pieceK1 11 (by omega) 704 rfl slices_S512x1024_o0_704_S512x64 _ x0 x1 x2 xo5 x, ?_⟩
  refine List.forall_mem_cons.mpr ⟨fun x => pieceK1 10 (by omega) 640 rfl slices_S512x1024_o0_640_S512x64 _ x0 x1 x2 xo5 x, ?_⟩
  refine List.forall_mem_cons.mpr ⟨fun x => pieceK1 9 (by omega) 576 rfl slices_S512x1024_o0_576_S512x64 _ x0 x1 x2 xo5 x, ?_⟩
  refine List.forall_mem_cons.mpr ⟨fun x => pieceK1 8 (by omega) 512 rfl slices_S512x1024_o0_512_S512x64 _ x0 x1 x2 xo5 x, ?_⟩
  refine List.forall_mem_cons.mpr ⟨fun x => pieceK1 7 (by omega) 448 rfl slices_S512x1024_o0_448_S512x64 _ x0 x1 x2 xo5 x, ?_⟩
  refine List.forall_mem_cons.mpr ⟨fun x => pieceK1 6 (by omega) 384 rfl slices_S512x1024_o0_384_S512x64 _ x0 x1 x2 xo5 x, ?_⟩
  refine List.forall_mem_cons.mpr ⟨fun x => pieceK1 5 (by omega) 320 rfl slices_S512x1024_o0_320_S512x64 _ x0 x1 x2 xo5 x, ?_⟩
  refine List.forall_mem_cons.mpr ⟨fun x => pieceK1 4 (by omega) 256 rfl slices_S512x1024_o0_256_S512x64 _ x0 x1 x2 xo5 x, ?_⟩
  refine List.forall_mem_cons.mpr ⟨fun x => pieceK1 3 (by omega) 192 rfl slices_S512x1024_o0_192_S512x64 _ x0 x1 x2 xo5 x, ?_⟩
  refine List.forall_mem_cons.mpr ⟨fun x => pieceK1 2 (by omega) 128 rfl slices_S512x1024_o0_128_S512x64 _ x0 x1 x2 xo5 x, ?_⟩
  refine List.forall_mem_cons.mpr ⟨fun x => pieceK1 1 (by omega) 64 rfl slices_S512x1024_o0_64_S512x64 _ x0 x1 x2 xo5 x, ?_⟩
  refine List.forall_mem_cons.mpr ⟨fun x => pieceK1 0 (by omega) 0 rfl slices_S512x1024_o0_0_S512x64 _ x0 x1 x2 xo5 x, ?_⟩
  exact fun p hp => absurd hp List.not_mem_nil

end Cert.KernelIdeal.Stats
-- ==== Proof.K0Body.lean ====
/-
  The four statements about one grid point of the statistics kernel, gathered: what the point leaves at each index
  of the key–value output and of the key-sum output, when it is the first point of its batch (`outA4_at`,
  `outA5_at`: the tile's statistic) and when it is not (`outB4_at`, `outB5_at`: the entry found plus the tile's
  statistic).
-/
import proofs.«106879_j33681133535316_1_alg».proof.Proof.K0BodyA4
import proofs.«106879_j33681133535316_1_alg».proof.Proof.K0BodyA5
import proofs.«106879_j33681133535316_1_alg».proof.Proof.K0BodyB
-- ==== Proof.LibTileSums.lean ====
/-
  Sums and maxima over 8192 indices taken block by block, an accumulation from zero, and a few
  float constants as extended reals.

  An index r < T * B is written uniquely as r = B * j + c with j < T and c < B (j = r / B,
  c = r % B). So a sum over all r of f r is the double sum over j and c of f (B * j + c), in any
  commutative monoid (no finiteness of the terms is used), and the supremum over all r is the
  supremum over j of the supremum over c. The two instances wanted are 8192 = 16 * 512
  (column tiles) and 8192 = 4 * 2048 (row blocks).

  An accumulator that starts at 0 and adds the term of block j at step j ends at the sum of all
  the terms.

  The 32-bit patterns 0x39000000, 0x46000000, 0x3D800000, 0x40000000, 0xBF800000, 0x00000000 and
  0xFF800000 denote 1/8192, 8192, 1/16, 2, -1, 0 and ⊥; multiplying by the first is dividing by
  the second.
-/
import Mathlib
import Idealize.ShloMosaic.PureOps.Ideal
import Idealize.ShloMosaic.PureOps.Ideal.Laws

open scoped BigOperators
open Idealize.ShloMosaic

noncomputable section

namespace TileSums

/-! ### An index as (block, offset) -/

/-- The index B * j + c of offset c < B in block j < T, among N = T * B indices. -/
def blockIdx {T B N : ℕ} (h : T * B = N) (j : Fin T) (c : Fin B) : Fin N :=
  ⟨B * j.val + c.val, by
    have hj : j.val + 1 ≤ T := j.isLt
    have hc : c.val < B := c.isLt
    calc B * j.val + c.val < B * j.val + B := by omega
      _ = B * (j.val + 1) := by ring
      _ ≤ B * T := Nat.mul_le_mul_left B hj
      _ = N := by rw [Nat.mul_comm, h]⟩

/-- The value of the block index is B * j + c. -/
@[simp] theorem blockIdx_val {T B N : ℕ} (h : T * B = N) (j : Fin T) (c : Fin B) :
    (blockIdx h j c).val = B * j.val + c.val := rfl

/-- The bijection between pairs (block j < T, offset c < B) and indices below N = T * B:
    (j, c) ↦ B * j + c, with inverse r ↦ (r / B, r % B). -/
def blockEquiv {T B N : ℕ} (h : T * B = N) : Fin T × Fin B ≃ Fin N where
  toFun p := blockIdx h p.1 p.2
  invFun r :=
    (⟨r.val / B, Nat.div_lt_of_lt_mul (by
        calc r.val < N := r.isLt
          _ = B * T := by rw [← h, Nat.mul_comm])⟩,
     ⟨r.val % B, Nat.mod_lt _ (Nat.pos_of_ne_zero fun hB => by
        subst hB; rw [Nat.mul_zero] at h; subst h; exact r.elim0)⟩)
  left_inv p := by
    obtain ⟨j, c⟩ := p
    have hc : c.val < B := c.isLt
    have hB : 0 < B := by omega
    refine Prod.ext (Fin.ext ?_) (Fin.ext ?_)
    · show (B * j.val + c.val) / B = j.val
      rw [Nat.mul_add_div hB, Nat.div_eq_of_lt hc, Nat.add_zero]
    · show (B * j.val + c.val) % B = c.val
      rw [Nat.mul_add_mod, Nat.mod_eq_of_lt hc]
  right_inv r := by
    refine Fin.ext ?_
    show B * (r.val / B) + r.val % B = r.val
    exact Nat.div_add_mod _ _

/-- The bijection sends (j, c) to the block index of j and c. -/
theorem blockEquiv_apply {T B N : ℕ} (h : T * B = N) (p : Fin T × Fin B) :
    blockEquiv h p = blockIdx h p.1 p.2 := rfl

/-- The block of an index r is r / B. -/
theorem blockEquiv_symm_fst_val {T B N : ℕ} (h : T * B = N) (r : Fin N) :
    ((blockEquiv h).symm r).1.val = r.val / B := rfl

/-- The offset of an index r in its block is r % B. -/
theorem blockEquiv_symm_snd_val {T B N : ℕ} (h : T * B = N) (r : Fin N) :
    ((blockEquiv h).symm r).2.val = r.val % B := rfl

/-- A sum over N = T * B indices is the sum over the T blocks of the sums over the B offsets, in
    any commutative monoid. -/
theorem sum_blocks {M : Type*} [AddCommMonoid M] {T B N : ℕ} (h : T * B = N) (f : Fin N → M) :
    ∑ r, f r = ∑ j : Fin T, ∑ c : Fin B, f (blockIdx h j c) := by
  rw [← Fintype.sum_prod_type' (fun j c => f (blockIdx h j c))]
  exact (Fintype.sum_equiv (blockEquiv h) _ _ fun _ => rfl).symm

/-- A supremum over N = T * B indices is the supremum over all pairs (block, offset). -/
theorem sup_blocks_prod {α : Type*} [SemilatticeSup α] [OrderBot α] {T B N : ℕ} (h : T * B = N)
    (s : Fin N → α) :
    Finset.univ.sup s = Finset.univ.sup fun p : Fin T × Fin B => s (blockIdx h p.1 p.2) := by
  rw [← Finset.map_univ_equiv (blockEquiv h), Finset.sup_map]
  rfl

/-- A supremum over N = T * B indices is the supremum over the T blocks of the suprema over the
    B offsets. -/
theorem sup_blocks {α : Type*} [SemilatticeSup α] [OrderBot α] {T B N : ℕ} (h : T * B = N)
    (s : Fin N → α) :
    Finset.univ.sup s
      = Finset.univ.sup fun j : Fin T => Finset.univ.sup fun c : Fin B => s (blockIdx h j c) := by
  rw [sup_blocks_prod h, ← Finset.univ_product_univ, Finset.sup_product_left]

/-! ### 8192 columns as 16 tiles of 512 -/

/-- Column 512 * j + c: column c of tile j. -/
def tileIdx (j : Fin 16) (c : Fin 512) : Fin 8192 := blockIdx (by norm_num) j c

/-- The value of the tile index is 512 * j + c. -/
@[simp] theorem tileIdx_val (j : Fin 16) (c : Fin 512) :
    (tileIdx j c).val = 512 * j.val + c.val := rfl

/-- The bijection (j, c) ↦ 512 * j + c between 16 tiles of 512 columns and 8192 columns, with
    inverse r ↦ (r / 512, r % 512). -/
def tileEquiv : Fin 16 × Fin 512 ≃ Fin 8192 := blockEquiv (by norm_num)

/-- The bijection sends (j, c) to the tile index of j and c. -/
@[simp] theorem tileEquiv_apply (p : Fin 16 × Fin 512) : tileEquiv p = tileIdx p.1 p.2 := rfl

/-- The tile of column r is r / 512. -/
@[simp] theorem tileEquiv_symm_fst_val (r : Fin 8192) : (tileEquiv.symm r).1.val = r.val / 512 := rfl

/-- The column of r within its tile is r % 512. -/
@[simp] theorem tileEquiv_symm_snd_val (r : Fin 8192) : (tileEquiv.symm r).2.val = r.val % 512 := rfl

/-- A sum over the 8192 columns is the sum over the 16 tiles of the sums over their 512 columns. -/
theorem sum_tiles {M : Type*} [AddCommMonoid M] (f : Fin 8192 → M) :
    ∑ r, f r = ∑ j : Fin 16, ∑ c : Fin 512, f (tileIdx j c) :=
  sum_blocks _ f

/-- A supremum over the 8192 columns is the supremum over the 16 tiles of the suprema over their
    512 columns. -/
theorem sup_tiles {α : Type*} [SemilatticeSup α] [OrderBot α] (s : Fin 8192 → α) :
    Finset.univ.sup s
      = Finset.univ.sup fun j : Fin 16 => Finset.univ.sup fun c : Fin 512 => s (tileIdx j c) :=
  sup_blocks _ s

/-- A supremum over the 8192 columns is the supremum over all pairs (tile, column in the tile). -/
theorem sup_tiles_prod {α : Type*} [SemilatticeSup α] [OrderBot α] (s : Fin 8192 → α) :
    Finset.univ.sup s = Finset.univ.sup fun p : Fin 16 × Fin 512 => s (tileIdx p.1 p.2) :=
  sup_blocks_prod _ s

/-! ### 8192 rows as 4 blocks of 2048 -/

/-- Row 2048 * i + r: row r of block i. -/
def rowIdx (i : Fin 4) (r : Fin 2048) : Fin 8192 := blockIdx (by norm_num) i r

/-- The value of the row index is 2048 * i + r. -/
@[simp] theorem rowIdx_val (i : Fin 4) (r : Fin 2048) :
    (rowIdx i r).val = 2048 * i.val + r.val := rfl

/-- The bijection (i, r) ↦ 2048 * i + r between 4 blocks of 2048 rows and 8192 rows, with inverse
    n ↦ (n / 2048, n % 2048). -/
def rowEquiv : Fin 4 × Fin 2048 ≃ Fin 8192 := blockEquiv (by norm_num)

/-- The bijection sends (i, r) to the row index of i and r. -/
@[simp] theorem rowEquiv_apply (p : Fin 4 × Fin 2048) : rowEquiv p = rowIdx p.1 p.2 := rfl

/-- The block of row n is n / 2048. -/
@[simp] theorem rowEquiv_symm_fst_val (n : Fin 8192) : (rowEquiv.symm n).1.val = n.val / 2048 := rfl

/-- The row of n within its block is n % 2048. -/
@[simp] theorem rowEquiv_symm_snd_val (n : Fin 8192) : (rowEquiv.symm n).2.val = n.val % 2048 := rfl

/-- A sum over the 8192 rows is the sum over the 4 blocks of the sums over their 2048 rows. -/
theorem sum_rows {M : Type*} [AddCommMonoid M] (f : Fin 8192 → M) :
    ∑ n, f n = ∑ i : Fin 4, ∑ r : Fin 2048, f (rowIdx i r) :=
  sum_blocks _ f

/-- A supremum over the 8192 rows is the supremum over the 4 blocks of the suprema over their
    2048 rows. -/
theorem sup_rows {α : Type*} [SemilatticeSup α] [OrderBot α] (s : Fin 8192 → α) :
    Finset.univ.sup s
      = Finset.univ.sup fun i : Fin 4 => Finset.univ.sup fun r : Fin 2048 => s (rowIdx i r) :=
  sup_blocks _ s

/-! ### Maximum against ⊥, and a fold of max -/

/-- The larger of ⊥ and x is x. -/
theorem max_bot (x : EReal) : max ⊥ x = x := max_bot_left x

/-- A fold of max from ⊥ over a finite set is the supremum over that set. -/
theorem fold_max_bot {κ : Type*} (t : Finset κ) (f : κ → EReal) :
    t.fold max ⊥ f = t.sup f := rfl

/-! ### Accumulation from zero -/

variable {T : ℕ}

/-- The blocks of index below j. -/
def before (T j : ℕ) : Finset (Fin T) := Finset.univ.filter fun i => i.val < j

/-- No block has index below 0. -/
theorem before_zero : before T 0 = ∅ := by simp [before]

/-- The blocks of index below j + 1 are block j together with the blocks of index below j. -/
theorem before_succ (j : ℕ) (h : j < T) : before T (j + 1) = insert ⟨j, h⟩ (before T j) := by
  ext i
  simp only [before, Finset.mem_filter, Finset.mem_univ, true_and, Finset.mem_insert, Fin.ext_iff]
  omega

/-- Block j is not among the blocks of index below j. -/
theorem not_mem_before (j : ℕ) (h : j < T) : (⟨j, h⟩ : Fin T) ∉ before T j := by
  simp [before]

/-- Every one of the T blocks has index below T. -/
theorem before_self : before T T = Finset.univ := by
  ext i; simp [before]

/-- The accumulator after j blocks: 0 before any block, and each block adds its term g j. -/
def acc (g : Fin T → EReal) : (j : ℕ) → j ≤ T → EReal
  | 0, _ => 0
  | j + 1, h => acc g j (Nat.le_of_succ_le h) + g ⟨j, h⟩

/-- Before any block the accumulator is 0. -/
theorem acc_zero (g : Fin T → EReal) (h : 0 ≤ T) : acc g 0 h = 0 := rfl

/-- After j + 1 blocks the accumulator is its value after j blocks plus the term of block j. -/
theorem acc_succ (g : Fin T → EReal) (j : ℕ) (h : j + 1 ≤ T) :
    acc g (j + 1) h = acc g j (Nat.le_of_succ_le h) + g ⟨j, h⟩ := rfl

/-- After j blocks the accumulator is the sum of the terms of the blocks of index below j. -/
theorem acc_eq_sum_before (g : Fin T → EReal) (j : ℕ) (h : j ≤ T) :
    acc g j h = ∑ i ∈ before T j, g i := by
  classical
  induction j with
  | zero => rw [before_zero, Finset.sum_empty]; rfl
  | succ j ih =>
    rw [acc_succ, ih, before_succ j h, Finset.sum_insert (not_mem_before j h), add_comm]

/-- After all T blocks the accumulator is the sum of all the terms. -/
theorem acc_final (g : Fin T → EReal) : acc g T le_rfl = ∑ j, g j := by
  rw [acc_eq_sum_before, before_self]

/-- The accumulator whose step adds 0 + g j (a block's own sum started from 0) rather than g j:
    0 before any block, then acc + (0 + g j). -/
def accZ (g : Fin T → EReal) : (j : ℕ) → j ≤ T → EReal
  | 0, _ => 0
  | j + 1, h => accZ g j (Nat.le_of_succ_le h) + (0 + g ⟨j, h⟩)

/-- Before any block this accumulator is 0. -/
theorem accZ_zero (g : Fin T → EReal) (h : 0 ≤ T) : accZ g 0 h = 0 := rfl

/-- After j + 1 blocks this accumulator is its value after j blocks plus 0 + g j. -/
theorem accZ_succ (g : Fin T → EReal) (j : ℕ) (h : j + 1 ≤ T) :
    accZ g (j + 1) h = accZ g j (Nat.le_of_succ_le h) + (0 + g ⟨j, h⟩) := rfl

/-- Adding 0 + g j is adding g j: the two accumulators agree after every number of blocks. -/
theorem accZ_eq_acc (g : Fin T → EReal) (j : ℕ) (h : j ≤ T) : accZ g j h = acc g j h := by
  induction j with
  | zero => rfl
  | succ j ih => rw [accZ_succ, acc_succ, ih, zero_add]

/-- After all T blocks the accumulator with steps 0 + g j is the sum of all the terms. -/
theorem accZ_final (g : Fin T → EReal) : accZ g T le_rfl = ∑ j, g j := by
  rw [accZ_eq_acc, acc_final]

/-! ### Float constants as extended reals -/

/-- The 32-bit pattern 0x39000000 denotes 2⁻¹³ = 1/8192. -/
theorem ofBits_inv_8192 : Ideal.ofBits .f32 0x39000000#32 = ((1 / 8192 : ℝ) : EReal) := by
  simp [Ideal.ofBits, Ideal.ieee, -EReal.coe_mul]; norm_num

/-- The 32-bit pattern 0x46000000 denotes 2¹³ = 8192. -/
theorem ofBits_8192 : Ideal.ofBits .f32 0x46000000#32 = ((8192 : ℝ) : EReal) := by
  simp [Ideal.ofBits, Ideal.ieee, -EReal.coe_mul]; norm_num

/-- The 32-bit pattern 0x3D800000 denotes 2⁻⁴ = 1/16. -/
theorem ofBits_sixteenth : Ideal.ofBits .f32 0x3D800000#32 = ((1 / 16 : ℝ) : EReal) := by
  simp [Ideal.ofBits, Ideal.ieee, -EReal.coe_mul]; norm_num

/-- The 32-bit pattern 0x40000000 denotes 2. -/
theorem ofBits_two : Ideal.ofBits .f32 0x40000000#32 = ((2 : ℝ) : EReal) := by
  simp [Ideal.ofBits, Ideal.ieee, -EReal.coe_mul]; norm_num

/-- The 32-bit pattern 0xBF800000 denotes -1. -/
theorem ofBits_neg_one : Ideal.ofBits .f32 0xBF800000#32 = ((-1 : ℝ) : EReal) := by
  simp [Ideal.ofBits, Ideal.ieee, -EReal.coe_mul, -EReal.coe_neg]; norm_num

/-- The 32-bit pattern 0x00000000 denotes 0. -/
theorem ofBits_zero : Ideal.ofBits .f32 0x00000000#32 = 0 := Ideal.ofBits_zero_f32

/-- The 32-bit pattern 0xFF800000 denotes ⊥ (minus infinity). -/
theorem ofBits_neg_inf : Ideal.ofBits .f32 0xFF800000#32 = ⊥ := by
  simp [Ideal.ofBits, Ideal.ieee]

/-- Multiplying by the constant 1/8192 is dividing by the constant 8192, for every extended
    real x (the infinities included). -/
theorem mul_inv_8192_eq_div (x : EReal) :
    x * Ideal.ofBits .f32 0x39000000#32 = Ideal.div x (Ideal.ofBits .f32 0x46000000#32) := by
  rw [ofBits_inv_8192, ofBits_8192, Ideal.div_coe (by norm_num : (8192 : ℝ) ≠ 0)]

end TileSums
-- ==== Proof.K0AccTiles.lean ====
/-
  The key–value statistics over all 8192 tokens of a batch are the sums, over the 16 tiles of 512
  consecutive tokens, of the same statistics of each tile.

  Token 512·j + r of batch b is token r of tile j.  The projections of a token only read that
  token's row, so the summand of token 512·j + r in the whole array is the summand of token r in the
  tile taken as a one-batch array of 512 tokens; and a sum over 8192 indices is the double sum over
  the tile j and the offset r.  Only commutativity and associativity of + are used: nothing is
  assumed finite.
-/
import proofs.«106879_j33681133535316_1_alg».proof.Proof.Spec
import proofs.«106879_j33681133535316_1_alg».proof.Proof.LibTileSums

open scoped BigOperators

noncomputable section

namespace Cert.KernelIdeal.StatsAcc

/-- Tile j of batch b of a [4, 8192, 1024] array, as a one-batch array of 512 tokens: its token r is
    token 512·j + r of batch b. -/
def tileOf (X : Fin 4 → Fin 8192 → Fin 1024 → EReal) (b : Fin 4) (j : Fin 16) :
    Fin 1 → Fin 512 → Fin 1024 → EReal :=
  fun _ r k => X b (TileSums.tileIdx j r) k

/-- Entry (r, k) of tile j of batch b is entry (512·j + r, k) of batch b. -/
theorem tileOf_apply (X : Fin 4 → Fin 8192 → Fin 1024 → EReal) (b : Fin 4) (j : Fin 16) (z : Fin 1)
    (r : Fin 512) (k : Fin 1024) : tileOf X b j z r k = X b (TileSums.tileIdx j r) k := rfl

variable (X : Fin 4 → Fin 8192 → Fin 1024 → EReal) (Wkv : Fin 1024 → Fin 2048 → EReal)
  (bk bv : Fin 1024 → EReal)

/-- KV of batch b over all 8192 tokens is the sum over the 16 tiles of the tile's own KV. -/
theorem kvSum_tiles (b : Fin 4) (h : Fin 16) (d v : Fin 64) :
    LinAttn.kvSum X Wkv bk bv b h d v
      = ∑ j : Fin 16, LinAttn.kvSum (tileOf X b j) Wkv bk bv 0 h d v := by
  unfold LinAttn.kvSum
  rw [TileSums.sum_tiles]
  rfl

/-- K1 of batch b over all 8192 tokens is the sum over the 16 tiles of the tile's own K1. -/
theorem k1Sum_tiles (b : Fin 4) (h : Fin 16) (d : Fin 64) :
    LinAttn.k1Sum X Wkv bk b h d
      = ∑ j : Fin 16, LinAttn.k1Sum (tileOf X b j) Wkv bk 0 h d := by
  unfold LinAttn.k1Sum
  rw [TileSums.sum_tiles]
  rfl

end Cert.KernelIdeal.StatsAcc
-- ==== Proof.K0AccBlocks.lean ====
/-
  The first kernel's windows, read at a grid point.

  The grid has 64 points; point t works on batch t / 16 and on tile t % 16 of 512 tokens.  Its token
  window is block (t / 16, t % 16, 0) of the [4, 8192, 1024] token array, of size [1, 512, 1024]: entry
  (0, r, k) of the block is entry (t / 16, 512·(t % 16) + r, k) of the array — a block's coordinate
  is always block index × block size + the coordinate inside the block.  The weight matrix and the two
  bias vectors are read whole at every point.  The two output windows sit at block (t / 16, 0, 0, 0) and
  (t / 16, 0, 0): they do not move while the tile index runs through a batch.

  The file also fixes the vocabulary in which one point's result is stated: the token block as a
  one-batch array of 512 tokens, the weights as a matrix, a bias as a vector.
-/
import proofs.«106879_j33681133535316_1_alg».proof.Proof.Gen.KernelIdeal.Frame
import proofs.«106879_j33681133535316_1_alg».proof.Proof.Spec
import proofs.«106879_j33681133535316_1_alg».proof.Proof.LibTileSums
import proofs.«106879_j33681133535316_1_alg».proof.Proof.K0AccTiles
import Idealize.ShloMosaic.Lib.ValueIdx

noncomputable section

open Idealize.ShloMosaic Idealize.ShloMosaic.TcCoe
open Idealize.ShloMosaic.ValueIdx
open scoped BigOperators

namespace Cert.KernelIdeal.StatsAcc

open Cert.KernelIdeal Cert.KernelIdeal.Gen

/-! ### The vocabulary of one point's result -/

/-- A [1, 512, 1024] token block as a one-batch array of 512 tokens. -/
abbrev tileX (x0 : Vec Ideal S1x512x1024 .bf16) : Fin 1 → Fin 512 → Fin 1024 → EReal :=
  fun _ r k => x0 (ix3 0 r k)
/-- The [1024, 2048] weight block as a matrix. -/
abbrev matKV (x1 : Vec Ideal S1024x2048 .bf16) : Fin 1024 → Fin 2048 → EReal := fun k j => x1 (ix2 k j)
/-- A [1024] bias block as a vector. -/
abbrev vec1024 (x : Vec Ideal S1024 .f32) : Fin 1024 → EReal := fun j => x (ix1 j)

/-- What the first point of a batch leaves in the KV buffer: the KV of its tile. -/
abbrev HA4 : Prop :=
  ∀ (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32) (h : Fin 16) (d v : Fin 64),
    out0_A_4 (F := Ideal) c i arg2 harg2 arg3 harg3 arg4 harg4 arg5 harg5 arg6 harg6 arg7 harg7 hc0 x0 x1 x2 x3 (ix4 0 h d v)
      = LinAttn.kvSum (tileX x0) (matKV x1) (vec1024 x2) (vec1024 x3) 0 h d v

/-- What the first point of a batch leaves in the K1 buffer: the K1 of its tile. -/
abbrev HA5 : Prop :=
  ∀ (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : cond0_0 i)
    (x0 : Vec Ideal S1x512x1024 .bf16) (x1 : Vec Ideal S1024x2048 .bf16) (x2 : Vec Ideal S1024 .f32) (x3 : Vec Ideal S1024 .f32) (h : Fin 16) (d : Fin 64),
    out0_A_5 (F := Ideal) c i arg2 harg2 arg3 harg3 arg4 harg4 arg5 harg5 arg6 harg6 arg7 harg7 hc0 x0 x1 x2 x3 (ix3 0 h d)
      = LinAttn.k1Sum (tileX x0) (matKV x1) (vec1024 x2) 0 h d

/-- What a later point of a batch leaves in the KV buffer: what was there plus the KV of its tile. -/
abbrev HB4 : Prop :=
  ∀ (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : ¬cond0_0 i)
    (x0 : Vec Ideal S1x512x1024 .bf16) (x1 : Vec Ideal S1024x2048 .bf16) (x2 : Vec Ideal S1024 .f32) (x3 : Vec Ideal S1024 .f32) (xo4 : Vec Ideal S1x16x64x64 .f32) (xo5 : Vec Ideal S1x16x64 .f32) (h : Fin 16) (d v : Fin 64),
    out0_B_4 (F := Ideal) c i arg2 harg2 arg3 harg3 arg4 harg4 arg5 harg5 arg6 harg6 arg7 harg7 hc0 x0 x1 x2 x3 xo4 xo5 (ix4 0 h d v)
      = xo4 (ix4 0 h d v) + LinAttn.kvSum (tileX x0) (matKV x1) (vec1024 x2) (vec1024 x3) 0 h d v

/-- What a later point of a batch leaves in the K1 buffer: what was there plus the K1 of its tile. -/
abbrev HB5 : Prop :=
  ∀ (c : Dev nD) (i : grid0.Coords) (arg2 : Memref sig .tc .vmem S1x512x1024 .bf16) (harg2 : arg2.IsWhole) (arg3 : Memref sig .tc .vmem S1024x2048 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1x16x64x64 .f32) (harg6 : arg6.IsWhole) (arg7 : Memref sig .tc .vmem S1x16x64 .f32) (harg7 : arg7.IsWhole) (hc0 : ¬cond0_0 i)
    (x0 : Vec Ideal S1x512x1024 .bf16) (x1 : Vec Ideal S1024x2048 .bf16) (x2 : Vec Ideal S1024 .f32) (x3 : Vec Ideal S1024 .f32) (xo4 : Vec Ideal S1x16x64x64 .f32) (xo5 : Vec Ideal S1x16x64 .f32) (h : Fin 16) (d : Fin 64),
    out0_B_5 (F := Ideal) c i arg2 harg2 arg3 harg3 arg4 harg4 arg5 harg5 arg6 harg6 arg7 harg7 hc0 x0 x1 x2 x3 xo4 xo5 (ix3 0 h d)
      = xo5 (ix3 0 h d) + LinAttn.k1Sum (tileX x0) (matKV x1) (vec1024 x2) 0 h d

/-! ### The block indices, decided over the 64 points -/

/-- At point t the token window is at block (t / 16, t % 16, 0), the weights and the biases at block 0,
    and the two output windows at block (t / 16, 0, …). -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 4) = t.val / 16 ∧ win0_4.index t (1 : Fin 4) = 0 ∧ win0_4.index t (2 : Fin 4) = 0 ∧ win0_4.index t (3 : Fin 4) = 0
    ∧ win0_5.index t (0 : Fin 3) = t.val / 16 ∧ win0_5.index t (1 : Fin 3) = 0 ∧ win0_5.index t (2 : Fin 3) = 0 :=
  (by decide +kernel : ∀ t : Fin grid0.N, _)

/-! ### The input blocks as entries of the arrays the region finds -/

variable (V : (c : Dev nD) → (b : Ref sig .tc) → Buf (Elt Ideal) ((c : Thread nD τ).loc b)) (c : Dev nD)

/-- The token array, the weight matrix and the two bias vectors as the region finds them. -/
abbrev arrX : Fin 4 → Fin 8192 → Fin 1024 → EReal := fun b n k => V c (Pipeline.arrRef spec0 0) (ix3 b n k)
abbrev arrW : Fin 1024 → Fin 2048 → EReal := fun k j => V c (Pipeline.arrRef spec0 1) (ix2 k j)
abbrev arrBk : Fin 1024 → EReal := fun j => V c (Pipeline.arrRef spec0 2) (ix1 j)
abbrev arrBv : Fin 1024 → EReal := fun j => V c (Pipeline.arrRef spec0 3) (ix1 j)

/-- Entry (0, r, k) of the token block at point t is entry (t / 16, 512·(t % 16) + r, k) of the token array. -/
theorem blk0_apply (t : Fin cfg0.N) (r : Fin 512) (k : Fin 1024) (b : Fin 4) (n : Fin 8192)
    (hb : b.val = t.val / 16) (hn : n.val = 512 * (t.val % 16) + r.val) :
    iblk0 (F := Ideal) V c 0 t (ix3 0 r k) = V c (Pipeline.arrRef spec0 0) (ix3 b n k) := by
  obtain ⟨e0, e1, e2, -⟩ := idx_facts t
  unfold iblk0
  rw [View.read_apply]
  show V c (Pipeline.arrRef spec0 0) _ = V c (Pipeline.arrRef spec0 0) _
  refine congrArg _ ?_
  funext a
  apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1024 + 1 * k.val = k.val; omega

/-- The weight block at any point is the whole weight matrix. -/
theorem blk1_apply (t : Fin cfg0.N) (k : Fin 1024) (j : Fin 2048) :
    iblk0 (F := Ideal) V c 1 t (ix2 k j) = V c (Pipeline.arrRef spec0 1) (ix2 k j) := by
  obtain ⟨-, -, -, e0, e1, -⟩ := idx_facts t
  unfold iblk0
  rw [View.read_apply]
  show V c (Pipeline.arrRef spec0 1) _ = V c (Pipeline.arrRef spec0 1) _
  refine congrArg _ ?_
  funext a
  apply Fin.ext
  match a with
  | ⟨0, _⟩ => show win0_1.index t (0 : Fin 2) * 1024 + 1 * k.val = k.val; omega
  | ⟨1, _⟩ => show win0_1.index t (1 : Fin 2) * 2048 + 1 * j.val = j.val; omega

/-- The first bias block at any point is the whole first bias vector. -/
theorem blk2_apply (t : Fin cfg0.N) (j : Fin 1024) :
    iblk0 (F := Ideal) V c 2 t (ix1 j) = V c (Pipeline.arrRef spec0 2) (ix1 j) := by
  obtain ⟨-, -, -, -, -, e0, -⟩ := idx_facts t
  unfold iblk0
  rw [View.read_apply]
  show V c (Pipeline.arrRef spec0 2) _ = V c (Pipeline.arrRef spec0 2) _
  refine congrArg _ ?_
  funext a
  apply Fin.ext
  match a with
  | ⟨0, _⟩ => show win0_2.index t (0 : Fin 1) * 1024 + 1 * j.val = j.val; omega

/-- The second bias block at any point is the whole second bias vector. -/
theorem blk3_apply (t : Fin cfg0.N) (j : Fin 1024) :
    iblk0 (F := Ideal) V c 3 t (ix1 j) = V c (Pipeline.arrRef spec0 3) (ix1 j) := by
  obtain ⟨-, -, -, -, -, -, e0, -⟩ := idx_facts t
  unfold iblk0
  rw [View.read_apply]
  show V c (Pipeline.arrRef spec0 3) _ = V c (Pipeline.arrRef spec0 3) _
  refine congrArg _ ?_
  funext a
  apply Fin.ext
  match a with
  | ⟨0, _⟩ => show win0_3.index t (0 : Fin 1) * 1024 + 1 * j.val = j.val; omega

/-- The token block at point t, as a one-batch array, is tile t % 16 of batch t / 16 of the token array. -/
theorem tileX_blk (t : Fin cfg0.N) (b : Fin 4) (j : Fin 16) (hb : b.val = t.val / 16) (hj : j.val = t.val % 16) :
    tileX (iblk0 (F := Ideal) V c 0 t) = tileOf (arrX V c) b j := by
  funext z r k
  obtain rfl : z = 0 := Subsingleton.elim _ _
  exact blk0_apply V c t r k b (TileSums.tileIdx j r) hb (by rw [TileSums.tileIdx_val, hj])

/-- The weight block at point t, as a matrix, is the weight matrix. -/
theorem matKV_blk (t : Fin cfg0.N) : matKV (iblk0 (F := Ideal) V c 1 t) = arrW V c :=
  funext fun k => funext fun j => blk1_apply V c t k j

/-- The first bias block at point t, as a vector, is the first bias vector. -/
theorem vec_blk2 (t : Fin cfg0.N) : vec1024 (iblk0 (F := Ideal) V c 2 t) = arrBk V c :=
  funext fun j => blk2_apply V c t j

/-- The second bias block at point t, as a vector, is the second bias vector. -/
theorem vec_blk3 (t : Fin cfg0.N) : vec1024 (iblk0 (F := Ideal) V c 3 t) = arrBv V c :=
  funext fun j => blk3_apply V c t j

end Cert.KernelIdeal.StatsAcc
-- ==== Proof.K0AccInv.lean ====
/-
  What the two output buffers of the first kernel hold after each grid point.

  Point t = 16·b + s works on tile s of batch b.  At s = 0 the buffers are set to the tile's own
  statistics; at s > 0 the tile's statistics are added to what the point before left.  So after
  point 16·b + s the KV buffer holds, at (0, h, d, v), the sum over the tiles j ≤ s of batch b of the
  tile's KV at (h, d, v), and the K1 buffer the same sum of the tiles' K1 — by induction on s.  After
  the last tile of a batch (s = 15) that is the sum over all 16 tiles, which is the statistic over all
  8192 tokens of the batch.
-/
import proofs.«106879_j33681133535316_1_alg».proof.Proof.K0AccBlocks

noncomputable section

open Idealize.ShloMosaic Idealize.ShloMosaic.TcCoe
open Idealize.ShloMosaic.ValueIdx
open scoped BigOperators

namespace Cert.KernelIdeal.StatsAcc

open Cert.KernelIdeal Cert.KernelIdeal.Gen

variable (V : (c : Dev nD) → (b : Ref sig .tc) → Buf (Elt Ideal) ((c : Thread nD τ).loc b)) (c : Dev nD)

/-- The buffers after a point do not depend on how the point's number is written. -/
theorem outsAt0_congr (n n' : ℕ) (h : n < cfg0.N) (h' : n' < cfg0.N) (e : n = n') :
    outsAt0 (F := Ideal) V c n h = outsAt0 (F := Ideal) V c n' h' := by
  subst e; rfl

/-- The KV of tile j of batch b at (h, d, v), from the arrays the region finds. -/
abbrev kvTile (b : Fin 4) (h : Fin 16) (d v : Fin 64) (j : Fin 16) : EReal :=
  LinAttn.kvSum (tileOf (arrX V c) b j) (arrW V c) (arrBk V c) (arrBv V c) 0 h d v

/-- The K1 of tile j of batch b at (h, d), from the arrays the region finds. -/
abbrev k1Tile (b : Fin 4) (h : Fin 16) (d : Fin 64) (j : Fin 16) : EReal :=
  LinAttn.k1Sum (tileOf (arrX V c) b j) (arrW V c) (arrBk V c) 0 h d

/-! ### One point -/

/-- The first point of a batch leaves in the KV buffer the KV of its tile. -/
theorem kv_first (hA4 : HA4) (t : Fin cfg0.N) (h0 : t.val % 16 = 0) (b : Fin 4) (j : Fin 16)
    (hb : b.val = t.val / 16) (hj : j.val = t.val % 16) (h : Fin 16) (d v : Fin 64) :
    (outsAt0 (F := Ideal) V c t.val t.isLt).1 (ix4 0 h d v) = kvTile V c b h d v j := by
  rw [outsAt0_A V c t h0]
  dsimp only
  refine (hA4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) h d v).trans ?_
  rw [tileX_blk V c t b j hb hj, matKV_blk V c t, vec_blk2 V c t, vec_blk3 V c t]

/-- The first point of a batch leaves in the K1 buffer the K1 of its tile. -/
theorem k1_first (hA5 : HA5) (t : Fin cfg0.N) (h0 : t.val % 16 = 0) (b : Fin 4) (j : Fin 16)
    (hb : b.val = t.val / 16) (hj : j.val = t.val % 16) (h : Fin 16) (d : Fin 64) :
    (outsAt0 (F := Ideal) V c t.val t.isLt).2 (ix3 0 h d) = k1Tile V c b h d j := by
  rw [outsAt0_A V c t h0]
  dsimp only
  refine (hA5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) h d).trans ?_
  rw [tileX_blk V c t b j hb hj, matKV_blk V c t, vec_blk2 V c t]

/-- A later point of a batch leaves in the KV buffer what the point before left plus the KV of its tile. -/
theorem kv_later (hB4 : HB4) (t : Fin cfg0.N) (h0 : ¬t.val % 16 = 0) (b : Fin 4) (j : Fin 16)
    (hb : b.val = t.val / 16) (hj : j.val = t.val % 16) (h : Fin 16) (d v : Fin 64) :
    (outsAt0 (F := Ideal) V c t.val t.isLt).1 (ix4 0 h d v)
      = (outsAt0 V c (t.val - 1) (Nat.lt_of_le_of_lt (Nat.sub_le _ _) t.isLt)).1 (ix4 0 h d v) + kvTile V c b h d v j := by
  rw [outsAt0_B V c t h0]
  dsimp only
  refine (hB4 c (grid0.coords t) (ms0_0 t) (hs0_0 t) (ms0_1 t) (hs0_1 t) (ms0_2 t) (hs0_2 t) (ms0_3 t) (hs0_3 t) (ms0_4 t) (hs0_4 t) (ms0_5 t) (hs0_5 t) (fun hc => h0 ((hcond0_0 t).mp hc)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 h d v).trans ?_
  rw [tileX_blk V c t b j hb hj, matKV_blk V c t, vec_blk2 V c t, vec_blk3 V c t]

/-- A later point of a batch leaves in the K1 buffer what the point before left plus the K1 of its tile. -/
theorem k1_later (hB5 : HB5) (t : Fin cfg0.N) (h0 : ¬t.val % 16 = 0) (b : Fin 4) (j : Fin 16)
    (hb : b.val = t.val / 16) (hj : j.val = t.val % 16) (h : Fin 16) (d : Fin 64) :
    (outsAt0 (F := Ideal) V c t.val t.isLt).2 (ix3 0 h d)
      = (outsAt0 V c (t.val - 1) (Nat.lt_of_le_of_lt (Nat.sub_le _ _) t.isLt)).2 (ix3 0 h d) + k1Tile V c b h d j := by
  rw [outsAt0_B V c t h0]
  dsimp only
  refine (hB5 c (grid0.coords t) (ms0_0 t) (hs0_0 t) (ms0_1 t) (hs0_1 t) (ms0_2 t) (hs0_2 t) (ms0_3 t) (hs0_3 t) (ms0_4 t) (hs0_4 t) (ms0_5 t) (hs0_5 t) (fun hc => h0 ((hcond0_0 t).mp hc)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2 h d).trans ?_
  rw [tileX_blk V c t b j hb hj, matKV_blk V c t, vec_blk2 V c t]

/-! ### The running sums, by induction on the tile -/

/-- After point 16·b + s the KV buffer holds the sum of the KV of the tiles 0 … s of batch b. -/
theorem kv_run (hA4 : HA4) (hB4 : HB4) (b : Fin 4) (h : Fin 16) (d v : Fin 64) :
    ∀ (s : ℕ) (hs : s < 16) (hn : 16 * b.val + s < cfg0.N),
      (outsAt0 (F := Ideal) V c (16 * b.val + s) hn).1 (ix4 0 h d v)
        = TileSums.acc (kvTile V c b h d v) (s + 1) hs
  | 0, hs, hn => by
    rw [TileSums.acc_succ, TileSums.acc_zero, zero_add]
    exact kv_first V c hA4 ⟨16 * b.val + 0, hn⟩ (by dsimp only; omega) b ⟨0, hs⟩ (by dsimp only; omega)
      (by dsimp only; omega) h d v
  | s + 1, hs, hn => by
    rw [TileSums.acc_succ, ← kv_run hA4 hB4 b h d v s (Nat.lt_of_succ_lt hs) (Nat.lt_of_succ_lt hn)]
    refine (kv_later V c hB4 ⟨16 * b.val + (s + 1), hn⟩ (by dsimp only; omega) b ⟨s + 1, hs⟩ (by dsimp only; omega)
      (by dsimp only; omega) h d v).trans ?_
    refine congrArg (· + kvTile V c b h d v ⟨s + 1, hs⟩) ?_
    exact congrFun (congrArg Prod.fst (outsAt0_congr V c _ _ _ _ (by dsimp only; omega))) _

/-- After point 16·b + s the K1 buffer holds the sum of the K1 of the tiles 0 … s of batch b. -/
theorem k1_run (hA5 : HA5) (hB5 : HB5) (b : Fin 4) (h : Fin 16) (d : Fin 64) :
    ∀ (s : ℕ) (hs : s < 16) (hn : 16 * b.val + s < cfg0.N),
      (outsAt0 (F := Ideal) V c (16 * b.val + s) hn).2 (ix3 0 h d)
        = TileSums.acc (k1Tile V c b h d) (s + 1) hs
  | 0, hs, hn => by
    rw [TileSums.acc_succ, TileSums.acc_zero, zero_add]
    exact k1_first V c hA5 ⟨16 * b.val + 0, hn⟩ (by dsimp only; omega) b ⟨0, hs⟩ (by dsimp only; omega)
      (by dsimp only; omega) h d
  | s + 1, hs, hn => by
    rw [TileSums.acc_succ, ← k1_run hA5 hB5 b h d s (Nat.lt_of_succ_lt hs) (Nat.lt_of_succ_lt hn)]
    refine (k1_later V c hB5 ⟨16 * b.val + (s + 1), hn⟩ (by dsimp only; omega) b ⟨s + 1, hs⟩ (by dsimp only; omega)
      (by dsimp only; omega) h d).trans ?_
    refine congrArg (· + k1Tile V c b h d ⟨s + 1, hs⟩) ?_
    exact congrFun (congrArg Prod.snd (outsAt0_congr V c _ _ _ _ (by dsimp only; omega))) _

/-! ### After the last tile of a batch -/

/-- After the last point of batch b the KV buffer holds the KV of the batch over all 8192 tokens. -/
theorem kv_last (hA4 : HA4) (hB4 : HB4) (t : Fin cfg0.N) (h15 : t.val % 16 = 15) (b : Fin 4)
    (hb : b.val = t.val / 16) (h : Fin 16) (d v : Fin 64) :
    (outsAt0 (F := Ideal) V c t.val t.isLt).1 (ix4 0 h d v)
      = LinAttn.kvSum (arrX V c) (arrW V c) (arrBk V c) (arrBv V c) b h d v := by
  have hN : cfg0.N = 64 := N_0
  have e : t.val = 16 * b.val + 15 := by omega
  have hn : 16 * b.val + 15 < cfg0.N := e ▸ t.isLt
  rw [kvSum_tiles, ← TileSums.acc_final]
  exact (congrFun (congrArg Prod.fst (outsAt0_congr V c _ _ t.isLt hn e)) _).trans
    (kv_run V c hA4 hB4 b h d v 15 (by omega) hn)

/-- After the last point of batch b the K1 buffer holds the K1 of the batch over all 8192 tokens. -/
theorem k1_last (hA5 : HA5) (hB5 : HB5) (t : Fin cfg0.N) (h15 : t.val % 16 = 15) (b : Fin 4)
    (hb : b.val = t.val / 16) (h : Fin 16) (d : Fin 64) :
    (outsAt0 (F := Ideal) V c t.val t.isLt).2 (ix3 0 h d)
      = LinAttn.k1Sum (arrX V c) (arrW V c) (arrBk V c) b h d := by
  have hN : cfg0.N = 64 := N_0
  have e : t.val = 16 * b.val + 15 := by omega
  have hn : 16 * b.val + 15 < cfg0.N := e ▸ t.isLt
  rw [k1Sum_tiles, ← TileSums.acc_final]
  exact (congrFun (congrArg Prod.snd (outsAt0_congr V c _ _ t.isLt hn e)) _).trans
    (k1_run V c hA5 hB5 b h d 15 (by omega) hn)

end Cert.KernelIdeal.StatsAcc
-- ==== Proof.K0AccArr.lean ====
/-
  What the first kernel's two output arrays hold after its whole grid.

  The KV window's block at point t is block (t / 16, 0, 0, 0) of the [4, 16, 64, 64] array and the K1
  window's is block (t / 16, 0, 0) of the [4, 16, 64] array; each is written back at the last point of a
  batch only (t % 16 = 15).  What is written back there is the buffer after that point, which holds
  the statistics of batch t / 16 over all 8192 tokens.  So every write-back writes a block of ONE
  function of the arrays the region finds — KV and K1 of the token array, the weight matrix and the
  biases — and since batch b's block is written at point 16·b + 15, the blocks written cover the arrays:
  after the grid the arrays hold that function.
-/
import proofs.«106879_j33681133535316_1_alg».proof.Proof.K0AccInv
import Idealize.ShloMosaic.Lib.Pipeline.Value

noncomputable section

open Idealize.ShloMosaic Idealize.ShloMosaic.TcCoe
open Idealize.ShloMosaic.Pipeline (Dat)
open Idealize.ShloMosaic.ValueIdx
open scoped BigOperators

namespace Cert.KernelIdeal.StatsAcc

open Cert.KernelIdeal Cert.KernelIdeal.Gen

variable (V : (c : Dev nD) → (b : Ref sig .tc) → Buf (Elt Ideal) ((c : Thread nD τ).loc b)) (c : Dev nD)

/-- KV of the arrays the region finds, as contents of the [4, 16, 64, 64] array. -/
abbrev arrKV : S4x16x64x64.Idx → EReal := fun i =>
  LinAttn.kvSum (arrX V c) (arrW V c) (arrBk V c) (arrBv V c) (i 0) (i 1) (i 2) (i 3)

/-- K1 of the arrays the region finds, as contents of the [4, 16, 64] array. -/
abbrev arrK1 : S4x16x64.Idx → EReal := fun i =>
  LinAttn.k1Sum (arrX V c) (arrW V c) (arrBk V c) (i 0) (i 1) (i 2)

/-! ### The KV array -/

/-- Entry (0, h, d, v) of the KV block at point t is entry (t / 16, h, d, v) of the KV array. -/
theorem emb4 (t : Fin cfg0.N) (b : Fin 4) (hb : b.val = t.val / 16) (h : Fin 16) (d v : Fin 64) :
    ((cfg0.win 4).blk t).view.emb (ix4 0 h d v) = ix4 b h d v := by
  obtain ⟨-, -, -, -, -, -, -, e0, e1, e2, e3, -⟩ := idx_facts t
  funext a
  apply Fin.ext
  match a with
  | ⟨0, _⟩ => show win0_4.index t (0 : Fin 4) * 1 + 1 * 0 = b.val; omega
  | ⟨1, _⟩ => show win0_4.index t (1 : Fin 4) * 16 + 1 * h.val = h.val; omega
  | ⟨2, _⟩ => show win0_4.index t (2 : Fin 4) * 64 + 1 * d.val = d.val; omega
  | ⟨3, _⟩ => show win0_4.index t (3 : Fin 4) * 64 + 1 * v.val = v.val; omega

/-- What the last point of a batch writes back to the KV array is its block of KV of the arrays. -/
theorem flushed4_eq (hA4 : HA4) (hB4 : HB4) (t : Fin cfg0.N) (hf : (cfg0.win 4).flush t = true) :
    (dat0 (F := Ideal) V c).flushed 4 t = ((cfg0.win 4).blk t).view.read (Elt Ideal) (arrKV V c) := by
  have hN : cfg0.N = 64 := N_0
  have ht : t.val < 64 := hN ▸ t.isLt
  have h15 : t.val % 16 = 15 := (flush0_4 t).mp hf
  show (cfg0.win 4).cut (grid0.coords t) ((dat0 (F := Ideal) V c).after 4 t) = _
  rw [after0_4]
  funext y
  obtain ⟨z, h, d, v, rfl⟩ : ∃ (z : Fin 1) (h : Fin 16) (d v : Fin 64), y = ix4 z h d v :=
    ⟨y 0, y 1, y 2, y 3, @eq_ix4 1 16 64 64 y⟩
  obtain rfl : z = 0 := Subsingleton.elim _ _
  rw [View.read_apply]
  show (outsAt0 (F := Ideal) V c t.val t.isLt).1 ((cfg0.win 4).xinj (grid0.coords t) (ix4 0 h d v))
    = arrKV V c (((cfg0.win 4).blk t).view.emb (ix4 0 h d v))
  rw [emb4 t ⟨t.val / 16, by omega⟩ rfl h d v]
  have hx : (cfg0.win 4).xinj (grid0.coords t) (ix4 0 h d v) = ix4 0 h d v := by
    funext a; apply Fin.ext; rfl
  rw [hx]
  exact kv_last V c hA4 hB4 t h15 ⟨t.val / 16, by omega⟩ rfl h d v

/-- An index of the KV array is in point t's block iff each coordinate is in the block's range. -/
theorem mem_blk4 (t : Fin cfg0.N) (i : S4x16x64x64.Idx) :
    i ∈ ((cfg0.win 4).blk t).view.set ↔ ∀ a : Fin 4, win0_4.index t a * S1x16x64x64.size a ≤ (i a).val
      ∧ (i a).val < win0_4.index t a * S1x16x64x64.size a + S1x16x64x64.size a := by
  show i ∈ ((View.whole main_v13_0).slice (win0_4.rect t)).set ↔ _
  rw [View.set_slice_whole, Rect.mem_set_unit]
  exact Iff.rfl

/-- Entry (b, h, d, v) of the KV array is in the block written back at point 16·b + 15. -/
theorem cover4 (i : S4x16x64x64.Idx) :
    ∃ t : Fin cfg0.N, (cfg0.win 4).flush t = true ∧ i ∈ ((cfg0.win 4).blk t).view.set := by
  have hN : cfg0.N = 64 := N_0
  obtain ⟨b, h, d, v, rfl⟩ : ∃ (b : Fin 4) (h : Fin 16) (d v : Fin 64), i = ix4 b h d v :=
    ⟨i 0, i 1, i 2, i 3, eq_ix4 i⟩
  have hn : 16 * b.val + 15 < cfg0.N := by omega
  obtain ⟨-, -, -, -, -, -, -, e0, e1, e2, e3, -⟩ := idx_facts ⟨16 * b.val + 15, hn⟩
  dsimp only at e0
  refine ⟨⟨16 * b.val + 15, hn⟩, (flush0_4 _).mpr (by dsimp only; omega), ?_⟩
  rw [mem_blk4]
  intro a
  match a with
  | ⟨0, _⟩ =>
    show win0_4.index ⟨16 * b.val + 15, hn⟩ (0 : Fin 4) * 1 ≤ b.val
      ∧ b.val < win0_4.index ⟨16 * b.val + 15, hn⟩ (0 : Fin 4) * 1 + 1
    omega
  | ⟨1, _⟩ =>
    show win0_4.index ⟨16 * b.val + 15, hn⟩ (1 : Fin 4) * 16 ≤ h.val
      ∧ h.val < win0_4.index ⟨16 * b.val + 15, hn⟩ (1 : Fin 4) * 16 + 16
    omega
  | ⟨2, _⟩ =>
    show win0_4.index ⟨16 * b.val + 15, hn⟩ (2 : Fin 4) * 64 ≤ d.val
      ∧ d.val < win0_4.index ⟨16 * b.val + 15, hn⟩ (2 : Fin 4) * 64 + 64
    omega
  | ⟨3, _⟩ =>
    show win0_4.index ⟨16 * b.val + 15, hn⟩ (3 : Fin 4) * 64 ≤ v.val
      ∧ v.val < win0_4.index ⟨16 * b.val + 15, hn⟩ (3 : Fin 4) * 64 + 64
    omega

/-- After the whole grid the KV array holds KV of the arrays the region finds. -/
theorem kv_arr (hA4 : HA4) (hB4 : HB4) : (dat0 (F := Ideal) V c).arrAt 4 cfg0.N = arrKV V c :=
  (dat0 (F := Ideal) V c).arrAt_eq_of_cover 4 (arrKV V c) (flushed4_eq V c hA4 hB4) (cover4)

/-- After the whole grid, entry (b, h, d, v) of the KV array is KV[b, h, d, v] over all 8192 tokens of the
    token array, with the weight matrix and the two biases the region finds. -/
theorem kv_at (hA4 : HA4) (hA5 : HA5) (hB4 : HB4) (hB5 : HB5) (b : Fin 4) (h : Fin 16) (d v : Fin 64) :
    (dat0 (F := Ideal) V c).arrAt 4 cfg0.N (ix4 b h d v)
      = LinAttn.kvSum (fun b n k => V c (Pipeline.arrRef spec0 0) (ix3 b n k))
          (fun k j => V c (Pipeline.arrRef spec0 1) (ix2 k j)) (fun j => V c (Pipeline.arrRef spec0 2) (ix1 j))
          (fun j => V c (Pipeline.arrRef spec0 3) (ix1 j)) b h d v :=
  congrFun (kv_arr V c hA4 hB4) (ix4 b h d v)

/-! ### The K1 array -/

/-- Entry (0, h, d) of the K1 block at point t is entry (t / 16, h, d) of the K1 array. -/
theorem emb5 (t : Fin cfg0.N) (b : Fin 4) (hb : b.val = t.val / 16) (h : Fin 16) (d : Fin 64) :
    ((cfg0.win 5).blk t).view.emb (ix3 0 h d) = ix3 b h d := by
  obtain ⟨-, -, -, -, -, -, -, -, -, -, -, e0, e1, e2⟩ := idx_facts t
  funext a
  apply Fin.ext
  match a with
  | ⟨0, _⟩ => show win0_5.index t (0 : Fin 3) * 1 + 1 * 0 = b.val; omega
  | ⟨1, _⟩ => show win0_5.index t (1 : Fin 3) * 16 + 1 * h.val = h.val; omega
  | ⟨2, _⟩ => show win0_5.index t (2 : Fin 3) * 64 + 1 * d.val = d.val; omega

/-- What the last point of a batch writes back to the K1 array is its block of K1 of the arrays. -/
theorem flushed5_eq (hA5 : HA5) (hB5 : HB5) (t : Fin cfg0.N) (hf : (cfg0.win 5).flush t = true) :
    (dat0 (F := Ideal) V c).flushed 5 t = ((cfg0.win 5).blk t).view.read (Elt Ideal) (arrK1 V c) := by
  have hN : cfg0.N = 64 := N_0
  have ht : t.val < 64 := hN ▸ t.isLt
  have h15 : t.val % 16 = 15 := (flush0_5 t).mp hf
  show (cfg0.win 5).cut (grid0.coords t) ((dat0 (F := Ideal) V c).after 5 t) = _
  rw [after0_5]
  funext y
  obtain ⟨z, h, d, rfl⟩ : ∃ (z : Fin 1) (h : Fin 16) (d : Fin 64), y = ix3 z h d :=
    ⟨y 0, y 1, y 2, @eq_ix3 1 16 64 y⟩
  obtain rfl : z = 0 := Subsingleton.elim _ _
  rw [View.read_apply]
  show (outsAt0 (F := Ideal) V c t.val t.isLt).2 ((cfg0.win 5).xinj (grid0.coords t) (ix3 0 h d))
    = arrK1 V c (((cfg0.win 5).blk t).view.emb (ix3 0 h d))
  rw [emb5 t ⟨t.val / 16, by omega⟩ rfl h d]
  have hx : (cfg0.win 5).xinj (grid0.coords t) (ix3 0 h d) = ix3 0 h d := by
    funext a; apply Fin.ext; rfl
  rw [hx]
  exact k1_last V c hA5 hB5 t h15 ⟨t.val / 16, by omega⟩ rfl h d

/-- An index of the K1 array is in point t's block iff each coordinate is in the block's range. -/
theorem mem_blk5 (t : Fin cfg0.N) (i : S4x16x64.Idx) :
    i ∈ ((cfg0.win 5).blk t).view.set ↔ ∀ a : Fin 3, win0_5.index t a * S1x16x64.size a ≤ (i a).val
      ∧ (i a).val < win0_5.index t a * S1x16x64.size a + S1x16x64.size a := by
  show i ∈ ((View.whole main_v13_1).slice (win0_5.rect t)).set ↔ _
  rw [View.set_slice_whole, Rect.mem_set_unit]
  exact Iff.rfl

/-- Entry (b, h, d) of the K1 array is in the block written back at point 16·b + 15. -/
theorem cover5 (i : S4x16x64.Idx) :
    ∃ t : Fin cfg0.N, (cfg0.win 5).flush t = true ∧ i ∈ ((cfg0.win 5).blk t).view.set := by
  have hN : cfg0.N = 64 := N_0
  obtain ⟨b, h, d, rfl⟩ : ∃ (b : Fin 4) (h : Fin 16) (d : Fin 64), i = ix3 b h d :=
    ⟨i 0, i 1, i 2, eq_ix3 i⟩
  have hn : 16 * b.val + 15 < cfg0.N := by omega
  obtain ⟨-, -, -, -, -, -, -, -, -, -, -, e0, e1, e2⟩ := idx_facts ⟨16 * b.val + 15, hn⟩
  dsimp only at e0
  refine ⟨⟨16 * b.val + 15, hn⟩, (flush0_5 _).mpr (by dsimp only; omega), ?_⟩
  rw [mem_blk5]
  intro a
  match a with
  | ⟨0, _⟩ =>
    show win0_5.index ⟨16 * b.val + 15, hn⟩ (0 : Fin 3) * 1 ≤ b.val
      ∧ b.val < win0_5.index ⟨16 * b.val + 15, hn⟩ (0 : Fin 3) * 1 + 1
    omega
  | ⟨1, _⟩ =>
    show win0_5.index ⟨16 * b.val + 15, hn⟩ (1 : Fin 3) * 16 ≤ h.val
      ∧ h.val < win0_5.index ⟨16 * b.val + 15, hn⟩ (1 : Fin 3) * 16 + 16
    omega
  | ⟨2, _⟩ =>
    show win0_5.index ⟨16 * b.val + 15, hn⟩ (2 : Fin 3) * 64 ≤ d.val
      ∧ d.val < win0_5.index ⟨16 * b.val + 15, hn⟩ (2 : Fin 3) * 64 + 64
    omega

/-- After the whole grid the K1 array holds K1 of the arrays the region finds. -/
theorem k1_arr (hA5 : HA5) (hB5 : HB5) : (dat0 (F := Ideal) V c).arrAt 5 cfg0.N = arrK1 V c :=
  (dat0 (F := Ideal) V c).arrAt_eq_of_cover 5 (arrK1 V c) (flushed5_eq V c hA5 hB5) (cover5)

/-- After the whole grid, entry (b, h, d) of the K1 array is K1[b, h, d] over all 8192 tokens of the token
    array, with the weight matrix and the first bias the region finds. -/
theorem k1_at (hA4 : HA4) (hA5 : HA5) (hB4 : HB4) (hB5 : HB5) (b : Fin 4) (h : Fin 16) (d : Fin 64) :
    (dat0 (F := Ideal) V c).arrAt 5 cfg0.N (ix3 b h d)
      = LinAttn.k1Sum (fun b n k => V c (Pipeline.arrRef spec0 0) (ix3 b n k))
          (fun k j => V c (Pipeline.arrRef spec0 1) (ix2 k j)) (fun j => V c (Pipeline.arrRef spec0 2) (ix1 j)) b h d :=
  congrFun (k1_arr V c hA5 hB5) (ix3 b h d)

end Cert.KernelIdeal.StatsAcc
-- ==== Proof.K1BodyOps.lean ====
/-
  The vector operations of the attention body, each read at one index given by its coordinates.

  Layout: a [a, b] array seen as [1, 1, a, b] and back, a [1, 1, a] array seen as [a], a vector
  [a] seen as a column [a, 1], and a column [a, 1] repeated along b lanes.  Arithmetic: a product
  of an [m, k] by a [k, n] matrix accumulated from zero is, at (a, b), the sum over the contracted
  coordinate of the products of the entries; a sum along the lanes of an [m, n] array is, at row r,
  the sum of that row's entries.
-/
import Idealize.ShloMosaic.Lib.ValueLayout
import Idealize.ShloMosaic.PureOps.Ideal.Laws

open scoped BigOperators

noncomputable section

namespace Cert.KernelIdeal.Attend

open Idealize.ShloMosaic Idealize.ShloMosaic.ValueIdx

variable {α : Type}

/-! ### Unit axes added and dropped -/

/-- An [a, b] array seen as [1, 1, a, b] reads, at (u, u', i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']; simp)

/-- A [1, 1, a, b] array seen as [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A [1, 1, a] array seen as [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A vector [a] seen as a column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b lanes reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ### A matrix product and a lane sum -/

/-- The product of an [m, k] matrix by a [k, n] matrix, accumulated from the zero array, is at
    (a, b) the sum over c of A[a, c] · B[c, b]. -/
theorem matmul_zero_ix2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum along the lanes of an [m, n] array, from zero, is at row r the sum over d of the
    entries (r, d). -/
theorem laneSum_ix1_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction .add [1] ⟨1, ![m]⟩ src 0x00000000#32 h hφ hacc (ix1 r) = ∑ d : Fin n, src (ix2 r d) := by
  refine (Ideal.multiReduction_add_single src 0x00000000#32 h hφ hacc (ix1 r)).trans ?_
  refine Finset.sum_congr rfl fun d _ => congrArg src ?_
  funext ax; apply Fin.ext
  match ax with
  | ⟨0, _⟩ => rfl
  | ⟨1, _⟩ => rfl

/-- The exponential of an array is taken entry by entry. -/
theorem exp_apply {s : Shape} {φ : FTy} (x : FVec Ideal s φ) (i : s.Idx) : exp x i = Ideal.exp (x i) := rfl

end Cert.KernelIdeal.Attend
-- ==== Proof.K1BodyHead.lean ====
/-
  One head of the attention body, from the head's 64 columns of the query features and the
  head's two statistics blocks.

  With s the [512, 64] block of query features of the head, KV its [64, 64] block and K1 its 64
  lane sums, the head's output at token r and lane v is
      (Σ_d s[r, d] · KV[d, v]) / max(tiny, Σ_d s[r, d] · K1[d]),
  the numerator a matrix product accumulated from zero, the denominator a sum along the lanes
  kept as a column, clipped from below by the word of tiny and repeated along the 64 lanes.
  The changes of float format are the identity on the extended reals.
-/
import proofs.«106879_j33681133535316_1_alg».proof.Proof.Gen.KernelIdeal.Skeleton
import proofs.«106879_j33681133535316_1_alg».proof.Proof.Spec
import proofs.«106879_j33681133535316_1_alg».proof.Proof.K1BodyOps

open scoped BigOperators

noncomputable section

namespace Cert.KernelIdeal.Attend

open Cert.KernelIdeal Cert.KernelIdeal.Gen Idealize.ShloMosaic Idealize.ShloMosaic.ValueIdx

/-- The numerator of a head: the [512, 64] block of query features times the head's [64, 64] block,
    accumulated from zero. -/
def headNum (s : FVec Ideal S512x64 .f32) (kv : FVec Ideal S64x64 .f32) : FVec Ideal S512x64 .f32 :=
  matmul dot_S512x64_S64x64_S512x64_1_0_0_1_n_n none (truncf .bf16 s bitsLt_bf16_f32)
    (truncf .bf16 kv bitsLt_bf16_f32) (constant S512x64 .f32 0x00000000#32)

/-- The lane sum of a head: Σ_d s[r, d] · K1[d], one entry per token. -/
def headDen (s : FVec Ideal S512x64 .f32) (k1 : Vec Ideal S1x1x64 .f32) : FVec Ideal S512 .f32 :=
  multiReduction .add [1] S512
    (mulf s (broadcastTo S512x64 (shapeCast S1x64 (shapeCast S64 k1 shapeCasts_S1x1x64_S64) shapeCasts_S64_S1x64)
      broadcasts_S1x64_S512x64))
    0x00000000#32 reduces_S512x64_S512 (.inl rfl) rfl

/-- The quotient of a head: the numerator over the lane sum clipped from below by tiny, the lane sum
    a column repeated along the 64 lanes. -/
def headQuot (num : FVec Ideal S512x64 .f32) (den : FVec Ideal S512 .f32) : FVec Ideal S512x64 .bf16 :=
  truncf .bf16
    (divf num
      (broadcastTo S512x64
        (maximumf (broadcast S512x1 (Scalar.ofBits .f32 0x358637BD#32)) (shapeCast S512x1 den shapeCasts_S512_S512x1))
        broadcasts_S512x1_S512x64))
    bitsLt_bf16_f32

/-- The numerator at token r and lane v: Σ_d s[r, d] · KV[d, v]. -/
theorem headNum_apply (s : FVec Ideal S512x64 .f32) (kv : FVec Ideal S64x64 .f32) (r : Fin 512) (v : Fin 64) :
    headNum s kv (ix2 r v) = ∑ d : Fin 64, s (ix2 r d) * kv (ix2 d v) :=
  matmul_zero_ix2_apply dot_S512x64_S64x64_S512x64_1_0_0_1_n_n_wf none
    (truncf .bf16 s bitsLt_bf16_f32) (truncf .bf16 kv bitsLt_bf16_f32) r v

/-- The lane sum at token r: Σ_d s[r, d] · K1[0, 0, d]. -/
theorem headDen_apply (s : FVec Ideal S512x64 .f32) (k1 : Vec Ideal S1x1x64 .f32) (r : Fin 512) :
    headDen s k1 (ix1 r) = ∑ d : Fin 64, s (ix2 r d) * k1 (ix3 (0 : Fin 1) (0 : Fin 1) d) := by
  refine (laneSum_ix1_apply _ reduces_S512x64_S512 (.inl rfl) rfl r).trans ?_
  refine Finset.sum_congr rfl fun d _ => ?_
  refine (mulf_apply _ _ _).trans (congrArg (s (ix2 r d) * ·) ?_)
  refine (broadcastTo_1b_ab_apply _ broadcasts_S1x64_S512x64 r d).trans ?_
  refine (shapeCast_a_1a_apply _ shapeCasts_S64_S1x64 (0 : Fin 1) d).trans ?_
  exact shapeCast_11a_a_apply k1 shapeCasts_S1x1x64_S64 d

/-- The quotient at token r and lane v: the numerator there over max(tiny, the lane sum of r). -/
theorem headQuot_apply (num : FVec Ideal S512x64 .f32) (den : FVec Ideal S512 .f32) (r : Fin 512) (v : Fin 64) :
    headQuot num den (ix2 r v) = Ideal.div (num (ix2 r v)) (max LinAttn.wTiny (den (ix1 r))) := by
  unfold headQuot
  refine (truncf_apply (ψ := .bf16) _ bitsLt_bf16_f32 _).trans ?_
  refine (divf_apply _ _ _).trans (congrArg (Ideal.div (num (ix2 r v))) ?_)
  refine (broadcastTo_a1_ab_apply _ broadcasts_S512x1_S512x64 r v).trans ?_
  refine (maximumf_apply _ _ _).trans (congrArg (max LinAttn.wTiny) ?_)
  exact shapeCast_a_a1_apply den shapeCasts_S512_S512x1 r (0 : Fin 1)

/-- A whole head at token r and lane v, from the block s of query features and the head's statistics
    blocks read as [1, 1, 64, 64] and [1, 1, 64]. -/
theorem head_apply (s : FVec Ideal S512x64 .f32) (kv : Vec Ideal S1x1x64x64 .f32) (k1 : Vec Ideal S1x1x64 .f32)
    (r : Fin 512) (v : Fin 64) :
    headQuot (headNum s (shapeCast S64x64 kv shapeCasts_S1x1x64x64_S64x64)) (headDen s k1) (ix2 r v)
      = Ideal.div (∑ d : Fin 64, s (ix2 r d) * kv (ix4 (0 : Fin 1) (0 : Fin 1) d v))
          (max LinAttn.wTiny (∑ d : Fin 64, s (ix2 r d) * k1 (ix3 (0 : Fin 1) (0 : Fin 1) d))) := by
  rw [headQuot_apply, headNum_apply, headDen_apply]
  refine congrArg (fun z => Ideal.div z _) (Finset.sum_congr rfl fun d _ => congrArg (s (ix2 r d) * ·) ?_)
  exact shapeCast_11ab_ab_apply kv shapeCasts_S1x1x64x64_S64x64 d v

/-- The head's tile as the body stores it, with its two unit axes: at (u, u', r, v) the tile at (r, v). -/
theorem tile_apply (t : FVec Ideal S512x64 .bf16) (u u' : Fin 1) (r : Fin 512) (v : Fin 64) :
    shapeCast S1x1x512x64 t shapeCasts_S512x64_S1x1x512x64 (ix4 u u' r v) = t (ix2 r v) :=
  shapeCast_ab_11ab_apply t shapeCasts_S512x64_S1x1x512x64 u u' r v

end Cert.KernelIdeal.Attend
-- ==== Proof.K1BodyPay.lean ====
/-
  The sixteen tiles the attention body stores, each as one function of the query features and of
  the head's two statistics blocks.

  Head h reads columns 64h … 64h + 63 of the query features and its own [64, 64] and [64] blocks,
  and stores a [512, 64] tile with two unit axes in front.  The unrolled body spells the heads in
  five ways (the whole head as one term; the product and the lane sum apart from the quotient; the
  two slices apart from the rest; the last change of shape apart; head 0 with the query features
  inside); all are the same tile, by unfolding the spellings.  At (u, u', r, v) the tile of head h is
      (Σ_d q[r, 64h + d] · KV[0, 0, d, v]) / max(tiny, Σ_d q[r, 64h + d] · K1[0, 0, d]).
-/
import proofs.«106879_j33681133535316_1_alg».proof.Proof.Gen.KernelIdeal.Skeleton
import proofs.«106879_j33681133535316_1_alg».proof.Proof.Spec
import proofs.«106879_j33681133535316_1_alg».proof.Proof.K1BodyHead

open scoped BigOperators

noncomputable section

namespace Cert.KernelIdeal.Attend

open Cert.KernelIdeal Cert.KernelIdeal.Gen Idealize.ShloMosaic Idealize.ShloMosaic.ValueIdx

/-- The tile of the head whose 64 columns of the query features q start at column o. -/
def headTile (q : FVec Ideal S512x1024 .f32) (o : ℕ) (hs : S512x1024.Slices ![0, o] S512x64)
    (kv : Vec Ideal S1x1x64x64 .f32) (k1 : Vec Ideal S1x1x64 .f32) : FVec Ideal S1x1x512x64 .bf16 :=
  shapeCast S1x1x512x64
    (headQuot (headNum (extractStridedSlice S512x64 ![0, o] q hs) (shapeCast S64x64 kv shapeCasts_S1x1x64x64_S64x64))
      (headDen (extractStridedSlice S512x64 ![0, o] q hs) k1))
    shapeCasts_S512x64_S1x1x512x64

/-- The tile of head h at (u, u', r, v): the head's quotient over columns 64h + d of the query
    features. -/
theorem headTile_apply (q : FVec Ideal S512x1024 .f32) (o : ℕ) (hs : S512x1024.Slices ![0, o] S512x64)
    (h : Fin 16) (ho : o = 64 * h.val) (kv : Vec Ideal S1x1x64x64 .f32) (k1 : Vec Ideal S1x1x64 .f32)
    (u u' : Fin 1) (r : Fin 512) (v : Fin 64) :
    headTile q o hs kv k1 (ix4 u u' r v)
      = Ideal.div (∑ d : Fin 64, q (ix2 r (LinAttn.col h d)) * kv (ix4 (0 : Fin 1) (0 : Fin 1) d v))
          (max LinAttn.wTiny (∑ d : Fin 64, q (ix2 r (LinAttn.col h d)) * k1 (ix3 (0 : Fin 1) (0 : Fin 1) d))) := by
  subst ho
  unfold headTile
  refine (tile_apply _ u u' r v).trans ?_
  refine (head_apply _ kv k1 r v).trans ?_
  have hsl : ∀ d : Fin 64,
      extractStridedSlice S512x64 ![0, 64 * h.val] q hs (ix2 r d) = q (ix2 r (LinAttn.col h d)) :=
    fun d => slice2_axis1_apply (64 * h.val) q hs r d (LinAttn.col h d) rfl
  exact congrArg₂ Ideal.div (Finset.sum_congr rfl fun d _ => by rw [hsl d])
    (congrArg (max LinAttn.wTiny) (Finset.sum_congr rfl fun d _ => by rw [hsl d]))

/-! ### The sixteen stores' values are these tiles -/

/-- Head 0, the query features spelt inside, is the tile of columns 0 … 63. -/
theorem pay_h0 (x0 : Vec Ideal S1x512x1024 .bf16) (x1 : Vec Ideal S1024x1024 .bf16) (x2 : Vec Ideal S1024 .f32)
    (kv : Vec Ideal S1x1x64x64 .f32) (k1 : Vec Ideal S1x1x64 .f32) :
    k1_pay4 (k1_pay3 x0 x1 x2 kv k1) = headTile (k1_pay2 x0 x1 x2) 0 slices_S512x1024_o0_0_S512x64 kv k1 := rfl

/-- Head 1, spelt as one term, is the tile of columns 64 … 127. -/
theorem pay_h1 (q : FVec Ideal S512x1024 .f32) (kv : Vec Ideal S1x1x64x64 .f32) (k1 : Vec Ideal S1x1x64 .f32) :
    k1_pay5 q kv k1 = headTile q 64 slices_S512x1024_o0_64_S512x64 kv k1 := rfl

/-- Head 2, the product and the lane sum spelt apart from the quotient, is the tile of columns 128 … 191. -/
theorem pay_h2 (q : FVec Ideal S512x1024 .f32) (kv : Vec Ideal S1x1x64x64 .f32) (k1 : Vec Ideal S1x1x64 .f32) :
    k1_pay9 (k1_pay7 q kv) (k1_pay8 q k1) = headTile q 128 slices_S512x1024_o0_128_S512x64 kv k1 := rfl

/-- Head 3, spelt as one term, is the tile of columns 192 … 255. -/
theorem pay_h3 (q : FVec Ideal S512x1024 .f32) (kv : Vec Ideal S1x1x64x64 .f32) (k1 : Vec Ideal S1x1x64 .f32) :
    k1_pay10 q kv k1 = headTile q 192 slices_S512x1024_o0_192_S512x64 kv k1 := rfl

/-- Head 4, the two slices spelt apart from the rest, is the tile of columns 256 … 319. -/
theorem pay_h4 (q : FVec Ideal S512x1024 .f32) (kv : Vec Ideal S1x1x64x64 .f32) (k1 : Vec Ideal S1x1x64 .f32) :
    k1_pay13 (k1_pay11 q) (k1_pay12 kv) k1 = headTile q 256 slices_S512x1024_o0_256_S512x64 kv k1 := rfl

/-- Head 5, the last change of shape spelt apart, is the tile of columns 320 … 383. -/
theorem pay_h5 (q : FVec Ideal S512x1024 .f32) (kv : Vec Ideal S1x1x64x64 .f32) (k1 : Vec Ideal S1x1x64 .f32) :
    k1_pay15 (k1_pay14 q kv k1) = headTile q 320 slices_S512x1024_o0_320_S512x64 kv k1 := rfl

/-- Head 6, spelt as one term, is the tile of columns 384 … 447. -/
theorem pay_h6 (q : FVec Ideal S512x1024 .f32) (kv : Vec Ideal S1x1x64x64 .f32) (k1 : Vec Ideal S1x1x64 .f32) :
    k1_pay16 q kv k1 = headTile q 384 slices_S512x1024_o0_384_S512x64 kv k1 := rfl

/-- Head 7, the product and the lane sum spelt apart from the quotient, is the tile of columns 448 … 511. -/
theorem pay_h7 (q : FVec Ideal S512x1024 .f32) (kv : Vec Ideal S1x1x64x64 .f32) (k1 : Vec Ideal S1x1x64 .f32) :
    k1_pay20 (k1_pay18 q kv) (k1_pay19 q k1) = headTile q 448 slices_S512x1024_o0_448_S512x64 kv k1 := rfl

/-- Head 8, spelt as one term, is the tile of columns 512 … 575. -/
theorem pay_h8 (q : FVec Ideal S512x1024 .f32) (kv : Vec Ideal S1x1x64x64 .f32) (k1 : Vec Ideal S1x1x64 .f32) :
    k1_pay21 q kv k1 = headTile q 512 slices_S512x1024_o0_512_S512x64 kv k1 := rfl

/-- Head 9, the two slices spelt apart from the rest, is the tile of columns 576 … 639. -/
theorem pay_h9 (q : FVec Ideal S512x1024 .f32) (kv : Vec Ideal S1x1x64x64 .f32) (k1 : Vec Ideal S1x1x64 .f32) :
    k1_pay24 (k1_pay22 q) (k1_pay23 kv) k1 = headTile q 576 slices_S512x1024_o0_576_S512x64 kv k1 := rfl

/-- Head 10, the last change of shape spelt apart, is the tile of columns 640 … 703. -/
theorem pay_h10 (q : FVec Ideal S512x1024 .f32) (kv : Vec Ideal S1x1x64x64 .f32) (k1 : Vec Ideal S1x1x64 .f32) :
    k1_pay26 (k1_pay25 q kv k1) = headTile q 640 slices_S512x1024_o0_640_S512x64 kv k1 := rfl

/-- Head 11, spelt as one term, is the tile of columns 704 … 767. -/
theorem pay_h11 (q : FVec Ideal S512x1024 .f32) (kv : Vec Ideal S1x1x64x64 .f32) (k1 : Vec Ideal S1x1x64 .f32) :
    k1_pay27 q kv k1 = headTile q 704 slices_S512x1024_o0_704_S512x64 kv k1 := rfl

/-- Head 12, the product and the lane sum spelt apart from the quotient, is the tile of columns 768 … 831. -/
theorem pay_h12 (q : FVec Ideal S512x1024 .f32) (kv : Vec Ideal S1x1x64x64 .f32) (k1 : Vec Ideal S1x1x64 .f32) :
    k1_pay31 (k1_pay29 q kv) (k1_pay30 q k1) = headTile q 768 slices_S512x1024_o0_768_S512x64 kv k1 := rfl

/-- Head 13, spelt as one term, is the tile of columns 832 … 895. -/
theorem pay_h13 (q : FVec Ideal S512x1024 .f32) (kv : Vec Ideal S1x1x64x64 .f32) (k1 : Vec Ideal S1x1x64 .f32) :
    k1_pay32 q kv k1 = headTile q 832 slices_S512x1024_o0_832_S512x64 kv k1 := rfl

/-- Head 14, the two slices spelt apart from the rest, is the tile of columns 896 … 959. -/
theorem pay_h14 (q : FVec Ideal S512x1024 .f32) (kv : Vec Ideal S1x1x64x64 .f32) (k1 : Vec Ideal S1x1x64 .f32) :
    k1_pay35 (k1_pay33 q) (k1_pay34 kv) k1 = headTile q 896 slices_S512x1024_o0_896_S512x64 kv k1 := rfl

/-- Head 15, the last change of shape spelt apart, is the tile of columns 960 … 1023. -/
theorem pay_h15 (q : FVec Ideal S512x1024 .f32) (kv : Vec Ideal S1x1x64x64 .f32) (k1 : Vec Ideal S1x1x64 .f32) :
    k1_pay1 (k1_pay36 q kv k1) = headTile q 960 slices_S512x1024_o0_960_S512x64 kv k1 := rfl

end Cert.KernelIdeal.Attend
-- ==== Proof.K1BodyQ.lean ====
/-
  The query features of a tile of 512 tokens, read at one token and one column.

  The body multiplies the [512, 1024] tile by the [1024, 1024] weights from a zero accumulator,
  adds the bias along every row, and applies the feature map x ↦ x + 1 where x > 0, eˣ elsewhere.
  At token r and column j that is φ(Σₖ X[r, k] · W[k, j] + b[j]).
-/
import proofs.«106879_j33681133535316_1_alg».proof.Proof.Gen.KernelIdeal.Skeleton
import proofs.«106879_j33681133535316_1_alg».proof.Proof.Spec
import proofs.«106879_j33681133535316_1_alg».proof.Proof.K1BodyOps

open scoped BigOperators

noncomputable section

namespace Cert.KernelIdeal.Attend

open Cert.KernelIdeal Cert.KernelIdeal.Gen Idealize.ShloMosaic Idealize.ShloMosaic.ValueIdx

/-- The projection before the feature map: the tile times the weights from zero, plus the bias
    repeated down the rows. -/
def qPre (x0 : Vec Ideal S1x512x1024 .bf16) (x1 : Vec Ideal S1024x1024 .bf16) (x2 : Vec Ideal S1024 .f32) :
    FVec Ideal S512x1024 .f32 :=
  addf
    (matmul dot_S512x1024_S1024x1024_S512x1024_1_0_0_1_n_n none
      (shapeCast S512x1024 x0 shapeCasts_S1x512x1024_S512x1024 : FVec Ideal S512x1024 .bf16)
      (shapeCast S1024x1024 x1 shapeCasts_S1024x1024_S1024x1024 : FVec Ideal S1024x1024 .bf16)
      (constant S512x1024 .f32 0x00000000#32))
    (broadcastTo S512x1024
      (shapeCast S1x1024 (shapeCast S1024 x2 shapeCasts_S1024_S1024 : FVec Ideal S1024 .f32) shapeCasts_S1024_S1x1024 :
        FVec Ideal S1x1024 .f32)
      broadcasts_S1x1024_S512x1024)

/-- The projection at token r and column j: Σₖ X[0, r, k] · W[k, j] + b[j]. -/
theorem qPre_apply (x0 : Vec Ideal S1x512x1024 .bf16) (x1 : Vec Ideal S1024x1024 .bf16) (x2 : Vec Ideal S1024 .f32)
    (r : Fin 512) (j : Fin 1024) :
    qPre x0 x1 x2 (ix2 r j) = (∑ k : Fin 1024, x0 (ix3 (0 : Fin 1) r k) * x1 (ix2 k j)) + x2 (ix1 j) := by
  unfold qPre
  refine (addf_apply _ _ _).trans ?_
  refine congrArg₂ (· + ·) ?_ ?_
  · refine (matmul_zero_ix2_apply dot_S512x1024_S1024x1024_S512x1024_1_0_0_1_n_n_wf none _ _ r j).trans ?_
    refine Finset.sum_congr rfl fun k _ => congrArg₂ (· * ·) ?_ ?_
    · exact shapeCast_1ab_ab_apply x0 shapeCasts_S1x512x1024_S512x1024 r k
    · exact congrFun (shapeCast_self x1 shapeCasts_S1024x1024_S1024x1024) (ix2 k j)
  · refine (broadcastTo_1b_ab_apply _ broadcasts_S1x1024_S512x1024 r j).trans ?_
    refine (shapeCast_a_1a_apply _ shapeCasts_S1024_S1x1024 (0 : Fin 1) j).trans ?_
    exact congrFun (shapeCast_self x2 shapeCasts_S1024_S1024) (ix1 j)

set_option maxHeartbeats 400000 in
/-- The body's query features are the feature map of the projection, entry by entry. -/
theorem k1_pay2_eq_phi (x0 : Vec Ideal S1x512x1024 .bf16) (x1 : Vec Ideal S1024x1024 .bf16) (x2 : Vec Ideal S1024 .f32)
    (i : S512x1024.Idx) :
    k1_pay2 x0 x1 x2 i = LinAttn.phi (qPre x0 x1 x2 i) := rfl

/-- The query feature at token r and column j: φ(Σₖ X[0, r, k] · W[k, j] + b[j]). -/
theorem k1_pay2_apply (x0 : Vec Ideal S1x512x1024 .bf16) (x1 : Vec Ideal S1024x1024 .bf16) (x2 : Vec Ideal S1024 .f32)
    (r : Fin 512) (j : Fin 1024) :
    k1_pay2 x0 x1 x2 (ix2 r j)
      = LinAttn.phi ((∑ k : Fin 1024, x0 (ix3 (0 : Fin 1) r k) * x1 (ix2 k j)) + x2 (ix1 j)) :=
  (k1_pay2_eq_phi x0 x1 x2 (ix2 r j)).trans (congrArg LinAttn.phi (qPre_apply x0 x1 x2 r j))

end Cert.KernelIdeal.Attend
-- ==== Proof.K1Body.lean ====
/-
  What one grid point of the attention kernel leaves in its output block, index by index.

  The block [1, 16, 512, 64] is written by sixteen stores, head h at offset (0, h, 0, 0) with the
  head's [1, 1, 512, 64] tile.  Every tile is the same function of the block's index — the
  attention output of the tile's 512 tokens at head h, token r and lane v — restricted to the
  store's rectangle, so the block holds that function wherever a store covers, and the stores
  cover the block.
-/
import proofs.«106879_j33681133535316_1_alg».proof.Proof.Gen.KernelIdeal.Frame
import proofs.«106879_j33681133535316_1_alg».proof.Proof.Spec
import proofs.«106879_j33681133535316_1_alg».proof.Proof.K1BodyPay
import proofs.«106879_j33681133535316_1_alg».proof.Proof.K1BodyQ

open scoped BigOperators

noncomputable section

namespace Cert.KernelIdeal.Attend

open Cert.KernelIdeal Cert.KernelIdeal.Gen Idealize.ShloMosaic Idealize.ShloMosaic.ValueIdx

/-- The attention output of a tile of 512 tokens, from the tile, the weights, the bias and the two
    statistics blocks as the kernel holds them: head h, token r, lane v. -/
abbrev attOf (x0 : Vec Ideal S1x512x1024 .bf16) (x1 : Vec Ideal S1024x1024 .bf16) (x2 : Vec Ideal S1024 .f32)
    (x3 : Vec Ideal S1x16x64x64 .f32) (x4 : Vec Ideal S1x16x64 .f32) (h : Fin 16) (r : Fin 512) (v : Fin 64) : EReal :=
  LinAttn.att (B := 1) (N := 512) (fun _ r k => x0 (ix3 0 r k)) (fun k j => x1 (ix2 k j)) (fun j => x2 (ix1 j))
    (fun _ h d v => x3 (ix4 0 h d v)) (fun _ h d => x4 (ix3 0 h d)) 0 h r v

/-! ### The body's loads -/

/-- The tile is read whole. -/
theorem ld_x0 (x0 : Vec Ideal S1x512x1024 .bf16) : View.ld x0 r1_0 = x0 :=
  View.ld_unit_zero (funext fun a => by fin_cases a <;> rfl) _ x0

/-- The weights are read whole. -/
theorem ld_x1 (x1 : Vec Ideal S1024x1024 .bf16) : View.ld x1 r1_1 = x1 :=
  View.ld_unit_zero (funext fun a => by fin_cases a <;> rfl) _ x1

/-- The bias is read whole. -/
theorem ld_x2 (x2 : Vec Ideal S1024 .f32) : View.ld x2 r1_2 = x2 :=
  View.ld_unit_zero (funext fun a => by fin_cases a <;> rfl) _ x2

/-- Head h's [1, 1, 64, 64] slice of the first statistics block reads, at (0, 0, d, v), the block at
    (0, h, d, v). -/
theorem ld_kv (x3 : Vec Ideal S1x16x64x64 .f32) (o : ℕ)
    (inb : ∀ a, (![0, o, 0, 0] : Fin 4 → ℕ) a + S1x1x64x64.size a ≤ S1x16x64x64.size a) (h : Fin 16) (ho : o = h.val)
    (d v : Fin 64) :
    View.ld x3 (Rect.unit (s := S1x16x64x64) ![0, o, 0, 0] S1x1x64x64.size inb) (ix4 (0 : Fin 1) (0 : Fin 1) d v)
      = x3 (ix4 (0 : Fin 1) h d v) := by
  subst ho
  refine congrArg x3 (funext fun a => Fin.ext ?_)
  match a with
  | ⟨0, _⟩ => rfl
  | ⟨1, _⟩ => show h.val + 1 * 0 = h.val; omega
  | ⟨2, _⟩ => show 0 + 1 * d.val = d.val; omega
  | ⟨3, _⟩ => show 0 + 1 * v.val = v.val; omega

/-- Head h's [1, 1, 64] slice of the second statistics block reads, at (0, 0, d), the block at
    (0, h, d). -/
theorem ld_k1 (x4 : Vec Ideal S1x16x64 .f32) (o : ℕ)
    (inb : ∀ a, (![0, o, 0] : Fin 3 → ℕ) a + S1x1x64.size a ≤ S1x16x64.size a) (h : Fin 16) (ho : o = h.val)
    (d : Fin 64) :
    View.ld x4 (Rect.unit (s := S1x16x64) ![0, o, 0] S1x1x64.size inb) (ix3 (0 : Fin 1) (0 : Fin 1) d)
      = x4 (ix3 (0 : Fin 1) h d) := by
  subst ho
  refine congrArg x4 (funext fun a => Fin.ext ?_)
  match a with
  | ⟨0, _⟩ => rfl
  | ⟨1, _⟩ => show h.val + 1 * 0 = h.val; omega
  | ⟨2, _⟩ => show 0 + 1 * d.val = d.val; omega

/-! ### One store -/

/-- The tile of head h, over the body's loads, is the attention output of head h. -/
theorem headTile_ld (x0 : Vec Ideal S1x512x1024 .bf16) (x1 : Vec Ideal S1024x1024 .bf16) (x2 : Vec Ideal S1024 .f32)
    (x3 : Vec Ideal S1x16x64x64 .f32) (x4 : Vec Ideal S1x16x64 .f32)
    (o : ℕ) (hs : S512x1024.Slices ![0, o] S512x64) (h : Fin 16) (ho : o = 64 * h.val) (o' : ℕ)
    (inb3 : ∀ a, (![0, o', 0, 0] : Fin 4 → ℕ) a + S1x1x64x64.size a ≤ S1x16x64x64.size a)
    (inb4 : ∀ a, (![0, o', 0] : Fin 3 → ℕ) a + S1x1x64.size a ≤ S1x16x64.size a) (ho' : o' = h.val)
    (u u' : Fin 1) (r : Fin 512) (v : Fin 64) :
    headTile (k1_pay2 (View.ld x0 r1_0) (View.ld x1 r1_1) (View.ld x2 r1_2)) o hs
        (View.ld x3 (Rect.unit (s := S1x16x64x64) ![0, o', 0, 0] S1x1x64x64.size inb3))
        (View.ld x4 (Rect.unit (s := S1x16x64) ![0, o', 0] S1x1x64.size inb4)) (ix4 u u' r v)
      = attOf x0 x1 x2 x3 x4 h r v := by
  rw [ld_x0, ld_x1, ld_x2]
  refine (headTile_apply _ o hs h ho _ _ u u' r v).trans ?_
  unfold attOf LinAttn.att LinAttn.qfeat
  refine congrArg₂ Ideal.div (Finset.sum_congr rfl fun d _ => ?_)
    (congrArg (max LinAttn.wTiny) (Finset.sum_congr rfl fun d _ => ?_))
  · rw [k1_pay2_apply, ld_kv x3 o' inb3 h ho' d v]
  · rw [k1_pay2_apply, ld_k1 x4 o' inb4 h ho' d]

/-- A tile that is A(h, ·, ·) at every index, stored at offset (0, h, 0, 0), is the function
    (b, h, r, v) ↦ A(h, r, v) of the block's index restricted to the store's rectangle. -/
theorem tile_at_emb (A : Fin 16 → Fin 512 → Fin 64 → EReal) (o' : ℕ)
    (inb : ∀ a, (![0, o', 0, 0] : Fin 4 → ℕ) a + S1x1x512x64.size a ≤ S1x16x512x64.size a) (h : Fin 16)
    (ho' : o' = h.val) (t : FVec Ideal S1x1x512x64 .bf16)
    (ht : ∀ (u u' : Fin 1) (r : Fin 512) (v : Fin 64), t (ix4 u u' r v) = A h r v)
    (x : (Rect.unit (s := S1x16x512x64) ![0, o', 0, 0] S1x1x512x64.size inb).shape.Idx) :
    t x = (fun y : S1x16x512x64.Idx => A (y 1) (y 2) (y 3))
      ((Rect.unit (s := S1x16x512x64) ![0, o', 0, 0] S1x1x512x64.size inb).emb x) := by
  subst ho'
  obtain ⟨u, u', r, v, rfl⟩ : ∃ (u u' : Fin 1) (r : Fin 512) (v : Fin 64), x = ix4 u u' r v :=
    ⟨x 0, x 1, x 2, x 3, eq_ix4 x⟩
  rw [ht]
  have hu' : u'.val = 0 := by omega
  show A h r v = A ⟨h.val + 1 * u'.val, _⟩ ⟨0 + 1 * r.val, _⟩ ⟨0 + 1 * v.val, _⟩
  congr 1
  · exact Fin.ext (by show h.val = h.val + 1 * u'.val; omega)
  · exact Fin.ext (by show r.val = 0 + 1 * r.val; omega)
  · exact Fin.ext (by show v.val = 0 + 1 * v.val; omega)

/-! ### The block -/

/-- After the body the output block holds, at (0, h, r, v), the attention output of the tile at head
    h, token r and lane v:
    (Σ_d φ(q[r, 64h + d]) · KV[0, h, d, v]) / max(tiny, Σ_d φ(q[r, 64h + d]) · K1[0, h, d]),
    q[r, j] = Σₖ X[0, r, k] · W[k, j] + b[j]. -/
theorem out1_5_at (x0 : Vec Ideal S1x512x1024 .bf16) (x1 : Vec Ideal S1024x1024 .bf16) (x2 : Vec Ideal S1024 .f32)
    (x3 : Vec Ideal S1x16x64x64 .f32) (x4 : Vec Ideal S1x16x64 .f32) (h : Fin 16) (r : Fin 512) (v : Fin 64) :
    out1_5 (F := Ideal) x0 x1 x2 x3 x4 (ix4 0 h r v)
      = LinAttn.att (B := 1) (N := 512) (fun _ r k => x0 (ix3 0 r k)) (fun k j => x1 (ix2 k j)) (fun j => x2 (ix1 j))
          (fun _ h d v => x3 (ix4 0 h d v)) (fun _ h d => x4 (ix3 0 h d)) 0 h r v := by
  unfold out1_5
  refine View.canon_apply_of_pieces (Val := Elt Ideal) (e := .bf16)
    (fun y : S1x16x512x64.Idx => attOf x0 x1 x2 x3 x4 (y 1) (y 2) (y 3)) _ ?_
    (ix4 (0 : Fin 1) h r v) (cover1_5 _ _ _ _ _ _ _ _ _ _ _ _ _ _ _ _ _)
  intro p hp x
  simp only [List.mem_cons, List.not_mem_nil, or_false] at hp
  rcases hp with rfl | rfl | rfl | rfl | rfl | rfl | rfl | rfl | rfl | rfl | rfl | rfl | rfl | rfl | rfl | rfl
  · exact tile_at_emb (attOf x0 x1 x2 x3 x4) 15 inb_S1x16x512x64_S1x1x512x64_0_15_0_0 15 (by decide) _ (fun u u' r v =>
      (congrFun (pay_h15 (k1_pay2 (View.ld x0 r1_0) (View.ld x1 r1_1) (View.ld x2 r1_2)) (View.ld x3 r1_48) (View.ld x4 r1_49)) (ix4 u u' r v)).trans
        (headTile_ld x0 x1 x2 x3 x4 960 slices_S512x1024_o0_960_S512x64 15 (by decide) 15
          inb_S1x16x64x64_S1x1x64x64_0_15_0_0 inb_S1x16x64_S1x1x64_0_15_0 (by decide) u u' r v)) x
  · exact tile_at_emb (attOf x0 x1 x2 x3 x4) 14 inb_S1x16x512x64_S1x1x512x64_0_14_0_0 14 (by decide) _ (fun u u' r v =>
      (congrFun (pay_h14 (k1_pay2 (View.ld x0 r1_0) (View.ld x1 r1_1) (View.ld x2 r1_2)) (View.ld x3 r1_45) (View.ld x4 r1_46)) (ix4 u u' r v)).trans
        (headTile_ld x0 x1 x2 x3 x4 896 slices_S512x1024_o0_896_S512x64 14 (by decide) 14
          inb_S1x16x64x64_S1x1x64x64_0_14_0_0 inb_S1x16x64_S1x1x64_0_14_0 (by decide) u u' r v)) x
  · exact tile_at_emb (attOf x0 x1 x2 x3 x4) 13 inb_S1x16x512x64_S1x1x512x64_0_13_0_0 13 (by decide) _ (fun u u' r v =>
      (congrFun (pay_h13 (k1_pay2 (View.ld x0 r1_0) (View.ld x1 r1_1) (View.ld x2 r1_2)) (View.ld x3 r1_42) (View.ld x4 r1_43)) (ix4 u u' r v)).trans
        (headTile_ld x0 x1 x2 x3 x4 832 slices_S512x1024_o0_832_S512x64 13 (by decide) 13
          inb_S1x16x64x64_S1x1x64x64_0_13_0_0 inb_S1x16x64_S1x1x64_0_13_0 (by decide) u u' r v)) x
  · exact tile_at_emb (attOf x0 x1 x2 x3 x4) 12 inb_S1x16x512x64_S1x1x512x64_0_12_0_0 12 (by decide) _ (fun u u' r v =>
      (congrFun (pay_h12 (k1_pay2 (View.ld x0 r1_0) (View.ld x1 r1_1) (View.ld x2 r1_2)) (View.ld x3 r1_39) (View.ld x4 r1_40)) (ix4 u u' r v)).trans
        (headTile_ld x0 x1 x2 x3 x4 768 slices_S512x1024_o0_768_S512x64 12 (by decide) 12
          inb_S1x16x64x64_S1x1x64x64_0_12_0_0 inb_S1x16x64_S1x1x64_0_12_0 (by decide) u u' r v)) x
  · exact tile_at_emb (attOf x0 x1 x2 x3 x4) 11 inb_S1x16x512x64_S1x1x512x64_0_11_0_0 11 (by decide) _ (fun u u' r v =>
      (congrFun (pay_h11 (k1_pay2 (View.ld x0 r1_0) (View.ld x1 r1_1) (View.ld x2 r1_2)) (View.ld x3 r1_36) (View.ld x4 r1_37)) (ix4 u u' r v)).trans
        (headTile_ld x0 x1 x2 x3 x4 704 slices_S512x1024_o0_704_S512x64 11 (by decide) 11
          inb_S1x16x64x64_S1x1x64x64_0_11_0_0 inb_S1x16x64_S1x1x64_0_11_0 (by decide) u u' r v)) x
  · exact tile_at_emb (attOf x0 x1 x2 x3 x4) 10 inb_S1x16x512x64_S1x1x512x64_0_10_0_0 10 (by decide) _ (fun u u' r v =>
      (congrFun (pay_h10 (k1_pay2 (View.ld x0 r1_0) (View.ld x1 r1_1) (View.ld x2 r1_2)) (View.ld x3 r1_33) (View.ld x4 r1_34)) (ix4 u u' r v)).trans
        (headTile_ld x0 x1 x2 x3 x4 640 slices_S512x1024_o0_640_S512x64 10 (by decide) 10
          inb_S1x16x64x64_S1x1x64x64_0_10_0_0 inb_S1x16x64_S1x1x64_0_10_0 (by decide) u u' r v)) x
  · exact tile_at_emb (attOf x0 x1 x2 x3 x4) 9 inb_S1x16x512x64_S1x1x512x64_0_9_0_0 9 (by decide) _ (fun u u' r v =>
      (congrFun (pay_h9 (k1_pay2 (View.ld x0 r1_0) (View.ld x1 r1_1) (View.ld x2 r1_2)) (View.ld x3 r1_30) (View.ld x4 r1_31)) (ix4 u u' r v)).trans
        (headTile_ld x0 x1 x2 x3 x4 576 slices_S512x1024_o0_576_S512x64 9 (by decide) 9
          inb_S1x16x64x64_S1x1x64x64_0_9_0_0 inb_S1x16x64_S1x1x64_0_9_0 (by decide) u u' r v)) x
  · exact tile_at_emb (attOf x0 x1 x2 x3 x4) 8 inb_S1x16x512x64_S1x1x512x64_0_8_0_0 8 (by decide) _ (fun u u' r v =>
      (congrFun (pay_h8 (k1_pay2 (View.ld x0 r1_0) (View.ld x1 r1_1) (View.ld x2 r1_2)) (View.ld x3 r1_27) (View.ld x4 r1_28)) (ix4 u u' r v)).trans
        (headTile_ld x0 x1 x2 x3 x4 512 slices_S512x1024_o0_512_S512x64 8 (by decide) 8
          inb_S1x16x64x64_S1x1x64x64_0_8_0_0 inb_S1x16x64_S1x1x64_0_8_0 (by decide) u u' r v)) x
  · exact tile_at_emb (attOf x0 x1 x2 x3 x4) 7 inb_S1x16x512x64_S1x1x512x64_0_7_0_0 7 (by decide) _ (fun u u' r v =>
      (congrFun (pay_h7 (k1_pay2 (View.ld x0 r1_0) (View.ld x1 r1_1) (View.ld x2 r1_2)) (View.ld x3 r1_24) (View.ld x4 r1_25)) (ix4 u u' r v)).trans
        (headTile_ld x0 x1 x2 x3 x4 448 slices_S512x1024_o0_448_S512x64 7 (by decide) 7
          inb_S1x16x64x64_S1x1x64x64_0_7_0_0 inb_S1x16x64_S1x1x64_0_7_0 (by decide) u u' r v)) x
  · exact tile_at_emb (attOf x0 x1 x2 x3 x4) 6 inb_S1x16x512x64_S1x1x512x64_0_6_0_0 6 (by decide) _ (fun u u' r v =>
      (congrFun (pay_h6 (k1_pay2 (View.ld x0 r1_0) (View.ld x1 r1_1) (View.ld x2 r1_2)) (View.ld x3 r1_21) (View.ld x4 r1_22)) (ix4 u u' r v)).trans
        (headTile_ld x0 x1 x2 x3 x4 384 slices_S512x1024_o0_384_S512x64 6 (by decide) 6
          inb_S1x16x64x64_S1x1x64x64_0_6_0_0 inb_S1x16x64_S1x1x64_0_6_0 (by decide) u u' r v)) x
  · exact tile_at_emb (attOf x0 x1 x2 x3 x4) 5 inb_S1x16x512x64_S1x1x512x64_0_5_0_0 5 (by decide) _ (fun u u' r v =>
      (congrFun (pay_h5 (k1_pay2 (View.ld x0 r1_0) (View.ld x1 r1_1) (View.ld x2 r1_2)) (View.ld x3 r1_18) (View.ld x4 r1_19)) (ix4 u u' r v)).trans
        (headTile_ld x0 x1 x2 x3 x4 320 slices_S512x1024_o0_320_S512x64 5 (by decide) 5
          inb_S1x16x64x64_S1x1x64x64_0_5_0_0 inb_S1x16x64_S1x1x64_0_5_0 (by decide) u u' r v)) x
  · exact tile_at_emb (attOf x0 x1 x2 x3 x4) 4 inb_S1x16x512x64_S1x1x512x64_0_4_0_0 4 (by decide) _ (fun u u' r v =>
      (congrFun (pay_h4 (k1_pay2 (View.ld x0 r1_0) (View.ld x1 r1_1) (View.ld x2 r1_2)) (View.ld x3 r1_15) (View.ld x4 r1_16)) (ix4 u u' r v)).trans
        (headTile_ld x0 x1 x2 x3 x4 256 slices_S512x1024_o0_256_S512x64 4 (by decide) 4
          inb_S1x16x64x64_S1x1x64x64_0_4_0_0 inb_S1x16x64_S1x1x64_0_4_0 (by decide) u u' r v)) x
  · exact tile_at_emb (attOf x0 x1 x2 x3 x4) 3 inb_S1x16x512x64_S1x1x512x64_0_3_0_0 3 (by decide) _ (fun u u' r v =>
      (congrFun (pay_h3 (k1_pay2 (View.ld x0 r1_0) (View.ld x1 r1_1) (View.ld x2 r1_2)) (View.ld x3 r1_12) (View.ld x4 r1_13)) (ix4 u u' r v)).trans
        (headTile_ld x0 x1 x2 x3 x4 192 slices_S512x1024_o0_192_S512x64 3 (by decide) 3
          inb_S1x16x64x64_S1x1x64x64_0_3_0_0 inb_S1x16x64_S1x1x64_0_3_0 (by decide) u u' r v)) x
  · exact tile_at_emb (attOf x0 x1 x2 x3 x4) 2 inb_S1x16x512x64_S1x1x512x64_0_2_0_0 2 (by decide) _ (fun u u' r v =>
      (congrFun (pay_h2 (k1_pay2 (View.ld x0 r1_0) (View.ld x1 r1_1) (View.ld x2 r1_2)) (View.ld x3 r1_9) (View.ld x4 r1_10)) (ix4 u u' r v)).trans
        (headTile_ld x0 x1 x2 x3 x4 128 slices_S512x1024_o0_128_S512x64 2 (by decide) 2
          inb_S1x16x64x64_S1x1x64x64_0_2_0_0 inb_S1x16x64_S1x1x64_0_2_0 (by decide) u u' r v)) x
  · exact tile_at_emb (attOf x0 x1 x2 x3 x4) 1 inb_S1x16x512x64_S1x1x512x64_0_1_0_0 1 (by decide) _ (fun u u' r v =>
      (congrFun (pay_h1 (k1_pay2 (View.ld x0 r1_0) (View.ld x1 r1_1) (View.ld x2 r1_2)) (View.ld x3 r1_6) (View.ld x4 r1_7)) (ix4 u u' r v)).trans
        (headTile_ld x0 x1 x2 x3 x4 64 slices_S512x1024_o0_64_S512x64 1 (by decide) 1
          inb_S1x16x64x64_S1x1x64x64_0_1_0_0 inb_S1x16x64_S1x1x64_0_1_0 (by decide) u u' r v)) x
  · exact tile_at_emb (attOf x0 x1 x2 x3 x4) 0 inb_S1x16x512x64_S1x1x512x64_0_0_0_0 0 (by decide) _ (fun u u' r v =>
      (congrFun (pay_h0 (View.ld x0 r1_0) (View.ld x1 r1_1) (View.ld x2 r1_2) (View.ld x3 r1_3) (View.ld x4 r1_4)) (ix4 u u' r v)).trans
        (headTile_ld x0 x1 x2 x3 x4 0 slices_S512x1024_o0_0_S512x64 0 (by decide) 0
          inb_S1x16x64x64_S1x1x64x64_0_0_0_0 inb_S1x16x64_S1x1x64_0_0_0 (by decide) u u' r v)) x

end Cert.KernelIdeal.Attend
-- ==== Proof.KBlocks.lean ====
/-
  Two locality facts about the specification's stages.

  The attention output at (b, h, n, v) reads, of its token array, only row n of batch b, and of the
  statistics only batch b; the layer-norm output at (b, n, e) reads only row n of batch b of its
  input and of its residual. So two sets of arrays — possibly of different batch and token counts —
  that agree on those rows give the same value. This is what makes a tile of 512 tokens, taken as one
  batch of 512 tokens, compute the whole arrays' function at the tile's rows.
-/
import proofs.«106879_j33681133535316_1_alg».proof.Proof.Spec

open scoped BigOperators

noncomputable section

namespace LinAttn

/-- The attention output only reads row (b, n) of the tokens and batch b of the statistics. -/
theorem att_congr {B N B' N' : ℕ}
    (X : Fin B → Fin N → Fin 1024 → EReal) (X' : Fin B' → Fin N' → Fin 1024 → EReal)
    (Wq Wq' : Fin 1024 → Fin 1024 → EReal) (bq bq' : Fin 1024 → EReal)
    (KV : Fin B → Fin 16 → Fin 64 → Fin 64 → EReal) (KV' : Fin B' → Fin 16 → Fin 64 → Fin 64 → EReal)
    (K1 : Fin B → Fin 16 → Fin 64 → EReal) (K1' : Fin B' → Fin 16 → Fin 64 → EReal)
    (b : Fin B) (n : Fin N) (b' : Fin B') (n' : Fin N') (h : Fin 16) (v : Fin 64)
    (hX : ∀ k, X b n k = X' b' n' k) (hW : ∀ k j, Wq k j = Wq' k j) (hbq : ∀ j, bq j = bq' j)
    (hKV : ∀ d v, KV b h d v = KV' b' h d v) (hK1 : ∀ d, K1 b h d = K1' b' h d) :
    att X Wq bq KV K1 b h n v = att X' Wq' bq' KV' K1' b' h n' v := by
  obtain rfl : Wq = Wq' := funext fun k => funext fun j => hW k j
  obtain rfl : bq = bq' := funext hbq
  unfold att qfeat
  simp only [hX, hKV, hK1]

/-- The layer-norm output only reads row (b, n) of its input and of its residual. -/
theorem lnOut_congr {B N B' N' : ℕ}
    (Y : Fin B → Fin N → Fin 1024 → EReal) (Y' : Fin B' → Fin N' → Fin 1024 → EReal)
    (Wpt Wpt' : Fin 1024 → Fin 1024 → EReal) (bp bp' g g' bt bt' : Fin 1024 → EReal)
    (R : Fin B → Fin N → Fin 1024 → EReal) (R' : Fin B' → Fin N' → Fin 1024 → EReal)
    (b : Fin B) (n : Fin N) (b' : Fin B') (n' : Fin N') (e : Fin 1024)
    (hY : ∀ j, Y b n j = Y' b' n' j) (hW : ∀ j e, Wpt j e = Wpt' j e) (hbp : ∀ e, bp e = bp' e)
    (hg : ∀ e, g e = g' e) (hbt : ∀ e, bt e = bt' e) (hR : ∀ e, R b n e = R' b' n' e) :
    lnOut Y Wpt bp g bt R b n e = lnOut Y' Wpt' bp' g' bt' R' b' n' e := by
  obtain rfl : Wpt = Wpt' := funext fun j => funext fun e => hW j e
  obtain rfl : bp = bp' := funext hbp
  obtain rfl : g = g' := funext hg
  obtain rfl : bt = bt' := funext hbt
  unfold lnOut vari dev mean proj
  simp only [hY, hR]

end LinAttn
-- ==== Proof.K1Arr.lean ====
/-
  What the second kernel's output array holds after its whole grid.

  The grid has 64 points; point t works on batch t / 16 and on tile t % 16 of 512 tokens.  It reads the
  token block (t / 16, t % 16, 0) of the [4, 8192, 1024] token array, the query weights and bias whole, and
  batch t / 16 of the two statistics arrays; it writes block (t / 16, 0, t % 16, 0) of the [4, 16, 8192, 64]
  output array, of size [1, 16, 512, 64], and every point writes its block back.  Entry (0, h, r, v) of
  that block is entry (t / 16, h, 512·(t % 16) + r, v) of the array — a block's coordinate is always block
  index × block size + the coordinate inside the block.

  One point leaves in its block the attention output of its tile, taken as one batch of 512 tokens with
  one batch of statistics.  The attention output at (b, h, n, v) reads only row n of batch b of the tokens
  and batch b of the statistics, so the tile's value at row r is the whole arrays' value at row
  512·(t % 16) + r of batch t / 16.  Hence every write-back writes a block of ONE function of the arrays
  the region finds, and since token n of batch b lies in the block of point 16·b + n / 512, the blocks
  cover the array: after the grid the array holds that function.
-/
import proofs.«106879_j33681133535316_1_alg».proof.Proof.Gen.KernelIdeal.Frame
import proofs.«106879_j33681133535316_1_alg».proof.Proof.Spec
import proofs.«106879_j33681133535316_1_alg».proof.Proof.KBlocks
import Idealize.ShloMosaic.Lib.Pipeline.Value
import Idealize.ShloMosaic.Lib.ValueIdx

noncomputable section

open Idealize.ShloMosaic Idealize.ShloMosaic.TcCoe
open Idealize.ShloMosaic.Pipeline (Dat)
open Idealize.ShloMosaic.ValueIdx
open scoped BigOperators

namespace Cert.KernelIdeal.Arr

open Cert.KernelIdeal Cert.KernelIdeal.Gen

namespace R1

/-- What one point leaves in the output block: the attention output of its tile, taken as one batch of
    512 tokens with one batch of statistics. -/
abbrev HBody : Prop :=
  ∀ (x0 : Vec Ideal S1x512x1024 .bf16) (x1 : Vec Ideal S1024x1024 .bf16) (x2 : Vec Ideal S1024 .f32)
    (x3 : Vec Ideal S1x16x64x64 .f32) (x4 : Vec Ideal S1x16x64 .f32) (h : Fin 16) (r : Fin 512) (v : Fin 64),
    out1_5 (F := Ideal) x0 x1 x2 x3 x4 (ix4 0 h r v)
      = LinAttn.att (B := 1) (N := 512) (fun _ r k => x0 (ix3 0 r k)) (fun k j => x1 (ix2 k j)) (fun j => x2 (ix1 j))
          (fun _ h d v => x3 (ix4 0 h d v)) (fun _ h d => x4 (ix3 0 h d)) 0 h r v

/-- At point t the token window is at block (t / 16, t % 16, 0), the weights and the bias at block 0, the
    two statistics windows at block (t / 16, 0, …), and the output window at block (t / 16, 0, t % 16, 0). -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 2) = 0 ∧ win1_1.index t (1 : Fin 2) = 0
    ∧ win1_2.index t (0 : Fin 1) = 0
    ∧ win1_3.index t (0 : Fin 4) = t.val / 16 ∧ win1_3.index t (1 : Fin 4) = 0 ∧ win1_3.index t (2 : Fin 4) = 0 ∧ win1_3.index t (3 : Fin 4) = 0
    ∧ win1_4.index t (0 : Fin 3) = t.val / 16 ∧ win1_4.index t (1 : Fin 3) = 0 ∧ win1_4.index t (2 : Fin 3) = 0
    ∧ win1_5.index t (0 : Fin 4) = t.val / 16 ∧ win1_5.index t (1 : Fin 4) = 0 ∧ win1_5.index t (2 : Fin 4) = t.val % 16 ∧ win1_5.index t (3 : Fin 4) = 0 :=
  (by decide +kernel : ∀ t : Fin grid1.N, _)

variable (V : (c : Dev nD) → (b : Ref sig .tc) → Buf (Elt Ideal) ((c : Thread nD τ).loc b)) (c : Dev nD)

/-! ### The input blocks as entries of the arrays the region finds -/

/-- Entry (0, r, k) of the token block at point t is entry (t / 16, 512·(t % 16) + r, k) of the token array. -/
theorem blk0_apply (t : Fin cfg1.N) (r : Fin 512) (k : Fin 1024) (b : Fin 4) (n : Fin 8192)
    (hb : b.val = t.val / 16) (hn : n.val = 512 * (t.val % 16) + r.val) :
    iblk1 (F := Ideal) V c 0 t (ix3 0 r k) = V c (Pipeline.arrRef spec1 0) (ix3 b n k) := by
  obtain ⟨e0, e1, e2, -⟩ := idx_facts t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 3) * 1 + 1 * 0 = b.val; omega
  | ⟨1, _⟩ => show win1_0.index t (1 : Fin 3) * 512 + 1 * r.val = n.val; omega
  | ⟨2, _⟩ => show win1_0.index t (2 : Fin 3) * 1024 + 1 * k.val = k.val; omega

/-- The query-weight block at any point is the whole weight matrix. -/
theorem blk1_apply (t : Fin cfg1.N) (k j : Fin 1024) :
    iblk1 (F := Ideal) V c 1 t (ix2 k j) = V c (Pipeline.arrRef spec1 1) (ix2 k j) := by
  obtain ⟨-, -, -, e0, e1, -⟩ := idx_facts t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 1024 + 1 * k.val = k.val; omega
  | ⟨1, _⟩ => show win1_1.index t (1 : Fin 2) * 1024 + 1 * j.val = j.val; omega

/-- The query-bias block at any point is the whole bias vector. -/
theorem blk2_apply (t : Fin cfg1.N) (j : Fin 1024) :
    iblk1 (F := Ideal) V c 2 t (ix1 j) = V c (Pipeline.arrRef spec1 2) (ix1 j) := by
  obtain ⟨-, -, -, -, -, e0, -⟩ := idx_facts t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 1) * 1024 + 1 * j.val = j.val; omega

/-- Entry (0, h, d, v) of the KV block at point t is entry (t / 16, h, d, v) of the KV array. -/
theorem blk3_apply (t : Fin cfg1.N) (h : Fin 16) (d v : Fin 64) (b : Fin 4) (hb : b.val = t.val / 16) :
    iblk1 (F := Ideal) V c 3 t (ix4 0 h d v) = V c (Pipeline.arrRef spec1 3) (ix4 b h d v) := by
  obtain ⟨-, -, -, -, -, -, e0, e1, e2, e3, -⟩ := idx_facts t
  unfold iblk1
  rw [View.read_apply]
  show V c (Pipeline.arrRef spec1 3) _ = V c (Pipeline.arrRef spec1 3) _
  refine congrArg _ ?_
  funext a
  apply Fin.ext
  match a with
  | ⟨0, _⟩ => show win1_3.index t (0 : Fin 4) * 1 + 1 * 0 = b.val; omega
  | ⟨1, _⟩ => show win1_3.index t (1 : Fin 4) * 16 + 1 * h.val = h.val; omega
  | ⟨2, _⟩ => show win1_3.index t (2 : Fin 4) * 64 + 1 * d.val = d.val; omega
  | ⟨3, _⟩ => show win1_3.index t (3 : Fin 4) * 64 + 1 * v.val = v.val; omega

/-- Entry (0, h, d) of the K1 block at point t is entry (t / 16, h, d) of the K1 array. -/
theorem blk4_apply (t : Fin cfg1.N) (h : Fin 16) (d : Fin 64) (b : Fin 4) (hb : b.val = t.val / 16) :
    iblk1 (F := Ideal) V c 4 t (ix3 0 h d) = V c (Pipeline.arrRef spec1 4) (ix3 b h d) := by
  obtain ⟨-, -, -, -, -, -, -, -, -, -, e0, e1, e2, -⟩ := idx_facts t
  unfold iblk1
  rw [View.read_apply]
  show V c (Pipeline.arrRef spec1 4) _ = V c (Pipeline.arrRef spec1 4) _
  refine congrArg _ ?_
  funext a
  apply Fin.ext
  match a with
  | ⟨0, _⟩ => show win1_4.index t (0 : Fin 3) * 1 + 1 * 0 = b.val; omega
  | ⟨1, _⟩ => show win1_4.index t (1 : Fin 3) * 16 + 1 * h.val = h.val; omega
  | ⟨2, _⟩ => show win1_4.index t (2 : Fin 3) * 64 + 1 * d.val = d.val; omega

/-! ### The output array -/

/-- The attention output of the arrays the region finds, as contents of the [4, 16, 8192, 64] array. -/
abbrev arrAtt : S4x16x8192x64.Idx → EReal := fun i =>
  LinAttn.att (B := 4) (N := 8192) (fun b n k => V c (Pipeline.arrRef spec1 0) (ix3 b n k))
    (fun k j => V c (Pipeline.arrRef spec1 1) (ix2 k j)) (fun j => V c (Pipeline.arrRef spec1 2) (ix1 j))
    (fun b h d v => V c (Pipeline.arrRef spec1 3) (ix4 b h d v)) (fun b h d => V c (Pipeline.arrRef spec1 4) (ix3 b h d))
    (i 0) (i 1) (i 2) (i 3)

/-- Entry (0, h, r, v) of the output block at point t is entry (t / 16, h, 512·(t % 16) + r, v) of the array. -/
theorem emb5 (t : Fin cfg1.N) (b : Fin 4) (n : Fin 8192) (h : Fin 16) (r : Fin 512) (v : Fin 64)
    (hb : b.val = t.val / 16) (hn : n.val = 512 * (t.val % 16) + r.val) :
    ((cfg1.win 5).blk t).view.emb (ix4 0 h r v) = ix4 b h n v := by
  obtain ⟨-, -, -, -, -, -, -, -, -, -, -, -, -, e0, e1, e2, e3⟩ := idx_facts t
  funext a
  apply Fin.ext
  match a with
  | ⟨0, _⟩ => show win1_5.index t (0 : Fin 4) * 1 + 1 * 0 = b.val; omega
  | ⟨1, _⟩ => show win1_5.index t (1 : Fin 4) * 16 + 1 * h.val = h.val; omega
  | ⟨2, _⟩ => show win1_5.index t (2 : Fin 4) * 512 + 1 * r.val = n.val; omega
  | ⟨3, _⟩ => show win1_5.index t (3 : Fin 4) * 64 + 1 * v.val = v.val; omega

/-- What point t writes back is its block of the attention output of the arrays the region finds. -/
theorem flushed5_eq (hbody : HBody) (t : Fin cfg1.N) :
    (dat1 (F := Ideal) V c).flushed 5 t = ((cfg1.win 5).blk t).view.read (Elt Ideal) (arrAtt V c) := by
  have hN : cfg1.N = 64 := N_1
  have ht : t.val < 64 := hN ▸ t.isLt
  show (cfg1.win 5).cut (grid1.coords t) ((dat1 (F := Ideal) V c).after 5 t) = _
  rw [after1_5]
  funext y
  obtain ⟨z, h, r, v, rfl⟩ : ∃ (z : Fin 1) (h : Fin 16) (r : Fin 512) (v : Fin 64), y = ix4 z h r v :=
    ⟨y 0, y 1, y 2, y 3, @eq_ix4 1 16 512 64 y⟩
  obtain rfl : z = 0 := Subsingleton.elim _ _
  rw [View.read_apply]
  show out1_5 (F := Ideal) (iblk1 V c 0 t) (iblk1 V c 1 t) (iblk1 V c 2 t) (iblk1 V c 3 t) (iblk1 V c 4 t)
      ((cfg1.win 5).xinj (grid1.coords t) (ix4 0 h r v))
    = arrAtt V c (((cfg1.win 5).blk t).view.emb (ix4 0 h r v))
  rw [emb5 t ⟨t.val / 16, by omega⟩ ⟨512 * (t.val % 16) + r.val, by omega⟩ h r v rfl rfl]
  have hx : (cfg1.win 5).xinj (grid1.coords t) (ix4 0 h r v) = ix4 0 h r v := by
    funext a; apply Fin.ext; rfl
  rw [hx]
  refine (hbody (iblk1 V c 0 t) (iblk1 V c 1 t) (iblk1 V c 2 t) (iblk1 V c 3 t) (iblk1 V c 4 t) h r v).trans ?_
  exact LinAttn.att_congr _ _ _ _ _ _ _ _ _ _ 0 r ⟨t.val / 16, by omega⟩ ⟨512 * (t.val % 16) + r.val, by omega⟩ h v
    (fun k => blk0_apply V c t r k _ _ rfl rfl) (fun k j => blk1_apply V c t k j) (fun j => blk2_apply V c t j)
    (fun d v => blk3_apply V c t h d v _ rfl) (fun d => blk4_apply V c t h d _ rfl)

/-- An index of the output array is in point t's block iff each coordinate is in the block's range. -/
theorem mem_blk5 (t : Fin cfg1.N) (i : S4x16x8192x64.Idx) :
    i ∈ ((cfg1.win 5).blk t).view.set ↔ ∀ a : Fin 4, win1_5.index t a * S1x16x512x64.size a ≤ (i a).val
      ∧ (i a).val < win1_5.index t a * S1x16x512x64.size a + S1x16x512x64.size a := by
  show i ∈ ((View.whole main_v14).slice (win1_5.rect t)).set ↔ _
  rw [View.set_slice_whole, Rect.mem_set_unit]
  exact Iff.rfl

/-- Entry (b, h, n, v) of the output array is in the block written back at point 16·b + n / 512. -/
theorem cover5 (i : S4x16x8192x64.Idx) :
    ∃ t : Fin cfg1.N, (cfg1.win 5).flush t = true ∧ i ∈ ((cfg1.win 5).blk t).view.set := by
  have hN : cfg1.N = 64 := N_1
  obtain ⟨b, h, n, v, rfl⟩ : ∃ (b : Fin 4) (h : Fin 16) (n : Fin 8192) (v : Fin 64), i = ix4 b h n v :=
    ⟨i 0, i 1, i 2, i 3, eq_ix4 i⟩
  have hn : 16 * b.val + n.val / 512 < cfg1.N := by omega
  obtain ⟨-, -, -, -, -, -, -, -, -, -, -, -, -, e0, e1, e2, e3⟩ := idx_facts ⟨16 * b.val + n.val / 512, hn⟩
  dsimp only at e0 e2
  refine ⟨⟨16 * b.val + n.val / 512, hn⟩, flush1_5 _, ?_⟩
  rw [mem_blk5]
  intro a
  match a with
  | ⟨0, _⟩ =>
    show win1_5.index ⟨16 * b.val + n.val / 512, hn⟩ (0 : Fin 4) * 1 ≤ b.val
      ∧ b.val < win1_5.index ⟨16 * b.val + n.val / 512, hn⟩ (0 : Fin 4) * 1 + 1
    omega
  | ⟨1, _⟩ =>
    show win1_5.index ⟨16 * b.val + n.val / 512, hn⟩ (1 : Fin 4) * 16 ≤ h.val
      ∧ h.val < win1_5.index ⟨16 * b.val + n.val / 512, hn⟩ (1 : Fin 4) * 16 + 16
    omega
  | ⟨2, _⟩ =>
    show win1_5.index ⟨16 * b.val + n.val / 512, hn⟩ (2 : Fin 4) * 512 ≤ n.val
      ∧ n.val < win1_5.index ⟨16 * b.val + n.val / 512, hn⟩ (2 : Fin 4) * 512 + 512
    omega
  | ⟨3, _⟩ =>
    show win1_5.index ⟨16 * b.val + n.val / 512, hn⟩ (3 : Fin 4) * 64 ≤ v.val
      ∧ v.val < win1_5.index ⟨16 * b.val + n.val / 512, hn⟩ (3 : Fin 4) * 64 + 64
    omega

/-- After the whole grid the output array holds the attention output of the arrays the region finds. -/
theorem att_whole (hbody : HBody) : (dat1 (F := Ideal) V c).arrAt 5 cfg1.N = arrAtt V c :=
  (dat1 (F := Ideal) V c).arrAt_eq_of_cover 5 (arrAtt V c) (fun t _ => flushed5_eq V c hbody t) (cover5)

end R1

/-- After the whole grid, entry (b, h, n, v) of the second kernel's output array is the attention output at
    (b, h, n, v) of the token array, the query weights and bias and the two statistics arrays the region
    finds. -/
theorem att_arr (V : (c : Dev nD) → (b : Ref sig .tc) → Buf (Elt Ideal) ((c : Thread nD τ).loc b)) (c : Dev nD)
    (hbody : R1.HBody) (b : Fin 4) (h : Fin 16) (n : Fin 8192) (v : Fin 64) :
    (dat1 (F := Ideal) V c).arrAt 5 cfg1.N (ix4 b h n v)
      = LinAttn.att (B := 4) (N := 8192) (fun b n k => V c (Pipeline.arrRef spec1 0) (ix3 b n k))
          (fun k j => V c (Pipeline.arrRef spec1 1) (ix2 k j)) (fun j => V c (Pipeline.arrRef spec1 2) (ix1 j))
          (fun b h d v => V c (Pipeline.arrRef spec1 3) (ix4 b h d v))
          (fun b h d => V c (Pipeline.arrRef spec1 4) (ix3 b h d)) b h n v :=
  congrFun (R1.att_whole V c hbody) (ix4 b h n v)

end Cert.KernelIdeal.Arr
-- ==== Proof.K2BodyOps.lean ====
/-
  Four readings of vector operations at an index given by coordinates, over literal extents:
  a vector [a] viewed as a column [a, 1]; a column [a, 1] repeated along the lanes to [a, b];
  the sum of a matrix [a, b] along its lanes; and a product of a matrix [a, c] with a matrix
  [c, b] accumulated from zero, which at (p, q) is the sum over k of l[p, k] * w[k, q].
-/
import Idealize.ShloMosaic.Lib.ValueLayout
import Idealize.ShloMosaic.Lib.ValueIdx
import Idealize.ShloMosaic.PureOps.Ideal.Laws

open scoped BigOperators
open Idealize.ShloMosaic Idealize.ShloMosaic.ValueIdx

noncomputable section

namespace Cert.KernelIdeal.Norm

variable {α : Type}

/-- An [a] array cast to a column [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the lanes to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its lanes, from the zero word, reads at p the sum over q of the entry (p, q). -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  refine Finset.sum_congr rfl fun q _ => congrArg src ?_
  funext ax
  apply Fin.ext
  match ax with
  | ⟨0, _⟩ => rfl
  | ⟨1, _⟩ => rfl

end Cert.KernelIdeal.Norm
-- ==== Proof.K2Body.lean ====
/-
  What one grid point of the projection-and-normalisation kernel leaves in its output block.

  The point holds a tile Y of 512 rows (1024 lanes each) of the re-read attention output, the whole
  matrix Wpᵀ [1024, 1024], the vectors bp, γ, β [1024] and the matching tile R of the residual input.
  Its arithmetic is: P = Y·Wpᵀ + bp (a product accumulated from zero; bp repeated down the rows);
  m = (sum of P along the lanes) / 1024, kept as a column; D = P − m; s = (sum of D·D along the lanes) / 1024;
  result = ((D · rsqrt(s + ε)) · γ + β) + R.  Read entry by entry, each row only meets itself, so
  entry (r, e) of the block is the layer-norm function of the specification at one batch of 512 tokens,
  taken at token r and channel e.

  The arithmetic is cut in three named stages (the projected tile; a row mean kept as a column and the
  deviation from it; the normalisation and the residual), each read at an index (p, q) from what the
  stage before is at (p, ·).
-/
import proofs.«106879_j33681133535316_1_alg».proof.Proof.Spec
import proofs.«106879_j33681133535316_1_alg».proof.Proof.K2BodyOps
import proofs.«106879_j33681133535316_1_alg».proof.Proof.Gen.KernelIdeal.Frame
import Idealize.ShloMosaic.Lib.Pipeline.Value

open scoped BigOperators
open Idealize.ShloMosaic Idealize.ShloMosaic.ValueIdx

noncomputable section

namespace Cert.KernelIdeal.Norm

open Cert.KernelIdeal Cert.KernelIdeal.Gen

/-! ### The matrix product at an entry -/

/-- A [512, 1024] by [1024, 1024] product accumulated from zero is, at (p, q), the sum over k of l[p, k] · w[k, q]. -/
theorem matmul_at (l : FVec Ideal S512x1024 .bf16) (w : FVec Ideal S1024x1024 .bf16) (p : Fin 512) (q : Fin 1024) :
    matmul dot_S512x1024_S1024x1024_S512x1024_1_0_0_1_n_n none l w (constant (F := Ideal) S512x1024 .f32 0x00000000#32) (ix2 p q)
      = ∑ k : Fin 1024, l (ix2 p k) * w (ix2 k q) := by
  refine (Ideal.matmul_constant_zero_apply dot_S512x1024_S1024x1024_S512x1024_1_0_0_1_n_n none l w (ix2 p q)).trans ?_
  refine (Equiv.sum_comp (contrEquiv1 dot_S512x1024_S1024x1024_S512x1024_1_0_0_1_n_n 1024 rfl rfl).symm _).symm.trans ?_
  refine Finset.sum_congr rfl fun k _ => ?_
  refine congrArg₂ (· * ·) (congrArg l ?_) (congrArg w ?_)
  · funext a; apply Fin.ext
    match a with
    | ⟨0, _⟩ => rfl
    | ⟨1, _⟩ =>
      exact (DotDims.lhsIdx_val_of_single dot_S512x1024_S1024x1024_S512x1024_1_0_0_1_n_n rfl _ _).trans
        (contrEquiv1_symm_val dot_S512x1024_S1024x1024_S512x1024_1_0_0_1_n_n 1024 rfl rfl k)
  · funext a; apply Fin.ext
    match a with
    | ⟨0, _⟩ =>
      exact (DotDims.rhsIdx_val_of_single dot_S512x1024_S1024x1024_S512x1024_1_0_0_1_n_n rfl _ _).trans
        (contrEquiv1_symm_val dot_S512x1024_S1024x1024_S512x1024_1_0_0_1_n_n 1024 rfl rfl k)
    | ⟨1, _⟩ => rfl

/-! ### The three stages of the arithmetic -/

/-- The projected tile P = Y·Wpᵀ + bp: the product accumulated from zero, plus bp repeated down the rows. -/
def projTile (v0 : Vec Ideal S1x512x1024 .bf16) (v2 : Vec Ideal S1024x1024 .bf16) (v5 : Vec Ideal S1024 .f32) :
    FVec Ideal S512x1024 .f32 :=
  have v1 : FVec Ideal S512x1024 .bf16 := shapeCast S512x1024 v0 shapeCasts_S1x512x1024_S512x1024
  have v3 : FVec Ideal S1024x1024 .bf16 := shapeCast S1024x1024 v2 shapeCasts_S1024x1024_S1024x1024
  have cst : FVec Ideal S512x1024 .f32 := constant S512x1024 .f32 0x00000000#32
  have v4 : FVec Ideal S512x1024 .f32 := matmul dot_S512x1024_S1024x1024_S512x1024_1_0_0_1_n_n none v1 v3 cst
  have v6 : FVec Ideal S1x1024 .f32 := shapeCast S1x1024 v5 shapeCasts_S1024_S1x1024
  have v7 : FVec Ideal S512x1024 .f32 := broadcastTo S512x1024 v6 broadcasts_S1x1024_S512x1024
  addf v4 v7

/-- The mean of each row of a tile, kept as a column: the sum along the lanes divided by the word of 1024. -/
def meanCol (y : FVec Ideal S512x1024 .f32) : FVec Ideal S512x1 .f32 :=
  have v9 : FVec Ideal S512 .f32 := multiReduction .add [1] S512 y 0x00000000#32 reduces_S512x1024_S512 (.inl rfl) rfl
  have v10 : FVec Ideal S512x1 .f32 := shapeCast S512x1 v9 shapeCasts_S512_S512x1
  have cst_6 : Ideal .f32 := Scalar.ofBits .f32 0x44800000#32
  have v11 : FVec Ideal S512x1 .f32 := broadcast S512x1 cst_6
  divf v10 v11

/-- The deviation of a tile from its row means. -/
def devTile (y : FVec Ideal S512x1024 .f32) : FVec Ideal S512x1024 .f32 :=
  have v13 : FVec Ideal S512x1024 .f32 := broadcastTo S512x1024 (meanCol y) broadcasts_S512x1_S512x1024
  subf y v13

/-- ((D · rsqrt(rowmean(D·D) + ε)) · γ + β) + R, with γ and β repeated down the rows. -/
def normTile (d : FVec Ideal S512x1024 .f32) (v25 v29 : Vec Ideal S1024 .f32) (v33 : Vec Ideal S1x512x1024 .f32) :
    FVec Ideal S512x1024 .f32 :=
  have v15 : FVec Ideal S512x1024 .f32 := mulf d d
  have v19 : FVec Ideal S512x1 .f32 := meanCol v15
  have cst_9 : Ideal .f32 := Scalar.ofBits .f32 0x3727C5AC#32
  have v20 : FVec Ideal S512x1 .f32 := broadcast S512x1 cst_9
  have v21 : FVec Ideal S512x1 .f32 := addf v19 v20
  have v22 : FVec Ideal S512x1 .f32 := rsqrt v21
  have v23 : FVec Ideal S512x1024 .f32 := broadcastTo S512x1024 v22 broadcasts_S512x1_S512x1024
  have v24 : FVec Ideal S512x1024 .f32 := mulf d v23
  have v26 : FVec Ideal S1x1024 .f32 := shapeCast S1x1024 v25 shapeCasts_S1024_S1x1024
  have v27 : FVec Ideal S512x1024 .f32 := broadcastTo S512x1024 v26 broadcasts_S1x1024_S512x1024
  have v28 : FVec Ideal S512x1024 .f32 := mulf v24 v27
  have v30 : FVec Ideal S1x1024 .f32 := shapeCast S1x1024 v29 shapeCasts_S1024_S1x1024
  have v31 : FVec Ideal S512x1024 .f32 := broadcastTo S512x1024 v30 broadcasts_S1x1024_S512x1024
  have v32 : FVec Ideal S512x1024 .f32 := addf v28 v31
  have v34 : FVec Ideal S512x1024 .f32 := shapeCast S512x1024 v33 shapeCasts_S1x512x1024_S512x1024
  addf v32 v34

set_option maxHeartbeats 400000 in
/-- The kernel's arithmetic is the three stages composed. -/
theorem k2_pay2_eq (v0 : Vec Ideal S1x512x1024 .bf16) (v2 : Vec Ideal S1024x1024 .bf16) (v5 v25 v29 : Vec Ideal S1024 .f32)
    (v33 : Vec Ideal S1x512x1024 .f32) :
    k2_pay2 (F := Ideal) v0 v2 v5 v25 v29 v33 = normTile (devTile (projTile v0 v2 v5)) v25 v29 v33 := by
  unfold k2_pay2 normTile devTile meanCol projTile
  rfl

/-! ### Each stage at an entry -/

/-- The projected tile at (p, q) is the specification's projection of row p at channel q. -/
theorem projTile_at (v0 : Vec Ideal S1x512x1024 .bf16) (v2 : Vec Ideal S1024x1024 .bf16) (v5 : Vec Ideal S1024 .f32)
    (p : Fin 512) (q : Fin 1024) :
    projTile v0 v2 v5 (ix2 p q)
      = LinAttn.proj (B := 1) (N := 512) (fun _ r j => v0 (ix3 0 r j)) (fun j e => v2 (ix2 j e)) (fun e => v5 (ix1 e)) 0 p q := by
  unfold projTile LinAttn.proj
  refine (addf_apply _ _ _).trans ?_
  refine congrArg₂ (· + ·) ?_ ?_
  · refine (matmul_at _ _ p q).trans ?_
    refine Finset.sum_congr rfl fun k _ => ?_
    exact congrArg₂ (· * ·) (shapeCast_1ab_ab_apply v0 _ p k) (congrFun (shapeCast_self v2 _) (ix2 k q))
  · exact (broadcastTo_1b_ab_apply _ _ p q).trans (shapeCast_a_1a_apply v5 _ 0 q)

/-- The row mean of a tile, at row p: the sum of the row divided by the word of 1024. -/
theorem meanCol_at (y : FVec Ideal S512x1024 .f32) (Y : Fin 512 → Fin 1024 → EReal) (hy : ∀ p q, y (ix2 p q) = Y p q)
    (p : Fin 512) (u : Fin 1) :
    meanCol y (ix2 p u) = Ideal.div (∑ q : Fin 1024, Y p q) LinAttn.wN := by
  unfold meanCol
  refine (divf_apply _ _ _).trans ?_
  refine congrArg₂ Ideal.div ?_ rfl
  refine (shapeCast_a_a1_apply _ _ p u).trans ?_
  refine (rowSum_apply y _ _ _ p).trans ?_
  exact Finset.sum_congr rfl fun q _ => hy p q

/-- The deviation at (p, q): the entry minus its row's mean. -/
theorem devTile_at (y : FVec Ideal S512x1024 .f32) (Y : Fin 512 → Fin 1024 → EReal) (hy : ∀ p q, y (ix2 p q) = Y p q)
    (p : Fin 512) (q : Fin 1024) :
    devTile y (ix2 p q) = Y p q - Ideal.div (∑ e : Fin 1024, Y p e) LinAttn.wN := by
  unfold devTile
  refine (subf_apply _ _ _).trans ?_
  refine congrArg₂ (· - ·) (hy p q) ?_
  exact (broadcastTo_a1_ab_apply _ _ p q).trans (meanCol_at y Y hy p 0)

/-- The normalised, scaled, shifted tile plus the residual, at (p, q). -/
theorem normTile_at (d : FVec Ideal S512x1024 .f32) (D : Fin 512 → Fin 1024 → EReal) (hd : ∀ p q, d (ix2 p q) = D p q)
    (v25 v29 : Vec Ideal S1024 .f32) (v33 : Vec Ideal S1x512x1024 .f32) (p : Fin 512) (q : Fin 1024) :
    normTile d v25 v29 v33 (ix2 p q)
      = ((D p q * Ideal.rsqrt (Ideal.div (∑ e : Fin 1024, D p e * D p e) LinAttn.wN + LinAttn.wEps)) * v25 (ix1 q) + v29 (ix1 q))
          + v33 (ix3 0 p q) := by
  unfold normTile
  refine (addf_apply _ _ _).trans ?_
  refine congrArg₂ (· + ·) ?_ (shapeCast_1ab_ab_apply v33 _ p q)
  refine (addf_apply _ _ _).trans ?_
  refine congrArg₂ (· + ·) ?_ ((broadcastTo_1b_ab_apply _ _ p q).trans (shapeCast_a_1a_apply v29 _ 0 q))
  refine (mulf_apply _ _ _).trans ?_
  refine congrArg₂ (· * ·) ?_ ((broadcastTo_1b_ab_apply _ _ p q).trans (shapeCast_a_1a_apply v25 _ 0 q))
  refine (mulf_apply _ _ _).trans ?_
  refine congrArg₂ (· * ·) (hd p q) ?_
  refine (broadcastTo_a1_ab_apply _ _ p q).trans ?_
  show Ideal.rsqrt (meanCol (mulf d d) (ix2 p 0) + LinAttn.wEps) = _
  refine congrArg (fun z => Ideal.rsqrt (z + LinAttn.wEps)) ?_
  exact meanCol_at (mulf d d) (fun p e => D p e * D p e) (fun p e => (mulf_apply d d _).trans (congrArg₂ (· * ·) (hd p e) (hd p e))) p 0

/-- Entry (0, r, e) of what the arithmetic stores is the specification's layer-norm output at one batch of
    512 tokens, at token r and channel e. -/
theorem k2_pay_at (v0 : Vec Ideal S1x512x1024 .bf16) (v2 : Vec Ideal S1024x1024 .bf16) (v5 v25 v29 : Vec Ideal S1024 .f32)
    (v33 : Vec Ideal S1x512x1024 .f32) (r : Fin 512) (e : Fin 1024) :
    k2_pay1 (F := Ideal) (k2_pay2 v0 v2 v5 v25 v29 v33) (ix3 0 r e)
      = LinAttn.lnOut (B := 1) (N := 512) (fun _ r j => v0 (ix3 0 r j)) (fun j e => v2 (ix2 j e)) (fun e => v5 (ix1 e))
          (fun e => v25 (ix1 e)) (fun e => v29 (ix1 e)) (fun _ r e => v33 (ix3 0 r e)) 0 r e := by
  unfold k2_pay1
  refine (shapeCast_ab_1ab_apply _ _ 0 r e).trans ?_
  rw [k2_pay2_eq]
  refine (normTile_at _ _ (devTile_at _ _ (projTile_at v0 v2 v5)) v25 v29 v33 r e).trans ?_
  rfl

/-! ### The output block after the body -/

/-- The zero offsets of a rank-3 block, however they are spelt. -/
theorem zero3 : (![0, 0, 0] : Fin 3 → Nat) = fun _ => 0 := funext fun a => by fin_cases a <;> rfl
/-- The zero offsets of a rank-2 block. -/
theorem zero2 : (![0, 0] : Fin 2 → Nat) = fun _ => 0 := funext fun a => by fin_cases a <;> rfl
/-- The zero offset of a rank-1 block. -/
theorem zero1 : (![0] : Fin 1 → Nat) = fun _ => 0 := funext fun a => by fin_cases a <;> rfl

/-- The body loads its six whole input blocks and stores its whole output block once, so entry (0, r, e) of the
    output block after the body is the specification's layer-norm output of the loaded blocks, read as one batch
    of 512 tokens, at token r and channel e. -/
theorem out2_6_at (x0 : Vec Ideal S1x512x1024 .bf16) (x1 : Vec Ideal S1024x1024 .bf16) (x2 x3 x4 : Vec Ideal S1024 .f32)
    (x5 : Vec Ideal S1x512x1024 .f32) (r : Fin 512) (e : Fin 1024) :
    out2_6 (F := Ideal) x0 x1 x2 x3 x4 x5 (ix3 0 r e)
      = LinAttn.lnOut (B := 1) (N := 512) (fun _ r j => x0 (ix3 0 r j)) (fun j e => x1 (ix2 j e)) (fun e => x2 (ix1 e))
          (fun e => x3 (ix1 e)) (fun e => x4 (ix1 e)) (fun _ r e => x5 (ix3 0 r e)) 0 r e := by
  unfold out2_6
  rw [View.canon_unit_zero zero3]
  simp only [View.ld_unit_zero (S := S1x512x1024) zero3, View.ld_unit_zero (S := S1024x1024) zero2,
    View.ld_unit_zero (S := S1024) zero1]
  exact k2_pay_at x0 x1 x2 x3 x4 x5 r e

end Cert.KernelIdeal.Norm
-- ==== Proof.K2Arr.lean ====
/-
  From the blocks of the projection-and-normalisation region to its output array.

  The region runs over a grid of 4 × 16 points; point t = 16·b + s reads rows 512·s … 512·s + 511 of batch b of
  the re-read attention output and of the residual input, the whole of Wpᵀ, bp, γ and β, and writes the same rows of
  batch b of the output. Entry (r, e) of what it writes is the layer-norm function of the tile at (r, e), and that
  function only reads row r; so it is the layer-norm function of the WHOLE arrays at row 512·s + r of batch b. The
  64 blocks cover the output array (token n of batch b lies in the block of point 16·b + n / 512), so the array ends
  holding the whole arrays' layer-norm function, whatever the region found in its buffers.
-/
import proofs.«106879_j33681133535316_1_alg».proof.Proof.Spec
import proofs.«106879_j33681133535316_1_alg».proof.Proof.KBlocks
import proofs.«106879_j33681133535316_1_alg».proof.Proof.K2Body
import proofs.«106879_j33681133535316_1_alg».proof.Proof.Gen.KernelIdeal.Frame
import Idealize.ShloMosaic.Lib.Pipeline.Value

open scoped BigOperators
open Idealize.ShloMosaic Idealize.ShloMosaic.TcCoe Idealize.ShloMosaic.ValueIdx Idealize.SL.Sem
open Idealize.ShloMosaic.Pipeline (Dat)

noncomputable section

namespace Cert.KernelIdeal.Arr

open Cert.KernelIdeal Cert.KernelIdeal.Gen

variable (V : (c : Dev nD) → (b : Ref sig .tc) → Buf (Elt Ideal) ((c : Thread nD τ).loc b))

namespace R2

/-- The layer-norm function of the six arrays the region finds, as one array indexed like the output. -/
def lnArr (c : Dev nD) : S4x8192x1024.Idx → EReal := fun i =>
  LinAttn.lnOut (B := 4) (N := 8192) (fun b n j => V c (Pipeline.arrRef spec2 0) (ix3 b n j))
    (fun j e => V c (Pipeline.arrRef spec2 1) (ix2 j e)) (fun e => V c (Pipeline.arrRef spec2 2) (ix1 e))
    (fun e => V c (Pipeline.arrRef spec2 3) (ix1 e)) (fun e => V c (Pipeline.arrRef spec2 4) (ix1 e))
    (fun b n e => V c (Pipeline.arrRef spec2 5) (ix3 b n e)) (i 0) (i 1) (i 2)

/-- The grid has 64 points. -/
theorem points : cfg2.N = 64 := N_2

set_option maxHeartbeats 400000 in
/-- The block indices at point t: the three tiled windows sit at (t / 16, t % 16, 0); the four whole-array windows at 0. -/
theorem blockIndex : ∀ t : Fin cfg2.N,
    win2_0.index t (0 : Fin 3) = t.val / 16 ∧ win2_0.index t (1 : Fin 3) = t.val % 16 ∧ win2_0.index t (2 : Fin 3) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 3) = t.val / 16 ∧ win2_5.index t (1 : Fin 3) = t.val % 16 ∧ win2_5.index t (2 : Fin 3) = 0
    ∧ win2_6.index t (0 : Fin 3) = t.val / 16 ∧ win2_6.index t (1 : Fin 3) = t.val % 16 ∧ win2_6.index t (2 : Fin 3) = 0 :=
  (by decide +kernel : ∀ t : Fin grid2.N, _)

/-- Row r of the attention tile at point t is row 512·(t % 16) + r of batch t / 16 of the array. -/
theorem tile0_at (c : Dev nD) (t : Fin cfg2.N) (b : Fin 4) (n : Fin 8192) (r : Fin 512) (j : Fin 1024)
    (hb : b.val = t.val / 16) (hn : n.val = 512 * (t.val % 16) + r.val) :
    (iblk2 V c 0 t : Vec Ideal S1x512x1024 .bf16) (ix3 0 r j) = V c (Pipeline.arrRef spec2 0) (ix3 b n j) := by
  obtain ⟨e0, e1, e2, -⟩ := blockIndex t
  unfold iblk2
  rw [View.read_apply]
  refine congrArg (V c (Pipeline.arrRef spec2 0) : S4x8192x1024.Idx → EReal) ?_
  funext a; apply Fin.ext
  match a with
  | ⟨0, _⟩ => show win2_0.index t (0 : Fin 3) * 1 + 1 * 0 = b.val; rw [e0, hb]; omega
  | ⟨1, _⟩ => show win2_0.index t (1 : Fin 3) * 512 + 1 * r.val = n.val; rw [e1, hn]; omega
  | ⟨2, _⟩ => show win2_0.index t (2 : Fin 3) * 1024 + 1 * j.val = j.val; rw [e2]; omega

/-- Row r of the residual tile at point t is row 512·(t % 16) + r of batch t / 16 of the array. -/
theorem tile5_at (c : Dev nD) (t : Fin cfg2.N) (b : Fin 4) (n : Fin 8192) (r : Fin 512) (e : Fin 1024)
    (hb : b.val = t.val / 16) (hn : n.val = 512 * (t.val % 16) + r.val) :
    (iblk2 V c 5 t : Vec Ideal S1x512x1024 .f32) (ix3 0 r e) = V c (Pipeline.arrRef spec2 5) (ix3 b n e) := by
  obtain ⟨-, -, -, -, -, -, -, -, e0, e1, e2, -⟩ := blockIndex t
  unfold iblk2
  rw [View.read_apply]
  refine congrArg (V c (Pipeline.arrRef spec2 5) : S4x8192x1024.Idx → EReal) ?_
  funext a; apply Fin.ext
  match a with
  | ⟨0, _⟩ => show win2_5.index t (0 : Fin 3) * 1 + 1 * 0 = b.val; rw [e0, hb]; omega
  | ⟨1, _⟩ => show win2_5.index t (1 : Fin 3) * 512 + 1 * r.val = n.val; rw [e1, hn]; omega
  | ⟨2, _⟩ => show win2_5.index t (2 : Fin 3) * 1024 + 1 * e.val = e.val; rw [e2]; omega

/-- The block of Wpᵀ at any point is the whole matrix. -/
theorem whole1_at (c : Dev nD) (t : Fin cfg2.N) (j e : Fin 1024) :
    (iblk2 V c 1 t : Vec Ideal S1024x1024 .bf16) (ix2 j e) = V c (Pipeline.arrRef spec2 1) (ix2 j e) := by
  obtain ⟨-, -, -, e0, e1, -⟩ := blockIndex t
  unfold iblk2
  rw [View.read_apply]
  refine congrArg (V c (Pipeline.arrRef spec2 1) : S1024x1024.Idx → EReal) ?_
  funext a; apply Fin.ext
  match a with
  | ⟨0, _⟩ => show win2_1.index t (0 : Fin 2) * 1024 + 1 * j.val = j.val; rw [e0]; omega
  | ⟨1, _⟩ => show win2_1.index t (1 : Fin 2) * 1024 + 1 * e.val = e.val; rw [e1]; omega

/-- The block of bp at any point is the whole vector. -/
theorem whole2_at (c : Dev nD) (t : Fin cfg2.N) (e : Fin 1024) :
    (iblk2 V c 2 t : Vec Ideal S1024 .f32) (ix1 e) = V c (Pipeline.arrRef spec2 2) (ix1 e) := by
  obtain ⟨-, -, -, -, -, e0, -⟩ := blockIndex t
  unfold iblk2
  rw [View.read_apply]
  refine congrArg (V c (Pipeline.arrRef spec2 2) : S1024.Idx → EReal) ?_
  funext a; apply Fin.ext
  match a with
  | ⟨0, _⟩ => show win2_2.index t (0 : Fin 1) * 1024 + 1 * e.val = e.val; rw [e0]; omega

/-- The block of γ at any point is the whole vector. -/
theorem whole3_at (c : Dev nD) (t : Fin cfg2.N) (e : Fin 1024) :
    (iblk2 V c 3 t : Vec Ideal S1024 .f32) (ix1 e) = V c (Pipeline.arrRef spec2 3) (ix1 e) := by
  obtain ⟨-, -, -, -, -, -, e0, -⟩ := blockIndex t
  unfold iblk2
  rw [View.read_apply]
  refine congrArg (V c (Pipeline.arrRef spec2 3) : S1024.Idx → EReal) ?_
  funext a; apply Fin.ext
  match a with
  | ⟨0, _⟩ => show win2_3.index t (0 : Fin 1) * 1024 + 1 * e.val = e.val; rw [e0]; omega

/-- The block of β at any point is the whole vector. -/
theorem whole4_at (c : Dev nD) (t : Fin cfg2.N) (e : Fin 1024) :
    (iblk2 V c 4 t : Vec Ideal S1024 .f32) (ix1 e) = V c (Pipeline.arrRef spec2 4) (ix1 e) := by
  obtain ⟨-, -, -, -, -, -, -, e0, -⟩ := blockIndex t
  unfold iblk2
  rw [View.read_apply]
  refine congrArg (V c (Pipeline.arrRef spec2 4) : S1024.Idx → EReal) ?_
  funext a; apply Fin.ext
  match a with
  | ⟨0, _⟩ => show win2_4.index t (0 : Fin 1) * 1024 + 1 * e.val = e.val; rw [e0]; omega

/-- The layer-norm array at an index given by coordinates. -/
theorem lnArr_ix3 (c : Dev nD) (b : Fin 4) (n : Fin 8192) (e : Fin 1024) :
    lnArr V c (ix3 b n e)
      = LinAttn.lnOut (B := 4) (N := 8192) (fun b n j => V c (Pipeline.arrRef spec2 0) (ix3 b n j))
          (fun j e => V c (Pipeline.arrRef spec2 1) (ix2 j e)) (fun e => V c (Pipeline.arrRef spec2 2) (ix1 e))
          (fun e => V c (Pipeline.arrRef spec2 3) (ix1 e)) (fun e => V c (Pipeline.arrRef spec2 4) (ix1 e))
          (fun b n e => V c (Pipeline.arrRef spec2 5) (ix3 b n e)) b n e := rfl

/-- What point t writes back is its block of the layer-norm array. -/
theorem flushed_eq (c : Dev nD) (t : Fin cfg2.N) :
    (dat2 V c).flushed 6 t = ((cfg2.win 6).blk t).view.read (Elt Ideal) (lnArr V c) := by
  show (cfg2.win 6).cut (grid2.coords t) ((dat2 V c).after 6 t) = _
  rw [after2_6]
  have hN := points
  have ht : t.val < 64 := by have := t.isLt; omega
  obtain ⟨-, -, -, -, -, -, -, -, -, -, -, e0, e1, e2⟩ := blockIndex t
  funext (y : S1x512x1024.Idx)
  obtain ⟨u, r, e, rfl⟩ : ∃ (u : Fin 1) (r : Fin 512) (e : Fin 1024), y = ix3 u r e := ⟨y 0, y 1, y 2, eq_ix3 y⟩
  obtain rfl : u = 0 := Subsingleton.elim _ _
  rw [View.read_apply]
  obtain ⟨b, hb⟩ : ∃ b : Fin 4, b.val = t.val / 16 := ⟨⟨t.val / 16, by omega⟩, rfl⟩
  obtain ⟨n, hn⟩ : ∃ n : Fin 8192, n.val = 512 * (t.val % 16) + r.val := ⟨⟨512 * (t.val % 16) + r.val, by omega⟩, rfl⟩
  have hemb : ((cfg2.win 6).blk t).view.emb (ix3 (0 : Fin 1) r e) = (ix3 b n e : S4x8192x1024.Idx) := by
    funext a; apply Fin.ext
    match a with
    | ⟨0, _⟩ => show win2_6.index t (0 : Fin 3) * 1 + 1 * 0 = b.val; rw [e0, hb]; omega
    | ⟨1, _⟩ => show win2_6.index t (1 : Fin 3) * 512 + 1 * r.val = n.val; rw [e1, hn]; omega
    | ⟨2, _⟩ => show win2_6.index t (2 : Fin 3) * 1024 + 1 * e.val = e.val; rw [e2]; omega
  rw [hemb, lnArr_ix3]
  refine (Norm.out2_6_at (iblk2 V c 0 t) (iblk2 V c 1 t) (iblk2 V c 2 t) (iblk2 V c 3 t) (iblk2 V c 4 t) (iblk2 V c 5 t) r e).trans ?_
  exact LinAttn.lnOut_congr (B := 1) (N := 512) (B' := 4) (N' := 8192)
    (fun _ r j => iblk2 V c 0 t (ix3 0 r j)) (fun b n j => V c (Pipeline.arrRef spec2 0) (ix3 b n j))
    (fun j e => iblk2 V c 1 t (ix2 j e)) (fun j e => V c (Pipeline.arrRef spec2 1) (ix2 j e))
    (fun e => iblk2 V c 2 t (ix1 e)) (fun e => V c (Pipeline.arrRef spec2 2) (ix1 e))
    (fun e => iblk2 V c 3 t (ix1 e)) (fun e => V c (Pipeline.arrRef spec2 3) (ix1 e))
    (fun e => iblk2 V c 4 t (ix1 e)) (fun e => V c (Pipeline.arrRef spec2 4) (ix1 e))
    (fun _ r e => iblk2 V c 5 t (ix3 0 r e)) (fun b n e => V c (Pipeline.arrRef spec2 5) (ix3 b n e))
    0 r b n e
    (fun j => tile0_at V c t b n r j hb hn) (fun j e => whole1_at V c t j e) (fun e => whole2_at V c t e)
    (fun e => whole3_at V c t e) (fun e => whole4_at V c t e) (fun e => tile5_at V c t b n r e hb hn)

/-- Token n of batch b lies in the block of point 16·b + n / 512: the 64 blocks cover the output array. -/
theorem cover (i : S4x8192x1024.Idx) :
    ∃ t : Fin cfg2.N, (cfg2.win 6).flush t = true ∧ i ∈ ((cfg2.win 6).blk t).view.set := by
  have hN := points
  have h0 : (i 0).val < 4 := (i 0).isLt
  have h1 : (i 1).val < 8192 := (i 1).isLt
  have h2 : (i 2).val < 1024 := (i 2).isLt
  obtain ⟨t, ht⟩ : ∃ t : Fin cfg2.N, t.val = 16 * (i 0).val + (i 1).val / 512 := ⟨⟨_, by rw [hN]; omega⟩, rfl⟩
  obtain ⟨-, -, -, -, -, -, -, -, -, -, -, e0, e1, e2⟩ := blockIndex t
  refine ⟨t, flush2_6 t, ?_⟩
  show i ∈ ((View.whole main_v16).slice (win2_6.rect t)).set
  rw [View.set_slice_whole, Rect.mem_set_unit]
  intro a
  match a with
  | ⟨0, _⟩ =>
    show win2_6.index t (0 : Fin 3) * 1 ≤ (i 0).val ∧ (i 0).val < win2_6.index t (0 : Fin 3) * 1 + 1
    rw [e0, ht]; omega
  | ⟨1, _⟩ =>
    show win2_6.index t (1 : Fin 3) * 512 ≤ (i 1).val ∧ (i 1).val < win2_6.index t (1 : Fin 3) * 512 + 512
    rw [e1, ht]; omega
  | ⟨2, _⟩ =>
    show win2_6.index t (2 : Fin 3) * 1024 ≤ (i 2).val ∧ (i 2).val < win2_6.index t (2 : Fin 3) * 1024 + 1024
    rw [e2]; omega

end R2

/-- After the region the output array holds, at (b, n, e), the layer-norm function of the six arrays the region found
    in its buffers — whatever those were. -/
theorem ln_arr (c : Dev nD) (b : Fin 4) (n : Fin 8192) (e : Fin 1024) :
    (dat2 (F := Ideal) V c).arrAt 6 cfg2.N (ix3 b n e)
      = LinAttn.lnOut (B := 4) (N := 8192) (fun b n j => V c (Pipeline.arrRef spec2 0) (ix3 b n j))
          (fun j e => V c (Pipeline.arrRef spec2 1) (ix2 j e)) (fun e => V c (Pipeline.arrRef spec2 2) (ix1 e))
          (fun e => V c (Pipeline.arrRef spec2 3) (ix1 e)) (fun e => V c (Pipeline.arrRef spec2 4) (ix1 e))
          (fun b n e => V c (Pipeline.arrRef spec2 5) (ix3 b n e)) b n e :=
  congrFun ((dat2 V c).arrAt_eq_of_cover 6 (R2.lnArr V c) (fun t _ => R2.flushed_eq V c t) R2.cover) (ix3 b n e)

end Cert.KernelIdeal.Arr
-- ==== Proof.RefRunOps.lean ====
import proofs.«106879_j33681133535316_1_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- @main's 114 host operations in program order, the called functions' operations written out at
    their call sites over that call's buffers. -/
abbrev ops : List (HloOp τ sig (Elt F)) :=
  [ StableHlo.binary main_arg0 main_arg1 main_v0 ((fun l r => Host.dotGeneral dot_S4x8192x1024_S3072x1024_S4x8192x3072_2_1_01_0_n_n none l r) : (⟨S4x8192x1024, .f32⟩ : BufTy).Contents (Elt F) → (⟨S3072x1024, .f32⟩ : BufTy).Contents (Elt F) → (⟨S4x8192x3072, .f32⟩ : BufTy).Contents (Elt F)),
    StableHlo.unary main_arg2 main_v1 (broadcastInDim S1x1x3072 ![2] bcast_S3072_S1x1x3072_2 : (⟨S3072, .f32⟩ : BufTy).Contents (Elt F) → (⟨S1x1x3072, .f32⟩ : BufTy).Contents (Elt F)),
    StableHlo.unary main_v1 main_v2 (broadcastInDim S4x8192x3072 ![0, 1, 2] bcast_S1x1x3072_S4x8192x3072_0_1_2 : (⟨S1x1x3072, .f32⟩ : BufTy).Contents (Elt F) → (⟨S4x8192x3072, .f32⟩ : BufTy).Contents (Elt F)),
    StableHlo.binary main_v0 main_v2 main_v3 (addf : (⟨S4x8192x3072, .f32⟩ : BufTy).Contents (Elt F) → (⟨S4x8192x3072, .f32⟩ : BufTy).Contents (Elt F) → (⟨S4x8192x3072, .f32⟩ : BufTy).Contents (Elt F)),
    StableHlo.reshape main_v3 main_v4 rfl shapeCasts_S4x8192x3072_S4x8192x3x16x64,
    StableHlo.unary main_v4 main_v5 ((transpose S3x4x16x8192x64 [2, 0, 3, 1, 4] · transposes_S4x8192x3x16x64_S3x4x16x8192x64_2_0_3_1_4) : (⟨S4x8192x3x16x64, .f32⟩ : BufTy).Contents (Elt F) → (⟨S3x4x16x8192x64, .f32⟩ : BufTy).Contents (Elt F)),
    StableHlo.unary main_v5 main_v6 ((extractStridedSlice S1x4x16x8192x64 ![0, 0, 0, 0, 0] · slices_S3x4x16x8192x64_S1x4x16x8192x64_0_0_0_0_0) : (⟨S3x4x16x8192x64, .f32⟩ : BufTy).Contents (Elt F) → (⟨S1x4x16x8192x64, .f32⟩ : BufTy).Contents (Elt F)),
    StableHlo.reshape main_v6 main_v7 rfl shapeCasts_S1x4x16x8192x64_S4x16x8192x64,
    StableHlo.unary main_v5 main_v8 ((extractStridedSlice S1x4x16x8192x64 ![1, 0, 0, 0, 0] · slices_S3x4x16x8192x64_S1x4x16x8192x64_1_0_0_0_0) : (⟨S3x4x16x8192x64, .f32⟩ : BufTy).Contents (Elt F) → (⟨S1x4x16x8192x64, .f32⟩ : BufTy).Contents (Elt F)),
    StableHlo.reshape main_v8 main_v9 rfl shapeCasts_S1x4x16x8192x64_S4x16x8192x64,
    StableHlo.unary main_v5 main_v10 ((extractStridedSlice S1x4x16x8192x64 ![2, 0, 0, 0, 0] · slices_S3x4x16x8192x64_S1x4x16x8192x64_2_0_0_0_0) : (⟨S3x4x16x8192x64, .f32⟩ : BufTy).Contents (Elt F) → (⟨S1x4x16x8192x64, .f32⟩ : BufTy).Contents (Elt F)),
    StableHlo.reshape main_v10 main_v11 rfl shapeCasts_S1x4x16x8192x64_S4x16x8192x64,
    StableHlo.TRef.nullary main_call0.cst (constant S_ .f32 0x00000000#32),
    StableHlo.TRef.unary main_call0.cst main_call0.v0 (broadcastInDim S4x16x8192x64 ![] bcast_S_S4x16x8192x64),
    StableHlo.TRef.binary (.of main_v7 : StableHlo.TRef sig ⟨S4x16x8192x64, .f32⟩) main_call0.v0 main_call0.v1 (cmpf .ogt),
    StableHlo.TRef.nullary main_call0.cst_0 (constant S_ .f32 0x00000000#32),
    StableHlo.TRef.unary main_call0.cst_0 main_call0.v2 (broadcastInDim S4x16x8192x64 ![] bcast_S_S4x16x8192x64),
    StableHlo.TRef.binary (.of main_v7 : StableHlo.TRef sig ⟨S4x16x8192x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S4x16x8192x64 ![] bcast_S_S4x16x8192x64),
    StableHlo.TRef.ternary main_call0.v3 main_call0.call0.v1 (.of main_v7 : StableHlo.TRef sig ⟨S4x16x8192x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S4x16x8192x64 ![] bcast_S_S4x16x8192x64),
    StableHlo.TRef.binary main_call0.v6 main_call0.v5 main_call0.v7 mulf,
    StableHlo.TRef.ternary main_call0.v1 (.of main_v7 : StableHlo.TRef sig ⟨S4x16x8192x64, .f32⟩) main_call0.v7 main_call0.call1.v0 select,
    StableHlo.nullary main_cst (constant S_ .f32 0x3F800000#32),
    StableHlo.unary main_cst main_v13 (broadcastInDim S4x16x8192x64 ![] bcast_S_S4x16x8192x64 : (⟨S_, .f32⟩ : BufTy).Contents (Elt F) → (⟨S4x16x8192x64, .f32⟩ : BufTy).Contents (Elt F)),
    StableHlo.binary main_v12 main_v13 main_v14 (addf : (⟨S4x16x8192x64, .f32⟩ : BufTy).Contents (Elt F) → (⟨S4x16x8192x64, .f32⟩ : BufTy).Contents (Elt F) → (⟨S4x16x8192x64, .f32⟩ : BufTy).Contents (Elt F)),
    StableHlo.TRef.nullary main_call1.cst (constant S_ .f32 0x00000000#32),
    StableHlo.TRef.unary main_call1.cst main_call1.v0 (broadcastInDim S4x16x8192x64 ![] bcast_S_S4x16x8192x64),
    StableHlo.TRef.binary (.of main_v9 : StableHlo.TRef sig ⟨S4x16x8192x64, .f32⟩) main_call1.v0 main_call1.v1 (cmpf .ogt),
    StableHlo.TRef.nullary main_call1.cst_0 (constant S_ .f32 0x00000000#32),
    StableHlo.TRef.unary main_call1.cst_0 main_call1.v2 (broadcastInDim S4x16x8192x64 ![] bcast_S_S4x16x8192x64),
    StableHlo.TRef.binary (.of main_v9 : StableHlo.TRef sig ⟨S4x16x8192x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S4x16x8192x64 ![] bcast_S_S4x16x8192x64),
    StableHlo.TRef.ternary main_call1.v3 main_call1.call0.v1 (.of main_v9 : StableHlo.TRef sig ⟨S4x16x8192x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S4x16x8192x64 ![] bcast_S_S4x16x8192x64),
    StableHlo.TRef.binary main_call1.v6 main_call1.v5 main_call1.v7 mulf,
    StableHlo.TRef.ternary main_call1.v1 (.of main_v9 : StableHlo.TRef sig ⟨S4x16x8192x64, .f32⟩) main_call1.v7 main_call1.call1.v0 select,
    StableHlo.nullary main_cst_0 (constant S_ .f32 0x3F800000#32),
    StableHlo.unary main_cst_0 main_v16 (broadcastInDim S4x16x8192x64 ![] bcast_S_S4x16x8192x64 : (⟨S_, .f32⟩ : BufTy).Contents (Elt F) → (⟨S4x16x8192x64, .f32⟩ : BufTy).Contents (Elt F)),
    StableHlo.binary main_v15 main_v16 main_v17 (addf : (⟨S4x16x8192x64, .f32⟩ : BufTy).Contents (Elt F) → (⟨S4x16x8192x64, .f32⟩ : BufTy).Contents (Elt F) → (⟨S4x16x8192x64, .f32⟩ : BufTy).Contents (Elt F)),
    StableHlo.binary main_v17 main_v11 main_v18 ((fun l r => Host.dotGeneral dot_S4x16x8192x64_S4x16x8192x64_S4x16x64x64_2_2_3_3_01_01 none l r) : (⟨S4x16x8192x64, .f32⟩ : BufTy).Contents (Elt F) → (⟨S4x16x8192x64, .f32⟩ : BufTy).Contents (Elt F) → (⟨S4x16x64x64, .f32⟩ : BufTy).Contents (Elt F)),
    StableHlo.nullary main_cst_1 (constant S_ .f32 0x00000000#32),
    StableHlo.binary main_v17 main_cst_1 main_v19 ((fun x v => Host.reduceAdd x v reducesTo_S4x16x8192x64_S4x16x64_d2 h_S_) : (⟨S4x16x8192x64, .f32⟩ : BufTy).Contents (Elt F) → (⟨S_, .f32⟩ : BufTy).Contents (Elt F) → (⟨S4x16x64, .f32⟩ : BufTy).Contents (Elt F)),
    StableHlo.binary main_v14 main_v18 main_v20 ((fun l r => Host.dotGeneral dot_S4x16x8192x64_S4x16x64x64_S4x16x8192x64_3_2_2_3_01_01 none l r) : (⟨S4x16x8192x64, .f32⟩ : BufTy).Contents (Elt F) → (⟨S4x16x64x64, .f32⟩ : BufTy).Contents (Elt F) → (⟨S4x16x8192x64, .f32⟩ : BufTy).Contents (Elt F)),
    StableHlo.unary main_v19 main_v21 (broadcastInDim S4x16x1x64 ![0, 1, 3] bcast_S4x16x64_S4x16x1x64_0_1_3 : (⟨S4x16x64, .f32⟩ : BufTy).Contents (Elt F) → (⟨S4x16x1x64, .f32⟩ : BufTy).Contents (Elt F)),
    StableHlo.unary main_v21 main_v22 (broadcastInDim S4x16x8192x64 ![0, 1, 2, 3] bcast_S4x16x1x64_S4x16x8192x64_0_1_2_3 : (⟨S4x16x1x64, .f32⟩ : BufTy).Contents (Elt F) → (⟨S4x16x8192x64, .f32⟩ : BufTy).Contents (Elt F)),
    StableHlo.binary main_v14 main_v22 main_v23 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.nullary main_cst_2 (constant S_ .f32 0x00000000#32),
    StableHlo.binary main_v23 main_cst_2 main_v24 ((fun x v => Host.reduceAdd x v reducesTo_S4x16x8192x64_S4x16x8192_d3 h_S_) : (⟨S4x16x8192x64, .f32⟩ : BufTy).Contents (Elt F) → (⟨S_, .f32⟩ : BufTy).Contents (Elt F) → (⟨S4x16x8192, .f32⟩ : BufTy).Contents (Elt F)),
    StableHlo.unary main_v24 main_v25 (broadcastInDim S4x16x8192x1 ![0, 1, 2] bcast_S4x16x8192_S4x16x8192x1_0_1_2 : (⟨S4x16x8192, .f32⟩ : BufTy).Contents (Elt F) → (⟨S4x16x8192x1, .f32⟩ : BufTy).Contents (Elt F)),
    StableHlo.nullary main_cst_3 (constant S_ .f32 0x358637BD#32),
    StableHlo.TRef.unary (.of main_cst_3 : StableHlo.TRef sig ⟨S_, .f32⟩) main_call2.v0 id,
    StableHlo.TRef.unary main_call2.v0 main_call2.v1 (broadcastInDim S4x16x8192x1 ![] bcast_S_S4x16x8192x1),
    StableHlo.TRef.binary main_call2.v1 (.of main_v25 : StableHlo.TRef sig ⟨S4x16x8192x1, .f32⟩) main_call2.v2 maximumf,
    StableHlo.unary main_v26 main_v27 (broadcastInDim S4x16x8192x64 ![0, 1, 2, 3] bcast_S4x16x8192x1_S4x16x8192x64_0_1_2_3 : (⟨S4x16x8192x1, .f32⟩ : BufTy).Contents (Elt F) → (⟨S4x16x8192x64, .f32⟩ : BufTy).Contents (Elt F)),
    StableHlo.binary main_v20 main_v27 main_v28 (Host.divf : (⟨S4x16x8192x64, .f32⟩ : BufTy).Contents (Elt F) → (⟨S4x16x8192x64, .f32⟩ : BufTy).Contents (Elt F) → (⟨S4x16x8192x64, .f32⟩ : BufTy).Contents (Elt F)),
    StableHlo.reshape main_v28 main_v29 rfl shapeCasts_S4x16x8192x64_S4x8192x1024,
    StableHlo.binary main_v29 main_arg3 main_v30 ((fun l r => Host.dotGeneral dot_S4x8192x1024_S1024x1024_S4x8192x1024_2_1_01_0_n_n none l r) : (⟨S4x8192x1024, .f32⟩ : BufTy).Contents (Elt F) → (⟨S1024x1024, .f32⟩ : BufTy).Contents (Elt F) → (⟨S4x8192x1024, .f32⟩ : BufTy).Contents (Elt F)),
    StableHlo.unary main_arg4 main_v31 (broadcastInDim S1x1x1024 ![2] bcast_S1024_S1x1x1024_2 : (⟨S1024, .f32⟩ : BufTy).Contents (Elt F) → (⟨S1x1x1024, .f32⟩ : BufTy).Contents (Elt F)),
    StableHlo.unary main_v31 main_v32 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v30 main_v32 main_v33 (addf : (⟨S4x8192x1024, .f32⟩ : BufTy).Contents (Elt F) → (⟨S4x8192x1024, .f32⟩ : BufTy).Contents (Elt F) → (⟨S4x8192x1024, .f32⟩ : BufTy).Contents (Elt F)),
    StableHlo.nullary main_cst_4 (constant S_ .f32 0x00000000#32),
    StableHlo.binary main_v33 main_cst_4 main_v34 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v34 main_v35 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_5 (constant S_ .f32 0x44800000#32),
    StableHlo.unary main_cst_5 main_v36 (broadcastInDim S4x8192x1 ![] bcast_S_S4x8192x1 : (⟨S_, .f32⟩ : BufTy).Contents (Elt F) → (⟨S4x8192x1, .f32⟩ : BufTy).Contents (Elt F)),
    StableHlo.binary main_v35 main_v36 main_v37 (Host.divf : (⟨S4x8192x1, .f32⟩ : BufTy).Contents (Elt F) → (⟨S4x8192x1, .f32⟩ : BufTy).Contents (Elt F) → (⟨S4x8192x1, .f32⟩ : BufTy).Contents (Elt F)),
    StableHlo.nullary main_c (constantI S_ 32 0#32),
    StableHlo.TRef.nullary main_call3.cst (constant S_ .f32 0x00000000#32),
    StableHlo.TRef.binary (.of main_v33 : StableHlo.TRef sig ⟨S4x8192x1024, .f32⟩) main_call3.cst main_call3.v0 (fun x v => Host.reduceAdd x v reducesTo_S4x8192x1024_S4x8192_d2 h_S_),
    StableHlo.TRef.unary main_call3.v0 main_call3.v1 (broadcastInDim S4x8192x1 ![0, 1] bcast_S4x8192_S4x8192x1_0_1),
    StableHlo.TRef.nullary main_call3.cst_0 (constant S_ .f32 0x44800000#32),
    StableHlo.TRef.unary main_call3.cst_0 main_call3.v2 (broadcastInDim S4x8192x1 ![] bcast_S_S4x8192x1),
    StableHlo.TRef.binary main_call3.v1 main_call3.v2 main_call3.v3 Host.divf,
    StableHlo.TRef.unary main_call3.v3 main_call3.v4 (broadcastInDim S4x8192x1024 ![0, 1, 2] bcast_S4x8192x1_S4x8192x1024_0_1_2),
    StableHlo.TRef.binary (.of main_v33 : StableHlo.TRef sig ⟨S4x8192x1024, .f32⟩) main_call3.v4 main_call3.v5 subf,
    StableHlo.TRef.binary main_call3.v5 main_call3.v5 main_call3.v6 mulf,
    StableHlo.TRef.unary (.of main_c : StableHlo.TRef sig ⟨S_, .i32⟩) main_call3.v7 (sitofp .f32),
    StableHlo.TRef.nullary main_call3.cst_1 (constant S_ .f32 0x44800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4x8192x1024_S4x8192_d2 h_S_),
    StableHlo.TRef.unary main_call3.v9 main_call3.v10 (broadcastInDim S4x8192x1 ![0, 1] bcast_S4x8192_S4x8192x1_0_1),
    StableHlo.TRef.unary main_call3.v8 main_call3.v11 (broadcastInDim S4x8192x1 ![] bcast_S_S4x8192x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S4x8192x1 ![] bcast_S_S4x8192x1),
    StableHlo.TRef.ternary main_call3.v13 main_call3.v12 main_call3.call0.v1 main_call3.call0.v2 (fun p a b => select (broadcastInDim S4x8192x1 ![] bcast_S_S4x8192x1 p) a b),
    StableHlo.unary main_v37 main_v39 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v33 main_v39 main_v40 (subf : (⟨S4x8192x1024, .f32⟩ : BufTy).Contents (Elt F) → (⟨S4x8192x1024, .f32⟩ : BufTy).Contents (Elt F) → (⟨S4x8192x1024, .f32⟩ : BufTy).Contents (Elt F)),
    StableHlo.nullary main_cst_6 (constant S_ .f32 0x3727C5AC#32),
    StableHlo.unary main_cst_6 main_v41 (broadcastInDim S4x8192x1 ![] bcast_S_S4x8192x1 : (⟨S_, .f32⟩ : BufTy).Contents (Elt F) → (⟨S4x8192x1, .f32⟩ : BufTy).Contents (Elt F)),
    StableHlo.binary main_v38 main_v41 main_v42 (addf : (⟨S4x8192x1, .f32⟩ : BufTy).Contents (Elt F) → (⟨S4x8192x1, .f32⟩ : BufTy).Contents (Elt F) → (⟨S4x8192x1, .f32⟩ : BufTy).Contents (Elt F)),
    StableHlo.unary main_v42 main_v43 (Host.rsqrt : (⟨S4x8192x1, .f32⟩ : BufTy).Contents (Elt F) → (⟨S4x8192x1, .f32⟩ : BufTy).Contents (Elt F)),
    StableHlo.unary main_v43 main_v44 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v40 main_v44 main_v45 (mulf : (⟨S4x8192x1024, .f32⟩ : BufTy).Contents (Elt F) → (⟨S4x8192x1024, .f32⟩ : BufTy).Contents (Elt F) → (⟨S4x8192x1024, .f32⟩ : BufTy).Contents (Elt F)),
    StableHlo.unary main_arg5 main_v46 (broadcastInDim S1x1x1024 ![2] bcast_S1024_S1x1x1024_2 : (⟨S1024, .f32⟩ : BufTy).Contents (Elt F) → (⟨S1x1x1024, .f32⟩ : BufTy).Contents (Elt F)),
    StableHlo.unary main_v46 main_v47 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v45 main_v47 main_v48 (mulf : (⟨S4x8192x1024, .f32⟩ : BufTy).Contents (Elt F) → (⟨S4x8192x1024, .f32⟩ : BufTy).Contents (Elt F) → (⟨S4x8192x1024, .f32⟩ : BufTy).Contents (Elt F)),
    StableHlo.unary main_arg6 main_v49 (broadcastInDim S1x1x1024 ![2] bcast_S1024_S1x1x1024_2 : (⟨S1024, .f32⟩ : BufTy).Contents (Elt F) → (⟨S1x1x1024, .f32⟩ : BufTy).Contents (Elt F)),
    StableHlo.unary main_v49 main_v50 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v48 main_v50 main_v51 (addf : (⟨S4x8192x1024, .f32⟩ : BufTy).Contents (Elt F) → (⟨S4x8192x1024, .f32⟩ : BufTy).Contents (Elt F) → (⟨S4x8192x1024, .f32⟩ : BufTy).Contents (Elt F)),
    StableHlo.binary main_v51 main_arg0 main_v52 (addf : (⟨S4x8192x1024, .f32⟩ : BufTy).Contents (Elt F) → (⟨S4x8192x1024, .f32⟩ : BufTy).Contents (Elt F) → (⟨S4x8192x1024, .f32⟩ : BufTy).Contents (Elt F)) ]

end Cert.ReferenceIdeal.RefValue

end
-- ==== Proof.RefRunA.lean ====
/-
  The reference program's @main is the straight line of its 114 host operations: its 58 own
  operations and, written out at the four call sites, the operations of the functions it calls
  (the exponential linear unit twice, fifteen operations each with its two selections; the lower
  clip, three; the variance, twenty-three with its selection), in program order, each over the
  buffer the program gives it.
-/
import proofs.«106879_j33681133535316_1_alg».proof.Proof.RefRunOps

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

set_option maxRecDepth 8192 in
set_option maxHeartbeats 4000000 in
/-- @main is that straight line: its two windows in order, each called function's body in place of
    its call, and sequencing re-associated to the right. -/
theorem main_eq (c : Dev nD) : main (F := F) c = seq ops := by
  simp only [main, main_part0, main_part1, fn_elu.body, fn_where.body, fn_where_0.body, fn_clip.body, fn_var.body, fn_where_1.body,
    seq, bind_assoc, pure_bind]

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

set_option maxRecDepth 8192 in
set_option maxHeartbeats 4000000 in
/-- Every operation touches only TensorCore buffers: each operation's buffers are its operands'
    and its result's, all TensorCore references. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

end Cert.ReferenceIdeal.RefValue

end
-- ==== Proof.RefRunB.lean ====
/-
  The reference's result buffer after its 114 operations, read back through the line: each
  operation's result at its own buffer is its function of its operands' contents, every other
  buffer keeps what it held; composed in program order this is the reference's one term of the
  seven argument arrays.
-/
import proofs.«106879_j33681133535316_1_alg».proof.Proof.RefTerm
import proofs.«106879_j33681133535316_1_alg».proof.Proof.Gen.ReferenceIdeal
import Idealize.ShloMosaic.Lib.StableHlo.Run
import proofs.«106879_j33681133535316_1_alg».proof.Proof.RefRunA

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

set_option maxRecDepth 16384 in
set_option maxHeartbeats 4000000 in
/-- After the 114 operations the result buffer holds the composed term of the contents the seven
    argument buffers started with. -/
theorem out_eq (V : Valuation τ sig (Elt F)) :
    after ops V (main_v52 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

end Cert.ReferenceIdeal.RefValue

end
-- ==== Proof.RefRunC.lean ====
/-
  The seven argument buffers are written by none of the reference's 114 operations (each operation
  writes its own result buffer, and every result buffer differs from every argument's): each ends
  holding what it started with.
-/
import proofs.«106879_j33681133535316_1_alg».proof.Proof.RefTerm
import proofs.«106879_j33681133535316_1_alg».proof.Proof.Gen.ReferenceIdeal
import Idealize.ShloMosaic.Lib.StableHlo.Run
import proofs.«106879_j33681133535316_1_alg».proof.Proof.RefRunA

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

set_option maxRecDepth 16384 in
set_option maxHeartbeats 4000000 in
/-- No operation writes argument 0's buffer: after the 114 operations it holds what it started with. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes argument 1's buffer: after the 114 operations it holds what it started with. -/
theorem arg1_eq (V : Valuation τ sig (Elt F)) :
    after ops V (main_arg1 : DevRef τ sig) = V (main_arg1 : DevRef τ sig) := by
  after_results_simp

set_option maxRecDepth 16384 in
set_option maxHeartbeats 4000000 in
/-- No operation writes argument 2's buffer: after the 114 operations it holds what it started with. -/
theorem arg2_eq (V : Valuation τ sig (Elt F)) :
    after ops V (main_arg2 : DevRef τ sig) = V (main_arg2 : DevRef τ sig) := by
  after_results_simp

set_option maxRecDepth 16384 in
set_option maxHeartbeats 4000000 in
/-- No operation writes argument 3's buffer: after the 114 operations it holds what it started with. -/
theorem arg3_eq (V : Valuation τ sig (Elt F)) :
    after ops V (main_arg3 : DevRef τ sig) = V (main_arg3 : DevRef τ sig) := by
  after_results_simp

set_option maxRecDepth 16384 in
set_option maxHeartbeats 4000000 in
/-- No operation writes argument 4's buffer: after the 114 operations it holds what it started with. -/
theorem arg4_eq (V : Valuation τ sig (Elt F)) :
    after ops V (main_arg4 : DevRef τ sig) = V (main_arg4 : DevRef τ sig) := by
  after_results_simp

set_option maxRecDepth 16384 in
set_option maxHeartbeats 4000000 in
/-- No operation writes argument 5's buffer: after the 114 operations it holds what it started with. -/
theorem arg5_eq (V : Valuation τ sig (Elt F)) :
    after ops V (main_arg5 : DevRef τ sig) = V (main_arg5 : DevRef τ sig) := by
  after_results_simp

set_option maxRecDepth 16384 in
set_option maxHeartbeats 4000000 in
/-- No operation writes argument 6's buffer: after the 114 operations it holds what it started with. -/
theorem arg6_eq (V : Valuation τ sig (Elt F)) :
    after ops V (main_arg6 : DevRef τ sig) = V (main_arg6 : DevRef τ sig) := by
  after_results_simp

end Cert.ReferenceIdeal.RefValue

end
-- ==== Proof.RefRun.lean ====
/-
  The reference program's run: from any memory with zero counters every weakly fair execution of
  @main terminates; the result buffer then holds the reference's composed term of the seven
  argument arrays as they were at the start, and the seven argument buffers are unchanged.
-/
import proofs.«106879_j33681133535316_1_alg».proof.Proof.RefTerm
import proofs.«106879_j33681133535316_1_alg».proof.Proof.Gen.ReferenceIdeal
import Idealize.ShloMosaic.Lib.StableHlo.Run
import proofs.«106879_j33681133535316_1_alg».proof.Proof.RefRunA
import proofs.«106879_j33681133535316_1_alg».proof.Proof.RefRunB
import proofs.«106879_j33681133535316_1_alg».proof.Proof.RefRunC

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

set_option maxRecDepth 16384 in
set_option maxHeartbeats 4000000 in
/-- On every device, for any float values, from any memory with zero counters: every weakly fair
    execution of @main terminates with the result buffer at the composed term of the arguments'
    starting contents and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v52).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefValue

end
-- ==== Proof.RefReadOps.lean ====
/-
  The float literals 1 and 1024 as real numbers, and the feature map of the reference read at one
  element.

  The reference spells the feature map as select(x > 0, x, 1 · expm1(select(x > 0, 0, x))) + 1 with
  expm1 y = eʸ − 1 on the extended reals. Where x > 0 this is x + 1 (the other branch is not
  taken). Elsewhere the inner select is x, and 1 · (eˣ − 1) + 1 = eˣ because (y − 1) + 1 = y for
  every extended real y: the two infinities are absorbing for adding a real, and on the reals it
  is the usual identity.
-/
import proofs.«106879_j33681133535316_1_alg».proof.Proof.Spec
import proofs.«106879_j33681133535316_1_alg».proof.Proof.RefTerm
import proofs.«106879_j33681133535316_1_alg».proof.Proof.Gen.ReferenceIdeal
import Idealize.ShloMosaic.PureOps.Ideal.Laws
import Idealize.ShloMosaic.Lib.ValueIdx
import Idealize.ShloMosaic.Lib.Pipeline.Value

open scoped BigOperators
open Idealize.ShloMosaic Idealize.ShloMosaic.ValueIdx
open Cert.ReferenceIdeal Cert.ReferenceIdeal.Facts₀

noncomputable section

namespace Cert.ReferenceIdeal.RefRead

/-- The word 0x3F800000 is the real number 1. -/
theorem word_one : Ideal.ofBits .f32 0x3F800000#32 = 1 := by
  simp [Ideal.ofBits, Ideal.ieee, -EReal.coe_mul]; norm_num

/-- The word 0x44800000 is the real number 1024. -/
theorem word_1024 : Ideal.ofBits .f32 0x44800000#32 = ((1024 : ℝ) : EReal) := by
  simp [Ideal.ofBits, Ideal.ieee, -EReal.coe_mul]; norm_num

/-- Subtracting 1 and adding it back changes no extended real, the infinities included. -/
theorem sub_one_add_one (y : EReal) : (y - 1) + 1 = y := by
  induction y using EReal.rec with
  | bot => rfl
  | top => rfl
  | coe r => rw [← EReal.coe_one, ← EReal.coe_sub, ← EReal.coe_add]; congr 1; ring

/-- A scalar broadcast to any shape reads the scalar at every index. -/
theorem bcast_scalar_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A float literal as a rank-0 array reads the extended real its word denotes. -/
theorem lit_apply (w : BitVec 32) (j : S_.Idx) : RefValue.lit (F := Ideal) w j = Ideal.ofBits .f32 w := rfl

/-- The host's expm1 at an element is eˣ − 1 of the element. -/
theorem expm1_apply {s : Shape} (x : FVec Ideal s .f32) (i : s.Idx) : Host.expm1 x i = Ideal.exp (x i) - 1 := rfl

/-- The host's quotient at an element is the quotient of the elements. -/
theorem hostDivf_apply {s : Shape} (a c : FVec Ideal s .f32) (i : s.Idx) : Host.divf a c i = Ideal.div (a i) (c i) := rfl

/-- The host's reciprocal square root at an element is that of the element. -/
theorem hostRsqrt_apply {s : Shape} (a : FVec Ideal s .f32) (i : s.Idx) : Host.rsqrt a i = Ideal.rsqrt (a i) := rfl

set_option maxHeartbeats 400000 in
/-- The feature map elu(x) + 1 is x + 1 where x > 0 and eˣ elsewhere, at every element. -/
theorem feat_apply (x : FVec Ideal S4x16x8192x64 .f32) (i : S4x16x8192x64.Idx) :
    RefValue.feat (F := Ideal) x i = LinAttn.phi (x i) := by
  unfold RefValue.feat RefValue.elu
  simp only [addf_apply, select_apply, mulf_apply, cmpf_apply, bcast_scalar_apply, id, expm1_apply, lit_apply,
    Ideal.cmpf_def]
  unfold LinAttn.phi
  by_cases hc : Ideal.cmp .ogt (x i) LinAttn.w0 = 1#1
  · rw [if_pos hc]
    have hc' : Ideal.cmp .ogt (x i) (Ideal.ofBits .f32 0#32) = 1#1 := hc
    rw [hc', select_one]
  · rw [if_neg hc]
    have hc' : Ideal.cmp .ogt (x i) (Ideal.ofBits .f32 0#32) = 0#1 := eq_zero_of_ne_one hc
    rw [hc', select_zero, select_zero, word_one, one_mul, sub_one_add_one]

end Cert.ReferenceIdeal.RefRead
-- ==== Proof.RefReadDots.lean ====
/-
  The four products of the reference, each read at one entry of its result as a sum over its one
  contracted axis, on the extended reals (every product and sum exact).

  A product with dimension numbers (batch axes, free axes, one contracted axis) has, at a result
  index, the left operand's index made of the result's batch and left-free coordinates and the
  summation index k on the contracted axis, and the right operand's likewise. For each product the
  coordinates are read off axis by axis, then the sum over the one-axis contraction index is
  re-indexed by its coordinate k.

    joint projection   [4,8192,1024] · [3072,1024]   at (b,n,e):   Σₖ l[b,n,k] · r[e,k],      k < 1024
    key–value          [4,16,8192,64] · [4,16,8192,64] at (b,h,d,v): Σₙ l[b,h,n,d] · r[b,h,n,v], n < 8192
    query–statistics   [4,16,8192,64] · [4,16,64,64]  at (b,h,n,v): Σ_d l[b,h,n,d] · r[b,h,d,v], d < 64
    output projection  [4,8192,1024] · [1024,1024]   at (b,n,e):   Σⱼ l[b,n,j] · r[e,j],      j < 1024
-/
import proofs.«106879_j33681133535316_1_alg».proof.Proof.Gen.ReferenceIdeal
import Idealize.ShloMosaic.PureOps.Ideal.Laws
import Idealize.ShloMosaic.Lib.ValueIdx

open scoped BigOperators
open Idealize.ShloMosaic Idealize.ShloMosaic.ValueIdx
open Cert.ReferenceIdeal Cert.ReferenceIdeal.Facts₀

noncomputable section

namespace Cert.ReferenceIdeal.RefRead

theorem d1_lhs_0 (i : S4x8192x3072.Idx) (q : dot_S4x8192x1024_S3072x1024_S4x8192x3072_2_1_01_0_n_n.contr.Idx) :
    (dot_S4x8192x1024_S3072x1024_S4x8192x3072_2_1_01_0_n_n.lhsIdx i q 0).val = (i 0).val := by
  unfold DotDims.lhsIdx
  rw [dif_neg (show ¬(0 : Fin S4x8192x1024.rank) ∈ dot_S4x8192x1024_S3072x1024_S4x8192x3072_2_1_01_0_n_n.lhsBatch by decide), dif_pos (show (0 : Fin S4x8192x1024.rank) ∈ dot_S4x8192x1024_S3072x1024_S4x8192x3072_2_1_01_0_n_n.lhsNonContracting by decide)]
  rfl

theorem d1_lhs_1 (i : S4x8192x3072.Idx) (q : dot_S4x8192x1024_S3072x1024_S4x8192x3072_2_1_01_0_n_n.contr.Idx) :
    (dot_S4x8192x1024_S3072x1024_S4x8192x3072_2_1_01_0_n_n.lhsIdx i q 1).val = (i 1).val := by
  unfold DotDims.lhsIdx
  rw [dif_neg (show ¬(1 : Fin S4x8192x1024.rank) ∈ dot_S4x8192x1024_S3072x1024_S4x8192x3072_2_1_01_0_n_n.lhsBatch by decide), dif_pos (show (1 : Fin S4x8192x1024.rank) ∈ dot_S4x8192x1024_S3072x1024_S4x8192x3072_2_1_01_0_n_n.lhsNonContracting by decide)]
  rfl

theorem d1_lhs_2 (i : S4x8192x3072.Idx) (q : dot_S4x8192x1024_S3072x1024_S4x8192x3072_2_1_01_0_n_n.contr.Idx) :
    (dot_S4x8192x1024_S3072x1024_S4x8192x3072_2_1_01_0_n_n.lhsIdx i q 2).val = (q ⟨0, by decide⟩).val :=
  dot_S4x8192x1024_S3072x1024_S4x8192x3072_2_1_01_0_n_n.lhsIdx_val_of_single rfl i q

theorem d1_rhs_0 (i : S4x8192x3072.Idx) (q : dot_S4x8192x1024_S3072x1024_S4x8192x3072_2_1_01_0_n_n.contr.Idx) :
    (dot_S4x8192x1024_S3072x1024_S4x8192x3072_2_1_01_0_n_n.rhsIdx i q 0).val = (i 2).val := by
  unfold DotDims.rhsIdx
  rw [dif_neg (show ¬(0 : Fin S3072x1024.rank) ∈ dot_S4x8192x1024_S3072x1024_S4x8192x3072_2_1_01_0_n_n.rhsBatch by decide), dif_pos (show (0 : Fin S3072x1024.rank) ∈ dot_S4x8192x1024_S3072x1024_S4x8192x3072_2_1_01_0_n_n.rhsNonContracting by decide)]
  rfl

theorem d1_rhs_1 (i : S4x8192x3072.Idx) (q : dot_S4x8192x1024_S3072x1024_S4x8192x3072_2_1_01_0_n_n.contr.Idx) :
    (dot_S4x8192x1024_S3072x1024_S4x8192x3072_2_1_01_0_n_n.rhsIdx i q 1).val = (q ⟨0, by decide⟩).val :=
  dot_S4x8192x1024_S3072x1024_S4x8192x3072_2_1_01_0_n_n.rhsIdx_val_of_single rfl i q

/-- The joint projection's product at (b, n, e) is Σₖ l[b, n, k] · r[e, k] over the 1024 input channels. -/
theorem dot_lin3_apply (l : FVec Ideal S4x8192x1024 .f32) (r : FVec Ideal S3072x1024 .f32) (b : Fin 4) (n : Fin 8192) (e : Fin 3072) :
    Host.dotGeneral dot_S4x8192x1024_S3072x1024_S4x8192x3072_2_1_01_0_n_n none l r (ix3 b n e) = ∑ k : Fin 1024, l (ix3 b n k) * r (ix2 e k) := by
  simp only [Host.dotGeneral]
  rw [Ideal.dotGeneral_apply, ← Equiv.sum_comp (contrEquiv1 dot_S4x8192x1024_S3072x1024_S4x8192x3072_2_1_01_0_n_n 1024 rfl rfl).symm]
  refine Finset.sum_congr rfl fun k _ => ?_
  have hk := contrEquiv1_symm_val dot_S4x8192x1024_S3072x1024_S4x8192x3072_2_1_01_0_n_n 1024 rfl rfl k
  have el : dot_S4x8192x1024_S3072x1024_S4x8192x3072_2_1_01_0_n_n.lhsIdx (ix3 b n e) ((contrEquiv1 dot_S4x8192x1024_S3072x1024_S4x8192x3072_2_1_01_0_n_n 1024 rfl rfl).symm k) = ix3 b n k := funext fun a => Fin.ext (by
    match a with
    | ⟨0, _⟩ => exact d1_lhs_0 _ _
    | ⟨1, _⟩ => exact d1_lhs_1 _ _
    | ⟨2, _⟩ => exact (d1_lhs_2 _ _).trans hk)
  have er : dot_S4x8192x1024_S3072x1024_S4x8192x3072_2_1_01_0_n_n.rhsIdx (ix3 b n e) ((contrEquiv1 dot_S4x8192x1024_S3072x1024_S4x8192x3072_2_1_01_0_n_n 1024 rfl rfl).symm k) = ix2 e k := funext fun a => Fin.ext (by
    match a with
    | ⟨0, _⟩ => exact d1_rhs_0 _ _
    | ⟨1, _⟩ => exact (d1_rhs_1 _ _).trans hk)
  rw [el, er]

theorem d2_lhs_0 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 0).val = (i 0).val := by
  unfold DotDims.lhsIdx
  rw [dif_pos (show (0 : Fin S4x16x8192x64.rank) ∈ dot_S4x16x8192x64_S4x16x8192x64_S4x16x64x64_2_2_3_3_01_01.lhsBatch by decide)]
  rfl

theorem d2_lhs_1 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 1).val = (i 1).val := by
  unfold DotDims.lhsIdx
  rw [dif_pos (show (1 : Fin S4x16x8192x64.rank) ∈ dot_S4x16x8192x64_S4x16x8192x64_S4x16x64x64_2_2_3_3_01_01.lhsBatch by decide)]
  rfl

theorem d2_lhs_2 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 2).val = (q ⟨0, by decide⟩).val :=
  dot_S4x16x8192x64_S4x16x8192x64_S4x16x64x64_2_2_3_3_01_01.lhsIdx_val_of_single rfl i q

theorem d2_lhs_3 (i : S4x16x64x64.Idx) (q : dot_S4x16x8192x64_S4x16x8192x64_S4x16x64x64_2_2_3_3_01_01.contr.Idx) :
    (dot_S4x16x8192x64_S4x16x8192x64_S4x16x64x64_2_2_3_3_01_01.lhsIdx i q 3).val = (i 2).val := by
  unfold DotDims.lhsIdx
  rw [dif_neg (show ¬(3 : Fin S4x16x8192x64.rank) ∈ dot_S4x16x8192x64_S4x16x8192x64_S4x16x64x64_2_2_3_3_01_01.lhsBatch by decide), dif_pos (show (3 : Fin S4x16x8192x64.rank) ∈ dot_S4x16x8192x64_S4x16x8192x64_S4x16x64x64_2_2_3_3_01_01.lhsNonContracting by decide)]
  rfl

theorem d2_rhs_0 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 0).val = (i 0).val := by
  unfold DotDims.rhsIdx
  rw [dif_pos (show (0 : Fin S4x16x8192x64.rank) ∈ dot_S4x16x8192x64_S4x16x8192x64_S4x16x64x64_2_2_3_3_01_01.rhsBatch by decide)]
  rfl

theorem d2_rhs_1 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 1).val = (i 1).val := by
  unfold DotDims.rhsIdx
  rw [dif_pos (show (1 : Fin S4x16x8192x64.rank) ∈ dot_S4x16x8192x64_S4x16x8192x64_S4x16x64x64_2_2_3_3_01_01.rhsBatch by decide)]
  rfl

theorem d2_rhs_2 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 2).val = (q ⟨0, by decide⟩).val :=
  dot_S4x16x8192x64_S4x16x8192x64_S4x16x64x64_2_2_3_3_01_01.rhsIdx_val_of_single rfl i q

theorem d2_rhs_3 (i : S4x16x64x64.Idx) (q : dot_S4x16x8192x64_S4x16x8192x64_S4x16x64x64_2_2_3_3_01_01.contr.Idx) :
    (dot_S4x16x8192x64_S4x16x8192x64_S4x16x64x64_2_2_3_3_01_01.rhsIdx i q 3).val = (i 3).val := by
  unfold DotDims.rhsIdx
  rw [dif_neg (show ¬(3 : Fin S4x16x8192x64.rank) ∈ dot_S4x16x8192x64_S4x16x8192x64_S4x16x64x64_2_2_3_3_01_01.rhsBatch by decide), dif_pos (show (3 : Fin S4x16x8192x64.rank) ∈ dot_S4x16x8192x64_S4x16x8192x64_S4x16x64x64_2_2_3_3_01_01.rhsNonContracting by decide)]
  rfl

/-- The key–value product at (b, h, d, v) is Σₙ l[b, h, n, d] · r[b, h, n, v] over the 8192 tokens. -/
theorem dot_kv_apply (l : FVec Ideal S4x16x8192x64 .f32) (r : FVec Ideal S4x16x8192x64 .f32) (b : Fin 4) (h : Fin 16) (d v : Fin 64) :
    Host.dotGeneral dot_S4x16x8192x64_S4x16x8192x64_S4x16x64x64_2_2_3_3_01_01 none l r (ix4 b h d v) = ∑ k : Fin 8192, l (ix4 b h k d) * r (ix4 b h k v) := by
  simp only [Host.dotGeneral]
  rw [Ideal.dotGeneral_apply, ← Equiv.sum_comp (contrEquiv1 dot_S4x16x8192x64_S4x16x8192x64_S4x16x64x64_2_2_3_3_01_01 8192 rfl rfl).symm]
  refine Finset.sum_congr rfl fun k _ => ?_
  have hk := contrEquiv1_symm_val dot_S4x16x8192x64_S4x16x8192x64_S4x16x64x64_2_2_3_3_01_01 8192 rfl rfl k
  have el : dot_S4x16x8192x64_S4x16x8192x64_S4x16x64x64_2_2_3_3_01_01.lhsIdx (ix4 b h d v) ((contrEquiv1 dot_S4x16x8192x64_S4x16x8192x64_S4x16x64x64_2_2_3_3_01_01 8192 rfl rfl).symm k) = ix4 b h k d := funext fun a => Fin.ext (by
    match a with
    | ⟨0, _⟩ => exact d2_lhs_0 _ _
    | ⟨1, _⟩ => exact d2_lhs_1 _ _
    | ⟨2, _⟩ => exact (d2_lhs_2 _ _).trans hk
    | ⟨3, _⟩ => exact d2_lhs_3 _ _)
  have er : dot_S4x16x8192x64_S4x16x8192x64_S4x16x64x64_2_2_3_3_01_01.rhsIdx (ix4 b h d v) ((contrEquiv1 dot_S4x16x8192x64_S4x16x8192x64_S4x16x64x64_2_2_3_3_01_01 8192 rfl rfl).symm k) = ix4 b h k v := funext fun a => Fin.ext (by
    match a with
    | ⟨0, _⟩ => exact d2_rhs_0 _ _
    | ⟨1, _⟩ => exact d2_rhs_1 _ _
    | ⟨2, _⟩ => exact (d2_rhs_2 _ _).trans hk
    | ⟨3, _⟩ => exact d2_rhs_3 _ _)
  rw [el, er]

theorem d3_lhs_0 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 0).val = (i 0).val := by
  unfold DotDims.lhsIdx
  rw [dif_pos (show (0 : Fin S4x16x8192x64.rank) ∈ dot_S4x16x8192x64_S4x16x64x64_S4x16x8192x64_3_2_2_3_01_01.lhsBatch by decide)]
  rfl

theorem d3_lhs_1 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 1).val = (i 1).val := by
  unfold DotDims.lhsIdx
  rw [dif_pos (show (1 : Fin S4x16x8192x64.rank) ∈ dot_S4x16x8192x64_S4x16x64x64_S4x16x8192x64_3_2_2_3_01_01.lhsBatch by decide)]
  rfl

theorem d3_lhs_2 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 2).val = (i 2).val := by
  unfold DotDims.lhsIdx
  rw [dif_neg (show ¬(2 : Fin S4x16x8192x64.rank) ∈ dot_S4x16x8192x64_S4x16x64x64_S4x16x8192x64_3_2_2_3_01_01.lhsBatch by decide), dif_pos (show (2 : Fin S4x16x8192x64.rank) ∈ dot_S4x16x8192x64_S4x16x64x64_S4x16x8192x64_3_2_2_3_01_01.lhsNonContracting by decide)]
  rfl

theorem d3_lhs_3 (i : S4x16x8192x64.Idx) (q : dot_S4x16x8192x64_S4x16x64x64_S4x16x8192x64_3_2_2_3_01_01.contr.Idx) :
    (dot_S4x16x8192x64_S4x16x64x64_S4x16x8192x64_3_2_2_3_01_01.lhsIdx i q 3).val = (q ⟨0, by decide⟩).val :=
  dot_S4x16x8192x64_S4x16x64x64_S4x16x8192x64_3_2_2_3_01_01.lhsIdx_val_of_single rfl i q

theorem d3_rhs_0 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 0).val = (i 0).val := by
  unfold DotDims.rhsIdx
  rw [dif_pos (show (0 : Fin S4x16x64x64.rank) ∈ dot_S4x16x8192x64_S4x16x64x64_S4x16x8192x64_3_2_2_3_01_01.rhsBatch by decide)]
  rfl

theorem d3_rhs_1 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 1).val = (i 1).val := by
  unfold DotDims.rhsIdx
  rw [dif_pos (show (1 : Fin S4x16x64x64.rank) ∈ dot_S4x16x8192x64_S4x16x64x64_S4x16x8192x64_3_2_2_3_01_01.rhsBatch by decide)]
  rfl

theorem d3_rhs_2 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 2).val = (q ⟨0, by decide⟩).val :=
  dot_S4x16x8192x64_S4x16x64x64_S4x16x8192x64_3_2_2_3_01_01.rhsIdx_val_of_single rfl i q

theorem d3_rhs_3 (i : S4x16x8192x64.Idx) (q : dot_S4x16x8192x64_S4x16x64x64_S4x16x8192x64_3_2_2_3_01_01.contr.Idx) :
    (dot_S4x16x8192x64_S4x16x64x64_S4x16x8192x64_3_2_2_3_01_01.rhsIdx i q 3).val = (i 3).val := by
  unfold DotDims.rhsIdx
  rw [dif_neg (show ¬(3 : Fin S4x16x64x64.rank) ∈ dot_S4x16x8192x64_S4x16x64x64_S4x16x8192x64_3_2_2_3_01_01.rhsBatch by decide), dif_pos (show (3 : Fin S4x16x64x64.rank) ∈ dot_S4x16x8192x64_S4x16x64x64_S4x16x8192x64_3_2_2_3_01_01.rhsNonContracting by decide)]
  rfl

/-- The query–statistics product at (b, h, n, v) is Σ_d l[b, h, n, d] · r[b, h, d, v] over the 64 lanes. -/
theorem dot_att_apply (l : FVec Ideal S4x16x8192x64 .f32) (r : FVec Ideal S4x16x64x64 .f32) (b : Fin 4) (h : Fin 16) (n : Fin 8192) (v : Fin 64) :
    Host.dotGeneral dot_S4x16x8192x64_S4x16x64x64_S4x16x8192x64_3_2_2_3_01_01 none l r (ix4 b h n v) = ∑ k : Fin 64, l (ix4 b h n k) * r (ix4 b h k v) := by
  simp only [Host.dotGeneral]
  rw [Ideal.dotGeneral_apply, ← Equiv.sum_comp (contrEquiv1 dot_S4x16x8192x64_S4x16x64x64_S4x16x8192x64_3_2_2_3_01_01 64 rfl rfl).symm]
  refine Finset.sum_congr rfl fun k _ => ?_
  have hk := contrEquiv1_symm_val dot_S4x16x8192x64_S4x16x64x64_S4x16x8192x64_3_2_2_3_01_01 64 rfl rfl k
  have el : dot_S4x16x8192x64_S4x16x64x64_S4x16x8192x64_3_2_2_3_01_01.lhsIdx (ix4 b h n v) ((contrEquiv1 dot_S4x16x8192x64_S4x16x64x64_S4x16x8192x64_3_2_2_3_01_01 64 rfl rfl).symm k) = ix4 b h n k := funext fun a => Fin.ext (by
    match a with
    | ⟨0, _⟩ => exact d3_lhs_0 _ _
    | ⟨1, _⟩ => exact d3_lhs_1 _ _
    | ⟨2, _⟩ => exact d3_lhs_2 _ _
    | ⟨3, _⟩ => exact (d3_lhs_3 _ _).trans hk)
  have er : dot_S4x16x8192x64_S4x16x64x64_S4x16x8192x64_3_2_2_3_01_01.rhsIdx (ix4 b h n v) ((contrEquiv1 dot_S4x16x8192x64_S4x16x64x64_S4x16x8192x64_3_2_2_3_01_01 64 rfl rfl).symm k) = ix4 b h k v := funext fun a => Fin.ext (by
    match a with
    | ⟨0, _⟩ => exact d3_rhs_0 _ _
    | ⟨1, _⟩ => exact d3_rhs_1 _ _
    | ⟨2, _⟩ => exact (d3_rhs_2 _ _).trans hk
    | ⟨3, _⟩ => exact d3_rhs_3 _ _)
  rw [el, er]

theorem d4_lhs_0 (i : S4x8192x1024.Idx) (q : dot_S4x8192x1024_S1024x1024_S4x8192x1024_2_1_01_0_n_n.contr.Idx) :
    (dot_S4x8192x1024_S1024x1024_S4x8192x1024_2_1_01_0_n_n.lhsIdx i q 0).val = (i 0).val := by
  unfold DotDims.lhsIdx
  rw [dif_neg (show ¬(0 : Fin S4x8192x1024.rank) ∈ dot_S4x8192x1024_S1024x1024_S4x8192x1024_2_1_01_0_n_n.lhsBatch by decide), dif_pos (show (0 : Fin S4x8192x1024.rank) ∈ dot_S4x8192x1024_S1024x1024_S4x8192x1024_2_1_01_0_n_n.lhsNonContracting by decide)]
  rfl

theorem d4_lhs_1 (i : S4x8192x1024.Idx) (q : dot_S4x8192x1024_S1024x1024_S4x8192x1024_2_1_01_0_n_n.contr.Idx) :
    (dot_S4x8192x1024_S1024x1024_S4x8192x1024_2_1_01_0_n_n.lhsIdx i q 1).val = (i 1).val := by
  unfold DotDims.lhsIdx
  rw [dif_neg (show ¬(1 : Fin S4x8192x1024.rank) ∈ dot_S4x8192x1024_S1024x1024_S4x8192x1024_2_1_01_0_n_n.lhsBatch by decide), dif_pos (show (1 : Fin S4x8192x1024.rank) ∈ dot_S4x8192x1024_S1024x1024_S4x8192x1024_2_1_01_0_n_n.lhsNonContracting by decide)]
  rfl

theorem d4_lhs_2 (i : S4x8192x1024.Idx) (q : dot_S4x8192x1024_S1024x1024_S4x8192x1024_2_1_01_0_n_n.contr.Idx) :
    (dot_S4x8192x1024_S1024x1024_S4x8192x1024_2_1_01_0_n_n.lhsIdx i q 2).val = (q ⟨0, by decide⟩).val :=
  dot_S4x8192x1024_S1024x1024_S4x8192x1024_2_1_01_0_n_n.lhsIdx_val_of_single rfl i q

theorem d4_rhs_0 (i : S4x8192x1024.Idx) (q : dot_S4x8192x1024_S1024x1024_S4x8192x1024_2_1_01_0_n_n.contr.Idx) :
    (dot_S4x8192x1024_S1024x1024_S4x8192x1024_2_1_01_0_n_n.rhsIdx i q 0).val = (i 2).val := by
  unfold DotDims.rhsIdx
  rw [dif_neg (show ¬(0 : Fin S1024x1024.rank) ∈ dot_S4x8192x1024_S1024x1024_S4x8192x1024_2_1_01_0_n_n.rhsBatch by decide), dif_pos (show (0 : Fin S1024x1024.rank) ∈ dot_S4x8192x1024_S1024x1024_S4x8192x1024_2_1_01_0_n_n.rhsNonContracting by decide)]
  rfl

theorem d4_rhs_1 (i : S4x8192x1024.Idx) (q : dot_S4x8192x1024_S1024x1024_S4x8192x1024_2_1_01_0_n_n.contr.Idx) :
    (dot_S4x8192x1024_S1024x1024_S4x8192x1024_2_1_01_0_n_n.rhsIdx i q 1).val = (q ⟨0, by decide⟩).val :=
  dot_S4x8192x1024_S1024x1024_S4x8192x1024_2_1_01_0_n_n.rhsIdx_val_of_single rfl i q

/-- The output projection's product at (b, n, e) is Σⱼ l[b, n, j] · r[e, j] over the 1024 channels. -/
theorem dot_proj_apply (l : FVec Ideal S4x8192x1024 .f32) (r : FVec Ideal S1024x1024 .f32) (b : Fin 4) (n : Fin 8192) (e : Fin 1024) :
    Host.dotGeneral dot_S4x8192x1024_S1024x1024_S4x8192x1024_2_1_01_0_n_n none l r (ix3 b n e) = ∑ k : Fin 1024, l (ix3 b n k) * r (ix2 e k) := by
  simp only [Host.dotGeneral]
  rw [Ideal.dotGeneral_apply, ← Equiv.sum_comp (contrEquiv1 dot_S4x8192x1024_S1024x1024_S4x8192x1024_2_1_01_0_n_n 1024 rfl rfl).symm]
  refine Finset.sum_congr rfl fun k _ => ?_
  have hk := contrEquiv1_symm_val dot_S4x8192x1024_S1024x1024_S4x8192x1024_2_1_01_0_n_n 1024 rfl rfl k
  have el : dot_S4x8192x1024_S1024x1024_S4x8192x1024_2_1_01_0_n_n.lhsIdx (ix3 b n e) ((contrEquiv1 dot_S4x8192x1024_S1024x1024_S4x8192x1024_2_1_01_0_n_n 1024 rfl rfl).symm k) = ix3 b n k := funext fun a => Fin.ext (by
    match a with
    | ⟨0, _⟩ => exact d4_lhs_0 _ _
    | ⟨1, _⟩ => exact d4_lhs_1 _ _
    | ⟨2, _⟩ => exact (d4_lhs_2 _ _).trans hk)
  have er : dot_S4x8192x1024_S1024x1024_S4x8192x1024_2_1_01_0_n_n.rhsIdx (ix3 b n e) ((contrEquiv1 dot_S4x8192x1024_S1024x1024_S4x8192x1024_2_1_01_0_n_n 1024 rfl rfl).symm k) = ix2 e k := funext fun a => Fin.ext (by
    match a with
    | ⟨0, _⟩ => exact d4_rhs_0 _ _
    | ⟨1, _⟩ => exact (d4_rhs_1 _ _).trans hk)
  rw [el, er]

end Cert.ReferenceIdeal.RefRead
-- ==== Proof.RefReadLayout.lean ====
/-
  The reference's sums along one axis, its re-readings of an array in another shape, and its
  broadcasts, each read at one entry, on the extended reals.

  A sum along one axis started from the word of 0 is the plain sum over that axis (0 + s = s).
  The joint projection [4, 8192, 3072] is read as [4, 8192, 3, 16, 64] in the same row-major order
  (channel c = 1024·t + 64·h + d) and permuted to [3, 4, 16, 8192, 64]; each third is then a slice
  with its unit axis dropped. The attention output [4, 16, 8192, 64] is read as [4, 8192, 1024] in
  the same row-major order: entry (n, j) is entry number 1024·n + j of the batch's block, that is
  head (1024n + j) / 524288, token ((1024n + j) / 64) mod 8192, lane (1024n + j) mod 64.
  A broadcast reads the operand at the coordinates it keeps, and 0 on a unit axis.
-/
import proofs.«106879_j33681133535316_1_alg».proof.Proof.RefTerm
import proofs.«106879_j33681133535316_1_alg».proof.Proof.Gen.ReferenceIdeal
import Idealize.ShloMosaic.PureOps.Ideal.Laws
import Idealize.ShloMosaic.Lib.ValueIdx
import Idealize.ShloMosaic.Lib.Pipeline.Value

open scoped BigOperators
open Idealize.ShloMosaic Idealize.ShloMosaic.ValueIdx
open Cert.ReferenceIdeal Cert.ReferenceIdeal.Facts₀

noncomputable section

namespace Cert.ReferenceIdeal.RefRead

/-! ### Sums along one axis -/

/-- The sum over the 8192 tokens of a [4, 16, 8192, 64] array at (b, h, d), started from the word of 0. -/
theorem sum_tokens_apply (x : FVec Ideal S4x16x8192x64 .f32) (b : Fin 4) (h : Fin 16) (d : Fin 64) :
    Host.reduceAdd x (RefValue.lit (F := Ideal) 0x00000000#32) reducesTo_S4x16x8192x64_S4x16x64_d2 h_S_ (ix3 b h d)
      = ∑ n : Fin 8192, x (ix4 b h n d) := by
  simp only [Host.reduceAdd, Ideal.hostReduceAdd_def]
  rw [Ideal.hostReduceAdd_single reducesTo_S4x16x8192x64_S4x16x64_d2 (by decide)]
  refine (congrArg (· + _) (Ideal.ofBits_zero_f32)).trans ((zero_add _).trans ?_)
  refine Finset.sum_congr rfl fun k _ => ?_
  exact congrArg x (funext fun a => Fin.ext (by match a with | ⟨0, _⟩ => rfl | ⟨1, _⟩ => rfl | ⟨2, _⟩ => rfl | ⟨3, _⟩ => rfl))

/-- The sum over the 64 lanes of a [4, 16, 8192, 64] array at (b, h, n), started from the word of 0. -/
theorem sum_lanes_apply (x : FVec Ideal S4x16x8192x64 .f32) (b : Fin 4) (h : Fin 16) (n : Fin 8192) :
    Host.reduceAdd x (RefValue.lit (F := Ideal) 0x00000000#32) reducesTo_S4x16x8192x64_S4x16x8192_d3 h_S_ (ix3 b h n)
      = ∑ d : Fin 64, x (ix4 b h n d) := by
  simp only [Host.reduceAdd, Ideal.hostReduceAdd_def]
  rw [Ideal.hostReduceAdd_single reducesTo_S4x16x8192x64_S4x16x8192_d3 (by decide)]
  refine (congrArg (· + _) (Ideal.ofBits_zero_f32)).trans ((zero_add _).trans ?_)
  refine Finset.sum_congr rfl fun k _ => ?_
  exact congrArg x (funext fun a => Fin.ext (by match a with | ⟨0, _⟩ => rfl | ⟨1, _⟩ => rfl | ⟨2, _⟩ => rfl | ⟨3, _⟩ => rfl))

/-- The sum over the 1024 channels of a [4, 8192, 1024] array at (b, n), started from the word of 0. -/
theorem sum_channels_apply (x : FVec Ideal S4x8192x1024 .f32) (b : Fin 4) (n : Fin 8192) :
    Host.reduceAdd x (RefValue.lit (F := Ideal) 0x00000000#32) reducesTo_S4x8192x1024_S4x8192_d2 h_S_ (ix2 b n)
      = ∑ e : Fin 1024, x (ix3 b n e) := by
  simp only [Host.reduceAdd, Ideal.hostReduceAdd_def]
  rw [Ideal.hostReduceAdd_single reducesTo_S4x8192x1024_S4x8192_d2 (by decide)]
  refine (congrArg (· + _) (Ideal.ofBits_zero_f32)).trans ((zero_add _).trans ?_)
  refine Finset.sum_congr rfl fun k _ => ?_
  exact congrArg x (funext fun a => Fin.ext (by match a with | ⟨0, _⟩ => rfl | ⟨1, _⟩ => rfl | ⟨2, _⟩ => rfl))

/-! ### The joint projection read as three thirds of 16 heads of 64 lanes -/

/-- Third t of the re-read and permuted projection at (b, h, n, d) is the projection at
    (b, n, 1024·t + 64·h + d). -/
theorem split_apply (x : FVec Ideal S4x8192x3072 .f32) (t : Fin 3) (b : Fin 4) (h : Fin 16) (n : Fin 8192) (d : Fin 64) :
    RefValue.split x (ix5 t b h n d) = x (ix3 b n ⟨1024 * t.val + 64 * h.val + d.val, by omega⟩) := by
  unfold RefValue.split
  refine (transpose_apply _ _ _ (ix5 t b h n d) (ix5 b n t h d) (fun a => ?_)).trans ?_
  · match a with
    | ⟨0, _⟩ => rfl
    | ⟨1, _⟩ => rfl
    | ⟨2, _⟩ => rfl
    | ⟨3, _⟩ => rfl
    | ⟨4, _⟩ => rfl
  · refine shapeCast_apply x _ (ix5 b n t h d) (ix3 b n ⟨1024 * t.val + 64 * h.val + d.val, by omega⟩) ?_
    rw [Shape.rowMajor_val_three, Shape.rowMajor_val_five]
    show (b.val * 8192 + n.val) * 3072 + (1024 * t.val + 64 * h.val + d.val)
      = (((b.val * 8192 + n.val) * 3 + t.val) * 16 + h.val) * 64 + d.val
    omega

/-- Dropping the unit axis of a [1, 4, 16, 8192, 64] array. -/
theorem dropUnit_apply (z : FVec Ideal S1x4x16x8192x64 .f32) (b : Fin 4) (h : Fin 16) (n : Fin 8192) (d : Fin 64) :
    shapeCast S4x16x8192x64 z shapeCasts_S1x4x16x8192x64_S4x16x8192x64 (ix4 b h n d) = z (ix5 (0 : Fin 1) b h n d) := by
  refine shapeCast_apply z _ (ix4 b h n d) (ix5 (0 : Fin 1) b h n d) ?_
  rw [Shape.rowMajor_val_four, Shape.rowMajor_val_five]
  show (((0 * 4 + b.val) * 16 + h.val) * 8192 + n.val) * 64 + d.val = ((b.val * 16 + h.val) * 8192 + n.val) * 64 + d.val
  omega

/-- The first third at (b, h, n, d) is the array at (0, b, h, n, d). -/
theorem part0_apply (y : FVec Ideal S3x4x16x8192x64 .f32) (b : Fin 4) (h : Fin 16) (n : Fin 8192) (d : Fin 64) :
    RefValue.part0 y (ix4 b h n d) = y (ix5 (0 : Fin 3) b h n d) := by
  unfold RefValue.part0
  refine (dropUnit_apply _ b h n d).trans ?_
  refine extractStridedSlice_apply _ y _ (ix5 (0 : Fin 1) b h n d) (ix5 (0 : Fin 3) b h n d) (fun a => ?_)
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The second third at (b, h, n, d) is the array at (1, b, h, n, d). -/
theorem part1_apply (y : FVec Ideal S3x4x16x8192x64 .f32) (b : Fin 4) (h : Fin 16) (n : Fin 8192) (d : Fin 64) :
    RefValue.part1 y (ix4 b h n d) = y (ix5 (1 : Fin 3) b h n d) := by
  unfold RefValue.part1
  refine (dropUnit_apply _ b h n d).trans ?_
  refine extractStridedSlice_apply _ y _ (ix5 (0 : Fin 1) b h n d) (ix5 (1 : Fin 3) b h n d) (fun a => ?_)
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The last third at (b, h, n, d) is the array at (2, b, h, n, d). -/
theorem part2_apply (y : FVec Ideal S3x4x16x8192x64 .f32) (b : Fin 4) (h : Fin 16) (n : Fin 8192) (d : Fin 64) :
    RefValue.part2 y (ix4 b h n d) = y (ix5 (2 : Fin 3) b h n d) := by
  unfold RefValue.part2
  refine (dropUnit_apply _ b h n d).trans ?_
  refine extractStridedSlice_apply _ y _ (ix5 (0 : Fin 1) b h n d) (ix5 (2 : Fin 3) b h n d) (fun a => ?_)
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-! ### The [4, 16, 8192, 64] array re-read as [4, 8192, 1024] in row-major order -/

/-- Entry (b, n, j) of the re-read array is entry number 1024·n + j of batch b's [16, 8192, 64] block. -/
theorem flat_apply (a : FVec Ideal S4x16x8192x64 .f32) (b : Fin 4) (n : Fin 8192) (j : Fin 1024) :
    shapeCast S4x8192x1024 a shapeCasts_S4x16x8192x64_S4x8192x1024 (ix3 b n j)
      = a (ix4 b (⟨(1024 * n.val + j.val) / 524288, by omega⟩ : Fin 16) (⟨(1024 * n.val + j.val) / 64 % 8192, by omega⟩ : Fin 8192)
          (⟨(1024 * n.val + j.val) % 64, by omega⟩ : Fin 64)) := by
  refine shapeCast_apply a _ (ix3 b n j) _ ?_
  rw [Shape.rowMajor_val_four, Shape.rowMajor_val_three]
  show ((b.val * 16 + (1024 * n.val + j.val) / 524288) * 8192 + (1024 * n.val + j.val) / 64 % 8192) * 64 + (1024 * n.val + j.val) % 64
    = (b.val * 8192 + n.val) * 1024 + j.val
  omega

/-! ### Broadcasts -/

/-- A [3072] vector broadcast along batches and tokens reads its entry e at (b, n, e). -/
theorem bcast_bias3072_apply (v : FVec Ideal S3072 .f32) (b : Fin 4) (n : Fin 8192) (e : Fin 3072) :
    broadcastInDim S4x8192x3072 ![0, 1, 2] bcast_S1x1x3072_S4x8192x3072_0_1_2
      (broadcastInDim S1x1x3072 ![2] bcast_S3072_S1x1x3072_2 v) (ix3 b n e) = v (ix1 e) := by
  refine (broadcastInDim_apply _ _ _ (ix3 b n e) (ix3 (0 : Fin 1) (0 : Fin 1) e) (fun a => ?_)).trans ?_
  · match a with
    | ⟨0, _⟩ => rfl
    | ⟨1, _⟩ => rfl
    | ⟨2, _⟩ => rfl
  · refine broadcastInDim_apply _ _ v _ (ix1 e) (fun a => ?_)
    match a with
    | ⟨0, _⟩ => rfl

/-- A [1024] vector broadcast along batches and tokens reads its entry e at (b, n, e). -/
theorem bcast_bias1024_apply (v : FVec Ideal S1024 .f32) (b : Fin 4) (n : Fin 8192) (e : Fin 1024) :
    broadcastInDim S4x8192x1024 ![0, 1, 2] bcast_S1x1x1024_S4x8192x1024_0_1_2
      (broadcastInDim S1x1x1024 ![2] bcast_S1024_S1x1x1024_2 v) (ix3 b n e) = v (ix1 e) := by
  refine (broadcastInDim_apply _ _ _ (ix3 b n e) (ix3 (0 : Fin 1) (0 : Fin 1) e) (fun a => ?_)).trans ?_
  · match a with
    | ⟨0, _⟩ => rfl
    | ⟨1, _⟩ => rfl
    | ⟨2, _⟩ => rfl
  · refine broadcastInDim_apply _ _ v _ (ix1 e) (fun a => ?_)
    match a with
    | ⟨0, _⟩ => rfl

/-- A [4, 16, 64] array broadcast along tokens reads its entry (b, h, d) at (b, h, n, d). -/
theorem bcast_tokens_apply (v : FVec Ideal S4x16x64 .f32) (b : Fin 4) (h : Fin 16) (n : Fin 8192) (d : Fin 64) :
    broadcastInDim S4x16x8192x64 ![0, 1, 2, 3] bcast_S4x16x1x64_S4x16x8192x64_0_1_2_3
      (broadcastInDim S4x16x1x64 ![0, 1, 3] bcast_S4x16x64_S4x16x1x64_0_1_3 v) (ix4 b h n d) = v (ix3 b h d) := by
  refine (broadcastInDim_apply _ _ _ (ix4 b h n d) (ix4 b h (0 : Fin 1) d) (fun a => ?_)).trans ?_
  · match a with
    | ⟨0, _⟩ => rfl
    | ⟨1, _⟩ => rfl
    | ⟨2, _⟩ => rfl
    | ⟨3, _⟩ => rfl
  · refine broadcastInDim_apply _ _ v _ (ix3 b h d) (fun a => ?_)
    match a with
    | ⟨0, _⟩ => rfl
    | ⟨1, _⟩ => rfl
    | ⟨2, _⟩ => rfl

/-- A [4, 16, 8192] array given a trailing unit axis reads its entry (b, h, n) at (b, h, n, 0). -/
theorem keep_lane_apply (v : FVec Ideal S4x16x8192 .f32) (b : Fin 4) (h : Fin 16) (n : Fin 8192) :
    broadcastInDim S4x16x8192x1 ![0, 1, 2] bcast_S4x16x8192_S4x16x8192x1_0_1_2 v (ix4 b h n (0 : Fin 1)) = v (ix3 b h n) := by
  refine broadcastInDim_apply _ _ v _ (ix3 b h n) (fun a => ?_)
  match a with
  | ⟨0, _⟩ => rfl
  | ⟨1, _⟩ => rfl
  | ⟨2, _⟩ => rfl

/-- A [4, 16, 8192, 1] column broadcast along lanes reads its entry (b, h, n, 0) at (b, h, n, v). -/
theorem bcast_lanes_apply (c : FVec Ideal S4x16x8192x1 .f32) (b : Fin 4) (h : Fin 16) (n : Fin 8192) (v : Fin 64) :
    broadcastInDim S4x16x8192x64 ![0, 1, 2, 3] bcast_S4x16x8192x1_S4x16x8192x64_0_1_2_3 c (ix4 b h n v)
      = c (ix4 b h n (0 : Fin 1)) := by
  refine broadcastInDim_apply _ _ c _ (ix4 b h n (0 : Fin 1)) (fun a => ?_)
  match a with
  | ⟨0, _⟩ => rfl
  | ⟨1, _⟩ => rfl
  | ⟨2, _⟩ => rfl
  | ⟨3, _⟩ => rfl

/-- A [4, 8192] array given a trailing unit axis reads its entry (b, n) at (b, n, 0). -/
theorem keep_channel_apply (v : FVec Ideal S4x8192 .f32) (b : Fin 4) (n : Fin 8192) :
    broadcastInDim S4x8192x1 ![0, 1] bcast_S4x8192_S4x8192x1_0_1 v (ix3 b n (0 : Fin 1)) = v (ix2 b n) := by
  refine broadcastInDim_apply _ _ v _ (ix2 b n) (fun a => ?_)
  match a with
  | ⟨0, _⟩ => rfl
  | ⟨1, _⟩ => rfl

/-- A [4, 8192, 1] column broadcast along channels reads its entry (b, n, 0) at (b, n, e). -/
theorem bcast_channels_apply (c : FVec Ideal S4x8192x1 .f32) (b : Fin 4) (n : Fin 8192) (e : Fin 1024) :
    broadcastInDim S4x8192x1024 ![0, 1, 2] bcast_S4x8192x1_S4x8192x1024_0_1_2 c (ix3 b n e) = c (ix3 b n (0 : Fin 1)) := by
  refine broadcastInDim_apply _ _ c _ (ix3 b n (0 : Fin 1)) (fun a => ?_)
  match a with
  | ⟨0, _⟩ => rfl
  | ⟨1, _⟩ => rfl
  | ⟨2, _⟩ => rfl

end Cert.ReferenceIdeal.RefRead
-- ==== Proof.RefReadStats.lean ====
/-
  The first half of the reference read at one entry: the joint projection, its three thirds, the
  feature map on queries and keys, and the key–value statistics.

  The joint projection at (b, n, e) is Σₖ H[b,n,k] · W[e,k] + bias[e]. Read as [3, 4, 16, 8192, 64],
  third t at (b, h, n, d) is the projection at channel 1024·t + 64·h + d: the query projection uses
  rows 0 … 1023 of W, the key projection rows 1024 … 2047, the value projection rows 2048 … 3071,
  each at column 64·h + d of its own third. So the three thirds are the specification's query, key
  and value projections with Wq[k, j] = W[j, k] and Wkv[k, j] = W[1024 + j, k], and the statistics
  KV = Σ_tokens k ⊗ v and K1 = Σ_tokens k are sums over the 8192 tokens.
-/
import proofs.«106879_j33681133535316_1_alg».proof.Proof.RefReadOps
import proofs.«106879_j33681133535316_1_alg».proof.Proof.RefReadDots
import proofs.«106879_j33681133535316_1_alg».proof.Proof.RefReadLayout

open scoped BigOperators
open Idealize.ShloMosaic Idealize.ShloMosaic.ValueIdx
open Cert.ReferenceIdeal Cert.ReferenceIdeal.Facts₀

noncomputable section

namespace Cert.ReferenceIdeal.RefRead

section
variable (H : FVec Ideal S4x8192x1024 .f32) (W : FVec Ideal S3072x1024 .f32) (bq : FVec Ideal S3072 .f32)

/-- The joint projection at (b, n, e): Σₖ H[b, n, k] · W[e, k] + bias[e]. -/
theorem lin3_apply (b : Fin 4) (n : Fin 8192) (e : Fin 3072) :
    RefValue.lin3 (F := Ideal) H W bq (ix3 b n e) = (∑ k : Fin 1024, H (ix3 b n k) * W (ix2 e k)) + bq (ix1 e) := by
  unfold RefValue.lin3
  rw [addf_apply, dot_lin3_apply, bcast_bias3072_apply]

/-- Third t of the joint projection at (b, h, n, d) is the projection onto row c of W plus entry c'
    of the bias, for any spelling c, c' of the channel 1024·t + 64·h + d. -/
theorem third_apply (t : Fin 3) (b : Fin 4) (h : Fin 16) (n : Fin 8192) (d : Fin 64) (c c' : Fin 3072)
    (hc : c.val = 1024 * t.val + 64 * h.val + d.val) (hc' : c'.val = 1024 * t.val + 64 * h.val + d.val) :
    RefValue.split (RefValue.lin3 (F := Ideal) H W bq) (ix5 t b h n d)
      = (∑ k : Fin 1024, H (ix3 b n k) * W (ix2 c k)) + bq (ix1 c') := by
  obtain ⟨cv, hcv⟩ := c
  obtain ⟨cv', hcv'⟩ := c'
  change cv = _ at hc
  change cv' = _ at hc'
  subst hc hc'
  rw [split_apply, lin3_apply]

/-- The query features at (b, h, n, d): φ of the query projection at column 64·h + d. -/
theorem q_apply (b : Fin 4) (h : Fin 16) (n : Fin 8192) (d : Fin 64) :
    RefValue.feat (RefValue.part0 (RefValue.split (RefValue.lin3 (F := Ideal) H W bq))) (ix4 b h n d)
      = LinAttn.qfeat (fun b n k => H (ix3 b n k)) (LinAttn.wq fun e k => W (ix2 e k)) (LinAttn.bqOf fun e => bq (ix1 e))
          b n (LinAttn.col h d) := by
  rw [feat_apply, part0_apply]
  exact congrArg LinAttn.phi (third_apply H W bq 0 b h n d ⟨(LinAttn.col h d).val, by omega⟩ ⟨(LinAttn.col h d).val, by omega⟩
    (by show 64 * h.val + d.val = 1024 * 0 + 64 * h.val + d.val; omega)
    (by show 64 * h.val + d.val = 1024 * 0 + 64 * h.val + d.val; omega))

/-- The key features at (b, h, n, d): φ of the key projection at column 64·h + d. -/
theorem k_apply (b : Fin 4) (h : Fin 16) (n : Fin 8192) (d : Fin 64) :
    RefValue.feat (RefValue.part1 (RefValue.split (RefValue.lin3 (F := Ideal) H W bq))) (ix4 b h n d)
      = LinAttn.phi (LinAttn.kproj (fun b n k => H (ix3 b n k)) (LinAttn.wkv fun e k => W (ix2 e k))
          (LinAttn.bkOf fun e => bq (ix1 e)) b n (LinAttn.col h d)) := by
  rw [feat_apply, part1_apply]
  exact congrArg LinAttn.phi (third_apply H W bq 1 b h n d ⟨1024 + (LinAttn.col h d).val, by omega⟩ ⟨1024 + (LinAttn.col h d).val, by omega⟩
    (by show 1024 + (64 * h.val + d.val) = 1024 * 1 + 64 * h.val + d.val; omega)
    (by show 1024 + (64 * h.val + d.val) = 1024 * 1 + 64 * h.val + d.val; omega))

/-- The values at (b, h, n, d): the value projection at column 64·h + d. -/
theorem v_apply (b : Fin 4) (h : Fin 16) (n : Fin 8192) (d : Fin 64) :
    RefValue.part2 (RefValue.split (RefValue.lin3 (F := Ideal) H W bq)) (ix4 b h n d)
      = LinAttn.vproj (fun b n k => H (ix3 b n k)) (LinAttn.wkv fun e k => W (ix2 e k))
          (LinAttn.bvOf fun e => bq (ix1 e)) b n (LinAttn.col h d) := by
  rw [part2_apply]
  exact third_apply H W bq 2 b h n d ⟨1024 + (1024 + (LinAttn.col h d).val), by omega⟩ ⟨2048 + (LinAttn.col h d).val, by omega⟩
    (by show 1024 + (1024 + (64 * h.val + d.val)) = 1024 * 2 + 64 * h.val + d.val; omega)
    (by show 2048 + (64 * h.val + d.val) = 1024 * 2 + 64 * h.val + d.val; omega)

end

/-- KV at (b, h, d, v): Σₙ k[b, h, n, d] · v[b, h, n, v] over the 8192 tokens. -/
theorem kvOf_apply (k v : FVec Ideal S4x16x8192x64 .f32) (b : Fin 4) (h : Fin 16) (d v' : Fin 64) :
    RefValue.kvOf (F := Ideal) k v (ix4 b h d v') = ∑ n : Fin 8192, k (ix4 b h n d) * v (ix4 b h n v') := by
  unfold RefValue.kvOf
  exact dot_kv_apply k v b h d v'

/-- K1 at (b, h, d): Σₙ k[b, h, n, d] over the 8192 tokens. -/
theorem k1Of_apply (k : FVec Ideal S4x16x8192x64 .f32) (b : Fin 4) (h : Fin 16) (d : Fin 64) :
    RefValue.k1Of (F := Ideal) k (ix3 b h d) = ∑ n : Fin 8192, k (ix4 b h n d) := by
  unfold RefValue.k1Of
  exact sum_tokens_apply k b h d

end Cert.ReferenceIdeal.RefRead
-- ==== Proof.RefReadAttend.lean ====
/-
  The attention quotient of the reference read at one entry.

  At (b, h, n, v) the numerator is Σ_d q[b,h,n,d] · KV[b,h,d,v]. The denominator broadcasts K1 along
  the tokens, multiplies by q, sums over the 64 lanes, keeps the result as a [4, 16, 8192, 1] column,
  takes the larger of it and the word of 10⁻⁶, and broadcasts that column along the lanes: at
  (b, h, n, v) it is max(tiny, Σ_d q[b,h,n,d] · K1[b,h,d]).
-/
import proofs.«106879_j33681133535316_1_alg».proof.Proof.RefReadOps
import proofs.«106879_j33681133535316_1_alg».proof.Proof.RefReadDots
import proofs.«106879_j33681133535316_1_alg».proof.Proof.RefReadLayout

open scoped BigOperators
open Idealize.ShloMosaic Idealize.ShloMosaic.ValueIdx
open Cert.ReferenceIdeal Cert.ReferenceIdeal.Facts₀

noncomputable section

namespace Cert.ReferenceIdeal.RefRead

set_option maxHeartbeats 400000 in
/-- The attention quotient at (b, h, n, v): (Σ_d q[b,h,n,d] · kv[b,h,d,v]) over the larger of the word of
    10⁻⁶ and Σ_d q[b,h,n,d] · k1[b,h,d]. -/
theorem attOf_apply (q : FVec Ideal S4x16x8192x64 .f32) (kv : FVec Ideal S4x16x64x64 .f32) (k1 : FVec Ideal S4x16x64 .f32)
    (b : Fin 4) (h : Fin 16) (n : Fin 8192) (v : Fin 64) :
    RefValue.attOf (F := Ideal) q kv k1 (ix4 b h n v)
      = Ideal.div (∑ d : Fin 64, q (ix4 b h n d) * kv (ix4 b h d v))
          (max LinAttn.wTiny (∑ d : Fin 64, q (ix4 b h n d) * k1 (ix3 b h d))) := by
  unfold RefValue.attOf
  dsimp only
  rw [hostDivf_apply, dot_att_apply, bcast_lanes_apply, maximumf_apply, bcast_scalar_apply, keep_lane_apply, sum_lanes_apply]
  simp only [id, lit_apply]
  refine congrArg (Ideal.div _) (congrArg (max _) (Finset.sum_congr rfl fun d _ => ?_))
  rw [mulf_apply, bcast_tokens_apply]

/-- With the query features, KV and K1 read as functions of their coordinates, the attention quotient is
    the specification's. -/
theorem attOf_eq_att {B N : ℕ} (X : Fin B → Fin N → Fin 1024 → EReal) (Wq : Fin 1024 → Fin 1024 → EReal) (bq : Fin 1024 → EReal)
    (KV : Fin B → Fin 16 → Fin 64 → Fin 64 → EReal) (K1 : Fin B → Fin 16 → Fin 64 → EReal)
    (q : FVec Ideal S4x16x8192x64 .f32) (kv : FVec Ideal S4x16x64x64 .f32) (k1 : FVec Ideal S4x16x64 .f32)
    (b : Fin 4) (h : Fin 16) (n : Fin 8192) (v : Fin 64) (b' : Fin B) (n' : Fin N)
    (hq : ∀ d, q (ix4 b h n d) = LinAttn.qfeat X Wq bq b' n' (LinAttn.col h d))
    (hkv : ∀ d, kv (ix4 b h d v) = KV b' h d v) (hk1 : ∀ d, k1 (ix3 b h d) = K1 b' h d) :
    RefValue.attOf (F := Ideal) q kv k1 (ix4 b h n v) = LinAttn.att X Wq bq KV K1 b' h n' v := by
  rw [attOf_apply]
  unfold LinAttn.att
  simp only [hq, hkv, hk1]

end Cert.ReferenceIdeal.RefRead
-- ==== Proof.RefReadTail.lean ====
/-
  The second half of the reference read at one entry: the output projection of the re-read
  attention output, the row mean and variance, and the normalised, scaled and shifted row plus the
  residual.

  The variance divides by (word of 1024) − (the integer 0 as a float); the integer 0 converts to the
  real 0 and x − 0 = x, so the divisor is the word of 1024. The reference keeps the quotient where
  that divisor is above 0 — it is: 1024 > 0 — and would put a not-a-number word elsewhere, which is
  therefore never selected.
-/
import proofs.«106879_j33681133535316_1_alg».proof.Proof.RefReadOps
import proofs.«106879_j33681133535316_1_alg».proof.Proof.RefReadDots
import proofs.«106879_j33681133535316_1_alg».proof.Proof.RefReadLayout

open scoped BigOperators
open Idealize.ShloMosaic Idealize.ShloMosaic.ValueIdx
open Cert.ReferenceIdeal Cert.ReferenceIdeal.Facts₀

noncomputable section

namespace Cert.ReferenceIdeal.RefRead

/-- The output projection at (b, n, e): Σⱼ (re-read attention output)[b, n, j] · Wp[e, j] + bp[e]. -/
theorem projOf_apply (a : FVec Ideal S4x16x8192x64 .f32) (Wp : FVec Ideal S1024x1024 .f32) (bp : FVec Ideal S1024 .f32)
    (b : Fin 4) (n : Fin 8192) (e : Fin 1024) :
    RefValue.projOf (F := Ideal) a Wp bp (ix3 b n e)
      = LinAttn.proj (LinAttn.flat fun b h n d => a (ix4 b h n d)) (LinAttn.wpt fun e j => Wp (ix2 e j)) (fun e => bp (ix1 e)) b n e := by
  unfold RefValue.projOf
  rw [addf_apply, dot_proj_apply, bcast_bias1024_apply]
  unfold LinAttn.proj
  refine congrArg (· + _) (Finset.sum_congr rfl fun j _ => ?_)
  rw [flat_apply]
  rfl

/-- The row mean at (b, n): the row's sum over the word of 1024. -/
theorem meanOf_apply (x : FVec Ideal S4x8192x1024 .f32) (b : Fin 4) (n : Fin 8192) :
    RefValue.meanOf (F := Ideal) x (ix3 b n (0 : Fin 1)) = Ideal.div (∑ e : Fin 1024, x (ix3 b n e)) LinAttn.wN := by
  unfold RefValue.meanOf
  rw [hostDivf_apply, keep_channel_apply, sum_channels_apply, bcast_scalar_apply, lit_apply]

/-- The divisor 1024 − 0 of the variance is the word of 1024: the integer 0 converts to the real 0. -/
theorem divisor_eq :
    subf (RefValue.lit (F := Ideal) 0x44800000#32) (sitofp .f32 (constantI S_ 32 0#32)) ix0 = LinAttn.wN := by
  show Ideal.ofBits .f32 0x44800000#32 - ((((0#32 : BitVec 32).toInt : ℝ)) : EReal) = Ideal.ofBits .f32 0x44800000#32
  have h0 : (0#32 : BitVec 32).toInt = 0 := by decide
  rw [h0, Int.cast_zero, EReal.coe_zero, sub_zero]

/-- The guard of the variance holds: the word of 1024 is above the word of 0. -/
theorem guard_eq : Ideal.cmp .ogt LinAttn.wN (Ideal.ofBits .f32 0x00000000#32) = 1#1 := by
  have h : (0 : EReal) < ((1024 : ℝ) : EReal) := EReal.coe_pos.mpr (by norm_num)
  show Ideal.cmp .ogt (Ideal.ofBits .f32 0x44800000#32) (Ideal.ofBits .f32 0x00000000#32) = 1#1
  rw [word_1024, Ideal.ofBits_zero_f32]
  simp [Ideal.cmp, h]

set_option maxHeartbeats 400000 in
/-- The variance at (b, n): the sum of the squared deviations from the row mean over the word of 1024. -/
theorem varOf_apply (x : FVec Ideal S4x8192x1024 .f32) (b : Fin 4) (n : Fin 8192) :
    RefValue.varOf (F := Ideal) x (ix3 b n (0 : Fin 1))
      = Ideal.div (∑ e : Fin 1024, (x (ix3 b n e) - Ideal.div (∑ e : Fin 1024, x (ix3 b n e)) LinAttn.wN)
          * (x (ix3 b n e) - Ideal.div (∑ e : Fin 1024, x (ix3 b n e)) LinAttn.wN)) LinAttn.wN := by
  unfold RefValue.varOf
  dsimp only
  rw [select_apply, bcast_scalar_apply, cmpf_apply, divisor_eq, lit_apply, Ideal.cmpf_def, guard_eq, select_one,
    hostDivf_apply, bcast_scalar_apply, divisor_eq, keep_channel_apply, sum_channels_apply]
  refine congrArg (Ideal.div · _) (Finset.sum_congr rfl fun e _ => ?_)
  rw [mulf_apply, subf_apply, bcast_channels_apply, meanOf_apply]

set_option maxHeartbeats 400000 in
/-- The normalised, scaled and shifted row plus the residual at (b, n, e). -/
theorem normOf_apply (x : FVec Ideal S4x8192x1024 .f32) (g bt : FVec Ideal S1024 .f32) (R : FVec Ideal S4x8192x1024 .f32)
    (b : Fin 4) (n : Fin 8192) (e : Fin 1024) :
    RefValue.normOf (F := Ideal) x g bt R (ix3 b n e)
      = (((x (ix3 b n e) - Ideal.div (∑ e : Fin 1024, x (ix3 b n e)) LinAttn.wN)
            * Ideal.rsqrt (Ideal.div (∑ e : Fin 1024, (x (ix3 b n e) - Ideal.div (∑ e : Fin 1024, x (ix3 b n e)) LinAttn.wN)
                * (x (ix3 b n e) - Ideal.div (∑ e : Fin 1024, x (ix3 b n e)) LinAttn.wN)) LinAttn.wN + LinAttn.wEps))
          * g (ix1 e) + bt (ix1 e)) + R (ix3 b n e) := by
  unfold RefValue.normOf
  dsimp only
  rw [addf_apply, addf_apply, mulf_apply, mulf_apply, subf_apply, bcast_channels_apply, bcast_channels_apply, meanOf_apply,
    hostRsqrt_apply, addf_apply, varOf_apply, bcast_scalar_apply, lit_apply, bcast_bias1024_apply, bcast_bias1024_apply]

/-- With the projected rows read as the specification's projection, the normalised output is the specification's. -/
theorem normOf_eq_lnOut {B N : ℕ} (Y : Fin B → Fin N → Fin 1024 → EReal) (Wpt : Fin 1024 → Fin 1024 → EReal)
    (bp' g' bt' : Fin 1024 → EReal) (R' : Fin B → Fin N → Fin 1024 → EReal)
    (x : FVec Ideal S4x8192x1024 .f32) (g bt : FVec Ideal S1024 .f32) (R : FVec Ideal S4x8192x1024 .f32)
    (b : Fin 4) (n : Fin 8192) (e : Fin 1024) (b' : Fin B) (n' : Fin N)
    (hx : ∀ e, x (ix3 b n e) = LinAttn.proj Y Wpt bp' b' n' e) (hg : g (ix1 e) = g' e) (hbt : bt (ix1 e) = bt' e)
    (hR : R (ix3 b n e) = R' b' n' e) :
    RefValue.normOf (F := Ideal) x g bt R (ix3 b n e) = LinAttn.lnOut Y Wpt bp' g' bt' R' b' n' e := by
  rw [normOf_apply]
  unfold LinAttn.lnOut LinAttn.vari LinAttn.dev LinAttn.mean
  simp only [hx, hg, hbt, hR]

end Cert.ReferenceIdeal.RefRead
-- ==== Proof.RefRead.lean ====
/-
  The reference's composed term is the specification's function of the seven argument arrays, entry
  by entry, on the extended reals.

  The reference computes, in order: the joint projection of the input by W with its bias; its three
  thirds (queries, keys, values) per head and lane; the feature map on queries and keys; the sums
  over tokens KV = Σ k ⊗ v and K1 = Σ k; the quotient (q·KV) / max(tiny, q·K1); the row-major re-reading
  of that [4, 16, 8192, 64] array as [4, 8192, 1024]; the output projection; and the row normalisation
  with scale, shift and residual. Each stage read at one entry is the corresponding stage of the
  specification, so the composition is the specification's `full`.
-/
import proofs.«106879_j33681133535316_1_alg».proof.Proof.RefReadStats
import proofs.«106879_j33681133535316_1_alg».proof.Proof.RefReadAttend
import proofs.«106879_j33681133535316_1_alg».proof.Proof.RefReadTail

open scoped BigOperators
open Idealize.ShloMosaic Idealize.ShloMosaic.ValueIdx
open Cert.ReferenceIdeal Cert.ReferenceIdeal.Facts₀

noncomputable section

namespace Cert.ReferenceIdeal.RefRead

/-- The attention output of the reference at (b, h, n, v) is the specification's: the query, key and
    value thirds of the joint projection are the specification's projections (Wq[k, j] = W[j, k],
    Wkv[k, j] = W[1024 + j, k], the three thirds of the bias), the token sums are its KV and K1, and the
    quotient is its attention quotient. -/
theorem att_at (H : FVec Ideal S4x8192x1024 .f32) (W : FVec Ideal S3072x1024 .f32) (bqkv : FVec Ideal S3072 .f32)
    (b : Fin 4) (h : Fin 16) (n : Fin 8192) (v : Fin 64) :
    RefValue.attOf (F := Ideal)
        (RefValue.feat (RefValue.part0 (RefValue.split (RefValue.lin3 H W bqkv))))
        (RefValue.kvOf (RefValue.feat (RefValue.part1 (RefValue.split (RefValue.lin3 H W bqkv))))
          (RefValue.part2 (RefValue.split (RefValue.lin3 H W bqkv))))
        (RefValue.k1Of (RefValue.feat (RefValue.part1 (RefValue.split (RefValue.lin3 H W bqkv))))) (ix4 b h n v)
      = LinAttn.att (fun b n k => H (ix3 b n k)) (LinAttn.wq fun e k => W (ix2 e k)) (LinAttn.bqOf fun e => bqkv (ix1 e))
          (LinAttn.kvSum (fun b n k => H (ix3 b n k)) (LinAttn.wkv fun e k => W (ix2 e k)) (LinAttn.bkOf fun e => bqkv (ix1 e))
            (LinAttn.bvOf fun e => bqkv (ix1 e)))
          (LinAttn.k1Sum (fun b n k => H (ix3 b n k)) (LinAttn.wkv fun e k => W (ix2 e k)) (LinAttn.bkOf fun e => bqkv (ix1 e)))
          b h n v := by
  refine attOf_eq_att _ _ _ _ _ _ _ _ b h n v b n (fun d => q_apply H W bqkv b h n d) (fun d => ?_) (fun d => ?_)
  · rw [kvOf_apply]
    unfold LinAttn.kvSum
    exact Finset.sum_congr rfl fun n' _ => by rw [k_apply, v_apply]
  · rw [k1Of_apply]
    unfold LinAttn.k1Sum
    exact Finset.sum_congr rfl fun n' _ => k_apply H W bqkv b h n' d

/-- The projected, normalised, scaled and shifted row plus the residual, at (b, n, e), is the
    specification's last stage applied to the re-read attention output. -/
theorem normProj_at (a : FVec Ideal S4x16x8192x64 .f32) (Wp : FVec Ideal S1024x1024 .f32) (bp g bt : FVec Ideal S1024 .f32)
    (R : FVec Ideal S4x8192x1024 .f32) (b : Fin 4) (n : Fin 8192) (e : Fin 1024) :
    RefValue.normOf (F := Ideal) (RefValue.projOf a Wp bp) g bt R (ix3 b n e)
      = LinAttn.lnOut (LinAttn.flat (fun b h n v => a (ix4 b h n v))) (LinAttn.wpt (fun e j => Wp (ix2 e j)))
          (fun e => bp (ix1 e)) (fun e => g (ix1 e)) (fun e => bt (ix1 e)) (fun b n e => R (ix3 b n e)) b n e :=
  normOf_eq_lnOut _ _ _ _ _ _ _ g bt R b n e b n (fun e' => projOf_apply a Wp bp b n e') rfl rfl rfl

/-- The reference's composed term at (b, n, e) is the specification's function of the seven argument
    arrays: the last stage applied to the attention output, which is the specification's entry by
    entry. -/
theorem refTerm_at (H : FVec Ideal S4x8192x1024 .f32) (W : FVec Ideal S3072x1024 .f32) (bqkv : FVec Ideal S3072 .f32)
    (Wp : FVec Ideal S1024x1024 .f32) (bp g bt : FVec Ideal S1024 .f32) (b : Fin 4) (n : Fin 8192) (e : Fin 1024) :
    RefValue.refTerm (F := Ideal) H W bqkv Wp bp g bt (ix3 b n e)
      = LinAttn.full (fun b n k => H (ix3 b n k)) (fun e k => W (ix2 e k)) (fun e => bqkv (ix1 e)) (fun e j => Wp (ix2 e j))
          (fun e => bp (ix1 e)) (fun e => g (ix1 e)) (fun e => bt (ix1 e)) b n e := by
  unfold RefValue.refTerm LinAttn.full
  refine (normProj_at _ Wp bp g bt H b n e).trans ?_
  refine congrArg (fun A => LinAttn.lnOut (LinAttn.flat A) _ _ _ _ _ b n e) ?_
  funext b' h' n' v'
  exact att_at H W bqkv b' h' n' v'

end Cert.ReferenceIdeal.RefRead
-- ==== Proof.lean ====
/-
  Linear attention with a layer norm: the kernel program (three kernels among thin host operations) and the
  plain reference compute the same function of their seven arguments on the extended reals.

  The function (Proof/Spec.lean): per batch and head, KV = Σ_tokens φ(k) ⊗ v and K1 = Σ_tokens φ(k) with
  φ x = x + 1 for x > 0 and eˣ otherwise; the attention output (φ(q)·KV) / max(tiny, φ(q)·K1); its
  [4, 16, 8192, 64] array re-read as [4, 8192, 1024] in row-major order; the output projection; the
  normalisation of each row (mean, mean squared deviation, reciprocal square root with ε), γ, β, and the
  residual.

  The kernel program: the first kernel accumulates KV and K1 over 16 tiles of 512 tokens per batch — a
  regrouping of commutative sums; the second forms the quotient tile by tile, head by head; the third
  projects and normalises tile by tile.  Each kernel's output array is read off its run as a function of
  the arrays it finds (Proof/K0*.lean, K1*.lean, K2*.lean), the host operations between them are read
  entry by entry (Proof/KHost.lean, KEntry.lean, KBound.lean), and the three stages compose
  (Proof/KValue.lean, KWhole.lean).  The reference: its run ends at its operations' composed term
  (Proof/RefRun*.lean over Proof/RefTerm.lean), and that term is the same function entry by entry
  (Proof/RefRead*.lean); its feature map is spelled elu(x) + 1, which is φ because (y − 1) + 1 = y for
  every extended real y.  No law used needs the inputs finite: the precondition is never opened.
-/
import proofs.«106879_j33681133535316_1_alg».proof.Defs
import proofs.«106879_j33681133535316_1_alg».proof.Proof.Gen.Kernel
import proofs.«106879_j33681133535316_1_alg».proof.Proof.Gen.Kernel.Frame
import proofs.«106879_j33681133535316_1_alg».proof.Proof.Gen.KernelIdeal
import proofs.«106879_j33681133535316_1_alg».proof.Proof.Gen.KernelIdeal.Frame
import proofs.«106879_j33681133535316_1_alg».proof.Proof.Gen.ReferenceIdeal
import proofs.«106879_j33681133535316_1_alg».proof.Proof.Gen.Pre_finite_inputs
import proofs.«106879_j33681133535316_1_alg».proof.Proof.Claims
import proofs.«106879_j33681133535316_1_alg».proof.Proof.KWhole
import proofs.«106879_j33681133535316_1_alg».proof.Proof.K0Body
import proofs.«106879_j33681133535316_1_alg».proof.Proof.K0AccArr
import proofs.«106879_j33681133535316_1_alg».proof.Proof.K1Body
import proofs.«106879_j33681133535316_1_alg».proof.Proof.K1Arr
import proofs.«106879_j33681133535316_1_alg».proof.Proof.K2Arr
import proofs.«106879_j33681133535316_1_alg».proof.Proof.RefRun
import proofs.«106879_j33681133535316_1_alg».proof.Proof.RefRead
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Both idealized programs end with the same result array. -/
theorem algebraic : Cert.algebraic_KernelIdeal_ReferenceIdeal :=
  Cert.Proof.Parts.algebraic_of
    (fun m' ρ' => Cert.ReferenceIdeal.RefValue.run (F := Ideal) m' ρ')
    (fun H W bqkv Wp bp g bt b n e => Cert.ReferenceIdeal.RefRead.refTerm_at H W bqkv Wp bp g bt b n e)
    (fun m ρ c b n e => Cert.KernelIdeal.Entry.out_of_regions
      (fun V c b h d v => Cert.KernelIdeal.StatsAcc.kv_at V c Cert.KernelIdeal.Stats.outA4_at Cert.KernelIdeal.Stats.outA5_at
        Cert.KernelIdeal.Stats.outB4_at Cert.KernelIdeal.Stats.outB5_at b h d v)
      (fun V c b h d => Cert.KernelIdeal.StatsAcc.k1_at V c Cert.KernelIdeal.Stats.outA4_at Cert.KernelIdeal.Stats.outA5_at
        Cert.KernelIdeal.Stats.outB4_at Cert.KernelIdeal.Stats.outB5_at b h d)
      (fun V c b h n v => Cert.KernelIdeal.Arr.att_arr V c Cert.KernelIdeal.Attend.out1_5_at b h n v)
      (fun V c b n e => Cert.KernelIdeal.Arr.ln_arr V c b n e)
      m ρ c b n e)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
